-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8192x256 .f32) (main_arg1 : FVec F S256x256 .f32) (main_arg2 : FVec F S256x256 .f32) (main_arg3 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8192x256 : Shape := ⟨2, ![8192, 256]⟩
abbrev S256x256 : Shape := ⟨2, ![256, 256]⟩
abbrev S15 : Shape := ⟨1, ![15]⟩
abbrev S8192 : Shape := ⟨1, ![8192]⟩
abbrev S8192x1 : Shape := ⟨2, ![8192, 1]⟩
abbrev S1x15 : Shape := ⟨2, ![1, 15]⟩
abbrev S8192x15 : Shape := ⟨2, ![8192, 15]⟩
abbrev S_ : Shape := ⟨0, ![]⟩
abbrev S1x8192 : Shape := ⟨2, ![1, 8192]⟩
abbrev S2x8192 : Shape := ⟨2, ![2, 8192]⟩
abbrev S2x256 : Shape := ⟨2, ![2, 256]⟩
abbrev S2048x256 : Shape := ⟨2, ![2048, 256]⟩
abbrev S2x2048 : Shape := ⟨2, ![2, 2048]⟩
abbrev S2048x1 : Shape := ⟨2, ![2048, 1]⟩
abbrev S1x256 : Shape := ⟨2, ![1, 256]⟩

abbrev nBuf : Space → Nat
  | .hbm => 46
  | .vmem => 54
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S15, .i32⟩
  | .hbm, ⟨5, _⟩ => ⟨S8192, .i32⟩
  | .hbm, ⟨6, _⟩ => ⟨S8192x1, .i32⟩
  | .hbm, ⟨7, _⟩ => ⟨S1x15, .i32⟩
  | .hbm, ⟨8, _⟩ => ⟨S8192x15, .i32⟩
  | .hbm, ⟨9, _⟩ => ⟨S8192x15, .i32⟩
  | .hbm, ⟨10, _⟩ => ⟨S8192x15, .i1⟩
  | .hbm, ⟨11, _⟩ => ⟨S_, .i1⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i1⟩
  | .hbm, ⟨17, _⟩ => ⟨S8192, .i1⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S1x8192, .f32⟩
  | .hbm, ⟨30, _⟩ => ⟨S1x8192, .f32⟩
  | .hbm, ⟨31, _⟩ => ⟨S2x8192, .f32⟩
  | .hbm, ⟨32, _⟩ => ⟨S8192x1, .f32⟩
  | .hbm, ⟨33, _⟩ => ⟨S8192x1, .f32⟩
  | .hbm, ⟨34, _⟩ => ⟨S256x256, .f32⟩
  | .hbm, ⟨35, _⟩ => ⟨S8192x256, .bf16⟩
  | .hbm, ⟨36, _⟩ => ⟨S2x256, .f32⟩
  | .hbm, ⟨37, _⟩ => ⟨S8192x256, .bf16⟩
  | .hbm, ⟨38, _⟩ => ⟨S256x256, .f32⟩
  | .hbm, ⟨39, _⟩ => ⟨S8192x256, .bf16⟩
  | .hbm, ⟨40, _⟩ => ⟨S2x256, .f32⟩
  | .hbm, ⟨41, _⟩ => ⟨S8192x256, .bf16⟩
  | .hbm, ⟨42, _⟩ => ⟨S256x256, .f32⟩
  | .hbm, ⟨43, _⟩ => ⟨S8192x256, .bf16⟩
  | .hbm, ⟨44, _⟩ => ⟨S2x256, .f32⟩
  | .hbm, ⟨45, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .bf16⟩
  | .local _ .vmem, ⟨4, _⟩ => ⟨S2048x256, .bf16⟩
  | .local _ .vmem, ⟨5, _⟩ => ⟨S2x2048, .f32⟩
  | .local _ .vmem, ⟨6, _⟩ => ⟨S2x2048, .f32⟩
  | .local _ .vmem, ⟨7, _⟩ => ⟨S2048x256, .bf16⟩
  | .local _ .vmem, ⟨8, _⟩ => ⟨S2048x256, .bf16⟩
  | .local _ .vmem, ⟨9, _⟩ => ⟨S2x256, .f32⟩
  | .local _ .vmem, ⟨10, _⟩ => ⟨S2x256, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S2x256, .f32⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S256x256, .f32⟩
  | .local _ .vmem, ⟨21, _⟩ => ⟨S2048x256, .bf16⟩
  | .local _ .vmem, ⟨22, _⟩ => ⟨S2048x256, .bf16⟩
  | .local _ .vmem, ⟨23, _⟩ => ⟨S2x2048, .f32⟩
  | .local _ .vmem, ⟨24, _⟩ => ⟨S2x2048, .f32⟩
  | .local _ .vmem, ⟨25, _⟩ => ⟨S2048x256, .bf16⟩
  | .local _ .vmem, ⟨26, _⟩ => ⟨S2048x256, .bf16⟩
  | .local _ .vmem, ⟨27, _⟩ => ⟨S2x256, .f32⟩
  | .local _ .vmem, ⟨28, _⟩ => ⟨S2x256, .f32⟩
  | .local _ .vmem, ⟨29, _⟩ => ⟨S2048x1, .f32⟩
  | .local _ .vmem, ⟨30, _⟩ => ⟨S2048x1, .f32⟩
  | .local _ .vmem, ⟨31, _⟩ => ⟨S2048x1, .f32⟩
  | .local _ .vmem, ⟨32, _⟩ => ⟨S2048x1, .f32⟩
  | .local _ .vmem, ⟨33, _⟩ => ⟨S2x256, .f32⟩
  | .local _ .vmem, ⟨34, _⟩ => ⟨S2048x256, .bf16⟩
  | .local _ .vmem, ⟨35, _⟩ => ⟨S2048x256, .bf16⟩
  | .local _ .vmem, ⟨36, _⟩ => ⟨S2048x256, .bf16⟩
  | .local _ .vmem, ⟨37, _⟩ => ⟨S2048x256, .bf16⟩
  | .local _ .vmem, ⟨38, _⟩ => ⟨S256x256, .f32⟩
  | .local _ .vmem, ⟨39, _⟩ => ⟨S2048x256, .bf16⟩
  | .local _ .vmem, ⟨40, _⟩ => ⟨S2048x256, .bf16⟩
  | .local _ .vmem, ⟨41, _⟩ => ⟨S2x2048, .f32⟩
  | .local _ .vmem, ⟨42, _⟩ => ⟨S2x2048, .f32⟩
  | .local _ .vmem, ⟨43, _⟩ => ⟨S2048x256, .bf16⟩
  | .local _ .vmem, ⟨44, _⟩ => ⟨S2048x256, .bf16⟩
  | .local _ .vmem, ⟨45, _⟩ => ⟨S2x256, .f32⟩
  | .local _ .vmem, ⟨46, _⟩ => ⟨S2x256, .f32⟩
  | .local _ .vmem, ⟨47, _⟩ => ⟨S2048x1, .f32⟩
  | .local _ .vmem, ⟨48, _⟩ => ⟨S2048x1, .f32⟩
  | .local _ .vmem, ⟨49, _⟩ => ⟨S2048x1, .f32⟩
  | .local _ .vmem, ⟨50, _⟩ => ⟨S2048x1, .f32⟩
  | .local _ .vmem, ⟨51, _⟩ => ⟨S2x256, .f32⟩
  | .local _ .vmem, ⟨52, _⟩ => ⟨S2048x256, .f32⟩
  | .local _ .vmem, ⟨53, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_cst_1 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_v0 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_scratch0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_scratch0 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg1_1 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem3_0 : DmaSem sig := 49
abbrev cc8_sem3_1 : DmaSem sig := 50

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def k4_cond2 (i : grid4.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S2x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2048x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2048x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![4], ![false]⟩

def k7_cond2 (i : grid7.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2048x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S2x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2048x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2048x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S2x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2048x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  bcast_S8192_S8192x1_0 : S8192.BroadcastsInDim S8192x1 (![0] : Fin 1 → Fin S8192x1.rank)
  bcast_S15_S1x15_1 : S15.BroadcastsInDim S1x15 (![1] : Fin 1 → Fin S1x15.rank)
  bcast_S8192x1_S8192x15_0_1 : S8192x1.BroadcastsInDim S8192x15 (![0, 1] : Fin 2 → Fin S8192x15.rank)
  bcast_S1x15_S8192x15_0_1 : S1x15.BroadcastsInDim S8192x15 (![0, 1] : Fin 2 → Fin S8192x15.rank)
  reducesTo_S8192x15_S8192_d1 : S8192x15.ReducesTo [1] S8192
  h_S_ : 0 < S_.numel
  bcast_S_S8192 : S_.BroadcastsInDim S8192 (![] : Fin 0 → Fin S8192.rank)
  reducesTo_S8192_S_d0 : S8192.ReducesTo [0] S_
  bcast_S8192_S1x8192_1 : S8192.BroadcastsInDim S1x8192 (![1] : Fin 1 → Fin S1x8192.rank)
  concatenates_S1x8192_S1x8192_S2x8192_d0 : Shape.Concatenates [S1x8192, S1x8192] S2x8192 0
  shapeCasts_S8192_S8192x1 : S8192.ShapeCasts S8192x1
  transposes_S256x256_S256x256_1_0 : S256x256.Transposes [1, 0] S256x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S2048x256_S2048x256_0_0 : (Rect.unit (s := S2048x256) ![0, 0] S2048x256.size inb_S2048x256_S2048x256_0_0).PackedRows (EltTy.packing .bf16)
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  slices_S2x256_o0_0_S1x256 : S2x256.Slices ![0, 0] S1x256
  slices_S2x256_o1_0_S1x256 : S2x256.Slices ![1, 0] S1x256
  broadcasts_S2048x1_S2048x256 : S2048x1.Broadcasts S2048x256
  broadcasts_S1x256_S2048x256 : S1x256.Broadcasts S2048x256
  dot_S2048x256_S256x256_S2048x256_1_0_0_1_n_n_wf : DotDims.WF S2048x256 S256x256 S2048x256 [1] [0] [0] [1] [] []
  dot_S2x2048_S2048x256_S2x256_1_0_0_1_n_n_wf : DotDims.WF S2x2048 S2048x256 S2x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x2048.size a ≤ S2x8192.size a
  hwx1_0 : ∀ i : grid1.Coords, EltTy.bits .f32 = 32 ∨ (Rect.block (s := S2x8192) S2x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x256.size a ≤ S2x256.size a
  hwx1_2 : ∀ i : grid1.Coords, EltTy.bits .f32 = 32 ∨ (Rect.block (s := S2x256) S2x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1.size a ≤ S8192x1.size a
  hwx2_0 : ∀ i : grid2.Coords, EltTy.bits .f32 = 32 ∨ (Rect.block (s := S8192x1) S2048x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S8192x1.size a
  hwx2_1 : ∀ i : grid2.Coords, EltTy.bits .f32 = 32 ∨ (Rect.block (s := S8192x1) S2048x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x256.size a ≤ S2x256.size a
  hwx2_2 : ∀ i : grid2.Coords, EltTy.bits .f32 = 32 ∨ (Rect.block (s := S2x256) S2x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S8192x256.size a
  hwx2_3 : ∀ i : grid2.Coords, EltTy.bits .bf16 = 32 ∨ (Rect.block (s := S8192x256) S2048x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S8192x256.size a
  hwx3_0 : ∀ i : grid3.Coords, EltTy.bits .bf16 = 32 ∨ (Rect.block (s := S8192x256) S2048x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S8192x256.size a
  hwx3_2 : ∀ i : grid3.Coords, EltTy.bits .bf16 = 32 ∨ (Rect.block (s := S8192x256) S2048x256.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2x2048.size a ≤ S2x8192.size a
  hwx4_0 : ∀ i : grid4.Coords, EltTy.bits .f32 = 32 ∨ (Rect.block (s := S2x8192) S2x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S8192x256.size a
  hwx4_1 : ∀ i : grid4.Coords, EltTy.bits .bf16 = 32 ∨ (Rect.block (s := S8192x256) S2048x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2x256.size a ≤ S2x256.size a
  hwx4_2 : ∀ i : grid4.Coords, EltTy.bits .f32 = 32 ∨ (Rect.block (s := S2x256) S2x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1.size a ≤ S8192x1.size a
  hwx5_0 : ∀ i : grid5.Coords, EltTy.bits .f32 = 32 ∨ (Rect.block (s := S8192x1) S2048x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x1.size a ≤ S8192x1.size a
  hwx5_1 : ∀ i : grid5.Coords, EltTy.bits .f32 = 32 ∨ (Rect.block (s := S8192x1) S2048x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2x256.size a ≤ S2x256.size a
  hwx5_2 : ∀ i : grid5.Coords, EltTy.bits .f32 = 32 ∨ (Rect.block (s := S2x256) S2x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x256.size a ≤ S8192x256.size a
  hwx5_3 : ∀ i : grid5.Coords, EltTy.bits .bf16 = 32 ∨ (Rect.block (s := S8192x256) S2048x256.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S8192x256.size a
  hwx6_0 : ∀ i : grid6.Coords, EltTy.bits .bf16 = 32 ∨ (Rect.block (s := S8192x256) S2048x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x256.size a ≤ S8192x256.size a
  hwx6_2 : ∀ i : grid6.Coords, EltTy.bits .bf16 = 32 ∨ (Rect.block (s := S8192x256) S2048x256.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2x2048.size a ≤ S2x8192.size a
  hwx7_0 : ∀ i : grid7.Coords, EltTy.bits .f32 = 32 ∨ (Rect.block (s := S2x8192) S2x2048.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x256.size a ≤ S8192x256.size a
  hwx7_1 : ∀ i : grid7.Coords, EltTy.bits .bf16 = 32 ∨ (Rect.block (s := S8192x256) S2048x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S2x256.size a ≤ S2x256.size a
  hwx7_2 : ∀ i : grid7.Coords, EltTy.bits .f32 = 32 ∨ (Rect.block (s := S2x256) S2x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x1.size a ≤ S8192x1.size a
  hwx8_0 : ∀ i : grid8.Coords, EltTy.bits .f32 = 32 ∨ (Rect.block (s := S8192x1) S2048x1.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x1.size a ≤ S8192x1.size a
  hwx8_1 : ∀ i : grid8.Coords, EltTy.bits .f32 = 32 ∨ (Rect.block (s := S8192x1) S2048x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S2x256.size a ≤ S2x256.size a
  hwx8_2 : ∀ i : grid8.Coords, EltTy.bits .f32 = 32 ∨ (Rect.block (s := S2x256) S2x256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x256.size a ≤ S8192x256.size a
  hwx8_3 : ∀ i : grid8.Coords, EltTy.bits .f32 = 32 ∨ (Rect.block (s := S8192x256) S2048x256.size (cc8_transform_3 i) (hinb8_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2x2048_S2048x256_S2x256_1_0_0_1_n_n : DotDims S2x2048 S2048x256 S2x256 where
  lhsContracting := [1]
  rhsContracting := [0]
  lhsNonContracting := [0]
  rhsNonContracting := [1]
  lhsBatch := []
  rhsBatch := []
  wf := dot_S2x2048_S2048x256_S2x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v20) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v21) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v17) S2x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v21) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v22) S2x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_call0_v18) S2048x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v19) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v22) S2x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v23) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v23) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v24) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v25) S2048x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_call0_v17) S2x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v25) S2048x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v26) S2x256.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_call0_v18) S2048x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v19) S2048x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v26) S2x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v27) S2048x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_call0_v27) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v28) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_call0_v29) S2048x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_call0_v17) S2x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v29) S2048x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_call0_v30) S2x256.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_call0_v18) S2048x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call0_v19) S2048x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_call0_v30) S2x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v0) S2048x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S8192x256 : Shape := ⟨2, ![8192, 256]⟩
abbrev S256x256 : Shape := ⟨2, ![256, 256]⟩
abbrev S15 : Shape := ⟨1, ![15]⟩
abbrev S8192 : Shape := ⟨1, ![8192]⟩
abbrev S8192x1 : Shape := ⟨2, ![8192, 1]⟩
abbrev S1x15 : Shape := ⟨2, ![1, 15]⟩
abbrev S8192x15 : Shape := ⟨2, ![8192, 15]⟩
abbrev S_ : Shape := ⟨0, ![]⟩
abbrev S1x8192 : Shape := ⟨2, ![1, 8192]⟩
abbrev S8192x8192 : Shape := ⟨2, ![8192, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S15, .i32⟩
  | .hbm, ⟨5, _⟩ => ⟨S8192, .i32⟩
  | .hbm, ⟨6, _⟩ => ⟨S8192x1, .i32⟩
  | .hbm, ⟨7, _⟩ => ⟨S1x15, .i32⟩
  | .hbm, ⟨8, _⟩ => ⟨S8192x15, .i32⟩
  | .hbm, ⟨9, _⟩ => ⟨S8192x15, .i32⟩
  | .hbm, ⟨10, _⟩ => ⟨S8192x15, .i1⟩
  | .hbm, ⟨11, _⟩ => ⟨S_, .i1⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i1⟩
  | .hbm, ⟨17, _⟩ => ⟨S8192, .i1⟩
  | .hbm, ⟨18, _⟩ => ⟨S8192x1, .i1⟩
  | .hbm, ⟨19, _⟩ => ⟨S1x8192, .i1⟩
  | .hbm, ⟨20, _⟩ => ⟨S8192x8192, .i1⟩
  | .hbm, ⟨21, _⟩ => ⟨S8192x8192, .i1⟩
  | .hbm, ⟨22, _⟩ => ⟨S8192x8192, .i1⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S256x256, .f32⟩
  | .hbm, ⟨38, _⟩ => ⟨S8192x256, .f32⟩
  | .hbm, ⟨39, _⟩ => ⟨S8192x256, .f32⟩
  | .hbm, ⟨40, _⟩ => ⟨S_, .f32⟩
  | .hbm, ⟨41, _⟩ => ⟨S8192x256, .f32⟩
  | .hbm, ⟨42, _⟩ => ⟨S8192x256, .f32⟩
  | .hbm, ⟨43, _⟩ => ⟨S256x256, .f32⟩
  | .hbm, ⟨44, _⟩ => ⟨S8192x256, .f32⟩
  | .hbm, ⟨45, _⟩ => ⟨S8192x256, .f32⟩
  | .hbm, ⟨46, _⟩ => ⟨S_, .f32⟩
  | .hbm, ⟨47, _⟩ => ⟨S8192x256, .f32⟩
  | .hbm, ⟨48, _⟩ => ⟨S8192x256, .f32⟩
  | .hbm, ⟨49, _⟩ => ⟨S256x256, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call2_cst : Ref sig .tc := ⟨.hbm, 46, rfl⟩
abbrev main_call2_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call3_cst : Ref sig .tc := ⟨.hbm, 52, rfl⟩
abbrev main_call3_v0 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S15_S1x15_1 : S15.BroadcastsInDim S1x15 (![1] : Fin 1 → Fin S1x15.rank)
  bcast_S8192x1_S8192x15_0_1 : S8192x1.BroadcastsInDim S8192x15 (![0, 1] : Fin 2 → Fin S8192x15.rank)
  bcast_S1x15_S8192x15_0_1 : S1x15.BroadcastsInDim S8192x15 (![0, 1] : Fin 2 → Fin S8192x15.rank)
  reducesTo_S8192x15_S8192_d1 : S8192x15.ReducesTo [1] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  transposes_S256x256_S256x256_1_0 : S256x256.Transposes [1, 0] S256x256
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Reg0.lean ====
/- Region 0 of the kernel program (the linear kernel: a block of rows times the whole weight matrix): each
   window's block at a point read off the contents the region is entered with (`V`, a parameter), what the
   body leaves in the output window's buffer, the body's triple, the region's proof data and its body
   obligation. -/
import proofs.«172208_j80221399155047_2_alg».proof.Proof.Gen.Kernel.Launch
import proofs.«172208_j80221399155047_2_alg».proof.Proof.Gen.Kernel.Skeleton
import proofs.«172208_j80221399155047_2_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the
    block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0

/-! ## What the body leaves in the output window's buffer -/

/-- Window 2's staging buffer after the body, from the input windows' blocks: its one store as a piece. -/
def out0_2 (x0 : Vec F S2048x256 .f32) (x1 : Vec F S256x256 .f32) : Vec F S2048x256 .bf16 :=
  View.canon [⟨r0_0, k0_pay1 (View.ld x0 r0_0) (View.ld x1 r0_1)⟩]

/-- Its store tiles the buffer (checked by evaluation), so it covers it. -/
theorem cover0_2 (p0 : Vec F S2048x256 .bf16) (y : S2048x256.Idx) :
    ∃ pc ∈ ([⟨r0_0, p0⟩] : List (View.Piece (Elt F) S2048x256 .bf16)), y ∈ pc.1.set :=
  View.cover_of_tiled [⟨r0_0, p0⟩] S2048x256.size (by rfl) y

/-! ## The body's triple -/

set_option maxHeartbeats 1000000 in
/-- The kernel body on whole staging memrefs, the inputs' at read contents `xW` and the output's at anything, runs to
    the continuation holding the inputs' as they were and the output's at `out0_2` of the inputs'. -/
theorem sound_kernel0 (c : Dev nD) (E : Set ℕ) (i : grid0.Coords) (arg1 : Memref sig .tc .vmem S2048x256 .f32) (harg1 : arg1.IsWhole) (arg2 : Memref sig .tc .vmem S256x256 .f32) (harg2 : arg2.IsWhole) (arg3 : Memref sig .tc .vmem S2048x256 .bf16) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- Region 1 of the kernel program (the reduce kernel: at every grid point a [2,2048] band of the left operand
   times a [2048,256] band of the right one, added into a [2,256] accumulator the kernel keeps in a scratch buffer
   of its own, zeroed at the first point and copied to the output window at the last): the body's branch
   conditions in closed form, the body's triple in each of its three cases, what the accumulator and the output
   window's buffer hold after each point, the region's proof data — whose invariant carries the accumulator from
   point to point —, its body obligation, and the invariant's entry and exit. -/
import proofs.«172208_j80221399155047_2_alg».proof.Proof.Gen.Kernel.Launch
import proofs.«172208_j80221399155047_2_alg».proof.Proof.Gen.Kernel.Skeleton
import proofs.«172208_j80221399155047_2_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the
    block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the accumulator is zeroed), from the grid coordinates. -/
abbrev cond1_1 (i : grid1.Coords) : Prop := (Scalar.cmpi .ne (Scalar.extui (Scalar.cmpi .eq (BitVec.ofNat 32 (i 0).val) 0#32)) 0#32) = 1#1
/-- It holds at the first point only — decided over the grid. -/
theorem hcond1_1 : ∀ t : Fin cfg1.N, cond1_1 (grid1.coords t) ↔ t.val = 0 :=
  (by decide +kernel : ∀ t : Fin grid1.N, cond1_1 (grid1.coords t) ↔ t.val = 0)

/-- The condition of the body's second conditional (the accumulator is copied to the output window). -/
abbrev cond1_2 (i : grid1.Coords) : Prop := k1_cond2 i = 1#1
/-- It holds at the last point only — decided over the grid. -/
theorem hcond1_2 : ∀ t : Fin cfg1.N, cond1_2 (grid1.coords t) ↔ t.val = 3 :=
  (by decide +kernel : ∀ t : Fin grid1.N, cond1_2 (grid1.coords t) ↔ t.val = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional fails the output window is idle: the body stores nothing into it, -/
theorem idleAt1_2 : ∀ t : Fin cfg1.N, ¬cond1_2 (grid1.coords t) → cfg1.idle 2 (grid1.coords t) = true := by decide +kernel
/-- and the pipeline does not write its block back. -/
theorem noFlush1_2 : ∀ t : Fin cfg1.N, ¬cond1_2 (grid1.coords t) → (cfg1.win 2).flush t = false := by decide +kernel
/-- Where it holds the output window is live. -/
theorem liveAt1_2 : ∀ t : Fin cfg1.N, cond1_2 (grid1.coords t) → cfg1.idle 2 (grid1.coords t) = false := by decide +kernel

/-! ## The memrefs the body is called with -/

/-- The output window's one staging buffer as a view, through which its contents are stated (any view of the
    shape reads a covering list of writes alike). -/
abbrev VO1_2 : View sig .tc .vmem S2x256 .f32 := (Memref.whole cc1_stg2_0 : Memref sig .tc .vmem S2x256 .f32).view
/-- Each window's current staging memref at point `t`, spelt as the pipeline passes it, and its wholeness. -/
abbrev ms1_0 (t : Fin cfg1.N) : Memref sig .tc .vmem S2x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x256 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S2x256 .f32 := Memref.whole cc1_scratch0
abbrev VS1_0 : View sig .tc .vmem S2x256 .f32 := scM1_0.view

/-- The scoped buffers that are neither a staging buffer of this region's windows nor the accumulator, at some
    contents each: carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- The class's invariant with the accumulator split off as a memref owned at some contents. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA; rw [scopedRest1_split]; simp only [scM1_0, owns_whole]; try rfl

/-! ## The kernel body on any staging memrefs, case by case -/

set_option maxHeartbeats 1000000 in
/-- THE FIRST POINT (first conditional taken, second not). What the body's stores leave in the accumulator, as
    pieces (last first), with the proof that on whole memrefs — the inputs' at their contents `x0`, `x1`, the
    output's (idle here) at contents `xi2` handed back untouched, the accumulator at anything — the body runs to the
    continuation holding the inputs' and the output's as they were and the accumulator with its pieces written. The
    pieces are the witness the run finds. -/
noncomputable def kernelRun1_A (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond1_1 i) (hc2 : ¬cond1_2 i)
    (x0 : Vec F S2x2048 .f32) (x1 : Vec F S2048x256 .bf16) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__reduce_kernel i arg1 harg1 arg2 harg2 arg3 harg3 arg4 harg4) K } := by
  refine ⟨?_, fun xi2 E K => ?run⟩
  case run =>
    simp only [cc1__reduce_kernel_eq_skeleton]; unfold cc1__reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken): as at the first point, the accumulator at the contents `xs0` the
    point before left. -/
noncomputable def kernelRun1_B (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : ¬cond1_2 i)
    (x0 : Vec F S2x2048 .f32) (x1 : Vec F S2048x256 .bf16) (xs0 : Vec F S2x256 .f32) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__reduce_kernel i arg1 harg1 arg2 harg2 arg3 harg3 arg4 harg4) K } := by
  refine ⟨?_, fun xi2 E K => ?run⟩
  case run =>
    simp only [cc1__reduce_kernel_eq_skeleton]; unfold cc1__reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (first conditional not taken, second taken): the output's buffer at anything, left with its
    pieces written (`L2`); the accumulator as at a middle point. -/
noncomputable def kernelRun1_C (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i)
    (x0 : Vec F S2x2048 .f32) (x1 : Vec F S2048x256 .bf16) (xs0 : Vec F S2x256 .f32) :
    Σ' (L2 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__reduce_kernel i arg1 harg1 arg2 harg2 arg3 harg3 arg4 harg4) K } := by
  refine ⟨?_, ?_, fun E K => ?run⟩
  case run =>
    simp only [cc1__reduce_kernel_eq_skeleton]; unfold cc1__reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves -/

/-- The first point's pieces cover the accumulator (each store is of the whole buffer: checked by evaluation). -/
theorem scover1_A (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond1_1 i) (hc2 : ¬cond1_2 i)
    (x0 : Vec F S2x2048 .f32) (x1 : Vec F S2048x256 .bf16) (y : S2x256.Idx) :
    ∃ pc ∈ (kernelRun1_A c i arg1 harg1 arg2 harg2 arg3 harg3 arg4 harg4 hc1 hc2 x0 x1).1, y ∈ pc.1.set :=
  View.cover_of_tiledL (kernelRun1_A c i arg1 harg1 arg2 harg2 arg3 harg3 arg4 harg4 hc1 hc2 x0 x1).1 S2x256.size (by sl_kernel_rfl) y

/-- What the first point leaves in the accumulator: its pieces read back. -/
def sout1_A (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond1_1 i) (hc2 : ¬cond1_2 i)
    (x0 : Vec F S2x2048 .f32) (x1 : Vec F S2048x256 .bf16) : Vec F S2x256 .f32 :=
  VS1_0.read (Elt F) (VS1_0.writes (Elt F) VS1_0.junk (kernelRun1_A c i arg1 harg1 arg2 harg2 arg3 harg3 arg4 harg4 hc1 hc2 x0 x1).1)

theorem scover1_B (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : ¬cond1_2 i)
    (x0 : Vec F S2x2048 .f32) (x1 : Vec F S2048x256 .bf16) (xs0 : Vec F S2x256 .f32) (y : S2x256.Idx) :
    ∃ pc ∈ (kernelRun1_B c i arg1 harg1 arg2 harg2 arg3 harg3 arg4 harg4 hc1 hc2 x0 x1 xs0).1, y ∈ pc.1.set :=
  View.cover_of_tiledL (kernelRun1_B c i arg1 harg1 arg2 harg2 arg3 harg3 arg4 harg4 hc1 hc2 x0 x1 xs0).1 S2x256.size (by sl_kernel_rfl) y

/-- What a middle point leaves in the accumulator, over what the point before left (`xs0`). -/
def sout1_B (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : ¬cond1_2 i)
    (x0 : Vec F S2x2048 .f32) (x1 : Vec F S2048x256 .bf16) (xs0 : Vec F S2x256 .f32) : Vec F S2x256 .f32 :=
  VS1_0.read (Elt F) (VS1_0.writes (Elt F) VS1_0.junk (kernelRun1_B c i arg1 harg1 arg2 harg2 arg3 harg3 arg4 harg4 hc1 hc2 x0 x1 xs0).1)

theorem cover1_C (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i)
    (x0 : Vec F S2x2048 .f32) (x1 : Vec F S2048x256 .bf16) (xs0 : Vec F S2x256 .f32) (y : S2x256.Idx) :
    ∃ pc ∈ (kernelRun1_C c i arg1 harg1 arg2 harg2 arg3 harg3 arg4 harg4 hc1 hc2 x0 x1 xs0).1, y ∈ pc.1.set :=
  View.cover_of_tiledL (kernelRun1_C c i arg1 harg1 arg2 harg2 arg3 harg3 arg4 harg4 hc1 hc2 x0 x1 xs0).1 S2x256.size (by sl_kernel_rfl) y

/-- What the last point leaves in the output window's buffer. -/
def out1_C (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i)
    (x0 : Vec F S2x2048 .f32) (x1 : Vec F S2048x256 .bf16) (xs0 : Vec F S2x256 .f32) : Vec F S2x256 .f32 :=
  VO1_2.read (Elt F) (VO1_2.writes (Elt F) VO1_2.junk (kernelRun1_C c i arg1 harg1 arg2 harg2 arg3 harg3 arg4 harg4 hc1 hc2 x0 x1 xs0).1)

theorem scover1_C (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i)
    (x0 : Vec F S2x2048 .f32) (x1 : Vec F S2048x256 .bf16) (xs0 : Vec F S2x256 .f32) (y : S2x256.Idx) :
    ∃ pc ∈ (kernelRun1_C c i arg1 harg1 arg2 harg2 arg3 harg3 arg4 harg4 hc1 hc2 x0 x1 xs0).2.1, y ∈ pc.1.set :=
  View.cover_of_tiledL (kernelRun1_C c i arg1 harg1 arg2 harg2 arg3 harg3 arg4 harg4 hc1 hc2 x0 x1 xs0).2.1 S2x256.size (by sl_kernel_rfl) y

/-- What the last point leaves in the accumulator. -/
def sout1_C (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i)
    (x0 : Vec F S2x2048 .f32) (x1 : Vec F S2048x256 .bf16) (xs0 : Vec F S2x256 .f32) : Vec F S2x256 .f32 :=
  VS1_0.read (Elt F) (VS1_0.writes (Elt F) VS1_0.junk (kernelRun1_C c i arg1 harg1 arg2 harg2 arg3 harg3 arg4 harg4 hc1 hc2 x0 x1 xs0).2.1)

/-! ## What the accumulator and the output window's buffer hold after each point -/

/-- THE ACCUMULATION. What the accumulator holds after the body at position `n`: the first point's contents at
    the point's input blocks, then each point's over what the point before left. -/
def accAt1 (c : Dev nD) : (n : ℕ) → n < cfg1.N → Vec F S2x256 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_1 ⟨0, hn⟩).mpr rfl) (fun h => (fun h => by (try dsimp only at h); omega) ((hcond1_2 ⟨0, hn⟩).mp h)) (iblk1 V c 0 ⟨0, hn⟩) (iblk1 V c 1 ⟨0, hn⟩)
  | n + 1, hn =>
    if h2 : n + 1 = 3 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => (fun h => by (try dsimp only at h); omega) ((hcond1_1 ⟨n + 1, hn⟩).mp h)) ((hcond1_2 ⟨n + 1, hn⟩).mpr h2) (iblk1 V c 0 ⟨n + 1, hn⟩) (iblk1 V c 1 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => (fun h => by (try dsimp only at h); omega) ((hcond1_1 ⟨n + 1, hn⟩).mp h)) (fun h => h2 ((hcond1_2 ⟨n + 1, hn⟩).mp h)) (iblk1 V c 0 ⟨n + 1, hn⟩) (iblk1 V c 1 ⟨n + 1, hn⟩) (accAt1 c n (Nat.lt_of_succ_lt hn))

/-- `accAt1` at the first point. -/
theorem accAt1_A (c : Dev nD) (t : Fin cfg1.N) (h1 : t.val = 0) (h2 : ¬t.val = 3) :
    accAt1 V c t.val t.isLt = sout1_A c (grid1.coords t) (ms1_0 t) (hs1_0 t) (ms1_1 t) (hs1_1 t) (ms1_2 t) (hs1_2 t) scM1_0 (Memref.isWhole_whole _) ((hcond1_1 t).mpr h1) (fun h => h2 ((hcond1_2 t).mp h)) (iblk1 V c 0 t) (iblk1 V c 1 t) := by
  obtain ⟨n, hn⟩ := t
  cases n with
  | zero => exact rfl
  | succ n => exact absurd h1 (Nat.succ_ne_zero n)

/-- `accAt1` at a middle point: that case's contents, over what the point before left. -/
theorem accAt1_B (c : Dev nD) (t : Fin cfg1.N) (h1 : ¬t.val = 0) (h2 : ¬t.val = 3) :
    accAt1 V c t.val t.isLt = sout1_B c (grid1.coords t) (ms1_0 t) (hs1_0 t) (ms1_1 t) (hs1_1 t) (ms1_2 t) (hs1_2 t) scM1_0 (Memref.isWhole_whole _) (fun h => h1 ((hcond1_1 t).mp h)) (fun h => h2 ((hcond1_2 t).mp h)) (iblk1 V c 0 t) (iblk1 V c 1 t) (accAt1 V c (t.val - 1) (Nat.lt_of_le_of_lt (Nat.sub_le _ _) t.isLt)) := by
  obtain ⟨n, hn⟩ := t
  cases n with
  | zero => exact absurd rfl h1
  | succ n => exact (dif_neg h2).trans rfl

/-- `accAt1` at the last point. -/
theorem accAt1_C (c : Dev nD) (t : Fin cfg1.N) (h1 : ¬t.val = 0) (h2 : t.val = 3) :
    accAt1 V c t.val t.isLt = sout1_C c (grid1.coords t) (ms1_0 t) (hs1_0 t) (ms1_1 t) (hs1_1 t) (ms1_2 t) (hs1_2 t) scM1_0 (Memref.isWhole_whole _) (fun h => h1 ((hcond1_1 t).mp h)) ((hcond1_2 t).mpr h2) (iblk1 V c 0 t) (iblk1 V c 1 t) (accAt1 V c (t.val - 1) (Nat.lt_of_le_of_lt (Nat.sub_le _ _) t.isLt)) := by
  obtain ⟨n, hn⟩ := t
  cases n with
  | zero => exact absurd rfl h1
  | succ n => exact (dif_pos h2).trans rfl

/-- What the output window's buffer holds after the body at point `t`: at the last point what that case stores;
    elsewhere the window is idle and the value is a placeholder nothing consults. -/
def outAt1 (c : Dev nD) (t : Fin cfg1.N) : Vec F S2x256 .f32 :=
  if h2 : t.val = 3 then
    out1_C c (grid1.coords t) (ms1_0 t) (hs1_0 t) (ms1_1 t) (hs1_1 t) (ms1_2 t) (hs1_2 t) scM1_0 (Memref.isWhole_whole _) (fun h => (fun h => by omega) ((hcond1_1 t).mp h)) ((hcond1_2 t).mpr h2) (iblk1 V c 0 t) (iblk1 V c 1 t) (accAt1 V c (t.val - 1) (Nat.lt_of_le_of_lt (Nat.sub_le _ _) t.isLt))
  else VO1_2.read (Elt F) VO1_2.junk

theorem outAt1_C (c : Dev nD) (t : Fin cfg1.N) (h1 : ¬t.val = 0) (h2 : t.val = 3) :
    outAt1 V c t = out1_C c (grid1.coords t) (ms1_0 t) (hs1_0 t) (ms1_1 t) (hs1_1 t) (ms1_2 t) (hs1_2 t) scM1_0 (Memref.isWhole_whole _) (fun h => h1 ((hcond1_1 t).mp h)) ((hcond1_2 t).mpr h2) (iblk1 V c 0 t) (iblk1 V c 1 t) (accAt1 V c (t.val - 1) (Nat.lt_of_le_of_lt (Nat.sub_le _ _) t.isLt)) := by
  unfold outAt1; exact dif_pos h2

/-! ## The region invariant, point by point -/

/-- The invariant before position `n`: before the first point the class's (every scoped buffer that is no staging
    buffer at anything, the generator register at some state); afterwards the same with the accumulator at what the
    point before left in it. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare (accAt1 V c n hn) ∗ rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ rest1 (F := F) c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outAt1`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the accumulator at what the point before left (at anything at the first point),
    the other scoped buffers and the generator register untouched, and takes the accumulator back at this point's
    contents; where the output window is idle its buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 4 := lt_of_lt_of_eq t.isLt (show cfg1.N = 4 from N_1)
  by_cases h1 : t.val = 0
  · have h2 : ¬t.val = 3 := by omega
    rw [Dat.leavesExact_idle (dat1 V c) 2 t (idleAt1_2 t (fun h => h2 ((hcond1_2 t).mp h))) (noFlush1_2 t (fun h => h2 ((hcond1_2 t).mp h)))]
    rw [accAt1_A V c t h1 h2]
    unfold sout1_A; (try dsimp only)
    rw [PhiS1_castSucc V c t, PhiS1_zero V c _ _ h1, PhiA1_eq]
    iintro ⟨⟨⟨HS0, HR⟩, Hg⟩, Ho, ⟨%d0, H0⟩, ⟨%d1, H1⟩, ⟨%d2, H2⟩⟩
    iapply ((kernelRun1_A c (grid1.coords t) _ _ _ _ _ _ _ _ ((hcond1_1 t).mpr h1) (fun h => h2 ((hcond1_2 t).mp h)) (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A c _ _ _ _ _ _ _ _ _ _ _ _ _)
        iexact HR
      iexact Hg
    isplitl [Ho]; · iexact Ho
    isplitl [H0]; · iexact H0
    isplitl [H1]; · iexact H1
    iexists _; iexact H2
  · by_cases h2 : t.val = 3
    · rw [show (dat1 V c).leavesExact 2 t = owns (c : Thread nD τ) (ms1_2 t) fullShare ((dat1 V c).after 2 t) from by
        unfold Dat.leavesExact; rw [liveAt1_2 t ((hcond1_2 t).mpr h2)], after1_2]
      rw [accAt1_C V c t h1 h2, outAt1_C V c t h1 h2]
      unfold out1_C sout1_C; (try dsimp only)
      rw [PhiS1_castSucc V c t, PhiS1_pos V c _ _ h1]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h1 ((hcond1_1 t).mp h)) ((hcond1_2 t).mpr h2) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h2 ((hcond1_2 t).mp h))) (noFlush1_2 t (fun h => h2 ((hcond1_2 t).mp h)))]
      rw [accAt1_B V c t h1 h2]
      unfold sout1_B; (try dsimp only)
      rw [PhiS1_castSucc V c t, PhiS1_pos V c _ _ h1]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h1 ((hcond1_1 t).mp h)) (fun h => h2 ((hcond1_2 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's entry and exit -/

/-- What the launch hands the region — the generator register, no prefetched table, the scoped buffers no window
    stages — is the invariant before the first point. -/
theorem hin1 (c : Dev nD) : iprop((∃ r, prngReg c r) ∗ Pipeline.prefHeld (pcfgs (F := F) 1).pre c (fun _ => fullShare) ((cfgs 1).toPCfg_adm).1 ∗ Pipeline.scopedRest spec1 c) ⊢ ((dat1 V c).Φ 0 : sProp 𝕄) := by
  rw [show (dat1 V c).Φ 0 = PhiS1 V c 0 (Nat.zero_le _) from rfl, PhiS1_zero V c 0 _ rfl]; unfold Pipeline.ΦA
  iintro ⟨Hp, -, Hr⟩
  isplitl [Hr]; · iexact Hr
  iexact Hp

/-- After the last point the invariant gives them back: the accumulator's named contents are forgotten. -/
theorem hout1 (c : Dev nD) : ((dat1 V c).Φ (Fin.last cfg1.N) : sProp 𝕄) ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec1 c) := by
  have hne : (Fin.last cfg1.N).val ≠ 0 := by rw [Fin.val_last]; have : cfg1.N = 4 := N_1; omega
  rw [Pipeline.ownSems0_none, show (dat1 V c).Φ (Fin.last cfg1.N) = PhiS1 V c (Fin.last cfg1.N).val (Nat.le_of_lt_succ (Fin.last cfg1.N).isLt) from rfl,
    PhiS1_pos V c _ _ hne, scopedRest1_split]
  iintro ⟨⟨HS0, HR⟩, Hg⟩
  isplitl [Hg]; · iexact Hg
  isplitr; · iempintro
  isplitl [HS0]
  · simp only [scM1_0, owns_whole]; iexists _; iexact HS0
  iexact HR

end Cert.Kernel.Hand

end
-- ==== Proof.K.Reg2.lean ====
/- Region 2 of the kernel program (the scatter kernel: a block of rows, each the positive part of a combination of
   the two rows of a small operand with coefficients read off two columns): each window's block at a point read off
   the contents the region is entered with (`V`, a parameter), what the body leaves in the output window's buffer,
   the body's triple, the region's proof data and its body obligation. -/
import proofs.«172208_j80221399155047_2_alg».proof.Proof.Gen.Kernel.Launch
import proofs.«172208_j80221399155047_2_alg».proof.Proof.Gen.Kernel.Skeleton
import proofs.«172208_j80221399155047_2_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for any proof
    data whose array is `V`'s (`hA`) and whose body leaves the block in place (`hafter`): unfetched, the
    block index has not moved; the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x1 := Rect.unit (s := S2048x1) ![0, 0] S2048x1.size inb_S2048x1_S2048x1_0_0
abbrev r2_1 : Rect S2x256 := Rect.unit (s := S2x256) ![0, 0] S2x256.size inb_S2x256_S2x256_0_0
abbrev r2_2 : Rect S2048x256 := Rect.unit (s := S2048x256) ![0, 0] S2048x256.size inb_S2048x256_S2048x256_0_0

/-! ## What the body leaves in the output window's buffer -/

/-- Window 3's staging buffer after the body, from the input windows' blocks: its one store as a piece. -/
def out2_3 (x0 : Vec F S2048x1 .f32) (x1 : Vec F S2048x1 .f32) (x2 : Vec F S2x256 .f32) : Vec F S2048x256 .bf16 :=
  View.canon [⟨r2_2, k2_pay1 (View.ld x0 r2_0) (View.ld x1 r2_0) (View.ld x2 r2_1)⟩]

/-- Its store tiles the buffer (checked by evaluation), so it covers it. -/
theorem cover2_3 (p0 : Vec F S2048x256 .bf16) (y : S2048x256.Idx) :
    ∃ pc ∈ ([⟨r2_2, p0⟩] : List (View.Piece (Elt F) S2048x256 .bf16)), y ∈ pc.1.set :=
  View.cover_of_tiled [⟨r2_2, p0⟩] S2048x256.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords) (arg1 : Memref sig .tc .vmem S2048x1 .f32) (harg1 : arg1.IsWhole) (arg2 : Memref sig .tc .vmem S2048x1 .f32) (harg2 : arg2.IsWhole) (arg3 : Memref sig .tc .vmem S2x256 .f32) (harg3 : arg3.IsWhole) (arg4 : Memref sig .tc .vmem S2048x256 .bf16) (harg4 : arg4.IsWhole)
    (x0 : Vec F S2048x1 .f32) (x1 : Vec F S2048x1 .f32) (x2 : Vec F S2x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__scatter_kernel i arg1 harg1 arg2 harg2 arg3 harg3 arg4 harg4) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- Region 3 of the kernel program (the linear kernel: a block of rows times the whole weight matrix): each
   window's block at a point read off the contents the region is entered with (`V`, a parameter), what the
   body leaves in the output window's buffer, the body's triple, the region's proof data and its body
   obligation. -/
import proofs.«172208_j80221399155047_2_alg».proof.Proof.Gen.Kernel.Launch
import proofs.«172208_j80221399155047_2_alg».proof.Proof.Gen.Kernel.Skeleton
import proofs.«172208_j80221399155047_2_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the
    block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S2048x256 := Rect.unit (s := S2048x256) ![0, 0] S2048x256.size inb_S2048x256_S2048x256_0_0
abbrev r3_1 : Rect S256x256 := Rect.unit (s := S256x256) ![0, 0] S256x256.size inb_S256x256_S256x256_0_0

/-! ## What the body leaves in the output window's buffer -/

/-- Window 2's staging buffer after the body, from the input windows' blocks: its one store as a piece. -/
def out3_2 (x0 : Vec F S2048x256 .bf16) (x1 : Vec F S256x256 .f32) : Vec F S2048x256 .bf16 :=
  View.canon [⟨r3_0, k3_pay1 (View.ld x0 r3_0) (View.ld x1 r3_1)⟩]

/-- Its store tiles the buffer (checked by evaluation), so it covers it. -/
theorem cover3_2 (p0 : Vec F S2048x256 .bf16) (y : S2048x256.Idx) :
    ∃ pc ∈ ([⟨r3_0, p0⟩] : List (View.Piece (Elt F) S2048x256 .bf16)), y ∈ pc.1.set :=
  View.cover_of_tiled [⟨r3_0, p0⟩] S2048x256.size (by rfl) y

/-! ## The body's triple -/

set_option maxHeartbeats 1000000 in
/-- The kernel body on whole staging memrefs, the inputs' at read contents `xW` and the output's at anything, runs to
    the continuation holding the inputs' as they were and the output's at `out3_2` of the inputs'. -/
theorem sound_kernel3 (c : Dev nD) (E : Set ℕ) (i : grid3.Coords) (arg1 : Memref sig .tc .vmem S2048x256 .bf16) (harg1 : arg1.IsWhole) (arg2 : Memref sig .tc .vmem S256x256 .f32) (harg2 : arg2.IsWhole) (arg3 : Memref sig .tc .vmem S2048x256 .bf16) (harg3 : arg3.IsWhole)
    (x0 : Vec F S2048x256 .bf16) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at
    point `t` each input's buffer at its block and the output's at `out3_2` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/- Region 4 of the kernel program (the reduce kernel: at every grid point a [2,2048] band of the left operand
   times a [2048,256] band of the right one, added into a [2,256] accumulator the kernel keeps in a scratch buffer
   of its own, zeroed at the first point and copied to the output window at the last): the body's branch
   conditions in closed form, the body's triple in each of its three cases, what the accumulator and the output
   window's buffer hold after each point, the region's proof data — whose invariant carries the accumulator from
   point to point —, its body obligation, and the invariant's entry and exit. -/
import proofs.«172208_j80221399155047_2_alg».proof.Proof.Gen.Kernel.Launch
import proofs.«172208_j80221399155047_2_alg».proof.Proof.Gen.Kernel.Skeleton
import proofs.«172208_j80221399155047_2_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the
    block index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the accumulator is zeroed), from the grid coordinates. -/
abbrev cond4_1 (i : grid4.Coords) : Prop := (Scalar.cmpi .ne (Scalar.extui (Scalar.cmpi .eq (BitVec.ofNat 32 (i 0).val) 0#32)) 0#32) = 1#1
/-- It holds at the first point only — decided over the grid. -/
theorem hcond4_1 : ∀ t : Fin cfg4.N, cond4_1 (grid4.coords t) ↔ t.val = 0 :=
  (by decide +kernel : ∀ t : Fin grid4.N, cond4_1 (grid4.coords t) ↔ t.val = 0)

/-- The condition of the body's second conditional (the accumulator is copied to the output window). -/
abbrev cond4_2 (i : grid4.Coords) : Prop := k4_cond2 i = 1#1
/-- It holds at the last point only — decided over the grid. -/
theorem hcond4_2 : ∀ t : Fin cfg4.N, cond4_2 (grid4.coords t) ↔ t.val = 3 :=
  (by decide +kernel : ∀ t : Fin grid4.N, cond4_2 (grid4.coords t) ↔ t.val = 3)

/-! ## Where the windows are idle -/

/-- The input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where the second conditional fails the output window is idle: the body stores nothing into it, -/
theorem idleAt4_2 : ∀ t : Fin cfg4.N, ¬cond4_2 (grid4.coords t) → cfg4.idle 2 (grid4.coords t) = true := by decide +kernel
/-- and the pipeline does not write its block back. -/
theorem noFlush4_2 : ∀ t : Fin cfg4.N, ¬cond4_2 (grid4.coords t) → (cfg4.win 2).flush t = false := by decide +kernel
/-- Where it holds the output window is live. -/
theorem liveAt4_2 : ∀ t : Fin cfg4.N, cond4_2 (grid4.coords t) → cfg4.idle 2 (grid4.coords t) = false := by decide +kernel

/-! ## The memrefs the body is called with -/

/-- The output window's one staging buffer as a view, through which its contents are stated (any view of the
    shape reads a covering list of writes alike). -/
abbrev VO4_2 : View sig .tc .vmem S2x256 .f32 := (Memref.whole cc4_stg2_0 : Memref sig .tc .vmem S2x256 .f32).view
/-- Each window's current staging memref at point `t`, spelt as the pipeline passes it, and its wholeness. -/
abbrev ms4_0 (t : Fin cfg4.N) : Memref sig .tc .vmem S2x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2x256 .f32 := win4_2.stage (cfg4.slots t 2)
abbrev hs4_2 (t : Fin cfg4.N) : (ms4_2 t).IsWhole := hstage4_2 ((cfg4.slots t 2).cast nbuf4_2)
/-- The accumulator: a whole scoped buffer of the kernel's own, passed beside the windows. -/
abbrev scM4_0 : Memref sig .tc .vmem S2x256 .f32 := Memref.whole cc4_scratch0
abbrev VS4_0 : View sig .tc .vmem S2x256 .f32 := scM4_0.view

/-- The scoped buffers that are neither a staging buffer of this region's windows nor the accumulator, at some
    contents each: carried through the region unopened. -/
abbrev rest4 (c : Dev nD) : sProp 𝕄 :=
  Pipeline.scopedRestBut (Ix := Unit) (Name := ℕ) (U := UR sig nD τ) (Lvl := ℕ) (Val := Elt F) spec4 c [cc4_scratch0]

/-- The class's invariant with the accumulator split off as a memref owned at some contents. -/
theorem PhiA4_eq (c : Dev nD) :
    (Pipeline.ΦA spec4 c : sProp 𝕄)
      = iprop(iprop((∃ d, owns (c : Thread nD τ) scM4_0 fullShare d) ∗ rest4 (F := F) c) ∗ (∃ r, prngReg c r)) := by
  unfold Pipeline.ΦA; rw [scopedRest4_split]; simp only [scM4_0, owns_whole]; try rfl

/-! ## The kernel body on any staging memrefs, case by case -/

set_option maxHeartbeats 1000000 in
/-- THE FIRST POINT (first conditional taken, second not). What the body's stores leave in the accumulator, as
    pieces (last first), with the proof that on whole memrefs — the inputs' at their contents `x0`, `x1`, the
    output's (idle here) at contents `xi2` handed back untouched, the accumulator at anything — the body runs to the
    continuation holding the inputs' and the output's as they were and the accumulator with its pieces written. The
    pieces are the witness the run finds. -/
noncomputable def kernelRun4_A (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond4_1 i) (hc2 : ¬cond4_2 i)
    (x0 : Vec F S2x2048 .f32) (x1 : Vec F S2048x256 .bf16) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__reduce_kernel i arg1 harg1 arg2 harg2 arg3 harg3 arg4 harg4) K } := by
  refine ⟨?_, fun xi2 E K => ?run⟩
  case run =>
    simp only [cc4__reduce_kernel_eq_skeleton]; unfold cc4__reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken): as at the first point, the accumulator at the contents `xs0` the
    point before left. -/
noncomputable def kernelRun4_B (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : ¬cond4_2 i)
    (x0 : Vec F S2x2048 .f32) (x1 : Vec F S2048x256 .bf16) (xs0 : Vec F S2x256 .f32) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__reduce_kernel i arg1 harg1 arg2 harg2 arg3 harg3 arg4 harg4) K } := by
  refine ⟨?_, fun xi2 E K => ?run⟩
  case run =>
    simp only [cc4__reduce_kernel_eq_skeleton]; unfold cc4__reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (first conditional not taken, second taken): the output's buffer at anything, left with its
    pieces written (`L2`); the accumulator as at a middle point. -/
noncomputable def kernelRun4_C (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i)
    (x0 : Vec F S2x2048 .f32) (x1 : Vec F S2048x256 .bf16) (xs0 : Vec F S2x256 .f32) :
    Σ' (L2 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc4__reduce_kernel i arg1 harg1 arg2 harg2 arg3 harg3 arg4 harg4) K } := by
  refine ⟨?_, ?_, fun E K => ?run⟩
  case run =>
    simp only [cc4__reduce_kernel_eq_skeleton]; unfold cc4__reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves -/

/-- The first point's pieces cover the accumulator (each store is of the whole buffer: checked by evaluation). -/
theorem scover4_A (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond4_1 i) (hc2 : ¬cond4_2 i)
    (x0 : Vec F S2x2048 .f32) (x1 : Vec F S2048x256 .bf16) (y : S2x256.Idx) :
    ∃ pc ∈ (kernelRun4_A c i arg1 harg1 arg2 harg2 arg3 harg3 arg4 harg4 hc1 hc2 x0 x1).1, y ∈ pc.1.set :=
  View.cover_of_tiledL (kernelRun4_A c i arg1 harg1 arg2 harg2 arg3 harg3 arg4 harg4 hc1 hc2 x0 x1).1 S2x256.size (by sl_kernel_rfl) y

/-- What the first point leaves in the accumulator: its pieces read back. -/
def sout4_A (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond4_1 i) (hc2 : ¬cond4_2 i)
    (x0 : Vec F S2x2048 .f32) (x1 : Vec F S2048x256 .bf16) : Vec F S2x256 .f32 :=
  VS4_0.read (Elt F) (VS4_0.writes (Elt F) VS4_0.junk (kernelRun4_A c i arg1 harg1 arg2 harg2 arg3 harg3 arg4 harg4 hc1 hc2 x0 x1).1)

theorem scover4_B (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : ¬cond4_2 i)
    (x0 : Vec F S2x2048 .f32) (x1 : Vec F S2048x256 .bf16) (xs0 : Vec F S2x256 .f32) (y : S2x256.Idx) :
    ∃ pc ∈ (kernelRun4_B c i arg1 harg1 arg2 harg2 arg3 harg3 arg4 harg4 hc1 hc2 x0 x1 xs0).1, y ∈ pc.1.set :=
  View.cover_of_tiledL (kernelRun4_B c i arg1 harg1 arg2 harg2 arg3 harg3 arg4 harg4 hc1 hc2 x0 x1 xs0).1 S2x256.size (by sl_kernel_rfl) y

/-- What a middle point leaves in the accumulator, over what the point before left (`xs0`). -/
def sout4_B (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : ¬cond4_2 i)
    (x0 : Vec F S2x2048 .f32) (x1 : Vec F S2048x256 .bf16) (xs0 : Vec F S2x256 .f32) : Vec F S2x256 .f32 :=
  VS4_0.read (Elt F) (VS4_0.writes (Elt F) VS4_0.junk (kernelRun4_B c i arg1 harg1 arg2 harg2 arg3 harg3 arg4 harg4 hc1 hc2 x0 x1 xs0).1)

theorem cover4_C (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i)
    (x0 : Vec F S2x2048 .f32) (x1 : Vec F S2048x256 .bf16) (xs0 : Vec F S2x256 .f32) (y : S2x256.Idx) :
    ∃ pc ∈ (kernelRun4_C c i arg1 harg1 arg2 harg2 arg3 harg3 arg4 harg4 hc1 hc2 x0 x1 xs0).1, y ∈ pc.1.set :=
  View.cover_of_tiledL (kernelRun4_C c i arg1 harg1 arg2 harg2 arg3 harg3 arg4 harg4 hc1 hc2 x0 x1 xs0).1 S2x256.size (by sl_kernel_rfl) y

/-- What the last point leaves in the output window's buffer. -/
def out4_C (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i)
    (x0 : Vec F S2x2048 .f32) (x1 : Vec F S2048x256 .bf16) (xs0 : Vec F S2x256 .f32) : Vec F S2x256 .f32 :=
  VO4_2.read (Elt F) (VO4_2.writes (Elt F) VO4_2.junk (kernelRun4_C c i arg1 harg1 arg2 harg2 arg3 harg3 arg4 harg4 hc1 hc2 x0 x1 xs0).1)

theorem scover4_C (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i)
    (x0 : Vec F S2x2048 .f32) (x1 : Vec F S2048x256 .bf16) (xs0 : Vec F S2x256 .f32) (y : S2x256.Idx) :
    ∃ pc ∈ (kernelRun4_C c i arg1 harg1 arg2 harg2 arg3 harg3 arg4 harg4 hc1 hc2 x0 x1 xs0).2.1, y ∈ pc.1.set :=
  View.cover_of_tiledL (kernelRun4_C c i arg1 harg1 arg2 harg2 arg3 harg3 arg4 harg4 hc1 hc2 x0 x1 xs0).2.1 S2x256.size (by sl_kernel_rfl) y

/-- What the last point leaves in the accumulator. -/
def sout4_C (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i)
    (x0 : Vec F S2x2048 .f32) (x1 : Vec F S2048x256 .bf16) (xs0 : Vec F S2x256 .f32) : Vec F S2x256 .f32 :=
  VS4_0.read (Elt F) (VS4_0.writes (Elt F) VS4_0.junk (kernelRun4_C c i arg1 harg1 arg2 harg2 arg3 harg3 arg4 harg4 hc1 hc2 x0 x1 xs0).2.1)

/-! ## What the accumulator and the output window's buffer hold after each point -/

/-- THE ACCUMULATION. What the accumulator holds after the body at position `n`: the first point's contents at
    the point's input blocks, then each point's over what the point before left. -/
def accAt4 (c : Dev nD) : (n : ℕ) → n < cfg4.N → Vec F S2x256 .f32
  | 0, hn => sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_1 ⟨0, hn⟩).mpr rfl) (fun h => (fun h => by (try dsimp only at h); omega) ((hcond4_2 ⟨0, hn⟩).mp h)) (iblk4 V c 0 ⟨0, hn⟩) (iblk4 V c 1 ⟨0, hn⟩)
  | n + 1, hn =>
    if h2 : n + 1 = 3 then
      sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => (fun h => by (try dsimp only at h); omega) ((hcond4_1 ⟨n + 1, hn⟩).mp h)) ((hcond4_2 ⟨n + 1, hn⟩).mpr h2) (iblk4 V c 0 ⟨n + 1, hn⟩) (iblk4 V c 1 ⟨n + 1, hn⟩) (accAt4 c n (Nat.lt_of_succ_lt hn))
    else
      sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => (fun h => by (try dsimp only at h); omega) ((hcond4_1 ⟨n + 1, hn⟩).mp h)) (fun h => h2 ((hcond4_2 ⟨n + 1, hn⟩).mp h)) (iblk4 V c 0 ⟨n + 1, hn⟩) (iblk4 V c 1 ⟨n + 1, hn⟩) (accAt4 c n (Nat.lt_of_succ_lt hn))

/-- `accAt4` at the first point. -/
theorem accAt4_A (c : Dev nD) (t : Fin cfg4.N) (h1 : t.val = 0) (h2 : ¬t.val = 3) :
    accAt4 V c t.val t.isLt = sout4_A c (grid4.coords t) (ms4_0 t) (hs4_0 t) (ms4_1 t) (hs4_1 t) (ms4_2 t) (hs4_2 t) scM4_0 (Memref.isWhole_whole _) ((hcond4_1 t).mpr h1) (fun h => h2 ((hcond4_2 t).mp h)) (iblk4 V c 0 t) (iblk4 V c 1 t) := by
  obtain ⟨n, hn⟩ := t
  cases n with
  | zero => exact rfl
  | succ n => exact absurd h1 (Nat.succ_ne_zero n)

/-- `accAt4` at a middle point: that case's contents, over what the point before left. -/
theorem accAt4_B (c : Dev nD) (t : Fin cfg4.N) (h1 : ¬t.val = 0) (h2 : ¬t.val = 3) :
    accAt4 V c t.val t.isLt = sout4_B c (grid4.coords t) (ms4_0 t) (hs4_0 t) (ms4_1 t) (hs4_1 t) (ms4_2 t) (hs4_2 t) scM4_0 (Memref.isWhole_whole _) (fun h => h1 ((hcond4_1 t).mp h)) (fun h => h2 ((hcond4_2 t).mp h)) (iblk4 V c 0 t) (iblk4 V c 1 t) (accAt4 V c (t.val - 1) (Nat.lt_of_le_of_lt (Nat.sub_le _ _) t.isLt)) := by
  obtain ⟨n, hn⟩ := t
  cases n with
  | zero => exact absurd rfl h1
  | succ n => exact (dif_neg h2).trans rfl

/-- `accAt4` at the last point. -/
theorem accAt4_C (c : Dev nD) (t : Fin cfg4.N) (h1 : ¬t.val = 0) (h2 : t.val = 3) :
    accAt4 V c t.val t.isLt = sout4_C c (grid4.coords t) (ms4_0 t) (hs4_0 t) (ms4_1 t) (hs4_1 t) (ms4_2 t) (hs4_2 t) scM4_0 (Memref.isWhole_whole _) (fun h => h1 ((hcond4_1 t).mp h)) ((hcond4_2 t).mpr h2) (iblk4 V c 0 t) (iblk4 V c 1 t) (accAt4 V c (t.val - 1) (Nat.lt_of_le_of_lt (Nat.sub_le _ _) t.isLt)) := by
  obtain ⟨n, hn⟩ := t
  cases n with
  | zero => exact absurd rfl h1
  | succ n => exact (dif_pos h2).trans rfl

/-- What the output window's buffer holds after the body at point `t`: at the last point what that case stores;
    elsewhere the window is idle and the value is a placeholder nothing consults. -/
def outAt4 (c : Dev nD) (t : Fin cfg4.N) : Vec F S2x256 .f32 :=
  if h2 : t.val = 3 then
    out4_C c (grid4.coords t) (ms4_0 t) (hs4_0 t) (ms4_1 t) (hs4_1 t) (ms4_2 t) (hs4_2 t) scM4_0 (Memref.isWhole_whole _) (fun h => (fun h => by omega) ((hcond4_1 t).mp h)) ((hcond4_2 t).mpr h2) (iblk4 V c 0 t) (iblk4 V c 1 t) (accAt4 V c (t.val - 1) (Nat.lt_of_le_of_lt (Nat.sub_le _ _) t.isLt))
  else VO4_2.read (Elt F) VO4_2.junk

theorem outAt4_C (c : Dev nD) (t : Fin cfg4.N) (h1 : ¬t.val = 0) (h2 : t.val = 3) :
    outAt4 V c t = out4_C c (grid4.coords t) (ms4_0 t) (hs4_0 t) (ms4_1 t) (hs4_1 t) (ms4_2 t) (hs4_2 t) scM4_0 (Memref.isWhole_whole _) (fun h => h1 ((hcond4_1 t).mp h)) ((hcond4_2 t).mpr h2) (iblk4 V c 0 t) (iblk4 V c 1 t) (accAt4 V c (t.val - 1) (Nat.lt_of_le_of_lt (Nat.sub_le _ _) t.isLt)) := by
  unfold outAt4; exact dif_pos h2

/-! ## The region invariant, point by point -/

/-- The invariant before position `n`: before the first point the class's (every scoped buffer that is no staging
    buffer at anything, the generator register at some state); afterwards the same with the accumulator at what the
    point before left in it. -/
def PhiS4 (c : Dev nD) : (n : ℕ) → n ≤ cfg4.N → sProp 𝕄
  | 0, _ => Pipeline.ΦA spec4 c
  | n + 1, hn => iprop(iprop(owns (c : Thread nD τ) scM4_0 fullShare (accAt4 V c n hn) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4_0 fullShare (accAt4 V c n hn) ∗ rest4 (F := F) c) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4_0 fullShare (accAt4 V c (n - 1) (by omega)) ∗ rest4 (F := F) c) ∗ (∃ r, prngReg c r)) := by
  cases n with
  | zero => exact absurd rfl hz
  | succ n => rfl

/-! ## The pipeline's proof data -/

/-- The proof data of pipeline 4 on core `c`: the arrays as the region finds them (`V`); after the body at point
    `t` each input's buffer at its block and the output's at `outAt4`; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => outAt4 V c t
  Φ t := PhiS4 V c t.val (Nat.le_of_lt_succ t.isLt)
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = outAt4 V c t := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in;
    the invariant hands the body the accumulator at what the point before left (at anything at the first point),
    the other scoped buffers and the generator register untouched, and takes the accumulator back at this point's
    contents; where the output window is idle its buffer is handed back as found; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  have hN : t.val < 4 := lt_of_lt_of_eq t.isLt (show cfg4.N = 4 from N_4)
  by_cases h1 : t.val = 0
  · have h2 : ¬t.val = 3 := by omega
    rw [Dat.leavesExact_idle (dat4 V c) 2 t (idleAt4_2 t (fun h => h2 ((hcond4_2 t).mp h))) (noFlush4_2 t (fun h => h2 ((hcond4_2 t).mp h)))]
    rw [accAt4_A V c t h1 h2]
    unfold sout4_A; (try dsimp only)
    rw [PhiS4_castSucc V c t, PhiS4_zero V c _ _ h1, PhiA4_eq]
    iintro ⟨⟨⟨HS0, HR⟩, Hg⟩, Ho, ⟨%d0, H0⟩, ⟨%d1, H1⟩, ⟨%d2, H2⟩⟩
    iapply ((kernelRun4_A c (grid4.coords t) _ _ _ _ _ _ _ _ ((hcond4_1 t).mpr h1) (fun h => h2 ((hcond4_2 t).mp h)) (iblk4 V c 0 t) (iblk4 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover4_A c _ _ _ _ _ _ _ _ _ _ _ _ _)
        iexact HR
      iexact Hg
    isplitl [Ho]; · iexact Ho
    isplitl [H0]; · iexact H0
    isplitl [H1]; · iexact H1
    iexists _; iexact H2
  · by_cases h2 : t.val = 3
    · rw [show (dat4 V c).leavesExact 2 t = owns (c : Thread nD τ) (ms4_2 t) fullShare ((dat4 V c).after 2 t) from by
        unfold Dat.leavesExact; rw [liveAt4_2 t ((hcond4_2 t).mpr h2)], after4_2]
      rw [accAt4_C V c t h1 h2, outAt4_C V c t h1 h2]
      unfold out4_C sout4_C; (try dsimp only)
      rw [PhiS4_castSucc V c t, PhiS4_pos V c _ _ h1]
      iintro ⟨⟨⟨HS0, HR⟩, Hg⟩, Ho, ⟨%d0, H0⟩, ⟨%d1, H1⟩, ⟨%d2, H2⟩⟩
      iapply ((kernelRun4_C c (grid4.coords t) _ _ _ _ _ _ _ _ (fun h => h1 ((hcond4_1 t).mp h)) ((hcond4_2 t).mpr h2) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C c _ _ _ _ _ _ _ _ _ _ _ _ _ _)
    · rw [Dat.leavesExact_idle (dat4 V c) 2 t (idleAt4_2 t (fun h => h2 ((hcond4_2 t).mp h))) (noFlush4_2 t (fun h => h2 ((hcond4_2 t).mp h)))]
      rw [accAt4_B V c t h1 h2]
      unfold sout4_B; (try dsimp only)
      rw [PhiS4_castSucc V c t, PhiS4_pos V c _ _ h1]
      iintro ⟨⟨⟨HS0, HR⟩, Hg⟩, Ho, ⟨%d0, H0⟩, ⟨%d1, H1⟩, ⟨%d2, H2⟩⟩
      iapply ((kernelRun4_B c (grid4.coords t) _ _ _ _ _ _ _ _ (fun h => h1 ((hcond4_1 t).mp h)) (fun h => h2 ((hcond4_2 t).mp h)) (iblk4 V c 0 t) (iblk4 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's entry and exit -/

/-- What the launch hands the region — the generator register, no prefetched table, the scoped buffers no window
    stages — is the invariant before the first point. -/
theorem hin4 (c : Dev nD) : iprop((∃ r, prngReg c r) ∗ Pipeline.prefHeld (pcfgs (F := F) 4).pre c (fun _ => fullShare) ((cfgs 4).toPCfg_adm).1 ∗ Pipeline.scopedRest spec4 c) ⊢ ((dat4 V c).Φ 0 : sProp 𝕄) := by
  rw [show (dat4 V c).Φ 0 = PhiS4 V c 0 (Nat.zero_le _) from rfl, PhiS4_zero V c 0 _ rfl]; unfold Pipeline.ΦA
  iintro ⟨Hp, -, Hr⟩
  isplitl [Hr]; · iexact Hr
  iexact Hp

/-- After the last point the invariant gives them back: the accumulator's named contents are forgotten. -/
theorem hout4 (c : Dev nD) : ((dat4 V c).Φ (Fin.last cfg4.N) : sProp 𝕄) ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec4 c) := by
  have hne : (Fin.last cfg4.N).val ≠ 0 := by rw [Fin.val_last]; have : cfg4.N = 4 := N_4; omega
  rw [Pipeline.ownSems0_none, show (dat4 V c).Φ (Fin.last cfg4.N) = PhiS4 V c (Fin.last cfg4.N).val (Nat.le_of_lt_succ (Fin.last cfg4.N).isLt) from rfl,
    PhiS4_pos V c _ _ hne, scopedRest4_split]
  iintro ⟨⟨HS0, HR⟩, Hg⟩
  isplitl [Hg]; · iexact Hg
  isplitr; · iempintro
  isplitl [HS0]
  · simp only [scM4_0, owns_whole]; iexists _; iexact HS0
  iexact HR

end Cert.Kernel.Hand

end
-- ==== Proof.K.Reg5.lean ====
/- Region 5 of the kernel program (the scatter kernel: a block of rows, each the positive part of a combination of
   the two rows of a small operand with coefficients read off two columns): each window's block at a point read off
   the contents the region is entered with (`V`, a parameter), what the body leaves in the output window's buffer,
   the body's triple, the region's proof data and its body obligation. -/
import proofs.«172208_j80221399155047_2_alg».proof.Proof.Gen.Kernel.Launch
import proofs.«172208_j80221399155047_2_alg».proof.Proof.Gen.Kernel.Skeleton
import proofs.«172208_j80221399155047_2_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input window's current staging buffer holds its block at every point, fetched there or not, for any proof
    data whose array is `V`'s (`hA`) and whose body leaves the block in place (`hafter`): unfetched, the
    block index has not moved; the windows are uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S2048x1 := Rect.unit (s := S2048x1) ![0, 0] S2048x1.size inb_S2048x1_S2048x1_0_0
abbrev r5_1 : Rect S2x256 := Rect.unit (s := S2x256) ![0, 0] S2x256.size inb_S2x256_S2x256_0_0
abbrev r5_2 : Rect S2048x256 := Rect.unit (s := S2048x256) ![0, 0] S2048x256.size inb_S2048x256_S2048x256_0_0

/-! ## What the body leaves in the output window's buffer -/

/-- Window 3's staging buffer after the body, from the input windows' blocks: its one store as a piece. -/
def out5_3 (x0 : Vec F S2048x1 .f32) (x1 : Vec F S2048x1 .f32) (x2 : Vec F S2x256 .f32) : Vec F S2048x256 .bf16 :=
  View.canon [⟨r5_2, k5_pay1 (View.ld x0 r5_0) (View.ld x1 r5_0) (View.ld x2 r5_1)⟩]

/-- Its store tiles the buffer (checked by evaluation), so it covers it. -/
theorem cover5_3 (p0 : Vec F S2048x256 .bf16) (y : S2048x256.Idx) :
    ∃ pc ∈ ([⟨r5_2, p0⟩] : List (View.Piece (Elt F) S2048x256 .bf16)), y ∈ pc.1.set :=
  View.cover_of_tiled [⟨r5_2, p0⟩] S2048x256.size (by rfl) y

/-! ## The body's triple -/

set_option maxHeartbeats 1000000 in
/-- The kernel body on whole staging memrefs, the inputs' at read contents `xW` and the output's at anything, runs to
    the continuation holding the inputs' as they were and the output's at `out5_3` of the inputs'. -/
theorem sound_kernel5 (c : Dev nD) (E : Set ℕ) (i : grid5.Coords) (arg1 : Memref sig .tc .vmem S2048x1 .f32) (harg1 : arg1.IsWhole) (arg2 : Memref sig .tc .vmem S2048x1 .f32) (harg2 : arg2.IsWhole) (arg3 : Memref sig .tc .vmem S2x256 .f32) (harg3 : arg3.IsWhole) (arg4 : Memref sig .tc .vmem S2048x256 .bf16) (harg4 : arg4.IsWhole)
    (x0 : Vec F S2048x1 .f32) (x1 : Vec F S2048x1 .f32) (x2 : Vec F S2x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__scatter_kernel i arg1 harg1 arg2 harg2 arg3 harg3 arg4 harg4) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at
    point `t` each input's buffer at its block and the output's at `out5_3` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/- Region 6 of the kernel program (the linear kernel: a block of rows times the whole weight matrix): each
   window's block at a point read off the contents the region is entered with (`V`, a parameter), what the
   body leaves in the output window's buffer, the body's triple, the region's proof data and its body
   obligation. -/
import proofs.«172208_j80221399155047_2_alg».proof.Proof.Gen.Kernel.Launch
import proofs.«172208_j80221399155047_2_alg».proof.Proof.Gen.Kernel.Skeleton
import proofs.«172208_j80221399155047_2_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the
    block index has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same for input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S2048x256 := Rect.unit (s := S2048x256) ![0, 0] S2048x256.size inb_S2048x256_S2048x256_0_0
abbrev r6_1 : Rect S256x256 := Rect.unit (s := S256x256) ![0, 0] S256x256.size inb_S256x256_S256x256_0_0

/-! ## What the body leaves in the output window's buffer -/

/-- Window 2's staging buffer after the body, from the input windows' blocks: its one store as a piece. -/
def out6_2 (x0 : Vec F S2048x256 .bf16) (x1 : Vec F S256x256 .f32) : Vec F S2048x256 .bf16 :=
  View.canon [⟨r6_0, k6_pay1 (View.ld x0 r6_0) (View.ld x1 r6_1)⟩]

/-- Its store tiles the buffer (checked by evaluation), so it covers it. -/
theorem cover6_2 (p0 : Vec F S2048x256 .bf16) (y : S2048x256.Idx) :
    ∃ pc ∈ ([⟨r6_0, p0⟩] : List (View.Piece (Elt F) S2048x256 .bf16)), y ∈ pc.1.set :=
  View.cover_of_tiled [⟨r6_0, p0⟩] S2048x256.size (by rfl) y

/-! ## The body's triple -/

set_option maxHeartbeats 1000000 in
/-- The kernel body on whole staging memrefs, the inputs' at read contents `xW` and the output's at anything, runs to
    the continuation holding the inputs' as they were and the output's at `out6_2` of the inputs'. -/
theorem sound_kernel6 (c : Dev nD) (E : Set ℕ) (i : grid6.Coords) (arg1 : Memref sig .tc .vmem S2048x256 .bf16) (harg1 : arg1.IsWhole) (arg2 : Memref sig .tc .vmem S256x256 .f32) (harg2 : arg2.IsWhole) (arg3 : Memref sig .tc .vmem S2048x256 .bf16) (harg3 : arg3.IsWhole)
    (x0 : Vec F S2048x256 .bf16) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at
    point `t` each input's buffer at its block and the output's at `out6_2` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
/- Region 7 of the kernel program (the reduce kernel: at every grid point a [2,2048] band of the left operand
   times a [2048,256] band of the right one, added into a [2,256] accumulator the kernel keeps in a scratch buffer
   of its own, zeroed at the first point and copied to the output window at the last): the body's branch
   conditions in closed form, the body's triple in each of its three cases, what the accumulator and the output
   window's buffer hold after each point, the region's proof data — whose invariant carries the accumulator from
   point to point —, its body obligation, and the invariant's entry and exit. -/
import proofs.«172208_j80221399155047_2_alg».proof.Proof.Gen.Kernel.Launch
import proofs.«172208_j80221399155047_2_alg».proof.Proof.Gen.Kernel.Skeleton
import proofs.«172208_j80221399155047_2_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the
    block index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The condition of the body's first conditional (the accumulator is zeroed), from the grid coordinates. -/
abbrev cond7_1 (i : grid7.Coords) : Prop := (Scalar.cmpi .ne (Scalar.extui (Scalar.cmpi .eq (BitVec.ofNat 32 (i 0).val) 0#32)) 0#32) = 1#1
/-- It holds at the first point only — decided over the grid. -/
theorem hcond7_1 : ∀ t : Fin cfg7.N, cond7_1 (grid7.coords t) ↔ t.val = 0 :=
  (by decide +kernel : ∀ t : Fin grid7.N, cond7_1 (grid7.coords t) ↔ t.val = 0)

/-- The condition of the body's second conditional (the accumulator is copied to the output window). -/
abbrev cond7_2 (i : grid7.Coords) : Prop := k7_cond2 i = 1#1
/-- It holds at the last point only — decided over the grid. -/
theorem hcond7_2 : ∀ t : Fin cfg7.N, cond7_2 (grid7.coords t) ↔ t.val = 3 :=
  (by decide +kernel : ∀ t : Fin grid7.N, cond7_2 (grid7.coords t) ↔ t.val = 3)

/-! ## Where the windows are idle -/

/-- The input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
/-- Where the second conditional fails the output window is idle: the body stores nothing into it, -/
theorem idleAt7_2 : ∀ t : Fin cfg7.N, ¬cond7_2 (grid7.coords t) → cfg7.idle 2 (grid7.coords t) = true := by decide +kernel
/-- and the pipeline does not write its block back. -/
theorem noFlush7_2 : ∀ t : Fin cfg7.N, ¬cond7_2 (grid7.coords t) → (cfg7.win 2).flush t = false := by decide +kernel
/-- Where it holds the output window is live. -/
theorem liveAt7_2 : ∀ t : Fin cfg7.N, cond7_2 (grid7.coords t) → cfg7.idle 2 (grid7.coords t) = false := by decide +kernel

/-! ## The memrefs the body is called with -/

/-- The output window's one staging buffer as a view, through which its contents are stated (any view of the
    shape reads a covering list of writes alike). -/
abbrev VO7_2 : View sig .tc .vmem S2x256 .f32 := (Memref.whole cc7_stg2_0 : Memref sig .tc .vmem S2x256 .f32).view
/-- Each window's current staging memref at point `t`, spelt as the pipeline passes it, and its wholeness. -/
abbrev ms7_0 (t : Fin cfg7.N) : Memref sig .tc .vmem S2x2048 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x256 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2x256 .f32 := win7_2.stage (cfg7.slots t 2)
abbrev hs7_2 (t : Fin cfg7.N) : (ms7_2 t).IsWhole := hstage7_2 ((cfg7.slots t 2).cast nbuf7_2)
/-- The accumulator: a whole scoped buffer of the kernel's own, passed beside the windows. -/
abbrev scM7_0 : Memref sig .tc .vmem S2x256 .f32 := Memref.whole cc7_scratch0
abbrev VS7_0 : View sig .tc .vmem S2x256 .f32 := scM7_0.view

/-- The scoped buffers that are neither a staging buffer of this region's windows nor the accumulator, at some
    contents each: carried through the region unopened. -/
abbrev rest7 (c : Dev nD) : sProp 𝕄 :=
  Pipeline.scopedRestBut (Ix := Unit) (Name := ℕ) (U := UR sig nD τ) (Lvl := ℕ) (Val := Elt F) spec7 c [cc7_scratch0]

/-- The class's invariant with the accumulator split off as a memref owned at some contents. -/
theorem PhiA7_eq (c : Dev nD) :
    (Pipeline.ΦA spec7 c : sProp 𝕄)
      = iprop(iprop((∃ d, owns (c : Thread nD τ) scM7_0 fullShare d) ∗ rest7 (F := F) c) ∗ (∃ r, prngReg c r)) := by
  unfold Pipeline.ΦA; rw [scopedRest7_split]; simp only [scM7_0, owns_whole]; try rfl

/-! ## The kernel body on any staging memrefs, case by case -/

set_option maxHeartbeats 1000000 in
/-- THE FIRST POINT (first conditional taken, second not). What the body's stores leave in the accumulator, as
    pieces (last first), with the proof that on whole memrefs — the inputs' at their contents `x0`, `x1`, the
    output's (idle here) at contents `xi2` handed back untouched, the accumulator at anything — the body runs to the
    continuation holding the inputs' and the output's as they were and the accumulator with its pieces written. The
    pieces are the witness the run finds. -/
noncomputable def kernelRun7_A (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond7_1 i) (hc2 : ¬cond7_2 i)
    (x0 : Vec F S2x2048 .f32) (x1 : Vec F S2048x256 .bf16) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc7__reduce_kernel i arg1 harg1 arg2 harg2 arg3 harg3 arg4 harg4) K } := by
  refine ⟨?_, fun xi2 E K => ?run⟩
  case run =>
    simp only [cc7__reduce_kernel_eq_skeleton]; unfold cc7__reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken): as at the first point, the accumulator at the contents `xs0` the
    point before left. -/
noncomputable def kernelRun7_B (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : ¬cond7_2 i)
    (x0 : Vec F S2x2048 .f32) (x1 : Vec F S2048x256 .bf16) (xs0 : Vec F S2x256 .f32) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc7__reduce_kernel i arg1 harg1 arg2 harg2 arg3 harg3 arg4 harg4) K } := by
  refine ⟨?_, fun xi2 E K => ?run⟩
  case run =>
    simp only [cc7__reduce_kernel_eq_skeleton]; unfold cc7__reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (first conditional not taken, second taken): the output's buffer at anything, left with its
    pieces written (`L2`); the accumulator as at a middle point. -/
noncomputable def kernelRun7_C (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i)
    (x0 : Vec F S2x2048 .f32) (x1 : Vec F S2048x256 .bf16) (xs0 : Vec F S2x256 .f32) :
    Σ' (L2 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc7__reduce_kernel i arg1 harg1 arg2 harg2 arg3 harg3 arg4 harg4) K } := by
  refine ⟨?_, ?_, fun E K => ?run⟩
  case run =>
    simp only [cc7__reduce_kernel_eq_skeleton]; unfold cc7__reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves -/

/-- The first point's pieces cover the accumulator (each store is of the whole buffer: checked by evaluation). -/
theorem scover7_A (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond7_1 i) (hc2 : ¬cond7_2 i)
    (x0 : Vec F S2x2048 .f32) (x1 : Vec F S2048x256 .bf16) (y : S2x256.Idx) :
    ∃ pc ∈ (kernelRun7_A c i arg1 harg1 arg2 harg2 arg3 harg3 arg4 harg4 hc1 hc2 x0 x1).1, y ∈ pc.1.set :=
  View.cover_of_tiledL (kernelRun7_A c i arg1 harg1 arg2 harg2 arg3 harg3 arg4 harg4 hc1 hc2 x0 x1).1 S2x256.size (by sl_kernel_rfl) y

/-- What the first point leaves in the accumulator: its pieces read back. -/
def sout7_A (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond7_1 i) (hc2 : ¬cond7_2 i)
    (x0 : Vec F S2x2048 .f32) (x1 : Vec F S2048x256 .bf16) : Vec F S2x256 .f32 :=
  VS7_0.read (Elt F) (VS7_0.writes (Elt F) VS7_0.junk (kernelRun7_A c i arg1 harg1 arg2 harg2 arg3 harg3 arg4 harg4 hc1 hc2 x0 x1).1)

theorem scover7_B (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : ¬cond7_2 i)
    (x0 : Vec F S2x2048 .f32) (x1 : Vec F S2048x256 .bf16) (xs0 : Vec F S2x256 .f32) (y : S2x256.Idx) :
    ∃ pc ∈ (kernelRun7_B c i arg1 harg1 arg2 harg2 arg3 harg3 arg4 harg4 hc1 hc2 x0 x1 xs0).1, y ∈ pc.1.set :=
  View.cover_of_tiledL (kernelRun7_B c i arg1 harg1 arg2 harg2 arg3 harg3 arg4 harg4 hc1 hc2 x0 x1 xs0).1 S2x256.size (by sl_kernel_rfl) y

/-- What a middle point leaves in the accumulator, over what the point before left (`xs0`). -/
def sout7_B (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : ¬cond7_2 i)
    (x0 : Vec F S2x2048 .f32) (x1 : Vec F S2048x256 .bf16) (xs0 : Vec F S2x256 .f32) : Vec F S2x256 .f32 :=
  VS7_0.read (Elt F) (VS7_0.writes (Elt F) VS7_0.junk (kernelRun7_B c i arg1 harg1 arg2 harg2 arg3 harg3 arg4 harg4 hc1 hc2 x0 x1 xs0).1)

theorem cover7_C (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i)
    (x0 : Vec F S2x2048 .f32) (x1 : Vec F S2048x256 .bf16) (xs0 : Vec F S2x256 .f32) (y : S2x256.Idx) :
    ∃ pc ∈ (kernelRun7_C c i arg1 harg1 arg2 harg2 arg3 harg3 arg4 harg4 hc1 hc2 x0 x1 xs0).1, y ∈ pc.1.set :=
  View.cover_of_tiledL (kernelRun7_C c i arg1 harg1 arg2 harg2 arg3 harg3 arg4 harg4 hc1 hc2 x0 x1 xs0).1 S2x256.size (by sl_kernel_rfl) y

/-- What the last point leaves in the output window's buffer. -/
def out7_C (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i)
    (x0 : Vec F S2x2048 .f32) (x1 : Vec F S2048x256 .bf16) (xs0 : Vec F S2x256 .f32) : Vec F S2x256 .f32 :=
  VO7_2.read (Elt F) (VO7_2.writes (Elt F) VO7_2.junk (kernelRun7_C c i arg1 harg1 arg2 harg2 arg3 harg3 arg4 harg4 hc1 hc2 x0 x1 xs0).1)

theorem scover7_C (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i)
    (x0 : Vec F S2x2048 .f32) (x1 : Vec F S2048x256 .bf16) (xs0 : Vec F S2x256 .f32) (y : S2x256.Idx) :
    ∃ pc ∈ (kernelRun7_C c i arg1 harg1 arg2 harg2 arg3 harg3 arg4 harg4 hc1 hc2 x0 x1 xs0).2.1, y ∈ pc.1.set :=
  View.cover_of_tiledL (kernelRun7_C c i arg1 harg1 arg2 harg2 arg3 harg3 arg4 harg4 hc1 hc2 x0 x1 xs0).2.1 S2x256.size (by sl_kernel_rfl) y

/-- What the last point leaves in the accumulator. -/
def sout7_C (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i)
    (x0 : Vec F S2x2048 .f32) (x1 : Vec F S2048x256 .bf16) (xs0 : Vec F S2x256 .f32) : Vec F S2x256 .f32 :=
  VS7_0.read (Elt F) (VS7_0.writes (Elt F) VS7_0.junk (kernelRun7_C c i arg1 harg1 arg2 harg2 arg3 harg3 arg4 harg4 hc1 hc2 x0 x1 xs0).2.1)

/-! ## What the accumulator and the output window's buffer hold after each point -/

/-- THE ACCUMULATION. What the accumulator holds after the body at position `n`: the first point's contents at
    the point's input blocks, then each point's over what the point before left. -/
def accAt7 (c : Dev nD) : (n : ℕ) → n < cfg7.N → Vec F S2x256 .f32
  | 0, hn => sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) ((hcond7_1 ⟨0, hn⟩).mpr rfl) (fun h => (fun h => by (try dsimp only at h); omega) ((hcond7_2 ⟨0, hn⟩).mp h)) (iblk7 V c 0 ⟨0, hn⟩) (iblk7 V c 1 ⟨0, hn⟩)
  | n + 1, hn =>
    if h2 : n + 1 = 3 then
      sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => (fun h => by (try dsimp only at h); omega) ((hcond7_1 ⟨n + 1, hn⟩).mp h)) ((hcond7_2 ⟨n + 1, hn⟩).mpr h2) (iblk7 V c 0 ⟨n + 1, hn⟩) (iblk7 V c 1 ⟨n + 1, hn⟩) (accAt7 c n (Nat.lt_of_succ_lt hn))
    else
      sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => (fun h => by (try dsimp only at h); omega) ((hcond7_1 ⟨n + 1, hn⟩).mp h)) (fun h => h2 ((hcond7_2 ⟨n + 1, hn⟩).mp h)) (iblk7 V c 0 ⟨n + 1, hn⟩) (iblk7 V c 1 ⟨n + 1, hn⟩) (accAt7 c n (Nat.lt_of_succ_lt hn))

/-- `accAt7` at the first point. -/
theorem accAt7_A (c : Dev nD) (t : Fin cfg7.N) (h1 : t.val = 0) (h2 : ¬t.val = 3) :
    accAt7 V c t.val t.isLt = sout7_A c (grid7.coords t) (ms7_0 t) (hs7_0 t) (ms7_1 t) (hs7_1 t) (ms7_2 t) (hs7_2 t) scM7_0 (Memref.isWhole_whole _) ((hcond7_1 t).mpr h1) (fun h => h2 ((hcond7_2 t).mp h)) (iblk7 V c 0 t) (iblk7 V c 1 t) := by
  obtain ⟨n, hn⟩ := t
  cases n with
  | zero => exact rfl
  | succ n => exact absurd h1 (Nat.succ_ne_zero n)

/-- `accAt7` at a middle point: that case's contents, over what the point before left. -/
theorem accAt7_B (c : Dev nD) (t : Fin cfg7.N) (h1 : ¬t.val = 0) (h2 : ¬t.val = 3) :
    accAt7 V c t.val t.isLt = sout7_B c (grid7.coords t) (ms7_0 t) (hs7_0 t) (ms7_1 t) (hs7_1 t) (ms7_2 t) (hs7_2 t) scM7_0 (Memref.isWhole_whole _) (fun h => h1 ((hcond7_1 t).mp h)) (fun h => h2 ((hcond7_2 t).mp h)) (iblk7 V c 0 t) (iblk7 V c 1 t) (accAt7 V c (t.val - 1) (Nat.lt_of_le_of_lt (Nat.sub_le _ _) t.isLt)) := by
  obtain ⟨n, hn⟩ := t
  cases n with
  | zero => exact absurd rfl h1
  | succ n => exact (dif_neg h2).trans rfl

/-- `accAt7` at the last point. -/
theorem accAt7_C (c : Dev nD) (t : Fin cfg7.N) (h1 : ¬t.val = 0) (h2 : t.val = 3) :
    accAt7 V c t.val t.isLt = sout7_C c (grid7.coords t) (ms7_0 t) (hs7_0 t) (ms7_1 t) (hs7_1 t) (ms7_2 t) (hs7_2 t) scM7_0 (Memref.isWhole_whole _) (fun h => h1 ((hcond7_1 t).mp h)) ((hcond7_2 t).mpr h2) (iblk7 V c 0 t) (iblk7 V c 1 t) (accAt7 V c (t.val - 1) (Nat.lt_of_le_of_lt (Nat.sub_le _ _) t.isLt)) := by
  obtain ⟨n, hn⟩ := t
  cases n with
  | zero => exact absurd rfl h1
  | succ n => exact (dif_pos h2).trans rfl

/-- What the output window's buffer holds after the body at point `t`: at the last point what that case stores;
    elsewhere the window is idle and the value is a placeholder nothing consults. -/
def outAt7 (c : Dev nD) (t : Fin cfg7.N) : Vec F S2x256 .f32 :=
  if h2 : t.val = 3 then
    out7_C c (grid7.coords t) (ms7_0 t) (hs7_0 t) (ms7_1 t) (hs7_1 t) (ms7_2 t) (hs7_2 t) scM7_0 (Memref.isWhole_whole _) (fun h => (fun h => by omega) ((hcond7_1 t).mp h)) ((hcond7_2 t).mpr h2) (iblk7 V c 0 t) (iblk7 V c 1 t) (accAt7 V c (t.val - 1) (Nat.lt_of_le_of_lt (Nat.sub_le _ _) t.isLt))
  else VO7_2.read (Elt F) VO7_2.junk

theorem outAt7_C (c : Dev nD) (t : Fin cfg7.N) (h1 : ¬t.val = 0) (h2 : t.val = 3) :
    outAt7 V c t = out7_C c (grid7.coords t) (ms7_0 t) (hs7_0 t) (ms7_1 t) (hs7_1 t) (ms7_2 t) (hs7_2 t) scM7_0 (Memref.isWhole_whole _) (fun h => h1 ((hcond7_1 t).mp h)) ((hcond7_2 t).mpr h2) (iblk7 V c 0 t) (iblk7 V c 1 t) (accAt7 V c (t.val - 1) (Nat.lt_of_le_of_lt (Nat.sub_le _ _) t.isLt)) := by
  unfold outAt7; exact dif_pos h2

/-! ## The region invariant, point by point -/

/-- The invariant before position `n`: before the first point the class's (every scoped buffer that is no staging
    buffer at anything, the generator register at some state); afterwards the same with the accumulator at what the
    point before left in it. -/
def PhiS7 (c : Dev nD) : (n : ℕ) → n ≤ cfg7.N → sProp 𝕄
  | 0, _ => Pipeline.ΦA spec7 c
  | n + 1, hn => iprop(iprop(owns (c : Thread nD τ) scM7_0 fullShare (accAt7 V c n hn) ∗ rest7 (F := F) c) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (c : Dev nD) (n : ℕ) (hn : n < cfg7.N) :
    PhiS7 V c (n + 1) hn = iprop(iprop(owns (c : Thread nD τ) scM7_0 fullShare (accAt7 V c n hn) ∗ rest7 (F := F) c) ∗ (∃ r, prngReg c r)) := rfl

/-- Before a point that is not the first: the accumulator at what the point before left. -/
theorem PhiS7_pos (c : Dev nD) (n : ℕ) (h : n ≤ cfg7.N) (hz : n ≠ 0) :
    PhiS7 V c n h = iprop(iprop(owns (c : Thread nD τ) scM7_0 fullShare (accAt7 V c (n - 1) (by omega)) ∗ rest7 (F := F) c) ∗ (∃ r, prngReg c r)) := by
  cases n with
  | zero => exact absurd rfl hz
  | succ n => rfl

/-! ## The pipeline's proof data -/

/-- The proof data of pipeline 7 on core `c`: the arrays as the region finds them (`V`); after the body at point
    `t` each input's buffer at its block and the output's at `outAt7`; the invariant `PhiS7`; nothing owed; full
    shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => outAt7 V c t
  Φ t := PhiS7 V c t.val (Nat.le_of_lt_succ t.isLt)
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = outAt7 V c t := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the inputs' memrefs hold their blocks; the closed forms say which case the point is in;
    the invariant hands the body the accumulator at what the point before left (at anything at the first point),
    the other scoped buffers and the generator register untouched, and takes the accumulator back at this point's
    contents; where the output window is idle its buffer is handed back as found; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  have hN : t.val < 4 := lt_of_lt_of_eq t.isLt (show cfg7.N = 4 from N_7)
  by_cases h1 : t.val = 0
  · have h2 : ¬t.val = 3 := by omega
    rw [Dat.leavesExact_idle (dat7 V c) 2 t (idleAt7_2 t (fun h => h2 ((hcond7_2 t).mp h))) (noFlush7_2 t (fun h => h2 ((hcond7_2 t).mp h)))]
    rw [accAt7_A V c t h1 h2]
    unfold sout7_A; (try dsimp only)
    rw [PhiS7_castSucc V c t, PhiS7_zero V c _ _ h1, PhiA7_eq]
    iintro ⟨⟨⟨HS0, HR⟩, Hg⟩, Ho, ⟨%d0, H0⟩, ⟨%d1, H1⟩, ⟨%d2, H2⟩⟩
    iapply ((kernelRun7_A c (grid7.coords t) _ _ _ _ _ _ _ _ ((hcond7_1 t).mpr h1) (fun h => h2 ((hcond7_2 t).mp h)) (iblk7 V c 0 t) (iblk7 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover7_A c _ _ _ _ _ _ _ _ _ _ _ _ _)
        iexact HR
      iexact Hg
    isplitl [Ho]; · iexact Ho
    isplitl [H0]; · iexact H0
    isplitl [H1]; · iexact H1
    iexists _; iexact H2
  · by_cases h2 : t.val = 3
    · rw [show (dat7 V c).leavesExact 2 t = owns (c : Thread nD τ) (ms7_2 t) fullShare ((dat7 V c).after 2 t) from by
        unfold Dat.leavesExact; rw [liveAt7_2 t ((hcond7_2 t).mpr h2)], after7_2]
      rw [accAt7_C V c t h1 h2, outAt7_C V c t h1 h2]
      unfold out7_C sout7_C; (try dsimp only)
      rw [PhiS7_castSucc V c t, PhiS7_pos V c _ _ h1]
      iintro ⟨⟨⟨HS0, HR⟩, Hg⟩, Ho, ⟨%d0, H0⟩, ⟨%d1, H1⟩, ⟨%d2, H2⟩⟩
      iapply ((kernelRun7_C c (grid7.coords t) _ _ _ _ _ _ _ _ (fun h => h1 ((hcond7_1 t).mp h)) ((hcond7_2 t).mpr h2) (iblk7 V c 0 t) (iblk7 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover7_C c _ _ _ _ _ _ _ _ _ _ _ _ _ _)
    · rw [Dat.leavesExact_idle (dat7 V c) 2 t (idleAt7_2 t (fun h => h2 ((hcond7_2 t).mp h))) (noFlush7_2 t (fun h => h2 ((hcond7_2 t).mp h)))]
      rw [accAt7_B V c t h1 h2]
      unfold sout7_B; (try dsimp only)
      rw [PhiS7_castSucc V c t, PhiS7_pos V c _ _ h1]
      iintro ⟨⟨⟨HS0, HR⟩, Hg⟩, Ho, ⟨%d0, H0⟩, ⟨%d1, H1⟩, ⟨%d2, H2⟩⟩
      iapply ((kernelRun7_B c (grid7.coords t) _ _ _ _ _ _ _ _ (fun h => h1 ((hcond7_1 t).mp h)) (fun h => h2 ((hcond7_2 t).mp h)) (iblk7 V c 0 t) (iblk7 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's entry and exit -/

/-- What the launch hands the region — the generator register, no prefetched table, the scoped buffers no window
    stages — is the invariant before the first point. -/
theorem hin7 (c : Dev nD) : iprop((∃ r, prngReg c r) ∗ Pipeline.prefHeld (pcfgs (F := F) 7).pre c (fun _ => fullShare) ((cfgs 7).toPCfg_adm).1 ∗ Pipeline.scopedRest spec7 c) ⊢ ((dat7 V c).Φ 0 : sProp 𝕄) := by
  rw [show (dat7 V c).Φ 0 = PhiS7 V c 0 (Nat.zero_le _) from rfl, PhiS7_zero V c 0 _ rfl]; unfold Pipeline.ΦA
  iintro ⟨Hp, -, Hr⟩
  isplitl [Hr]; · iexact Hr
  iexact Hp

/-- After the last point the invariant gives them back: the accumulator's named contents are forgotten. -/
theorem hout7 (c : Dev nD) : ((dat7 V c).Φ (Fin.last cfg7.N) : sProp 𝕄) ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec7 c) := by
  have hne : (Fin.last cfg7.N).val ≠ 0 := by rw [Fin.val_last]; have : cfg7.N = 4 := N_7; omega
  rw [Pipeline.ownSems0_none, show (dat7 V c).Φ (Fin.last cfg7.N) = PhiS7 V c (Fin.last cfg7.N).val (Nat.le_of_lt_succ (Fin.last cfg7.N).isLt) from rfl,
    PhiS7_pos V c _ _ hne, scopedRest7_split]
  iintro ⟨⟨HS0, HR⟩, Hg⟩
  isplitl [Hg]; · iexact Hg
  isplitr; · iempintro
  isplitl [HS0]
  · simp only [scM7_0, owns_whole]; iexists _; iexact HS0
  iexact HR

end Cert.Kernel.Hand

end
-- ==== Proof.K.Reg8.lean ====
/- Region 8 of the kernel program (the scatter kernel: a block of rows, each the positive part of a combination of
   the two rows of a small operand with coefficients read off two columns): each window's block at a point read off
   the contents the region is entered with (`V`, a parameter), what the body leaves in the output window's buffer,
   the body's triple, the region's proof data and its body obligation. -/
import proofs.«172208_j80221399155047_2_alg».proof.Proof.Gen.Kernel.Launch
import proofs.«172208_j80221399155047_2_alg».proof.Proof.Gen.Kernel.Skeleton
import proofs.«172208_j80221399155047_2_alg».proof.Proof.Gen.Kernel.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input window's current staging buffer holds its block at every point, fetched there or not, for any proof
    data whose array is `V`'s (`hA`) and whose body leaves the block in place (`hafter`): unfetched, the
    block index has not moved; the windows are uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S2048x1 := Rect.unit (s := S2048x1) ![0, 0] S2048x1.size inb_S2048x1_S2048x1_0_0
abbrev r8_1 : Rect S2x256 := Rect.unit (s := S2x256) ![0, 0] S2x256.size inb_S2x256_S2x256_0_0
abbrev r8_2 : Rect S2048x256 := Rect.unit (s := S2048x256) ![0, 0] S2048x256.size inb_S2048x256_S2048x256_0_0

/-! ## What the body leaves in the output window's buffer -/

/-- Window 3's staging buffer after the body, from the input windows' blocks: its one store as a piece. -/
def out8_3 (x0 : Vec F S2048x1 .f32) (x1 : Vec F S2048x1 .f32) (x2 : Vec F S2x256 .f32) : Vec F S2048x256 .f32 :=
  View.canon [⟨r8_2, k8_pay1 (View.ld x0 r8_0) (View.ld x1 r8_0) (View.ld x2 r8_1)⟩]

/-- Its store tiles the buffer (checked by evaluation), so it covers it. -/
theorem cover8_3 (p0 : Vec F S2048x256 .f32) (y : S2048x256.Idx) :
    ∃ pc ∈ ([⟨r8_2, p0⟩] : List (View.Piece (Elt F) S2048x256 .f32)), y ∈ pc.1.set :=
  View.cover_of_tiled [⟨r8_2, p0⟩] S2048x256.size (by rfl) y

/-! ## The body's triple -/

set_option maxHeartbeats 1000000 in
/-- The kernel body on whole staging memrefs, the inputs' at read contents `xW` and the output's at anything, runs to
    the continuation holding the inputs' as they were and the output's at `out8_3` of the inputs'. -/
theorem sound_kernel8 (c : Dev nD) (E : Set ℕ) (i : grid8.Coords) (arg1 : Memref sig .tc .vmem S2048x1 .f32) (harg1 : arg1.IsWhole) (arg2 : Memref sig .tc .vmem S2048x1 .f32) (harg2 : arg2.IsWhole) (arg3 : Memref sig .tc .vmem S2x256 .f32) (harg3 : arg3.IsWhole) (arg4 : Memref sig .tc .vmem S2048x256 .f32) (harg4 : arg4.IsWhole)
    (x0 : Vec F S2048x1 .f32) (x1 : Vec F S2048x1 .f32) (x2 : Vec F S2x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__scatter_kernel i arg1 harg1 arg2 harg2 arg3 harg3 arg4 harg4) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at
    point `t` each input's buffer at its block and the output's at `out8_3` of the input blocks; the invariant
    the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the proof data's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Run.lean ====
/- The run of @main as segments. Between two items a core's unscoped buffers hold a fold of the launch memory: a host
   stretch applies its operations; a kernel region replaces each of its windows' arrays by what the pipeline's write-backs
   leave (the inputs as entered) and keeps every other buffer. Every weakly fair execution terminates, and at the end every
   unscoped buffer holds the last fold; no item writes an argument, so the arguments end as launched. -/
import proofs.«172208_j80221399155047_2_alg».proof.Proof.Gen.Kernel.Launch
import proofs.«172208_j80221399155047_2_alg».proof.Proof.Gen.Kernel.Points
import proofs.«172208_j80221399155047_2_alg».proof.Proof.Gen.Kernel.Regions
import proofs.«172208_j80221399155047_2_alg».proof.Proof.K.Reg0
import proofs.«172208_j80221399155047_2_alg».proof.Proof.K.Reg1
import proofs.«172208_j80221399155047_2_alg».proof.Proof.K.Reg2
import proofs.«172208_j80221399155047_2_alg».proof.Proof.K.Reg3
import proofs.«172208_j80221399155047_2_alg».proof.Proof.K.Reg4
import proofs.«172208_j80221399155047_2_alg».proof.Proof.K.Reg5
import proofs.«172208_j80221399155047_2_alg».proof.Proof.K.Reg6
import proofs.«172208_j80221399155047_2_alg».proof.Proof.K.Reg7
import proofs.«172208_j80221399155047_2_alg».proof.Proof.K.Reg8
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A core's buffers at launch. -/
abbrev W0 : Dev nD → Valuation τ sig (Elt F) := fun c b => m (c, b)
/-- After the host stretch hostOps0. -/
abbrev W1 : Dev nD → Valuation τ sig (Elt F) := fun c => StableHlo.after hostOps0 (W0 m c)
/-- The same contents read at the TensorCore's references. -/
abbrev B1 : (c : Dev nD) → (b : Ref sig .tc) → Buf (Elt F) ((c : Thread nD τ).loc b) := fun c b => W1 m c b
/-- After region 0: its windows' arrays at what the write-backs leave, every other buffer as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same contents read at the TensorCore's references. -/
abbrev B2 : (c : Dev nD) → (b : Ref sig .tc) → Buf (Elt F) ((c : Thread nD τ).loc b) := fun c b => W2 m c b
theorem hF0 (c : Dev nD) (w : Fin cfg0.W) : (dat0 (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)

/-- After region 1: its windows' arrays at what the write-backs leave, every other buffer as entered. -/
def W3 (c : Dev nD) : Valuation τ sig (Elt F) :=
  Pipeline.withArrays spec1 c (W2 m c) fun w => (dat1 (B2 m) c).arrAt w cfg1.N
theorem W3_arr (c : Dev nD) (w : Fin cfg1.W) :
    W3 m c (Proc.devRef .tc (Pipeline.arrRef spec1 w)) = (dat1 (B2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same contents read at the TensorCore's references. -/
abbrev B3 : (c : Dev nD) → (b : Ref sig .tc) → Buf (Elt F) ((c : Thread nD τ).loc b) := fun c b => W3 m c b
theorem hF1 (c : Dev nD) (w : Fin cfg1.W) : (dat1 (B2 m) c).arrAt w cfg1.N = B3 m c (Pipeline.arrRef spec1 w) :=
  (W3_arr m c w).symm
theorem hrest1 (c : Dev nD) : ∀ b, b ∉ Finset.univ.image (Pipeline.arrRef spec1) → B3 m c b = B2 m c b :=
  fun b hb => W3_of_ne m c b fun w e => hb (Finset.mem_image.mpr ⟨w, Finset.mem_univ _, e⟩)

/-- After region 2: its windows' arrays at what the write-backs leave, every other buffer as entered. -/
def W4 (c : Dev nD) : Valuation τ sig (Elt F) :=
  Pipeline.withArrays spec2 c (W3 m c) fun w => (dat2 (B3 m) c).arrAt w cfg2.N
theorem W4_arr (c : Dev nD) (w : Fin cfg2.W) :
    W4 m c (Proc.devRef .tc (Pipeline.arrRef spec2 w)) = (dat2 (B3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same contents read at the TensorCore's references. -/
abbrev B4 : (c : Dev nD) → (b : Ref sig .tc) → Buf (Elt F) ((c : Thread nD τ).loc b) := fun c b => W4 m c b
theorem hF2 (c : Dev nD) (w : Fin cfg2.W) : (dat2 (B3 m) c).arrAt w cfg2.N = B4 m c (Pipeline.arrRef spec2 w) :=
  (W4_arr m c w).symm
theorem hrest2 (c : Dev nD) : ∀ b, b ∉ Finset.univ.image (Pipeline.arrRef spec2) → B4 m c b = B3 m c b :=
  fun b hb => W4_of_ne m c b fun w e => hb (Finset.mem_image.mpr ⟨w, Finset.mem_univ _, e⟩)

/-- After the host stretch hostOps3. -/
abbrev W5 : Dev nD → Valuation τ sig (Elt F) := fun c => StableHlo.after hostOps3 (W4 m c)
/-- The same contents read at the TensorCore's references. -/
abbrev B5 : (c : Dev nD) → (b : Ref sig .tc) → Buf (Elt F) ((c : Thread nD τ).loc b) := fun c b => W5 m c b
/-- After region 3: its windows' arrays at what the write-backs leave, every other buffer as entered. -/
def W6 (c : Dev nD) : Valuation τ sig (Elt F) :=
  Pipeline.withArrays spec3 c (W5 m c) fun w => (dat3 (B5 m) c).arrAt w cfg3.N
theorem W6_arr (c : Dev nD) (w : Fin cfg3.W) :
    W6 m c (Proc.devRef .tc (Pipeline.arrRef spec3 w)) = (dat3 (B5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same contents read at the TensorCore's references. -/
abbrev B6 : (c : Dev nD) → (b : Ref sig .tc) → Buf (Elt F) ((c : Thread nD τ).loc b) := fun c b => W6 m c b
theorem hF3 (c : Dev nD) (w : Fin cfg3.W) : (dat3 (B5 m) c).arrAt w cfg3.N = B6 m c (Pipeline.arrRef spec3 w) :=
  (W6_arr m c w).symm
theorem hrest3 (c : Dev nD) : ∀ b, b ∉ Finset.univ.image (Pipeline.arrRef spec3) → B6 m c b = B5 m c b :=
  fun b hb => W6_of_ne m c b fun w e => hb (Finset.mem_image.mpr ⟨w, Finset.mem_univ _, e⟩)

/-- After region 4: its windows' arrays at what the write-backs leave, every other buffer as entered. -/
def W7 (c : Dev nD) : Valuation τ sig (Elt F) :=
  Pipeline.withArrays spec4 c (W6 m c) fun w => (dat4 (B6 m) c).arrAt w cfg4.N
theorem W7_arr (c : Dev nD) (w : Fin cfg4.W) :
    W7 m c (Proc.devRef .tc (Pipeline.arrRef spec4 w)) = (dat4 (B6 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) := by
  unfold W7; exact Pipeline.withArrays_of_ne spec4 c _ _ b hb
/-- The same contents read at the TensorCore's references. -/
abbrev B7 : (c : Dev nD) → (b : Ref sig .tc) → Buf (Elt F) ((c : Thread nD τ).loc b) := fun c b => W7 m c b
theorem hF4 (c : Dev nD) (w : Fin cfg4.W) : (dat4 (B6 m) c).arrAt w cfg4.N = B7 m c (Pipeline.arrRef spec4 w) :=
  (W7_arr m c w).symm
theorem hrest4 (c : Dev nD) : ∀ b, b ∉ Finset.univ.image (Pipeline.arrRef spec4) → B7 m c b = B6 m c b :=
  fun b hb => W7_of_ne m c b fun w e => hb (Finset.mem_image.mpr ⟨w, Finset.mem_univ _, e⟩)

/-- After region 5: its windows' arrays at what the write-backs leave, every other buffer as entered. -/
def W8 (c : Dev nD) : Valuation τ sig (Elt F) :=
  Pipeline.withArrays spec5 c (W7 m c) fun w => (dat5 (B7 m) c).arrAt w cfg5.N
theorem W8_arr (c : Dev nD) (w : Fin cfg5.W) :
    W8 m c (Proc.devRef .tc (Pipeline.arrRef spec5 w)) = (dat5 (B7 m) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m c (Proc.devRef .tc b) = W7 m c (Proc.devRef .tc b) := by
  unfold W8; exact Pipeline.withArrays_of_ne spec5 c _ _ b hb
/-- The same contents read at the TensorCore's references. -/
abbrev B8 : (c : Dev nD) → (b : Ref sig .tc) → Buf (Elt F) ((c : Thread nD τ).loc b) := fun c b => W8 m c b
theorem hF5 (c : Dev nD) (w : Fin cfg5.W) : (dat5 (B7 m) c).arrAt w cfg5.N = B8 m c (Pipeline.arrRef spec5 w) :=
  (W8_arr m c w).symm
theorem hrest5 (c : Dev nD) : ∀ b, b ∉ Finset.univ.image (Pipeline.arrRef spec5) → B8 m c b = B7 m c b :=
  fun b hb => W8_of_ne m c b fun w e => hb (Finset.mem_image.mpr ⟨w, Finset.mem_univ _, e⟩)

/-- After the host stretch hostOps6. -/
abbrev W9 : Dev nD → Valuation τ sig (Elt F) := fun c => StableHlo.after hostOps6 (W8 m c)
/-- The same contents read at the TensorCore's references. -/
abbrev B9 : (c : Dev nD) → (b : Ref sig .tc) → Buf (Elt F) ((c : Thread nD τ).loc b) := fun c b => W9 m c b
/-- After region 6: its windows' arrays at what the write-backs leave, every other buffer as entered. -/
def W10 (c : Dev nD) : Valuation τ sig (Elt F) :=
  Pipeline.withArrays spec6 c (W9 m c) fun w => (dat6 (B9 m) c).arrAt w cfg6.N
theorem W10_arr (c : Dev nD) (w : Fin cfg6.W) :
    W10 m c (Proc.devRef .tc (Pipeline.arrRef spec6 w)) = (dat6 (B9 m) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m c (Proc.devRef .tc b) = W9 m c (Proc.devRef .tc b) := by
  unfold W10; exact Pipeline.withArrays_of_ne spec6 c _ _ b hb
/-- The same contents read at the TensorCore's references. -/
abbrev B10 : (c : Dev nD) → (b : Ref sig .tc) → Buf (Elt F) ((c : Thread nD τ).loc b) := fun c b => W10 m c b
theorem hF6 (c : Dev nD) (w : Fin cfg6.W) : (dat6 (B9 m) c).arrAt w cfg6.N = B10 m c (Pipeline.arrRef spec6 w) :=
  (W10_arr m c w).symm
theorem hrest6 (c : Dev nD) : ∀ b, b ∉ Finset.univ.image (Pipeline.arrRef spec6) → B10 m c b = B9 m c b :=
  fun b hb => W10_of_ne m c b fun w e => hb (Finset.mem_image.mpr ⟨w, Finset.mem_univ _, e⟩)

/-- After region 7: its windows' arrays at what the write-backs leave, every other buffer as entered. -/
def W11 (c : Dev nD) : Valuation τ sig (Elt F) :=
  Pipeline.withArrays spec7 c (W10 m c) fun w => (dat7 (B10 m) c).arrAt w cfg7.N
theorem W11_arr (c : Dev nD) (w : Fin cfg7.W) :
    W11 m c (Proc.devRef .tc (Pipeline.arrRef spec7 w)) = (dat7 (B10 m) c).arrAt w cfg7.N := by
  unfold W11; exact Pipeline.withArrays_arr spec7 launch7.win.arr_inj c _ _ w
theorem W11_of_ne (c : Dev nD) (b : Ref sig .tc) (hb : ∀ w, Pipeline.arrRef spec7 w ≠ b) :
    W11 m c (Proc.devRef .tc b) = W10 m c (Proc.devRef .tc b) := by
  unfold W11; exact Pipeline.withArrays_of_ne spec7 c _ _ b hb
/-- The same contents read at the TensorCore's references. -/
abbrev B11 : (c : Dev nD) → (b : Ref sig .tc) → Buf (Elt F) ((c : Thread nD τ).loc b) := fun c b => W11 m c b
theorem hF7 (c : Dev nD) (w : Fin cfg7.W) : (dat7 (B10 m) c).arrAt w cfg7.N = B11 m c (Pipeline.arrRef spec7 w) :=
  (W11_arr m c w).symm
theorem hrest7 (c : Dev nD) : ∀ b, b ∉ Finset.univ.image (Pipeline.arrRef spec7) → B11 m c b = B10 m c b :=
  fun b hb => W11_of_ne m c b fun w e => hb (Finset.mem_image.mpr ⟨w, Finset.mem_univ _, e⟩)

/-- After region 8: its windows' arrays at what the write-backs leave, every other buffer as entered. -/
def W12 (c : Dev nD) : Valuation τ sig (Elt F) :=
  Pipeline.withArrays spec8 c (W11 m c) fun w => (dat8 (B11 m) c).arrAt w cfg8.N
theorem W12_arr (c : Dev nD) (w : Fin cfg8.W) :
    W12 m c (Proc.devRef .tc (Pipeline.arrRef spec8 w)) = (dat8 (B11 m) c).arrAt w cfg8.N := by
  unfold W12; exact Pipeline.withArrays_arr spec8 launch8.win.arr_inj c _ _ w
theorem W12_of_ne (c : Dev nD) (b : Ref sig .tc) (hb : ∀ w, Pipeline.arrRef spec8 w ≠ b) :
    W12 m c (Proc.devRef .tc b) = W11 m c (Proc.devRef .tc b) := by
  unfold W12; exact Pipeline.withArrays_of_ne spec8 c _ _ b hb
/-- The same contents read at the TensorCore's references. -/
abbrev B12 : (c : Dev nD) → (b : Ref sig .tc) → Buf (Elt F) ((c : Thread nD τ).loc b) := fun c b => W12 m c b
theorem hF8 (c : Dev nD) (w : Fin cfg8.W) : (dat8 (B11 m) c).arrAt w cfg8.N = B12 m c (Pipeline.arrRef spec8 w) :=
  (W12_arr m c w).symm
theorem hrest8 (c : Dev nD) : ∀ b, b ∉ Finset.univ.image (Pipeline.arrRef spec8) → B12 m c b = B11 m c b :=
  fun b hb => W12_of_ne m c b fun w e => hb (Finset.mem_image.mpr ⟨w, Finset.mem_univ _, e⟩)

/-! ## The arguments end as launched -/

theorem W12_main_arg0 (c : Dev nD) : W12 m c (Proc.devRef .tc main_arg0) = m ((c : Thread nD τ).loc main_arg0) :=
  calc W12 m c (Proc.devRef .tc main_arg0)
    _ = W11 m c (Proc.devRef .tc main_arg0) := W12_of_ne m c main_arg0 (by decide)
    _ = W10 m c (Proc.devRef .tc main_arg0) := W11_of_ne m c main_arg0 (by decide)
    _ = W9 m c (Proc.devRef .tc main_arg0) := W10_of_ne m c main_arg0 (by decide)
    _ = W8 m c (Proc.devRef .tc main_arg0) := StableHlo.after_of_writes_sub hostOps6 _ hostOps6_writes (by decide : main_arg0 ∉ hostOps6_W)
    _ = W7 m c (Proc.devRef .tc main_arg0) := W8_of_ne m c main_arg0 (by decide)
    _ = W6 m c (Proc.devRef .tc main_arg0) := W7_of_ne m c main_arg0 (by decide)
    _ = W5 m c (Proc.devRef .tc main_arg0) := W6_of_ne m c main_arg0 (by decide)
    _ = W4 m c (Proc.devRef .tc main_arg0) := StableHlo.after_of_writes_sub hostOps3 _ hostOps3_writes (by decide : main_arg0 ∉ hostOps3_W)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (B1 m) c).arrAt_in 0 rfl _).trans (A_eq0 (B1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W12_main_arg1 (c : Dev nD) : W12 m c (Proc.devRef .tc main_arg1) = m ((c : Thread nD τ).loc main_arg1) :=
  calc W12 m c (Proc.devRef .tc main_arg1)
    _ = W11 m c (Proc.devRef .tc main_arg1) := W12_of_ne m c main_arg1 (by decide)
    _ = W10 m c (Proc.devRef .tc main_arg1) := W11_of_ne m c main_arg1 (by decide)
    _ = W9 m c (Proc.devRef .tc main_arg1) := W10_of_ne m c main_arg1 (by decide)
    _ = W8 m c (Proc.devRef .tc main_arg1) := StableHlo.after_of_writes_sub hostOps6 _ hostOps6_writes (by decide : main_arg1 ∉ hostOps6_W)
    _ = W7 m c (Proc.devRef .tc main_arg1) := W8_of_ne m c main_arg1 (by decide)
    _ = W6 m c (Proc.devRef .tc main_arg1) := W7_of_ne m c main_arg1 (by decide)
    _ = W5 m c (Proc.devRef .tc main_arg1) := W6_of_ne m c main_arg1 (by decide)
    _ = W4 m c (Proc.devRef .tc main_arg1) := StableHlo.after_of_writes_sub hostOps3 _ hostOps3_writes (by decide : main_arg1 ∉ hostOps3_W)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W12_main_arg2 (c : Dev nD) : W12 m c (Proc.devRef .tc main_arg2) = m ((c : Thread nD τ).loc main_arg2) :=
  calc W12 m c (Proc.devRef .tc main_arg2)
    _ = W11 m c (Proc.devRef .tc main_arg2) := W12_of_ne m c main_arg2 (by decide)
    _ = W10 m c (Proc.devRef .tc main_arg2) := W11_of_ne m c main_arg2 (by decide)
    _ = W9 m c (Proc.devRef .tc main_arg2) := W10_of_ne m c main_arg2 (by decide)
    _ = W8 m c (Proc.devRef .tc main_arg2) := StableHlo.after_of_writes_sub hostOps6 _ hostOps6_writes (by decide : main_arg2 ∉ hostOps6_W)
    _ = W7 m c (Proc.devRef .tc main_arg2) := W8_of_ne m c main_arg2 (by decide)
    _ = W6 m c (Proc.devRef .tc main_arg2) := W7_of_ne m c main_arg2 (by decide)
    _ = W5 m c (Proc.devRef .tc main_arg2) := W6_of_ne m c main_arg2 (by decide)
    _ = W4 m c (Proc.devRef .tc main_arg2) := StableHlo.after_of_writes_sub hostOps3 _ hostOps3_writes (by decide : main_arg2 ∉ hostOps3_W)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W12_main_arg3 (c : Dev nD) : W12 m c (Proc.devRef .tc main_arg3) = m ((c : Thread nD τ).loc main_arg3) :=
  calc W12 m c (Proc.devRef .tc main_arg3)
    _ = W11 m c (Proc.devRef .tc main_arg3) := W12_of_ne m c main_arg3 (by decide)
    _ = W10 m c (Proc.devRef .tc main_arg3) := W11_of_ne m c main_arg3 (by decide)
    _ = W9 m c (Proc.devRef .tc main_arg3) := W10_of_ne m c main_arg3 (by decide)
    _ = W8 m c (Proc.devRef .tc main_arg3) := StableHlo.after_of_writes_sub hostOps6 _ hostOps6_writes (by decide : main_arg3 ∉ hostOps6_W)
    _ = W7 m c (Proc.devRef .tc main_arg3) := W8_of_ne m c main_arg3 (by decide)
    _ = W6 m c (Proc.devRef .tc main_arg3) := W7_of_ne m c main_arg3 (by decide)
    _ = W5 m c (Proc.devRef .tc main_arg3) := W6_of_ne m c main_arg3 (by decide)
    _ = W4 m c (Proc.devRef .tc main_arg3) := StableHlo.after_of_writes_sub hostOps3 _ hostOps3_writes (by decide : main_arg3 ∉ hostOps3_W)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
/-! ## A buffer no item in between writes keeps its contents -/

theorem keep_main_call0_v17_2 (c : Dev nD) : W2 m c (Proc.devRef .tc main_call0_v17) = W1 m c (Proc.devRef .tc main_call0_v17) :=
  calc W2 m c (Proc.devRef .tc main_call0_v17)
    _ = W1 m c (Proc.devRef .tc main_call0_v17) := W2_of_ne m c main_call0_v17 (by decide)
theorem keep_main_call0_v18_3 (c : Dev nD) : W3 m c (Proc.devRef .tc main_call0_v18) = W1 m c (Proc.devRef .tc main_call0_v18) :=
  calc W3 m c (Proc.devRef .tc main_call0_v18)
    _ = W2 m c (Proc.devRef .tc main_call0_v18) := W3_of_ne m c main_call0_v18 (by decide)
    _ = W1 m c (Proc.devRef .tc main_call0_v18) := W2_of_ne m c main_call0_v18 (by decide)
theorem keep_main_call0_v19_3 (c : Dev nD) : W3 m c (Proc.devRef .tc main_call0_v19) = W1 m c (Proc.devRef .tc main_call0_v19) :=
  calc W3 m c (Proc.devRef .tc main_call0_v19)
    _ = W2 m c (Proc.devRef .tc main_call0_v19) := W3_of_ne m c main_call0_v19 (by decide)
    _ = W1 m c (Proc.devRef .tc main_call0_v19) := W2_of_ne m c main_call0_v19 (by decide)
theorem keep_main_call0_v23_5 (c : Dev nD) : W5 m c (Proc.devRef .tc main_call0_v23) = W4 m c (Proc.devRef .tc main_call0_v23) :=
  calc W5 m c (Proc.devRef .tc main_call0_v23)
    _ = W4 m c (Proc.devRef .tc main_call0_v23) := StableHlo.after_of_writes_sub hostOps3 _ hostOps3_writes (by decide : main_call0_v23 ∉ hostOps3_W)
theorem keep_main_call0_v17_6 (c : Dev nD) : W6 m c (Proc.devRef .tc main_call0_v17) = W1 m c (Proc.devRef .tc main_call0_v17) :=
  calc W6 m c (Proc.devRef .tc main_call0_v17)
    _ = W5 m c (Proc.devRef .tc main_call0_v17) := W6_of_ne m c main_call0_v17 (by decide)
    _ = W4 m c (Proc.devRef .tc main_call0_v17) := StableHlo.after_of_writes_sub hostOps3 _ hostOps3_writes (by decide : main_call0_v17 ∉ hostOps3_W)
    _ = W3 m c (Proc.devRef .tc main_call0_v17) := W4_of_ne m c main_call0_v17 (by decide)
    _ = W2 m c (Proc.devRef .tc main_call0_v17) := (W3_arr m c 0).trans (((dat1 (B2 m) c).arrAt_in 0 rfl _).trans (A_eq1 (B2 m) c 0))
    _ = W1 m c (Proc.devRef .tc main_call0_v17) := W2_of_ne m c main_call0_v17 (by decide)
theorem keep_main_call0_v18_7 (c : Dev nD) : W7 m c (Proc.devRef .tc main_call0_v18) = W1 m c (Proc.devRef .tc main_call0_v18) :=
  calc W7 m c (Proc.devRef .tc main_call0_v18)
    _ = W6 m c (Proc.devRef .tc main_call0_v18) := W7_of_ne m c main_call0_v18 (by decide)
    _ = W5 m c (Proc.devRef .tc main_call0_v18) := W6_of_ne m c main_call0_v18 (by decide)
    _ = W4 m c (Proc.devRef .tc main_call0_v18) := StableHlo.after_of_writes_sub hostOps3 _ hostOps3_writes (by decide : main_call0_v18 ∉ hostOps3_W)
    _ = W3 m c (Proc.devRef .tc main_call0_v18) := (W4_arr m c 0).trans (((dat2 (B3 m) c).arrAt_in 0 rfl _).trans (A_eq2 (B3 m) c 0))
    _ = W2 m c (Proc.devRef .tc main_call0_v18) := W3_of_ne m c main_call0_v18 (by decide)
    _ = W1 m c (Proc.devRef .tc main_call0_v18) := W2_of_ne m c main_call0_v18 (by decide)
theorem keep_main_call0_v19_7 (c : Dev nD) : W7 m c (Proc.devRef .tc main_call0_v19) = W1 m c (Proc.devRef .tc main_call0_v19) :=
  calc W7 m c (Proc.devRef .tc main_call0_v19)
    _ = W6 m c (Proc.devRef .tc main_call0_v19) := W7_of_ne m c main_call0_v19 (by decide)
    _ = W5 m c (Proc.devRef .tc main_call0_v19) := W6_of_ne m c main_call0_v19 (by decide)
    _ = W4 m c (Proc.devRef .tc main_call0_v19) := StableHlo.after_of_writes_sub hostOps3 _ hostOps3_writes (by decide : main_call0_v19 ∉ hostOps3_W)
    _ = W3 m c (Proc.devRef .tc main_call0_v19) := (W4_arr m c 1).trans (((dat2 (B3 m) c).arrAt_in 1 rfl _).trans (A_eq2 (B3 m) c 1))
    _ = W2 m c (Proc.devRef .tc main_call0_v19) := W3_of_ne m c main_call0_v19 (by decide)
    _ = W1 m c (Proc.devRef .tc main_call0_v19) := W2_of_ne m c main_call0_v19 (by decide)
theorem keep_main_call0_v27_9 (c : Dev nD) : W9 m c (Proc.devRef .tc main_call0_v27) = W8 m c (Proc.devRef .tc main_call0_v27) :=
  calc W9 m c (Proc.devRef .tc main_call0_v27)
    _ = W8 m c (Proc.devRef .tc main_call0_v27) := StableHlo.after_of_writes_sub hostOps6 _ hostOps6_writes (by decide : main_call0_v27 ∉ hostOps6_W)
theorem keep_main_call0_v17_10 (c : Dev nD) : W10 m c (Proc.devRef .tc main_call0_v17) = W1 m c (Proc.devRef .tc main_call0_v17) :=
  calc W10 m c (Proc.devRef .tc main_call0_v17)
    _ = W9 m c (Proc.devRef .tc main_call0_v17) := W10_of_ne m c main_call0_v17 (by decide)
    _ = W8 m c (Proc.devRef .tc main_call0_v17) := StableHlo.after_of_writes_sub hostOps6 _ hostOps6_writes (by decide : main_call0_v17 ∉ hostOps6_W)
    _ = W7 m c (Proc.devRef .tc main_call0_v17) := W8_of_ne m c main_call0_v17 (by decide)
    _ = W6 m c (Proc.devRef .tc main_call0_v17) := (W7_arr m c 0).trans (((dat4 (B6 m) c).arrAt_in 0 rfl _).trans (A_eq4 (B6 m) c 0))
    _ = W5 m c (Proc.devRef .tc main_call0_v17) := W6_of_ne m c main_call0_v17 (by decide)
    _ = W4 m c (Proc.devRef .tc main_call0_v17) := StableHlo.after_of_writes_sub hostOps3 _ hostOps3_writes (by decide : main_call0_v17 ∉ hostOps3_W)
    _ = W3 m c (Proc.devRef .tc main_call0_v17) := W4_of_ne m c main_call0_v17 (by decide)
    _ = W2 m c (Proc.devRef .tc main_call0_v17) := (W3_arr m c 0).trans (((dat1 (B2 m) c).arrAt_in 0 rfl _).trans (A_eq1 (B2 m) c 0))
    _ = W1 m c (Proc.devRef .tc main_call0_v17) := W2_of_ne m c main_call0_v17 (by decide)
theorem keep_main_call0_v18_11 (c : Dev nD) : W11 m c (Proc.devRef .tc main_call0_v18) = W1 m c (Proc.devRef .tc main_call0_v18) :=
  calc W11 m c (Proc.devRef .tc main_call0_v18)
    _ = W10 m c (Proc.devRef .tc main_call0_v18) := W11_of_ne m c main_call0_v18 (by decide)
    _ = W9 m c (Proc.devRef .tc main_call0_v18) := W10_of_ne m c main_call0_v18 (by decide)
    _ = W8 m c (Proc.devRef .tc main_call0_v18) := StableHlo.after_of_writes_sub hostOps6 _ hostOps6_writes (by decide : main_call0_v18 ∉ hostOps6_W)
    _ = W7 m c (Proc.devRef .tc main_call0_v18) := (W8_arr m c 0).trans (((dat5 (B7 m) c).arrAt_in 0 rfl _).trans (A_eq5 (B7 m) c 0))
    _ = W6 m c (Proc.devRef .tc main_call0_v18) := W7_of_ne m c main_call0_v18 (by decide)
    _ = W5 m c (Proc.devRef .tc main_call0_v18) := W6_of_ne m c main_call0_v18 (by decide)
    _ = W4 m c (Proc.devRef .tc main_call0_v18) := StableHlo.after_of_writes_sub hostOps3 _ hostOps3_writes (by decide : main_call0_v18 ∉ hostOps3_W)
    _ = W3 m c (Proc.devRef .tc main_call0_v18) := (W4_arr m c 0).trans (((dat2 (B3 m) c).arrAt_in 0 rfl _).trans (A_eq2 (B3 m) c 0))
    _ = W2 m c (Proc.devRef .tc main_call0_v18) := W3_of_ne m c main_call0_v18 (by decide)
    _ = W1 m c (Proc.devRef .tc main_call0_v18) := W2_of_ne m c main_call0_v18 (by decide)
theorem keep_main_call0_v19_11 (c : Dev nD) : W11 m c (Proc.devRef .tc main_call0_v19) = W1 m c (Proc.devRef .tc main_call0_v19) :=
  calc W11 m c (Proc.devRef .tc main_call0_v19)
    _ = W10 m c (Proc.devRef .tc main_call0_v19) := W11_of_ne m c main_call0_v19 (by decide)
    _ = W9 m c (Proc.devRef .tc main_call0_v19) := W10_of_ne m c main_call0_v19 (by decide)
    _ = W8 m c (Proc.devRef .tc main_call0_v19) := StableHlo.after_of_writes_sub hostOps6 _ hostOps6_writes (by decide : main_call0_v19 ∉ hostOps6_W)
    _ = W7 m c (Proc.devRef .tc main_call0_v19) := (W8_arr m c 1).trans (((dat5 (B7 m) c).arrAt_in 1 rfl _).trans (A_eq5 (B7 m) c 1))
    _ = W6 m c (Proc.devRef .tc main_call0_v19) := W7_of_ne m c main_call0_v19 (by decide)
    _ = W5 m c (Proc.devRef .tc main_call0_v19) := W6_of_ne m c main_call0_v19 (by decide)
    _ = W4 m c (Proc.devRef .tc main_call0_v19) := StableHlo.after_of_writes_sub hostOps3 _ hostOps3_writes (by decide : main_call0_v19 ∉ hostOps3_W)
    _ = W3 m c (Proc.devRef .tc main_call0_v19) := (W4_arr m c 1).trans (((dat2 (B3 m) c).arrAt_in 1 rfl _).trans (A_eq2 (B3 m) c 1))
    _ = W2 m c (Proc.devRef .tc main_call0_v19) := W3_of_ne m c main_call0_v19 (by decide)
    _ = W1 m c (Proc.devRef .tc main_call0_v19) := W2_of_ne m c main_call0_v19 (by decide)
theorem keep_main_arg0_1 (c : Dev nD) : W1 m c (Proc.devRef .tc main_arg0) = W0 m c (Proc.devRef .tc main_arg0) :=
  calc W1 m c (Proc.devRef .tc main_arg0)
    _ = W0 m c (Proc.devRef .tc main_arg0) := StableHlo.after_of_writes_sub hostOps0 _ hostOps0_writes (by decide : main_arg0 ∉ hostOps0_W)
theorem keep_main_arg2_4 (c : Dev nD) : W4 m c (Proc.devRef .tc main_arg2) = W0 m c (Proc.devRef .tc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
theorem keep_main_arg3_8 (c : Dev nD) : W8 m c (Proc.devRef .tc main_arg3) = W0 m c (Proc.devRef .tc main_arg3) :=
  calc W8 m c (Proc.devRef .tc main_arg3)
    _ = W7 m c (Proc.devRef .tc main_arg3) := W8_of_ne m c main_arg3 (by decide)
    _ = W6 m c (Proc.devRef .tc main_arg3) := W7_of_ne m c main_arg3 (by decide)
    _ = W5 m c (Proc.devRef .tc main_arg3) := W6_of_ne m c main_arg3 (by decide)
    _ = W4 m c (Proc.devRef .tc main_arg3) := StableHlo.after_of_writes_sub hostOps3 _ hostOps3_writes (by decide : main_arg3 ∉ hostOps3_W)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)

/-! ## The proof data family and the thread state -/

/-- No pipeline has a prefetched table. -/
abbrev admH : (p : Fin 9) → (pcfgs (F := F) p).Adm := fun p => (cfgs p).toPCfg_adm
/-- Every pipeline's proof data at its region's entry contents: a literal match on the pipeline's number. -/
def pdatsH : (p : Fin 9) → (c : Dev nD) → Dat τ (Elt F) Unit ℕ (UR sig nD τ) ℕ (Pipeline.pin (pcfgs (F := F)) admH p) c
  | ⟨0, _⟩ => fun c => dat0 (B1 m) c
  | ⟨1, _⟩ => fun c => dat1 (B2 m) c
  | ⟨2, _⟩ => fun c => dat2 (B3 m) c
  | ⟨3, _⟩ => fun c => dat3 (B5 m) c
  | ⟨4, _⟩ => fun c => dat4 (B6 m) c
  | ⟨5, _⟩ => fun c => dat5 (B7 m) c
  | ⟨6, _⟩ => fun c => dat6 (B9 m) c
  | ⟨7, _⟩ => fun c => dat7 (B10 m) c
  | ⟨8, _⟩ => fun c => dat8 (B11 m) c
abbrev 𝒱H : Variants := Variants.none
abbrev LH : GSem nD τ sig → Finset Unit := fun _ => ∅
abbrev lvH : GSem nD τ sig → Unit → ℕ := fun _ _ => 0
/-- What rides beside the buffers through every segment: the generator register at some state, and the core owing nothing. -/
abbrev Rest (c : Dev nD) : sProp 𝕄 := iprop((∃ r, prngReg c r) ∗ ∃ W, owes (c : Thread nD τ) (0 : CellTallies nD τ sig Unit) W)
/-- A host stretch as a segment over the unscoped references from the contents W. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues. -/
abbrev TlastH (c : Dev nD) : sProp 𝕄 := iprop(StableHlo.held (c : Thread nD τ) (Pipeline.ucRefs τ sig) (W12 m c) ∗ ∃ r, prngReg c r)

/-! ## The regions as segments -/

set_option backward.isDefEq.respectTransparency.types false in
/-- Region 0 over the thread state: entered from every unscoped buffer at W1, left at W2; its arrays split out of the
    unscoped buffers and put back at the exit contents; the generator register into the invariant and out; nothing owed. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ LH lvH 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (B1 m c) (B2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3; its arrays split out of the
    unscoped buffers and put back at the exit contents; the generator register into the invariant and out; nothing owed. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (B2 m) c).loose
  hwaits := Pipeline.hwaits_of_owed_zero _ _ _ _ LH lvH 1 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(∃ r, prngReg c r)
  Y c := iprop(∃ r, prngReg c r)
  Z c := Pipeline.unscopedRest (Ix := Unit) (Name := ℕ) (U := UR sig nD τ) (Lvl := ℕ) spec1 c (B2 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (B2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (B2 m) c
  hout c := hout1 (B2 m) c
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (B2 m c) (B3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W3, left at W4; its arrays split out of the
    unscoped buffers and put back at the exit contents; the generator register into the invariant and out; nothing owed. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (B3 m) c).loose
  hwaits := Pipeline.hwaits_of_owed_zero _ _ _ _ LH lvH 2 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec2 c (B3 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (B3 m c) (B4 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W5, left at W6; its arrays split out of the
    unscoped buffers and put back at the exit contents; the generator register into the invariant and out; nothing owed. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (B5 m) c).loose
  hwaits := Pipeline.hwaits_of_owed_zero _ _ _ _ LH lvH 3 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec3 c (B5 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (B5 m c) (B6 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W6, left at W7; its arrays split out of the
    unscoped buffers and put back at the exit contents; the generator register into the invariant and out; nothing owed. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (B6 m) c).loose
  hwaits := Pipeline.hwaits_of_owed_zero _ _ _ _ LH lvH 4 fun _ _ => rfl
  pre c := iprop(StableHlo.held (c : Thread nD τ) (Pipeline.ucRefs τ sig) (W6 m c) ∗ Rest c)
  post c := iprop(StableHlo.held (c : Thread nD τ) (Pipeline.ucRefs τ sig) (W7 m c) ∗ Rest c)
  X c := iprop(∃ r, prngReg c r)
  Y c := iprop(∃ r, prngReg c r)
  Z c := Pipeline.unscopedRest (Ix := Unit) (Name := ℕ) (U := UR sig nD τ) (Lvl := ℕ) spec4 c (B6 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (B6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (B6 m) c
  hout c := hout4 (B6 m) c
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (B6 m c) (B7 m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W7, left at W8; its arrays split out of the
    unscoped buffers and put back at the exit contents; the generator register into the invariant and out; nothing owed. -/
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (B7 m) c).loose
  hwaits := Pipeline.hwaits_of_owed_zero _ _ _ _ LH lvH 5 fun _ _ => rfl
  pre c := iprop(StableHlo.held (c : Thread nD τ) (Pipeline.ucRefs τ sig) (W7 m c) ∗ Rest c)
  post c := iprop(StableHlo.held (c : Thread nD τ) (Pipeline.ucRefs τ sig) (W8 m c) ∗ Rest c)
  X c := iprop(∃ r, prngReg c r)
  Y c := iprop(∃ r, prngReg c r)
  Z c := Pipeline.unscopedRest (Ix := Unit) (Name := ℕ) (U := UR sig nD τ) (Lvl := ℕ) spec5 c (B7 m c)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (B7 m c) (B8 m c) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at W9, left at W10; its arrays split out of the
    unscoped buffers and put back at the exit contents; the generator register into the invariant and out; nothing owed. -/
def reg6 : Pipeline.RegionSeg (pcfgs (F := F)) admH (pdatsH m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (B9 m) c).loose
  hwaits := Pipeline.hwaits_of_owed_zero _ _ _ _ LH lvH 6 fun _ _ => rfl
  pre c := iprop(StableHlo.held (c : Thread nD τ) (Pipeline.ucRefs τ sig) (W9 m c) ∗ Rest c)
  post c := iprop(StableHlo.held (c : Thread nD τ) (Pipeline.ucRefs τ sig) (W10 m c) ∗ Rest c)
  X c := iprop(∃ r, prngReg c r)
  Y c := iprop(∃ r, prngReg c r)
  Z c := Pipeline.unscopedRest (Ix := Unit) (Name := ℕ) (U := UR sig nD τ) (Lvl := ℕ) spec6 c (B9 m c)
  hentry c := by
    rw [Pipeline.ownSems0_none]
    have hsplit := Pipeline.arrays_of_unscopedBufs (p := 6) (pcfgs (F := F)) admH (pdatsH m) launch6.win launch6.arr_whole c
      ((pdatsH m 6 c).share_full fun _ => rfl) (B9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m) ((pdatsH m 6 c).share_full fun _ => rfl)
      (B9 m c) (B10 m c) ((pdatsH m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at W10, left at W11; its arrays split out of the
    unscoped buffers and put back at the exit contents; the generator register into the invariant and out; nothing owed. -/
def reg7 : Pipeline.RegionSeg (pcfgs (F := F)) admH (pdatsH m) () defs₀ 𝒱H LH lvH 7 where
  win := launch7.win.to₀
  block_pos := launch7.block_pos
  stage_whole := launch7.stage_whole
  K := PEmpty
  osem k := k.elim
  ho := Pipeline.OwnSemFacts.none _
  hbody c := (body_obligation7 (B10 m) c).loose
  hwaits := Pipeline.hwaits_of_owed_zero _ _ _ _ LH lvH 7 fun _ _ => rfl
  pre c := iprop(StableHlo.held (c : Thread nD τ) (Pipeline.ucRefs τ sig) (W10 m c) ∗ Rest c)
  post c := iprop(StableHlo.held (c : Thread nD τ) (Pipeline.ucRefs τ sig) (W11 m c) ∗ Rest c)
  X c := iprop(∃ r, prngReg c r)
  Y c := iprop(∃ r, prngReg c r)
  Z c := Pipeline.unscopedRest (Ix := Unit) (Name := ℕ) (U := UR sig nD τ) (Lvl := ℕ) spec7 c (B10 m c)
  hentry c := by
    rw [Pipeline.ownSems0_none]
    have hsplit := Pipeline.arrays_of_unscopedBufs (p := 7) (pcfgs (F := F)) admH (pdatsH m) launch7.win launch7.arr_whole c
      ((pdatsH m 7 c).share_full fun _ => rfl) (B10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin7 (B10 m) c
  hout c := hout7 (B10 m) c
  hexit c := by
    have hjoin := Pipeline.unscopedBufs_of_arrays (p := 7) (pcfgs (F := F)) admH (Ix := Unit) (Name := ℕ) (U := UR sig nD τ) (Lvl := ℕ)
      launch7.win launch7.arr_whole c (pdatsH m) ((pdatsH m 7 c).share_full fun _ => rfl)
      (B10 m c) (B11 m c) ((pdatsH m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at W11, left at W12; its arrays split out of the
    unscoped buffers and put back at the exit contents; the generator register into the invariant and out; nothing owed. -/
def reg8 : Pipeline.RegionSeg (pcfgs (F := F)) admH (pdatsH m) () defs₀ 𝒱H LH lvH 8 where
  win := launch8.win.to₀
  block_pos := launch8.block_pos
  stage_whole := launch8.stage_whole
  K := PEmpty
  osem k := k.elim
  ho := Pipeline.OwnSemFacts.none _
  hbody c := (body_obligation8 (B11 m) c).loose
  hwaits := Pipeline.hwaits_of_owed_zero _ _ _ _ LH lvH 8 fun _ _ => rfl
  pre c := iprop(StableHlo.held (c : Thread nD τ) (Pipeline.ucRefs τ sig) (W11 m c) ∗ Rest c)
  post c := iprop(TlastH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (B11 m c)
  hentry c := by
    rw [Pipeline.ownSems0_none]
    have hsplit := Pipeline.arrays_of_unscopedBufs (p := 8) (pcfgs (F := F)) admH (pdatsH m) launch8.win launch8.arr_whole c
      ((pdatsH m 8 c).share_full fun _ => rfl) (B11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdatsH m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := UR sig nD τ) (Lvl := ℕ)
      launch8.win launch8.arr_whole c (pdatsH m) ((pdatsH m 8 c).share_full fun _ => rfl)
      (B11 m c) (B12 m c) ((pdatsH m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .host (hsegH hostOps0 hostOps0_sub hostOps0_fresh (W0 m)),
    .region (reg0 m),
    .region (reg1 m),
    .region (reg2 m),
    .host (hsegH hostOps3 hostOps3_sub hostOps3_fresh (W4 m)),
    .region (reg3 m),
    .region (reg4 m),
    .region (reg5 m),
    .host (hsegH hostOps6 hostOps6_sub hostOps6_fresh (W8 m)),
    .region (reg6 m),
    .region (reg7 m),
    .region (reg8 m) ]
theorem main_runH (c : Dev nD) : main (F := F) c = Pipeline.Seg.run (segsH m) := (main_chain c).trans (by chain_rfl)

set_option backward.isDefEq.respectTransparency.types false in
/-- Every weakly fair execution of @main from memory m with zero counters terminates, nothing faulting, and every final
    memory holds, on every core, every unscoped buffer at the last fold. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W12 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := TlastH m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- The frame: the arguments end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c _ (mem_ucH main_arg0 (by decide))).trans (W12_main_arg0 m c),
    (h c _ (mem_ucH main_arg1 (by decide))).trans (W12_main_arg1 m c),
    (h c _ (mem_ucH main_arg2 (by decide))).trans (W12_main_arg2 m c),
    (h c _ (mem_ucH main_arg3 (by decide))).trans (W12_main_arg3 m c)⟩) (run_main m ρ)

/-- The result array at the end is what the last region's write-backs leave. -/
theorem result_eq (r : PUnit × MemSt nD τ sig (Elt F)) (h : ∀ c : Dev nD, ∀ b ∈ Pipeline.ucRefs τ sig, r.2.mem (((c : Thread nD τ)).1, b) = W12 m c b) (c : Dev nD) :
    r.2.mem ((c.tc : Thread nD τ).loc main_v0) = (dat8 (B11 m) c).arrAt 3 cfg8.N :=
  (h c _ (mem_ucH main_v0 (by decide))).trans (W12_arr m c 3)

end Cert.Kernel.Hand

end
-- ==== Proof.KI.Reg0.lean ====
/- Region 0 of the kernel program (the linear kernel: a block of rows times the whole weight matrix): each
   window's block at a point read off the contents the region is entered with (`V`, a parameter), what the
   body leaves in the output window's buffer, the body's triple, the region's proof data and its body
   obligation. -/
import proofs.«172208_j80221399155047_2_alg».proof.Proof.Gen.KernelIdeal.Launch
import proofs.«172208_j80221399155047_2_alg».proof.Proof.Gen.KernelIdeal.Skeleton
import proofs.«172208_j80221399155047_2_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the
    block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0

/-! ## What the body leaves in the output window's buffer -/

/-- Window 2's staging buffer after the body, from the input windows' blocks: its one store as a piece. -/
def out0_2 (x0 : Vec F S2048x256 .f32) (x1 : Vec F S256x256 .f32) : Vec F S2048x256 .bf16 :=
  View.canon [⟨r0_0, k0_pay1 (View.ld x0 r0_0) (View.ld x1 r0_1)⟩]

/-- Its store tiles the buffer (checked by evaluation), so it covers it. -/
theorem cover0_2 (p0 : Vec F S2048x256 .bf16) (y : S2048x256.Idx) :
    ∃ pc ∈ ([⟨r0_0, p0⟩] : List (View.Piece (Elt F) S2048x256 .bf16)), y ∈ pc.1.set :=
  View.cover_of_tiled [⟨r0_0, p0⟩] S2048x256.size (by rfl) y

/-! ## The body's triple -/

set_option maxHeartbeats 1000000 in
/-- The kernel body on whole staging memrefs, the inputs' at read contents `xW` and the output's at anything, runs to
    the continuation holding the inputs' as they were and the output's at `out0_2` of the inputs'. -/
theorem sound_kernel0 (c : Dev nD) (E : Set ℕ) (i : grid0.Coords) (arg1 : Memref sig .tc .vmem S2048x256 .f32) (harg1 : arg1.IsWhole) (arg2 : Memref sig .tc .vmem S256x256 .f32) (harg2 : arg2.IsWhole) (arg3 : Memref sig .tc .vmem S2048x256 .bf16) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1 of the kernel program (the reduce kernel: at every grid point a [2,2048] band of the left operand
   times a [2048,256] band of the right one, added into a [2,256] accumulator the kernel keeps in a scratch buffer
   of its own, zeroed at the first point and copied to the output window at the last): the body's branch
   conditions in closed form, the body's triple in each of its three cases, what the accumulator and the output
   window's buffer hold after each point, the region's proof data — whose invariant carries the accumulator from
   point to point —, its body obligation, and the invariant's entry and exit. -/
import proofs.«172208_j80221399155047_2_alg».proof.Proof.Gen.KernelIdeal.Launch
import proofs.«172208_j80221399155047_2_alg».proof.Proof.Gen.KernelIdeal.Skeleton
import proofs.«172208_j80221399155047_2_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the
    block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the accumulator is zeroed), from the grid coordinates. -/
abbrev cond1_1 (i : grid1.Coords) : Prop := (Scalar.cmpi .ne (Scalar.extui (Scalar.cmpi .eq (BitVec.ofNat 32 (i 0).val) 0#32)) 0#32) = 1#1
/-- It holds at the first point only — decided over the grid. -/
theorem hcond1_1 : ∀ t : Fin cfg1.N, cond1_1 (grid1.coords t) ↔ t.val = 0 :=
  (by decide +kernel : ∀ t : Fin grid1.N, cond1_1 (grid1.coords t) ↔ t.val = 0)

/-- The condition of the body's second conditional (the accumulator is copied to the output window). -/
abbrev cond1_2 (i : grid1.Coords) : Prop := k1_cond2 i = 1#1
/-- It holds at the last point only — decided over the grid. -/
theorem hcond1_2 : ∀ t : Fin cfg1.N, cond1_2 (grid1.coords t) ↔ t.val = 3 :=
  (by decide +kernel : ∀ t : Fin grid1.N, cond1_2 (grid1.coords t) ↔ t.val = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional fails the output window is idle: the body stores nothing into it, -/
theorem idleAt1_2 : ∀ t : Fin cfg1.N, ¬cond1_2 (grid1.coords t) → cfg1.idle 2 (grid1.coords t) = true := by decide +kernel
/-- and the pipeline does not write its block back. -/
theorem noFlush1_2 : ∀ t : Fin cfg1.N, ¬cond1_2 (grid1.coords t) → (cfg1.win 2).flush t = false := by decide +kernel
/-- Where it holds the output window is live. -/
theorem liveAt1_2 : ∀ t : Fin cfg1.N, cond1_2 (grid1.coords t) → cfg1.idle 2 (grid1.coords t) = false := by decide +kernel

/-! ## The memrefs the body is called with -/

/-- The output window's one staging buffer as a view, through which its contents are stated (any view of the
    shape reads a covering list of writes alike). -/
abbrev VO1_2 : View sig .tc .vmem S2x256 .f32 := (Memref.whole cc1_stg2_0 : Memref sig .tc .vmem S2x256 .f32).view
/-- Each window's current staging memref at point `t`, spelt as the pipeline passes it, and its wholeness. -/
abbrev ms1_0 (t : Fin cfg1.N) : Memref sig .tc .vmem S2x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x256 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S2x256 .f32 := Memref.whole cc1_scratch0
abbrev VS1_0 : View sig .tc .vmem S2x256 .f32 := scM1_0.view

/-- The scoped buffers that are neither a staging buffer of this region's windows nor the accumulator, at some
    contents each: carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- The class's invariant with the accumulator split off as a memref owned at some contents. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA; rw [scopedRest1_split]; simp only [scM1_0, owns_whole]; try rfl

/-! ## The kernel body on any staging memrefs, case by case -/

set_option maxHeartbeats 1000000 in
/-- THE FIRST POINT (first conditional taken, second not). What the body's stores leave in the accumulator, as
    pieces (last first), with the proof that on whole memrefs — the inputs' at their contents `x0`, `x1`, the
    output's (idle here) at contents `xi2` handed back untouched, the accumulator at anything — the body runs to the
    continuation holding the inputs' and the output's as they were and the accumulator with its pieces written. The
    pieces are the witness the run finds. -/
noncomputable def kernelRun1_A (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond1_1 i) (hc2 : ¬cond1_2 i)
    (x0 : Vec F S2x2048 .f32) (x1 : Vec F S2048x256 .bf16) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__reduce_kernel i arg1 harg1 arg2 harg2 arg3 harg3 arg4 harg4) K } := by
  refine ⟨?_, fun xi2 E K => ?run⟩
  case run =>
    simp only [cc1__reduce_kernel_eq_skeleton]; unfold cc1__reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken): as at the first point, the accumulator at the contents `xs0` the
    point before left. -/
noncomputable def kernelRun1_B (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : ¬cond1_2 i)
    (x0 : Vec F S2x2048 .f32) (x1 : Vec F S2048x256 .bf16) (xs0 : Vec F S2x256 .f32) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__reduce_kernel i arg1 harg1 arg2 harg2 arg3 harg3 arg4 harg4) K } := by
  refine ⟨?_, fun xi2 E K => ?run⟩
  case run =>
    simp only [cc1__reduce_kernel_eq_skeleton]; unfold cc1__reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (first conditional not taken, second taken): the output's buffer at anything, left with its
    pieces written (`L2`); the accumulator as at a middle point. -/
noncomputable def kernelRun1_C (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i)
    (x0 : Vec F S2x2048 .f32) (x1 : Vec F S2048x256 .bf16) (xs0 : Vec F S2x256 .f32) :
    Σ' (L2 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__reduce_kernel i arg1 harg1 arg2 harg2 arg3 harg3 arg4 harg4) K } := by
  refine ⟨?_, ?_, fun E K => ?run⟩
  case run =>
    simp only [cc1__reduce_kernel_eq_skeleton]; unfold cc1__reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves -/

/-- The first point's pieces cover the accumulator (each store is of the whole buffer: checked by evaluation). -/
theorem scover1_A (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond1_1 i) (hc2 : ¬cond1_2 i)
    (x0 : Vec F S2x2048 .f32) (x1 : Vec F S2048x256 .bf16) (y : S2x256.Idx) :
    ∃ pc ∈ (kernelRun1_A c i arg1 harg1 arg2 harg2 arg3 harg3 arg4 harg4 hc1 hc2 x0 x1).1, y ∈ pc.1.set :=
  View.cover_of_tiledL (kernelRun1_A c i arg1 harg1 arg2 harg2 arg3 harg3 arg4 harg4 hc1 hc2 x0 x1).1 S2x256.size (by sl_kernel_rfl) y

/-- What the first point leaves in the accumulator: its pieces read back. -/
def sout1_A (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond1_1 i) (hc2 : ¬cond1_2 i)
    (x0 : Vec F S2x2048 .f32) (x1 : Vec F S2048x256 .bf16) : Vec F S2x256 .f32 :=
  VS1_0.read (Elt F) (VS1_0.writes (Elt F) VS1_0.junk (kernelRun1_A c i arg1 harg1 arg2 harg2 arg3 harg3 arg4 harg4 hc1 hc2 x0 x1).1)

theorem scover1_B (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : ¬cond1_2 i)
    (x0 : Vec F S2x2048 .f32) (x1 : Vec F S2048x256 .bf16) (xs0 : Vec F S2x256 .f32) (y : S2x256.Idx) :
    ∃ pc ∈ (kernelRun1_B c i arg1 harg1 arg2 harg2 arg3 harg3 arg4 harg4 hc1 hc2 x0 x1 xs0).1, y ∈ pc.1.set :=
  View.cover_of_tiledL (kernelRun1_B c i arg1 harg1 arg2 harg2 arg3 harg3 arg4 harg4 hc1 hc2 x0 x1 xs0).1 S2x256.size (by sl_kernel_rfl) y

/-- What a middle point leaves in the accumulator, over what the point before left (`xs0`). -/
def sout1_B (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : ¬cond1_2 i)
    (x0 : Vec F S2x2048 .f32) (x1 : Vec F S2048x256 .bf16) (xs0 : Vec F S2x256 .f32) : Vec F S2x256 .f32 :=
  VS1_0.read (Elt F) (VS1_0.writes (Elt F) VS1_0.junk (kernelRun1_B c i arg1 harg1 arg2 harg2 arg3 harg3 arg4 harg4 hc1 hc2 x0 x1 xs0).1)

theorem cover1_C (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i)
    (x0 : Vec F S2x2048 .f32) (x1 : Vec F S2048x256 .bf16) (xs0 : Vec F S2x256 .f32) (y : S2x256.Idx) :
    ∃ pc ∈ (kernelRun1_C c i arg1 harg1 arg2 harg2 arg3 harg3 arg4 harg4 hc1 hc2 x0 x1 xs0).1, y ∈ pc.1.set :=
  View.cover_of_tiledL (kernelRun1_C c i arg1 harg1 arg2 harg2 arg3 harg3 arg4 harg4 hc1 hc2 x0 x1 xs0).1 S2x256.size (by sl_kernel_rfl) y

/-- What the last point leaves in the output window's buffer. -/
def out1_C (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i)
    (x0 : Vec F S2x2048 .f32) (x1 : Vec F S2048x256 .bf16) (xs0 : Vec F S2x256 .f32) : Vec F S2x256 .f32 :=
  VO1_2.read (Elt F) (VO1_2.writes (Elt F) VO1_2.junk (kernelRun1_C c i arg1 harg1 arg2 harg2 arg3 harg3 arg4 harg4 hc1 hc2 x0 x1 xs0).1)

theorem scover1_C (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i)
    (x0 : Vec F S2x2048 .f32) (x1 : Vec F S2048x256 .bf16) (xs0 : Vec F S2x256 .f32) (y : S2x256.Idx) :
    ∃ pc ∈ (kernelRun1_C c i arg1 harg1 arg2 harg2 arg3 harg3 arg4 harg4 hc1 hc2 x0 x1 xs0).2.1, y ∈ pc.1.set :=
  View.cover_of_tiledL (kernelRun1_C c i arg1 harg1 arg2 harg2 arg3 harg3 arg4 harg4 hc1 hc2 x0 x1 xs0).2.1 S2x256.size (by sl_kernel_rfl) y

/-- What the last point leaves in the accumulator. -/
def sout1_C (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i)
    (x0 : Vec F S2x2048 .f32) (x1 : Vec F S2048x256 .bf16) (xs0 : Vec F S2x256 .f32) : Vec F S2x256 .f32 :=
  VS1_0.read (Elt F) (VS1_0.writes (Elt F) VS1_0.junk (kernelRun1_C c i arg1 harg1 arg2 harg2 arg3 harg3 arg4 harg4 hc1 hc2 x0 x1 xs0).2.1)

/-! ## What the accumulator and the output window's buffer hold after each point -/

/-- THE ACCUMULATION. What the accumulator holds after the body at position `n`: the first point's contents at
    the point's input blocks, then each point's over what the point before left. -/
def accAt1 (c : Dev nD) : (n : ℕ) → n < cfg1.N → Vec F S2x256 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_1 ⟨0, hn⟩).mpr rfl) (fun h => (fun h => by (try dsimp only at h); omega) ((hcond1_2 ⟨0, hn⟩).mp h)) (iblk1 V c 0 ⟨0, hn⟩) (iblk1 V c 1 ⟨0, hn⟩)
  | n + 1, hn =>
    if h2 : n + 1 = 3 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => (fun h => by (try dsimp only at h); omega) ((hcond1_1 ⟨n + 1, hn⟩).mp h)) ((hcond1_2 ⟨n + 1, hn⟩).mpr h2) (iblk1 V c 0 ⟨n + 1, hn⟩) (iblk1 V c 1 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => (fun h => by (try dsimp only at h); omega) ((hcond1_1 ⟨n + 1, hn⟩).mp h)) (fun h => h2 ((hcond1_2 ⟨n + 1, hn⟩).mp h)) (iblk1 V c 0 ⟨n + 1, hn⟩) (iblk1 V c 1 ⟨n + 1, hn⟩) (accAt1 c n (Nat.lt_of_succ_lt hn))

/-- `accAt1` at the first point. -/
theorem accAt1_A (c : Dev nD) (t : Fin cfg1.N) (h1 : t.val = 0) (h2 : ¬t.val = 3) :
    accAt1 V c t.val t.isLt = sout1_A c (grid1.coords t) (ms1_0 t) (hs1_0 t) (ms1_1 t) (hs1_1 t) (ms1_2 t) (hs1_2 t) scM1_0 (Memref.isWhole_whole _) ((hcond1_1 t).mpr h1) (fun h => h2 ((hcond1_2 t).mp h)) (iblk1 V c 0 t) (iblk1 V c 1 t) := by
  obtain ⟨n, hn⟩ := t
  cases n with
  | zero => exact rfl
  | succ n => exact absurd h1 (Nat.succ_ne_zero n)

/-- `accAt1` at a middle point: that case's contents, over what the point before left. -/
theorem accAt1_B (c : Dev nD) (t : Fin cfg1.N) (h1 : ¬t.val = 0) (h2 : ¬t.val = 3) :
    accAt1 V c t.val t.isLt = sout1_B c (grid1.coords t) (ms1_0 t) (hs1_0 t) (ms1_1 t) (hs1_1 t) (ms1_2 t) (hs1_2 t) scM1_0 (Memref.isWhole_whole _) (fun h => h1 ((hcond1_1 t).mp h)) (fun h => h2 ((hcond1_2 t).mp h)) (iblk1 V c 0 t) (iblk1 V c 1 t) (accAt1 V c (t.val - 1) (Nat.lt_of_le_of_lt (Nat.sub_le _ _) t.isLt)) := by
  obtain ⟨n, hn⟩ := t
  cases n with
  | zero => exact absurd rfl h1
  | succ n => exact (dif_neg h2).trans rfl

/-- `accAt1` at the last point. -/
theorem accAt1_C (c : Dev nD) (t : Fin cfg1.N) (h1 : ¬t.val = 0) (h2 : t.val = 3) :
    accAt1 V c t.val t.isLt = sout1_C c (grid1.coords t) (ms1_0 t) (hs1_0 t) (ms1_1 t) (hs1_1 t) (ms1_2 t) (hs1_2 t) scM1_0 (Memref.isWhole_whole _) (fun h => h1 ((hcond1_1 t).mp h)) ((hcond1_2 t).mpr h2) (iblk1 V c 0 t) (iblk1 V c 1 t) (accAt1 V c (t.val - 1) (Nat.lt_of_le_of_lt (Nat.sub_le _ _) t.isLt)) := by
  obtain ⟨n, hn⟩ := t
  cases n with
  | zero => exact absurd rfl h1
  | succ n => exact (dif_pos h2).trans rfl

/-- What the output window's buffer holds after the body at point `t`: at the last point what that case stores;
    elsewhere the window is idle and the value is a placeholder nothing consults. -/
def outAt1 (c : Dev nD) (t : Fin cfg1.N) : Vec F S2x256 .f32 :=
  if h2 : t.val = 3 then
    out1_C c (grid1.coords t) (ms1_0 t) (hs1_0 t) (ms1_1 t) (hs1_1 t) (ms1_2 t) (hs1_2 t) scM1_0 (Memref.isWhole_whole _) (fun h => (fun h => by omega) ((hcond1_1 t).mp h)) ((hcond1_2 t).mpr h2) (iblk1 V c 0 t) (iblk1 V c 1 t) (accAt1 V c (t.val - 1) (Nat.lt_of_le_of_lt (Nat.sub_le _ _) t.isLt))
  else VO1_2.read (Elt F) VO1_2.junk

theorem outAt1_C (c : Dev nD) (t : Fin cfg1.N) (h1 : ¬t.val = 0) (h2 : t.val = 3) :
    outAt1 V c t = out1_C c (grid1.coords t) (ms1_0 t) (hs1_0 t) (ms1_1 t) (hs1_1 t) (ms1_2 t) (hs1_2 t) scM1_0 (Memref.isWhole_whole _) (fun h => h1 ((hcond1_1 t).mp h)) ((hcond1_2 t).mpr h2) (iblk1 V c 0 t) (iblk1 V c 1 t) (accAt1 V c (t.val - 1) (Nat.lt_of_le_of_lt (Nat.sub_le _ _) t.isLt)) := by
  unfold outAt1; exact dif_pos h2

/-! ## The region invariant, point by point -/

/-- The invariant before position `n`: before the first point the class's (every scoped buffer that is no staging
    buffer at anything, the generator register at some state); afterwards the same with the accumulator at what the
    point before left in it. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare (accAt1 V c n hn) ∗ rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ rest1 (F := F) c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outAt1`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the accumulator at what the point before left (at anything at the first point),
    the other scoped buffers and the generator register untouched, and takes the accumulator back at this point's
    contents; where the output window is idle its buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 4 := lt_of_lt_of_eq t.isLt (show cfg1.N = 4 from N_1)
  by_cases h1 : t.val = 0
  · have h2 : ¬t.val = 3 := by omega
    rw [Dat.leavesExact_idle (dat1 V c) 2 t (idleAt1_2 t (fun h => h2 ((hcond1_2 t).mp h))) (noFlush1_2 t (fun h => h2 ((hcond1_2 t).mp h)))]
    rw [accAt1_A V c t h1 h2]
    unfold sout1_A; (try dsimp only)
    rw [PhiS1_castSucc V c t, PhiS1_zero V c _ _ h1, PhiA1_eq]
    iintro ⟨⟨⟨HS0, HR⟩, Hg⟩, Ho, ⟨%d0, H0⟩, ⟨%d1, H1⟩, ⟨%d2, H2⟩⟩
    iapply ((kernelRun1_A c (grid1.coords t) _ _ _ _ _ _ _ _ ((hcond1_1 t).mpr h1) (fun h => h2 ((hcond1_2 t).mp h)) (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A c _ _ _ _ _ _ _ _ _ _ _ _ _)
        iexact HR
      iexact Hg
    isplitl [Ho]; · iexact Ho
    isplitl [H0]; · iexact H0
    isplitl [H1]; · iexact H1
    iexists _; iexact H2
  · by_cases h2 : t.val = 3
    · rw [show (dat1 V c).leavesExact 2 t = owns (c : Thread nD τ) (ms1_2 t) fullShare ((dat1 V c).after 2 t) from by
        unfold Dat.leavesExact; rw [liveAt1_2 t ((hcond1_2 t).mpr h2)], after1_2]
      rw [accAt1_C V c t h1 h2, outAt1_C V c t h1 h2]
      unfold out1_C sout1_C; (try dsimp only)
      rw [PhiS1_castSucc V c t, PhiS1_pos V c _ _ h1]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h1 ((hcond1_1 t).mp h)) ((hcond1_2 t).mpr h2) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h2 ((hcond1_2 t).mp h))) (noFlush1_2 t (fun h => h2 ((hcond1_2 t).mp h)))]
      rw [accAt1_B V c t h1 h2]
      unfold sout1_B; (try dsimp only)
      rw [PhiS1_castSucc V c t, PhiS1_pos V c _ _ h1]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h1 ((hcond1_1 t).mp h)) (fun h => h2 ((hcond1_2 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's entry and exit -/

/-- What the launch hands the region — the generator register, no prefetched table, the scoped buffers no window
    stages — is the invariant before the first point. -/
theorem hin1 (c : Dev nD) : iprop((∃ r, prngReg c r) ∗ Pipeline.prefHeld (pcfgs (F := F) 1).pre c (fun _ => fullShare) ((cfgs 1).toPCfg_adm).1 ∗ Pipeline.scopedRest spec1 c) ⊢ ((dat1 V c).Φ 0 : sProp 𝕄) := by
  rw [show (dat1 V c).Φ 0 = PhiS1 V c 0 (Nat.zero_le _) from rfl, PhiS1_zero V c 0 _ rfl]; unfold Pipeline.ΦA
  iintro ⟨Hp, -, Hr⟩
  isplitl [Hr]; · iexact Hr
  iexact Hp

/-- After the last point the invariant gives them back: the accumulator's named contents are forgotten. -/
theorem hout1 (c : Dev nD) : ((dat1 V c).Φ (Fin.last cfg1.N) : sProp 𝕄) ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec1 c) := by
  have hne : (Fin.last cfg1.N).val ≠ 0 := by rw [Fin.val_last]; have : cfg1.N = 4 := N_1; omega
  rw [Pipeline.ownSems0_none, show (dat1 V c).Φ (Fin.last cfg1.N) = PhiS1 V c (Fin.last cfg1.N).val (Nat.le_of_lt_succ (Fin.last cfg1.N).isLt) from rfl,
    PhiS1_pos V c _ _ hne, scopedRest1_split]
  iintro ⟨⟨HS0, HR⟩, Hg⟩
  isplitl [Hg]; · iexact Hg
  isplitr; · iempintro
  isplitl [HS0]
  · simp only [scM1_0, owns_whole]; iexists _; iexact HS0
  iexact HR

end Cert.KernelIdeal.Hand

end
-- ==== Proof.KI.Reg2.lean ====
/- Region 2 of the kernel program (the scatter kernel: a block of rows, each the positive part of a combination of
   the two rows of a small operand with coefficients read off two columns): each window's block at a point read off
   the contents the region is entered with (`V`, a parameter), what the body leaves in the output window's buffer,
   the body's triple, the region's proof data and its body obligation. -/
import proofs.«172208_j80221399155047_2_alg».proof.Proof.Gen.KernelIdeal.Launch
import proofs.«172208_j80221399155047_2_alg».proof.Proof.Gen.KernelIdeal.Skeleton
import proofs.«172208_j80221399155047_2_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for any proof
    data whose array is `V`'s (`hA`) and whose body leaves the block in place (`hafter`): unfetched, the
    block index has not moved; the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x1 := Rect.unit (s := S2048x1) ![0, 0] S2048x1.size inb_S2048x1_S2048x1_0_0
abbrev r2_1 : Rect S2x256 := Rect.unit (s := S2x256) ![0, 0] S2x256.size inb_S2x256_S2x256_0_0
abbrev r2_2 : Rect S2048x256 := Rect.unit (s := S2048x256) ![0, 0] S2048x256.size inb_S2048x256_S2048x256_0_0

/-! ## What the body leaves in the output window's buffer -/

/-- Window 3's staging buffer after the body, from the input windows' blocks: its one store as a piece. -/
def out2_3 (x0 : Vec F S2048x1 .f32) (x1 : Vec F S2048x1 .f32) (x2 : Vec F S2x256 .f32) : Vec F S2048x256 .bf16 :=
  View.canon [⟨r2_2, k2_pay1 (View.ld x0 r2_0) (View.ld x1 r2_0) (View.ld x2 r2_1)⟩]

/-- Its store tiles the buffer (checked by evaluation), so it covers it. -/
theorem cover2_3 (p0 : Vec F S2048x256 .bf16) (y : S2048x256.Idx) :
    ∃ pc ∈ ([⟨r2_2, p0⟩] : List (View.Piece (Elt F) S2048x256 .bf16)), y ∈ pc.1.set :=
  View.cover_of_tiled [⟨r2_2, p0⟩] S2048x256.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords) (arg1 : Memref sig .tc .vmem S2048x1 .f32) (harg1 : arg1.IsWhole) (arg2 : Memref sig .tc .vmem S2048x1 .f32) (harg2 : arg2.IsWhole) (arg3 : Memref sig .tc .vmem S2x256 .f32) (harg3 : arg3.IsWhole) (arg4 : Memref sig .tc .vmem S2048x256 .bf16) (harg4 : arg4.IsWhole)
    (x0 : Vec F S2048x1 .f32) (x1 : Vec F S2048x1 .f32) (x2 : Vec F S2x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__scatter_kernel i arg1 harg1 arg2 harg2 arg3 harg3 arg4 harg4) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- Region 3 of the kernel program (the linear kernel: a block of rows times the whole weight matrix): each
   window's block at a point read off the contents the region is entered with (`V`, a parameter), what the
   body leaves in the output window's buffer, the body's triple, the region's proof data and its body
   obligation. -/
import proofs.«172208_j80221399155047_2_alg».proof.Proof.Gen.KernelIdeal.Launch
import proofs.«172208_j80221399155047_2_alg».proof.Proof.Gen.KernelIdeal.Skeleton
import proofs.«172208_j80221399155047_2_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the
    block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S2048x256 := Rect.unit (s := S2048x256) ![0, 0] S2048x256.size inb_S2048x256_S2048x256_0_0
abbrev r3_1 : Rect S256x256 := Rect.unit (s := S256x256) ![0, 0] S256x256.size inb_S256x256_S256x256_0_0

/-! ## What the body leaves in the output window's buffer -/

/-- Window 2's staging buffer after the body, from the input windows' blocks: its one store as a piece. -/
def out3_2 (x0 : Vec F S2048x256 .bf16) (x1 : Vec F S256x256 .f32) : Vec F S2048x256 .bf16 :=
  View.canon [⟨r3_0, k3_pay1 (View.ld x0 r3_0) (View.ld x1 r3_1)⟩]

/-- Its store tiles the buffer (checked by evaluation), so it covers it. -/
theorem cover3_2 (p0 : Vec F S2048x256 .bf16) (y : S2048x256.Idx) :
    ∃ pc ∈ ([⟨r3_0, p0⟩] : List (View.Piece (Elt F) S2048x256 .bf16)), y ∈ pc.1.set :=
  View.cover_of_tiled [⟨r3_0, p0⟩] S2048x256.size (by rfl) y

/-! ## The body's triple -/

set_option maxHeartbeats 1000000 in
/-- The kernel body on whole staging memrefs, the inputs' at read contents `xW` and the output's at anything, runs to
    the continuation holding the inputs' as they were and the output's at `out3_2` of the inputs'. -/
theorem sound_kernel3 (c : Dev nD) (E : Set ℕ) (i : grid3.Coords) (arg1 : Memref sig .tc .vmem S2048x256 .bf16) (harg1 : arg1.IsWhole) (arg2 : Memref sig .tc .vmem S256x256 .f32) (harg2 : arg2.IsWhole) (arg3 : Memref sig .tc .vmem S2048x256 .bf16) (harg3 : arg3.IsWhole)
    (x0 : Vec F S2048x256 .bf16) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at
    point `t` each input's buffer at its block and the output's at `out3_2` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/- Region 4 of the kernel program (the reduce kernel: at every grid point a [2,2048] band of the left operand
   times a [2048,256] band of the right one, added into a [2,256] accumulator the kernel keeps in a scratch buffer
   of its own, zeroed at the first point and copied to the output window at the last): the body's branch
   conditions in closed form, the body's triple in each of its three cases, what the accumulator and the output
   window's buffer hold after each point, the region's proof data — whose invariant carries the accumulator from
   point to point —, its body obligation, and the invariant's entry and exit. -/
import proofs.«172208_j80221399155047_2_alg».proof.Proof.Gen.KernelIdeal.Launch
import proofs.«172208_j80221399155047_2_alg».proof.Proof.Gen.KernelIdeal.Skeleton
import proofs.«172208_j80221399155047_2_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the
    block index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the accumulator is zeroed), from the grid coordinates. -/
abbrev cond4_1 (i : grid4.Coords) : Prop := (Scalar.cmpi .ne (Scalar.extui (Scalar.cmpi .eq (BitVec.ofNat 32 (i 0).val) 0#32)) 0#32) = 1#1
/-- It holds at the first point only — decided over the grid. -/
theorem hcond4_1 : ∀ t : Fin cfg4.N, cond4_1 (grid4.coords t) ↔ t.val = 0 :=
  (by decide +kernel : ∀ t : Fin grid4.N, cond4_1 (grid4.coords t) ↔ t.val = 0)

/-- The condition of the body's second conditional (the accumulator is copied to the output window). -/
abbrev cond4_2 (i : grid4.Coords) : Prop := k4_cond2 i = 1#1
/-- It holds at the last point only — decided over the grid. -/
theorem hcond4_2 : ∀ t : Fin cfg4.N, cond4_2 (grid4.coords t) ↔ t.val = 3 :=
  (by decide +kernel : ∀ t : Fin grid4.N, cond4_2 (grid4.coords t) ↔ t.val = 3)

/-! ## Where the windows are idle -/

/-- The input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where the second conditional fails the output window is idle: the body stores nothing into it, -/
theorem idleAt4_2 : ∀ t : Fin cfg4.N, ¬cond4_2 (grid4.coords t) → cfg4.idle 2 (grid4.coords t) = true := by decide +kernel
/-- and the pipeline does not write its block back. -/
theorem noFlush4_2 : ∀ t : Fin cfg4.N, ¬cond4_2 (grid4.coords t) → (cfg4.win 2).flush t = false := by decide +kernel
/-- Where it holds the output window is live. -/
theorem liveAt4_2 : ∀ t : Fin cfg4.N, cond4_2 (grid4.coords t) → cfg4.idle 2 (grid4.coords t) = false := by decide +kernel

/-! ## The memrefs the body is called with -/

/-- The output window's one staging buffer as a view, through which its contents are stated (any view of the
    shape reads a covering list of writes alike). -/
abbrev VO4_2 : View sig .tc .vmem S2x256 .f32 := (Memref.whole cc4_stg2_0 : Memref sig .tc .vmem S2x256 .f32).view
/-- Each window's current staging memref at point `t`, spelt as the pipeline passes it, and its wholeness. -/
abbrev ms4_0 (t : Fin cfg4.N) : Memref sig .tc .vmem S2x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2x256 .f32 := win4_2.stage (cfg4.slots t 2)
abbrev hs4_2 (t : Fin cfg4.N) : (ms4_2 t).IsWhole := hstage4_2 ((cfg4.slots t 2).cast nbuf4_2)
/-- The accumulator: a whole scoped buffer of the kernel's own, passed beside the windows. -/
abbrev scM4_0 : Memref sig .tc .vmem S2x256 .f32 := Memref.whole cc4_scratch0
abbrev VS4_0 : View sig .tc .vmem S2x256 .f32 := scM4_0.view

/-- The scoped buffers that are neither a staging buffer of this region's windows nor the accumulator, at some
    contents each: carried through the region unopened. -/
abbrev rest4 (c : Dev nD) : sProp 𝕄 :=
  Pipeline.scopedRestBut (Ix := Unit) (Name := ℕ) (U := UR sig nD τ) (Lvl := ℕ) (Val := Elt F) spec4 c [cc4_scratch0]

/-- The class's invariant with the accumulator split off as a memref owned at some contents. -/
theorem PhiA4_eq (c : Dev nD) :
    (Pipeline.ΦA spec4 c : sProp 𝕄)
      = iprop(iprop((∃ d, owns (c : Thread nD τ) scM4_0 fullShare d) ∗ rest4 (F := F) c) ∗ (∃ r, prngReg c r)) := by
  unfold Pipeline.ΦA; rw [scopedRest4_split]; simp only [scM4_0, owns_whole]; try rfl

/-! ## The kernel body on any staging memrefs, case by case -/

set_option maxHeartbeats 1000000 in
/-- THE FIRST POINT (first conditional taken, second not). What the body's stores leave in the accumulator, as
    pieces (last first), with the proof that on whole memrefs — the inputs' at their contents `x0`, `x1`, the
    output's (idle here) at contents `xi2` handed back untouched, the accumulator at anything — the body runs to the
    continuation holding the inputs' and the output's as they were and the accumulator with its pieces written. The
    pieces are the witness the run finds. -/
noncomputable def kernelRun4_A (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond4_1 i) (hc2 : ¬cond4_2 i)
    (x0 : Vec F S2x2048 .f32) (x1 : Vec F S2048x256 .bf16) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__reduce_kernel i arg1 harg1 arg2 harg2 arg3 harg3 arg4 harg4) K } := by
  refine ⟨?_, fun xi2 E K => ?run⟩
  case run =>
    simp only [cc4__reduce_kernel_eq_skeleton]; unfold cc4__reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken): as at the first point, the accumulator at the contents `xs0` the
    point before left. -/
noncomputable def kernelRun4_B (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : ¬cond4_2 i)
    (x0 : Vec F S2x2048 .f32) (x1 : Vec F S2048x256 .bf16) (xs0 : Vec F S2x256 .f32) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__reduce_kernel i arg1 harg1 arg2 harg2 arg3 harg3 arg4 harg4) K } := by
  refine ⟨?_, fun xi2 E K => ?run⟩
  case run =>
    simp only [cc4__reduce_kernel_eq_skeleton]; unfold cc4__reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (first conditional not taken, second taken): the output's buffer at anything, left with its
    pieces written (`L2`); the accumulator as at a middle point. -/
noncomputable def kernelRun4_C (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i)
    (x0 : Vec F S2x2048 .f32) (x1 : Vec F S2048x256 .bf16) (xs0 : Vec F S2x256 .f32) :
    Σ' (L2 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc4__reduce_kernel i arg1 harg1 arg2 harg2 arg3 harg3 arg4 harg4) K } := by
  refine ⟨?_, ?_, fun E K => ?run⟩
  case run =>
    simp only [cc4__reduce_kernel_eq_skeleton]; unfold cc4__reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves -/

/-- The first point's pieces cover the accumulator (each store is of the whole buffer: checked by evaluation). -/
theorem scover4_A (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond4_1 i) (hc2 : ¬cond4_2 i)
    (x0 : Vec F S2x2048 .f32) (x1 : Vec F S2048x256 .bf16) (y : S2x256.Idx) :
    ∃ pc ∈ (kernelRun4_A c i arg1 harg1 arg2 harg2 arg3 harg3 arg4 harg4 hc1 hc2 x0 x1).1, y ∈ pc.1.set :=
  View.cover_of_tiledL (kernelRun4_A c i arg1 harg1 arg2 harg2 arg3 harg3 arg4 harg4 hc1 hc2 x0 x1).1 S2x256.size (by sl_kernel_rfl) y

/-- What the first point leaves in the accumulator: its pieces read back. -/
def sout4_A (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond4_1 i) (hc2 : ¬cond4_2 i)
    (x0 : Vec F S2x2048 .f32) (x1 : Vec F S2048x256 .bf16) : Vec F S2x256 .f32 :=
  VS4_0.read (Elt F) (VS4_0.writes (Elt F) VS4_0.junk (kernelRun4_A c i arg1 harg1 arg2 harg2 arg3 harg3 arg4 harg4 hc1 hc2 x0 x1).1)

theorem scover4_B (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : ¬cond4_2 i)
    (x0 : Vec F S2x2048 .f32) (x1 : Vec F S2048x256 .bf16) (xs0 : Vec F S2x256 .f32) (y : S2x256.Idx) :
    ∃ pc ∈ (kernelRun4_B c i arg1 harg1 arg2 harg2 arg3 harg3 arg4 harg4 hc1 hc2 x0 x1 xs0).1, y ∈ pc.1.set :=
  View.cover_of_tiledL (kernelRun4_B c i arg1 harg1 arg2 harg2 arg3 harg3 arg4 harg4 hc1 hc2 x0 x1 xs0).1 S2x256.size (by sl_kernel_rfl) y

/-- What a middle point leaves in the accumulator, over what the point before left (`xs0`). -/
def sout4_B (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : ¬cond4_2 i)
    (x0 : Vec F S2x2048 .f32) (x1 : Vec F S2048x256 .bf16) (xs0 : Vec F S2x256 .f32) : Vec F S2x256 .f32 :=
  VS4_0.read (Elt F) (VS4_0.writes (Elt F) VS4_0.junk (kernelRun4_B c i arg1 harg1 arg2 harg2 arg3 harg3 arg4 harg4 hc1 hc2 x0 x1 xs0).1)

theorem cover4_C (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i)
    (x0 : Vec F S2x2048 .f32) (x1 : Vec F S2048x256 .bf16) (xs0 : Vec F S2x256 .f32) (y : S2x256.Idx) :
    ∃ pc ∈ (kernelRun4_C c i arg1 harg1 arg2 harg2 arg3 harg3 arg4 harg4 hc1 hc2 x0 x1 xs0).1, y ∈ pc.1.set :=
  View.cover_of_tiledL (kernelRun4_C c i arg1 harg1 arg2 harg2 arg3 harg3 arg4 harg4 hc1 hc2 x0 x1 xs0).1 S2x256.size (by sl_kernel_rfl) y

/-- What the last point leaves in the output window's buffer. -/
def out4_C (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i)
    (x0 : Vec F S2x2048 .f32) (x1 : Vec F S2048x256 .bf16) (xs0 : Vec F S2x256 .f32) : Vec F S2x256 .f32 :=
  VO4_2.read (Elt F) (VO4_2.writes (Elt F) VO4_2.junk (kernelRun4_C c i arg1 harg1 arg2 harg2 arg3 harg3 arg4 harg4 hc1 hc2 x0 x1 xs0).1)

theorem scover4_C (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i)
    (x0 : Vec F S2x2048 .f32) (x1 : Vec F S2048x256 .bf16) (xs0 : Vec F S2x256 .f32) (y : S2x256.Idx) :
    ∃ pc ∈ (kernelRun4_C c i arg1 harg1 arg2 harg2 arg3 harg3 arg4 harg4 hc1 hc2 x0 x1 xs0).2.1, y ∈ pc.1.set :=
  View.cover_of_tiledL (kernelRun4_C c i arg1 harg1 arg2 harg2 arg3 harg3 arg4 harg4 hc1 hc2 x0 x1 xs0).2.1 S2x256.size (by sl_kernel_rfl) y

/-- What the last point leaves in the accumulator. -/
def sout4_C (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i)
    (x0 : Vec F S2x2048 .f32) (x1 : Vec F S2048x256 .bf16) (xs0 : Vec F S2x256 .f32) : Vec F S2x256 .f32 :=
  VS4_0.read (Elt F) (VS4_0.writes (Elt F) VS4_0.junk (kernelRun4_C c i arg1 harg1 arg2 harg2 arg3 harg3 arg4 harg4 hc1 hc2 x0 x1 xs0).2.1)

/-! ## What the accumulator and the output window's buffer hold after each point -/

/-- THE ACCUMULATION. What the accumulator holds after the body at position `n`: the first point's contents at
    the point's input blocks, then each point's over what the point before left. -/
def accAt4 (c : Dev nD) : (n : ℕ) → n < cfg4.N → Vec F S2x256 .f32
  | 0, hn => sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_1 ⟨0, hn⟩).mpr rfl) (fun h => (fun h => by (try dsimp only at h); omega) ((hcond4_2 ⟨0, hn⟩).mp h)) (iblk4 V c 0 ⟨0, hn⟩) (iblk4 V c 1 ⟨0, hn⟩)
  | n + 1, hn =>
    if h2 : n + 1 = 3 then
      sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => (fun h => by (try dsimp only at h); omega) ((hcond4_1 ⟨n + 1, hn⟩).mp h)) ((hcond4_2 ⟨n + 1, hn⟩).mpr h2) (iblk4 V c 0 ⟨n + 1, hn⟩) (iblk4 V c 1 ⟨n + 1, hn⟩) (accAt4 c n (Nat.lt_of_succ_lt hn))
    else
      sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => (fun h => by (try dsimp only at h); omega) ((hcond4_1 ⟨n + 1, hn⟩).mp h)) (fun h => h2 ((hcond4_2 ⟨n + 1, hn⟩).mp h)) (iblk4 V c 0 ⟨n + 1, hn⟩) (iblk4 V c 1 ⟨n + 1, hn⟩) (accAt4 c n (Nat.lt_of_succ_lt hn))

/-- `accAt4` at the first point. -/
theorem accAt4_A (c : Dev nD) (t : Fin cfg4.N) (h1 : t.val = 0) (h2 : ¬t.val = 3) :
    accAt4 V c t.val t.isLt = sout4_A c (grid4.coords t) (ms4_0 t) (hs4_0 t) (ms4_1 t) (hs4_1 t) (ms4_2 t) (hs4_2 t) scM4_0 (Memref.isWhole_whole _) ((hcond4_1 t).mpr h1) (fun h => h2 ((hcond4_2 t).mp h)) (iblk4 V c 0 t) (iblk4 V c 1 t) := by
  obtain ⟨n, hn⟩ := t
  cases n with
  | zero => exact rfl
  | succ n => exact absurd h1 (Nat.succ_ne_zero n)

/-- `accAt4` at a middle point: that case's contents, over what the point before left. -/
theorem accAt4_B (c : Dev nD) (t : Fin cfg4.N) (h1 : ¬t.val = 0) (h2 : ¬t.val = 3) :
    accAt4 V c t.val t.isLt = sout4_B c (grid4.coords t) (ms4_0 t) (hs4_0 t) (ms4_1 t) (hs4_1 t) (ms4_2 t) (hs4_2 t) scM4_0 (Memref.isWhole_whole _) (fun h => h1 ((hcond4_1 t).mp h)) (fun h => h2 ((hcond4_2 t).mp h)) (iblk4 V c 0 t) (iblk4 V c 1 t) (accAt4 V c (t.val - 1) (Nat.lt_of_le_of_lt (Nat.sub_le _ _) t.isLt)) := by
  obtain ⟨n, hn⟩ := t
  cases n with
  | zero => exact absurd rfl h1
  | succ n => exact (dif_neg h2).trans rfl

/-- `accAt4` at the last point. -/
theorem accAt4_C (c : Dev nD) (t : Fin cfg4.N) (h1 : ¬t.val = 0) (h2 : t.val = 3) :
    accAt4 V c t.val t.isLt = sout4_C c (grid4.coords t) (ms4_0 t) (hs4_0 t) (ms4_1 t) (hs4_1 t) (ms4_2 t) (hs4_2 t) scM4_0 (Memref.isWhole_whole _) (fun h => h1 ((hcond4_1 t).mp h)) ((hcond4_2 t).mpr h2) (iblk4 V c 0 t) (iblk4 V c 1 t) (accAt4 V c (t.val - 1) (Nat.lt_of_le_of_lt (Nat.sub_le _ _) t.isLt)) := by
  obtain ⟨n, hn⟩ := t
  cases n with
  | zero => exact absurd rfl h1
  | succ n => exact (dif_pos h2).trans rfl

/-- What the output window's buffer holds after the body at point `t`: at the last point what that case stores;
    elsewhere the window is idle and the value is a placeholder nothing consults. -/
def outAt4 (c : Dev nD) (t : Fin cfg4.N) : Vec F S2x256 .f32 :=
  if h2 : t.val = 3 then
    out4_C c (grid4.coords t) (ms4_0 t) (hs4_0 t) (ms4_1 t) (hs4_1 t) (ms4_2 t) (hs4_2 t) scM4_0 (Memref.isWhole_whole _) (fun h => (fun h => by omega) ((hcond4_1 t).mp h)) ((hcond4_2 t).mpr h2) (iblk4 V c 0 t) (iblk4 V c 1 t) (accAt4 V c (t.val - 1) (Nat.lt_of_le_of_lt (Nat.sub_le _ _) t.isLt))
  else VO4_2.read (Elt F) VO4_2.junk

theorem outAt4_C (c : Dev nD) (t : Fin cfg4.N) (h1 : ¬t.val = 0) (h2 : t.val = 3) :
    outAt4 V c t = out4_C c (grid4.coords t) (ms4_0 t) (hs4_0 t) (ms4_1 t) (hs4_1 t) (ms4_2 t) (hs4_2 t) scM4_0 (Memref.isWhole_whole _) (fun h => h1 ((hcond4_1 t).mp h)) ((hcond4_2 t).mpr h2) (iblk4 V c 0 t) (iblk4 V c 1 t) (accAt4 V c (t.val - 1) (Nat.lt_of_le_of_lt (Nat.sub_le _ _) t.isLt)) := by
  unfold outAt4; exact dif_pos h2

/-! ## The region invariant, point by point -/

/-- The invariant before position `n`: before the first point the class's (every scoped buffer that is no staging
    buffer at anything, the generator register at some state); afterwards the same with the accumulator at what the
    point before left in it. -/
def PhiS4 (c : Dev nD) : (n : ℕ) → n ≤ cfg4.N → sProp 𝕄
  | 0, _ => Pipeline.ΦA spec4 c
  | n + 1, hn => iprop(iprop(owns (c : Thread nD τ) scM4_0 fullShare (accAt4 V c n hn) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4_0 fullShare (accAt4 V c n hn) ∗ rest4 (F := F) c) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4_0 fullShare (accAt4 V c (n - 1) (by omega)) ∗ rest4 (F := F) c) ∗ (∃ r, prngReg c r)) := by
  cases n with
  | zero => exact absurd rfl hz
  | succ n => rfl

/-! ## The pipeline's proof data -/

/-- The proof data of pipeline 4 on core `c`: the arrays as the region finds them (`V`); after the body at point
    `t` each input's buffer at its block and the output's at `outAt4`; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => outAt4 V c t
  Φ t := PhiS4 V c t.val (Nat.le_of_lt_succ t.isLt)
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = outAt4 V c t := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in;
    the invariant hands the body the accumulator at what the point before left (at anything at the first point),
    the other scoped buffers and the generator register untouched, and takes the accumulator back at this point's
    contents; where the output window is idle its buffer is handed back as found; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  have hN : t.val < 4 := lt_of_lt_of_eq t.isLt (show cfg4.N = 4 from N_4)
  by_cases h1 : t.val = 0
  · have h2 : ¬t.val = 3 := by omega
    rw [Dat.leavesExact_idle (dat4 V c) 2 t (idleAt4_2 t (fun h => h2 ((hcond4_2 t).mp h))) (noFlush4_2 t (fun h => h2 ((hcond4_2 t).mp h)))]
    rw [accAt4_A V c t h1 h2]
    unfold sout4_A; (try dsimp only)
    rw [PhiS4_castSucc V c t, PhiS4_zero V c _ _ h1, PhiA4_eq]
    iintro ⟨⟨⟨HS0, HR⟩, Hg⟩, Ho, ⟨%d0, H0⟩, ⟨%d1, H1⟩, ⟨%d2, H2⟩⟩
    iapply ((kernelRun4_A c (grid4.coords t) _ _ _ _ _ _ _ _ ((hcond4_1 t).mpr h1) (fun h => h2 ((hcond4_2 t).mp h)) (iblk4 V c 0 t) (iblk4 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover4_A c _ _ _ _ _ _ _ _ _ _ _ _ _)
        iexact HR
      iexact Hg
    isplitl [Ho]; · iexact Ho
    isplitl [H0]; · iexact H0
    isplitl [H1]; · iexact H1
    iexists _; iexact H2
  · by_cases h2 : t.val = 3
    · rw [show (dat4 V c).leavesExact 2 t = owns (c : Thread nD τ) (ms4_2 t) fullShare ((dat4 V c).after 2 t) from by
        unfold Dat.leavesExact; rw [liveAt4_2 t ((hcond4_2 t).mpr h2)], after4_2]
      rw [accAt4_C V c t h1 h2, outAt4_C V c t h1 h2]
      unfold out4_C sout4_C; (try dsimp only)
      rw [PhiS4_castSucc V c t, PhiS4_pos V c _ _ h1]
      iintro ⟨⟨⟨HS0, HR⟩, Hg⟩, Ho, ⟨%d0, H0⟩, ⟨%d1, H1⟩, ⟨%d2, H2⟩⟩
      iapply ((kernelRun4_C c (grid4.coords t) _ _ _ _ _ _ _ _ (fun h => h1 ((hcond4_1 t).mp h)) ((hcond4_2 t).mpr h2) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C c _ _ _ _ _ _ _ _ _ _ _ _ _ _)
    · rw [Dat.leavesExact_idle (dat4 V c) 2 t (idleAt4_2 t (fun h => h2 ((hcond4_2 t).mp h))) (noFlush4_2 t (fun h => h2 ((hcond4_2 t).mp h)))]
      rw [accAt4_B V c t h1 h2]
      unfold sout4_B; (try dsimp only)
      rw [PhiS4_castSucc V c t, PhiS4_pos V c _ _ h1]
      iintro ⟨⟨⟨HS0, HR⟩, Hg⟩, Ho, ⟨%d0, H0⟩, ⟨%d1, H1⟩, ⟨%d2, H2⟩⟩
      iapply ((kernelRun4_B c (grid4.coords t) _ _ _ _ _ _ _ _ (fun h => h1 ((hcond4_1 t).mp h)) (fun h => h2 ((hcond4_2 t).mp h)) (iblk4 V c 0 t) (iblk4 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's entry and exit -/

/-- What the launch hands the region — the generator register, no prefetched table, the scoped buffers no window
    stages — is the invariant before the first point. -/
theorem hin4 (c : Dev nD) : iprop((∃ r, prngReg c r) ∗ Pipeline.prefHeld (pcfgs (F := F) 4).pre c (fun _ => fullShare) ((cfgs 4).toPCfg_adm).1 ∗ Pipeline.scopedRest spec4 c) ⊢ ((dat4 V c).Φ 0 : sProp 𝕄) := by
  rw [show (dat4 V c).Φ 0 = PhiS4 V c 0 (Nat.zero_le _) from rfl, PhiS4_zero V c 0 _ rfl]; unfold Pipeline.ΦA
  iintro ⟨Hp, -, Hr⟩
  isplitl [Hr]; · iexact Hr
  iexact Hp

/-- After the last point the invariant gives them back: the accumulator's named contents are forgotten. -/
theorem hout4 (c : Dev nD) : ((dat4 V c).Φ (Fin.last cfg4.N) : sProp 𝕄) ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec4 c) := by
  have hne : (Fin.last cfg4.N).val ≠ 0 := by rw [Fin.val_last]; have : cfg4.N = 4 := N_4; omega
  rw [Pipeline.ownSems0_none, show (dat4 V c).Φ (Fin.last cfg4.N) = PhiS4 V c (Fin.last cfg4.N).val (Nat.le_of_lt_succ (Fin.last cfg4.N).isLt) from rfl,
    PhiS4_pos V c _ _ hne, scopedRest4_split]
  iintro ⟨⟨HS0, HR⟩, Hg⟩
  isplitl [Hg]; · iexact Hg
  isplitr; · iempintro
  isplitl [HS0]
  · simp only [scM4_0, owns_whole]; iexists _; iexact HS0
  iexact HR

end Cert.KernelIdeal.Hand

end
-- ==== Proof.KI.Reg5.lean ====
/- Region 5 of the kernel program (the scatter kernel: a block of rows, each the positive part of a combination of
   the two rows of a small operand with coefficients read off two columns): each window's block at a point read off
   the contents the region is entered with (`V`, a parameter), what the body leaves in the output window's buffer,
   the body's triple, the region's proof data and its body obligation. -/
import proofs.«172208_j80221399155047_2_alg».proof.Proof.Gen.KernelIdeal.Launch
import proofs.«172208_j80221399155047_2_alg».proof.Proof.Gen.KernelIdeal.Skeleton
import proofs.«172208_j80221399155047_2_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input window's current staging buffer holds its block at every point, fetched there or not, for any proof
    data whose array is `V`'s (`hA`) and whose body leaves the block in place (`hafter`): unfetched, the
    block index has not moved; the windows are uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S2048x1 := Rect.unit (s := S2048x1) ![0, 0] S2048x1.size inb_S2048x1_S2048x1_0_0
abbrev r5_1 : Rect S2x256 := Rect.unit (s := S2x256) ![0, 0] S2x256.size inb_S2x256_S2x256_0_0
abbrev r5_2 : Rect S2048x256 := Rect.unit (s := S2048x256) ![0, 0] S2048x256.size inb_S2048x256_S2048x256_0_0

/-! ## What the body leaves in the output window's buffer -/

/-- Window 3's staging buffer after the body, from the input windows' blocks: its one store as a piece. -/
def out5_3 (x0 : Vec F S2048x1 .f32) (x1 : Vec F S2048x1 .f32) (x2 : Vec F S2x256 .f32) : Vec F S2048x256 .bf16 :=
  View.canon [⟨r5_2, k5_pay1 (View.ld x0 r5_0) (View.ld x1 r5_0) (View.ld x2 r5_1)⟩]

/-- Its store tiles the buffer (checked by evaluation), so it covers it. -/
theorem cover5_3 (p0 : Vec F S2048x256 .bf16) (y : S2048x256.Idx) :
    ∃ pc ∈ ([⟨r5_2, p0⟩] : List (View.Piece (Elt F) S2048x256 .bf16)), y ∈ pc.1.set :=
  View.cover_of_tiled [⟨r5_2, p0⟩] S2048x256.size (by rfl) y

/-! ## The body's triple -/

set_option maxHeartbeats 1000000 in
/-- The kernel body on whole staging memrefs, the inputs' at read contents `xW` and the output's at anything, runs to
    the continuation holding the inputs' as they were and the output's at `out5_3` of the inputs'. -/
theorem sound_kernel5 (c : Dev nD) (E : Set ℕ) (i : grid5.Coords) (arg1 : Memref sig .tc .vmem S2048x1 .f32) (harg1 : arg1.IsWhole) (arg2 : Memref sig .tc .vmem S2048x1 .f32) (harg2 : arg2.IsWhole) (arg3 : Memref sig .tc .vmem S2x256 .f32) (harg3 : arg3.IsWhole) (arg4 : Memref sig .tc .vmem S2048x256 .bf16) (harg4 : arg4.IsWhole)
    (x0 : Vec F S2048x1 .f32) (x1 : Vec F S2048x1 .f32) (x2 : Vec F S2x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__scatter_kernel i arg1 harg1 arg2 harg2 arg3 harg3 arg4 harg4) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at
    point `t` each input's buffer at its block and the output's at `out5_3` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/- Region 6 of the kernel program (the linear kernel: a block of rows times the whole weight matrix): each
   window's block at a point read off the contents the region is entered with (`V`, a parameter), what the
   body leaves in the output window's buffer, the body's triple, the region's proof data and its body
   obligation. -/
import proofs.«172208_j80221399155047_2_alg».proof.Proof.Gen.KernelIdeal.Launch
import proofs.«172208_j80221399155047_2_alg».proof.Proof.Gen.KernelIdeal.Skeleton
import proofs.«172208_j80221399155047_2_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the
    block index has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same for input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S2048x256 := Rect.unit (s := S2048x256) ![0, 0] S2048x256.size inb_S2048x256_S2048x256_0_0
abbrev r6_1 : Rect S256x256 := Rect.unit (s := S256x256) ![0, 0] S256x256.size inb_S256x256_S256x256_0_0

/-! ## What the body leaves in the output window's buffer -/

/-- Window 2's staging buffer after the body, from the input windows' blocks: its one store as a piece. -/
def out6_2 (x0 : Vec F S2048x256 .bf16) (x1 : Vec F S256x256 .f32) : Vec F S2048x256 .bf16 :=
  View.canon [⟨r6_0, k6_pay1 (View.ld x0 r6_0) (View.ld x1 r6_1)⟩]

/-- Its store tiles the buffer (checked by evaluation), so it covers it. -/
theorem cover6_2 (p0 : Vec F S2048x256 .bf16) (y : S2048x256.Idx) :
    ∃ pc ∈ ([⟨r6_0, p0⟩] : List (View.Piece (Elt F) S2048x256 .bf16)), y ∈ pc.1.set :=
  View.cover_of_tiled [⟨r6_0, p0⟩] S2048x256.size (by rfl) y

/-! ## The body's triple -/

set_option maxHeartbeats 1000000 in
/-- The kernel body on whole staging memrefs, the inputs' at read contents `xW` and the output's at anything, runs to
    the continuation holding the inputs' as they were and the output's at `out6_2` of the inputs'. -/
theorem sound_kernel6 (c : Dev nD) (E : Set ℕ) (i : grid6.Coords) (arg1 : Memref sig .tc .vmem S2048x256 .bf16) (harg1 : arg1.IsWhole) (arg2 : Memref sig .tc .vmem S256x256 .f32) (harg2 : arg2.IsWhole) (arg3 : Memref sig .tc .vmem S2048x256 .bf16) (harg3 : arg3.IsWhole)
    (x0 : Vec F S2048x256 .bf16) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at
    point `t` each input's buffer at its block and the output's at `out6_2` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/- Region 7 of the kernel program (the reduce kernel: at every grid point a [2,2048] band of the left operand
   times a [2048,256] band of the right one, added into a [2,256] accumulator the kernel keeps in a scratch buffer
   of its own, zeroed at the first point and copied to the output window at the last): the body's branch
   conditions in closed form, the body's triple in each of its three cases, what the accumulator and the output
   window's buffer hold after each point, the region's proof data — whose invariant carries the accumulator from
   point to point —, its body obligation, and the invariant's entry and exit. -/
import proofs.«172208_j80221399155047_2_alg».proof.Proof.Gen.KernelIdeal.Launch
import proofs.«172208_j80221399155047_2_alg».proof.Proof.Gen.KernelIdeal.Skeleton
import proofs.«172208_j80221399155047_2_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the
    block index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The condition of the body's first conditional (the accumulator is zeroed), from the grid coordinates. -/
abbrev cond7_1 (i : grid7.Coords) : Prop := (Scalar.cmpi .ne (Scalar.extui (Scalar.cmpi .eq (BitVec.ofNat 32 (i 0).val) 0#32)) 0#32) = 1#1
/-- It holds at the first point only — decided over the grid. -/
theorem hcond7_1 : ∀ t : Fin cfg7.N, cond7_1 (grid7.coords t) ↔ t.val = 0 :=
  (by decide +kernel : ∀ t : Fin grid7.N, cond7_1 (grid7.coords t) ↔ t.val = 0)

/-- The condition of the body's second conditional (the accumulator is copied to the output window). -/
abbrev cond7_2 (i : grid7.Coords) : Prop := k7_cond2 i = 1#1
/-- It holds at the last point only — decided over the grid. -/
theorem hcond7_2 : ∀ t : Fin cfg7.N, cond7_2 (grid7.coords t) ↔ t.val = 3 :=
  (by decide +kernel : ∀ t : Fin grid7.N, cond7_2 (grid7.coords t) ↔ t.val = 3)

/-! ## Where the windows are idle -/

/-- The input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
/-- Where the second conditional fails the output window is idle: the body stores nothing into it, -/
theorem idleAt7_2 : ∀ t : Fin cfg7.N, ¬cond7_2 (grid7.coords t) → cfg7.idle 2 (grid7.coords t) = true := by decide +kernel
/-- and the pipeline does not write its block back. -/
theorem noFlush7_2 : ∀ t : Fin cfg7.N, ¬cond7_2 (grid7.coords t) → (cfg7.win 2).flush t = false := by decide +kernel
/-- Where it holds the output window is live. -/
theorem liveAt7_2 : ∀ t : Fin cfg7.N, cond7_2 (grid7.coords t) → cfg7.idle 2 (grid7.coords t) = false := by decide +kernel

/-! ## The memrefs the body is called with -/

/-- The output window's one staging buffer as a view, through which its contents are stated (any view of the
    shape reads a covering list of writes alike). -/
abbrev VO7_2 : View sig .tc .vmem S2x256 .f32 := (Memref.whole cc7_stg2_0 : Memref sig .tc .vmem S2x256 .f32).view
/-- Each window's current staging memref at point `t`, spelt as the pipeline passes it, and its wholeness. -/
abbrev ms7_0 (t : Fin cfg7.N) : Memref sig .tc .vmem S2x2048 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x256 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2x256 .f32 := win7_2.stage (cfg7.slots t 2)
abbrev hs7_2 (t : Fin cfg7.N) : (ms7_2 t).IsWhole := hstage7_2 ((cfg7.slots t 2).cast nbuf7_2)
/-- The accumulator: a whole scoped buffer of the kernel's own, passed beside the windows. -/
abbrev scM7_0 : Memref sig .tc .vmem S2x256 .f32 := Memref.whole cc7_scratch0
abbrev VS7_0 : View sig .tc .vmem S2x256 .f32 := scM7_0.view

/-- The scoped buffers that are neither a staging buffer of this region's windows nor the accumulator, at some
    contents each: carried through the region unopened. -/
abbrev rest7 (c : Dev nD) : sProp 𝕄 :=
  Pipeline.scopedRestBut (Ix := Unit) (Name := ℕ) (U := UR sig nD τ) (Lvl := ℕ) (Val := Elt F) spec7 c [cc7_scratch0]

/-- The class's invariant with the accumulator split off as a memref owned at some contents. -/
theorem PhiA7_eq (c : Dev nD) :
    (Pipeline.ΦA spec7 c : sProp 𝕄)
      = iprop(iprop((∃ d, owns (c : Thread nD τ) scM7_0 fullShare d) ∗ rest7 (F := F) c) ∗ (∃ r, prngReg c r)) := by
  unfold Pipeline.ΦA; rw [scopedRest7_split]; simp only [scM7_0, owns_whole]; try rfl

/-! ## The kernel body on any staging memrefs, case by case -/

set_option maxHeartbeats 1000000 in
/-- THE FIRST POINT (first conditional taken, second not). What the body's stores leave in the accumulator, as
    pieces (last first), with the proof that on whole memrefs — the inputs' at their contents `x0`, `x1`, the
    output's (idle here) at contents `xi2` handed back untouched, the accumulator at anything — the body runs to the
    continuation holding the inputs' and the output's as they were and the accumulator with its pieces written. The
    pieces are the witness the run finds. -/
noncomputable def kernelRun7_A (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond7_1 i) (hc2 : ¬cond7_2 i)
    (x0 : Vec F S2x2048 .f32) (x1 : Vec F S2048x256 .bf16) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc7__reduce_kernel i arg1 harg1 arg2 harg2 arg3 harg3 arg4 harg4) K } := by
  refine ⟨?_, fun xi2 E K => ?run⟩
  case run =>
    simp only [cc7__reduce_kernel_eq_skeleton]; unfold cc7__reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken): as at the first point, the accumulator at the contents `xs0` the
    point before left. -/
noncomputable def kernelRun7_B (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : ¬cond7_2 i)
    (x0 : Vec F S2x2048 .f32) (x1 : Vec F S2048x256 .bf16) (xs0 : Vec F S2x256 .f32) :
    { LS0 : List (View.Piece (Elt F) S2x256 .f32) //
      ∀ (xi2 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc7__reduce_kernel i arg1 harg1 arg2 harg2 arg3 harg3 arg4 harg4) K } := by
  refine ⟨?_, fun xi2 E K => ?run⟩
  case run =>
    simp only [cc7__reduce_kernel_eq_skeleton]; unfold cc7__reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (first conditional not taken, second taken): the output's buffer at anything, left with its
    pieces written (`L2`); the accumulator as at a middle point. -/
noncomputable def kernelRun7_C (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i)
    (x0 : Vec F S2x2048 .f32) (x1 : Vec F S2048x256 .bf16) (xs0 : Vec F S2x256 .f32) :
    Σ' (L2 : List (View.Piece (Elt F) S2x256 .f32)), { LS0 : List (View.Piece (Elt F) S2x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc7__reduce_kernel i arg1 harg1 arg2 harg2 arg3 harg3 arg4 harg4) K } := by
  refine ⟨?_, ?_, fun E K => ?run⟩
  case run =>
    simp only [cc7__reduce_kernel_eq_skeleton]; unfold cc7__reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves -/

/-- The first point's pieces cover the accumulator (each store is of the whole buffer: checked by evaluation). -/
theorem scover7_A (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond7_1 i) (hc2 : ¬cond7_2 i)
    (x0 : Vec F S2x2048 .f32) (x1 : Vec F S2048x256 .bf16) (y : S2x256.Idx) :
    ∃ pc ∈ (kernelRun7_A c i arg1 harg1 arg2 harg2 arg3 harg3 arg4 harg4 hc1 hc2 x0 x1).1, y ∈ pc.1.set :=
  View.cover_of_tiledL (kernelRun7_A c i arg1 harg1 arg2 harg2 arg3 harg3 arg4 harg4 hc1 hc2 x0 x1).1 S2x256.size (by sl_kernel_rfl) y

/-- What the first point leaves in the accumulator: its pieces read back. -/
def sout7_A (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond7_1 i) (hc2 : ¬cond7_2 i)
    (x0 : Vec F S2x2048 .f32) (x1 : Vec F S2048x256 .bf16) : Vec F S2x256 .f32 :=
  VS7_0.read (Elt F) (VS7_0.writes (Elt F) VS7_0.junk (kernelRun7_A c i arg1 harg1 arg2 harg2 arg3 harg3 arg4 harg4 hc1 hc2 x0 x1).1)

theorem scover7_B (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : ¬cond7_2 i)
    (x0 : Vec F S2x2048 .f32) (x1 : Vec F S2048x256 .bf16) (xs0 : Vec F S2x256 .f32) (y : S2x256.Idx) :
    ∃ pc ∈ (kernelRun7_B c i arg1 harg1 arg2 harg2 arg3 harg3 arg4 harg4 hc1 hc2 x0 x1 xs0).1, y ∈ pc.1.set :=
  View.cover_of_tiledL (kernelRun7_B c i arg1 harg1 arg2 harg2 arg3 harg3 arg4 harg4 hc1 hc2 x0 x1 xs0).1 S2x256.size (by sl_kernel_rfl) y

/-- What a middle point leaves in the accumulator, over what the point before left (`xs0`). -/
def sout7_B (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : ¬cond7_2 i)
    (x0 : Vec F S2x2048 .f32) (x1 : Vec F S2048x256 .bf16) (xs0 : Vec F S2x256 .f32) : Vec F S2x256 .f32 :=
  VS7_0.read (Elt F) (VS7_0.writes (Elt F) VS7_0.junk (kernelRun7_B c i arg1 harg1 arg2 harg2 arg3 harg3 arg4 harg4 hc1 hc2 x0 x1 xs0).1)

theorem cover7_C (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i)
    (x0 : Vec F S2x2048 .f32) (x1 : Vec F S2048x256 .bf16) (xs0 : Vec F S2x256 .f32) (y : S2x256.Idx) :
    ∃ pc ∈ (kernelRun7_C c i arg1 harg1 arg2 harg2 arg3 harg3 arg4 harg4 hc1 hc2 x0 x1 xs0).1, y ∈ pc.1.set :=
  View.cover_of_tiledL (kernelRun7_C c i arg1 harg1 arg2 harg2 arg3 harg3 arg4 harg4 hc1 hc2 x0 x1 xs0).1 S2x256.size (by sl_kernel_rfl) y

/-- What the last point leaves in the output window's buffer. -/
def out7_C (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i)
    (x0 : Vec F S2x2048 .f32) (x1 : Vec F S2048x256 .bf16) (xs0 : Vec F S2x256 .f32) : Vec F S2x256 .f32 :=
  VO7_2.read (Elt F) (VO7_2.writes (Elt F) VO7_2.junk (kernelRun7_C c i arg1 harg1 arg2 harg2 arg3 harg3 arg4 harg4 hc1 hc2 x0 x1 xs0).1)

theorem scover7_C (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i)
    (x0 : Vec F S2x2048 .f32) (x1 : Vec F S2048x256 .bf16) (xs0 : Vec F S2x256 .f32) (y : S2x256.Idx) :
    ∃ pc ∈ (kernelRun7_C c i arg1 harg1 arg2 harg2 arg3 harg3 arg4 harg4 hc1 hc2 x0 x1 xs0).2.1, y ∈ pc.1.set :=
  View.cover_of_tiledL (kernelRun7_C c i arg1 harg1 arg2 harg2 arg3 harg3 arg4 harg4 hc1 hc2 x0 x1 xs0).2.1 S2x256.size (by sl_kernel_rfl) y

/-- What the last point leaves in the accumulator. -/
def sout7_C (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i)
    (x0 : Vec F S2x2048 .f32) (x1 : Vec F S2048x256 .bf16) (xs0 : Vec F S2x256 .f32) : Vec F S2x256 .f32 :=
  VS7_0.read (Elt F) (VS7_0.writes (Elt F) VS7_0.junk (kernelRun7_C c i arg1 harg1 arg2 harg2 arg3 harg3 arg4 harg4 hc1 hc2 x0 x1 xs0).2.1)

/-! ## What the accumulator and the output window's buffer hold after each point -/

/-- THE ACCUMULATION. What the accumulator holds after the body at position `n`: the first point's contents at
    the point's input blocks, then each point's over what the point before left. -/
def accAt7 (c : Dev nD) : (n : ℕ) → n < cfg7.N → Vec F S2x256 .f32
  | 0, hn => sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) ((hcond7_1 ⟨0, hn⟩).mpr rfl) (fun h => (fun h => by (try dsimp only at h); omega) ((hcond7_2 ⟨0, hn⟩).mp h)) (iblk7 V c 0 ⟨0, hn⟩) (iblk7 V c 1 ⟨0, hn⟩)
  | n + 1, hn =>
    if h2 : n + 1 = 3 then
      sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => (fun h => by (try dsimp only at h); omega) ((hcond7_1 ⟨n + 1, hn⟩).mp h)) ((hcond7_2 ⟨n + 1, hn⟩).mpr h2) (iblk7 V c 0 ⟨n + 1, hn⟩) (iblk7 V c 1 ⟨n + 1, hn⟩) (accAt7 c n (Nat.lt_of_succ_lt hn))
    else
      sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => (fun h => by (try dsimp only at h); omega) ((hcond7_1 ⟨n + 1, hn⟩).mp h)) (fun h => h2 ((hcond7_2 ⟨n + 1, hn⟩).mp h)) (iblk7 V c 0 ⟨n + 1, hn⟩) (iblk7 V c 1 ⟨n + 1, hn⟩) (accAt7 c n (Nat.lt_of_succ_lt hn))

/-- `accAt7` at the first point. -/
theorem accAt7_A (c : Dev nD) (t : Fin cfg7.N) (h1 : t.val = 0) (h2 : ¬t.val = 3) :
    accAt7 V c t.val t.isLt = sout7_A c (grid7.coords t) (ms7_0 t) (hs7_0 t) (ms7_1 t) (hs7_1 t) (ms7_2 t) (hs7_2 t) scM7_0 (Memref.isWhole_whole _) ((hcond7_1 t).mpr h1) (fun h => h2 ((hcond7_2 t).mp h)) (iblk7 V c 0 t) (iblk7 V c 1 t) := by
  obtain ⟨n, hn⟩ := t
  cases n with
  | zero => exact rfl
  | succ n => exact absurd h1 (Nat.succ_ne_zero n)

/-- `accAt7` at a middle point: that case's contents, over what the point before left. -/
theorem accAt7_B (c : Dev nD) (t : Fin cfg7.N) (h1 : ¬t.val = 0) (h2 : ¬t.val = 3) :
    accAt7 V c t.val t.isLt = sout7_B c (grid7.coords t) (ms7_0 t) (hs7_0 t) (ms7_1 t) (hs7_1 t) (ms7_2 t) (hs7_2 t) scM7_0 (Memref.isWhole_whole _) (fun h => h1 ((hcond7_1 t).mp h)) (fun h => h2 ((hcond7_2 t).mp h)) (iblk7 V c 0 t) (iblk7 V c 1 t) (accAt7 V c (t.val - 1) (Nat.lt_of_le_of_lt (Nat.sub_le _ _) t.isLt)) := by
  obtain ⟨n, hn⟩ := t
  cases n with
  | zero => exact absurd rfl h1
  | succ n => exact (dif_neg h2).trans rfl

/-- `accAt7` at the last point. -/
theorem accAt7_C (c : Dev nD) (t : Fin cfg7.N) (h1 : ¬t.val = 0) (h2 : t.val = 3) :
    accAt7 V c t.val t.isLt = sout7_C c (grid7.coords t) (ms7_0 t) (hs7_0 t) (ms7_1 t) (hs7_1 t) (ms7_2 t) (hs7_2 t) scM7_0 (Memref.isWhole_whole _) (fun h => h1 ((hcond7_1 t).mp h)) ((hcond7_2 t).mpr h2) (iblk7 V c 0 t) (iblk7 V c 1 t) (accAt7 V c (t.val - 1) (Nat.lt_of_le_of_lt (Nat.sub_le _ _) t.isLt)) := by
  obtain ⟨n, hn⟩ := t
  cases n with
  | zero => exact absurd rfl h1
  | succ n => exact (dif_pos h2).trans rfl

/-- What the output window's buffer holds after the body at point `t`: at the last point what that case stores;
    elsewhere the window is idle and the value is a placeholder nothing consults. -/
def outAt7 (c : Dev nD) (t : Fin cfg7.N) : Vec F S2x256 .f32 :=
  if h2 : t.val = 3 then
    out7_C c (grid7.coords t) (ms7_0 t) (hs7_0 t) (ms7_1 t) (hs7_1 t) (ms7_2 t) (hs7_2 t) scM7_0 (Memref.isWhole_whole _) (fun h => (fun h => by omega) ((hcond7_1 t).mp h)) ((hcond7_2 t).mpr h2) (iblk7 V c 0 t) (iblk7 V c 1 t) (accAt7 V c (t.val - 1) (Nat.lt_of_le_of_lt (Nat.sub_le _ _) t.isLt))
  else VO7_2.read (Elt F) VO7_2.junk

theorem outAt7_C (c : Dev nD) (t : Fin cfg7.N) (h1 : ¬t.val = 0) (h2 : t.val = 3) :
    outAt7 V c t = out7_C c (grid7.coords t) (ms7_0 t) (hs7_0 t) (ms7_1 t) (hs7_1 t) (ms7_2 t) (hs7_2 t) scM7_0 (Memref.isWhole_whole _) (fun h => h1 ((hcond7_1 t).mp h)) ((hcond7_2 t).mpr h2) (iblk7 V c 0 t) (iblk7 V c 1 t) (accAt7 V c (t.val - 1) (Nat.lt_of_le_of_lt (Nat.sub_le _ _) t.isLt)) := by
  unfold outAt7; exact dif_pos h2

/-! ## The region invariant, point by point -/

/-- The invariant before position `n`: before the first point the class's (every scoped buffer that is no staging
    buffer at anything, the generator register at some state); afterwards the same with the accumulator at what the
    point before left in it. -/
def PhiS7 (c : Dev nD) : (n : ℕ) → n ≤ cfg7.N → sProp 𝕄
  | 0, _ => Pipeline.ΦA spec7 c
  | n + 1, hn => iprop(iprop(owns (c : Thread nD τ) scM7_0 fullShare (accAt7 V c n hn) ∗ rest7 (F := F) c) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (c : Dev nD) (n : ℕ) (hn : n < cfg7.N) :
    PhiS7 V c (n + 1) hn = iprop(iprop(owns (c : Thread nD τ) scM7_0 fullShare (accAt7 V c n hn) ∗ rest7 (F := F) c) ∗ (∃ r, prngReg c r)) := rfl

/-- Before a point that is not the first: the accumulator at what the point before left. -/
theorem PhiS7_pos (c : Dev nD) (n : ℕ) (h : n ≤ cfg7.N) (hz : n ≠ 0) :
    PhiS7 V c n h = iprop(iprop(owns (c : Thread nD τ) scM7_0 fullShare (accAt7 V c (n - 1) (by omega)) ∗ rest7 (F := F) c) ∗ (∃ r, prngReg c r)) := by
  cases n with
  | zero => exact absurd rfl hz
  | succ n => rfl

/-! ## The pipeline's proof data -/

/-- The proof data of pipeline 7 on core `c`: the arrays as the region finds them (`V`); after the body at point
    `t` each input's buffer at its block and the output's at `outAt7`; the invariant `PhiS7`; nothing owed; full
    shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => outAt7 V c t
  Φ t := PhiS7 V c t.val (Nat.le_of_lt_succ t.isLt)
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = outAt7 V c t := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the inputs' memrefs hold their blocks; the closed forms say which case the point is in;
    the invariant hands the body the accumulator at what the point before left (at anything at the first point),
    the other scoped buffers and the generator register untouched, and takes the accumulator back at this point's
    contents; where the output window is idle its buffer is handed back as found; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  have hN : t.val < 4 := lt_of_lt_of_eq t.isLt (show cfg7.N = 4 from N_7)
  by_cases h1 : t.val = 0
  · have h2 : ¬t.val = 3 := by omega
    rw [Dat.leavesExact_idle (dat7 V c) 2 t (idleAt7_2 t (fun h => h2 ((hcond7_2 t).mp h))) (noFlush7_2 t (fun h => h2 ((hcond7_2 t).mp h)))]
    rw [accAt7_A V c t h1 h2]
    unfold sout7_A; (try dsimp only)
    rw [PhiS7_castSucc V c t, PhiS7_zero V c _ _ h1, PhiA7_eq]
    iintro ⟨⟨⟨HS0, HR⟩, Hg⟩, Ho, ⟨%d0, H0⟩, ⟨%d1, H1⟩, ⟨%d2, H2⟩⟩
    iapply ((kernelRun7_A c (grid7.coords t) _ _ _ _ _ _ _ _ ((hcond7_1 t).mpr h1) (fun h => h2 ((hcond7_2 t).mp h)) (iblk7 V c 0 t) (iblk7 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover7_A c _ _ _ _ _ _ _ _ _ _ _ _ _)
        iexact HR
      iexact Hg
    isplitl [Ho]; · iexact Ho
    isplitl [H0]; · iexact H0
    isplitl [H1]; · iexact H1
    iexists _; iexact H2
  · by_cases h2 : t.val = 3
    · rw [show (dat7 V c).leavesExact 2 t = owns (c : Thread nD τ) (ms7_2 t) fullShare ((dat7 V c).after 2 t) from by
        unfold Dat.leavesExact; rw [liveAt7_2 t ((hcond7_2 t).mpr h2)], after7_2]
      rw [accAt7_C V c t h1 h2, outAt7_C V c t h1 h2]
      unfold out7_C sout7_C; (try dsimp only)
      rw [PhiS7_castSucc V c t, PhiS7_pos V c _ _ h1]
      iintro ⟨⟨⟨HS0, HR⟩, Hg⟩, Ho, ⟨%d0, H0⟩, ⟨%d1, H1⟩, ⟨%d2, H2⟩⟩
      iapply ((kernelRun7_C c (grid7.coords t) _ _ _ _ _ _ _ _ (fun h => h1 ((hcond7_1 t).mp h)) ((hcond7_2 t).mpr h2) (iblk7 V c 0 t) (iblk7 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover7_C c _ _ _ _ _ _ _ _ _ _ _ _ _ _)
    · rw [Dat.leavesExact_idle (dat7 V c) 2 t (idleAt7_2 t (fun h => h2 ((hcond7_2 t).mp h))) (noFlush7_2 t (fun h => h2 ((hcond7_2 t).mp h)))]
      rw [accAt7_B V c t h1 h2]
      unfold sout7_B; (try dsimp only)
      rw [PhiS7_castSucc V c t, PhiS7_pos V c _ _ h1]
      iintro ⟨⟨⟨HS0, HR⟩, Hg⟩, Ho, ⟨%d0, H0⟩, ⟨%d1, H1⟩, ⟨%d2, H2⟩⟩
      iapply ((kernelRun7_B c (grid7.coords t) _ _ _ _ _ _ _ _ (fun h => h1 ((hcond7_1 t).mp h)) (fun h => h2 ((hcond7_2 t).mp h)) (iblk7 V c 0 t) (iblk7 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's entry and exit -/

/-- What the launch hands the region — the generator register, no prefetched table, the scoped buffers no window
    stages — is the invariant before the first point. -/
theorem hin7 (c : Dev nD) : iprop((∃ r, prngReg c r) ∗ Pipeline.prefHeld (pcfgs (F := F) 7).pre c (fun _ => fullShare) ((cfgs 7).toPCfg_adm).1 ∗ Pipeline.scopedRest spec7 c) ⊢ ((dat7 V c).Φ 0 : sProp 𝕄) := by
  rw [show (dat7 V c).Φ 0 = PhiS7 V c 0 (Nat.zero_le _) from rfl, PhiS7_zero V c 0 _ rfl]; unfold Pipeline.ΦA
  iintro ⟨Hp, -, Hr⟩
  isplitl [Hr]; · iexact Hr
  iexact Hp

/-- After the last point the invariant gives them back: the accumulator's named contents are forgotten. -/
theorem hout7 (c : Dev nD) : ((dat7 V c).Φ (Fin.last cfg7.N) : sProp 𝕄) ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec7 c) := by
  have hne : (Fin.last cfg7.N).val ≠ 0 := by rw [Fin.val_last]; have : cfg7.N = 4 := N_7; omega
  rw [Pipeline.ownSems0_none, show (dat7 V c).Φ (Fin.last cfg7.N) = PhiS7 V c (Fin.last cfg7.N).val (Nat.le_of_lt_succ (Fin.last cfg7.N).isLt) from rfl,
    PhiS7_pos V c _ _ hne, scopedRest7_split]
  iintro ⟨⟨HS0, HR⟩, Hg⟩
  isplitl [Hg]; · iexact Hg
  isplitr; · iempintro
  isplitl [HS0]
  · simp only [scM7_0, owns_whole]; iexists _; iexact HS0
  iexact HR

end Cert.KernelIdeal.Hand

end
-- ==== Proof.KI.Reg8.lean ====
/- Region 8 of the kernel program (the scatter kernel: a block of rows, each the positive part of a combination of
   the two rows of a small operand with coefficients read off two columns): each window's block at a point read off
   the contents the region is entered with (`V`, a parameter), what the body leaves in the output window's buffer,
   the body's triple, the region's proof data and its body obligation. -/
import proofs.«172208_j80221399155047_2_alg».proof.Proof.Gen.KernelIdeal.Launch
import proofs.«172208_j80221399155047_2_alg».proof.Proof.Gen.KernelIdeal.Skeleton
import proofs.«172208_j80221399155047_2_alg».proof.Proof.Gen.KernelIdeal.Points
import Idealize.ShloMosaic.Lib.Pipeline.FrameBody
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input window's current staging buffer holds its block at every point, fetched there or not, for any proof
    data whose array is `V`'s (`hA`) and whose body leaves the block in place (`hafter`): unfetched, the
    block index has not moved; the windows are uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S2048x1 := Rect.unit (s := S2048x1) ![0, 0] S2048x1.size inb_S2048x1_S2048x1_0_0
abbrev r8_1 : Rect S2x256 := Rect.unit (s := S2x256) ![0, 0] S2x256.size inb_S2x256_S2x256_0_0
abbrev r8_2 : Rect S2048x256 := Rect.unit (s := S2048x256) ![0, 0] S2048x256.size inb_S2048x256_S2048x256_0_0

/-! ## What the body leaves in the output window's buffer -/

/-- Window 3's staging buffer after the body, from the input windows' blocks: its one store as a piece. -/
def out8_3 (x0 : Vec F S2048x1 .f32) (x1 : Vec F S2048x1 .f32) (x2 : Vec F S2x256 .f32) : Vec F S2048x256 .f32 :=
  View.canon [⟨r8_2, k8_pay1 (View.ld x0 r8_0) (View.ld x1 r8_0) (View.ld x2 r8_1)⟩]

/-- Its store tiles the buffer (checked by evaluation), so it covers it. -/
theorem cover8_3 (p0 : Vec F S2048x256 .f32) (y : S2048x256.Idx) :
    ∃ pc ∈ ([⟨r8_2, p0⟩] : List (View.Piece (Elt F) S2048x256 .f32)), y ∈ pc.1.set :=
  View.cover_of_tiled [⟨r8_2, p0⟩] S2048x256.size (by rfl) y

/-! ## The body's triple -/

set_option maxHeartbeats 1000000 in
/-- The kernel body on whole staging memrefs, the inputs' at read contents `xW` and the output's at anything, runs to
    the continuation holding the inputs' as they were and the output's at `out8_3` of the inputs'. -/
theorem sound_kernel8 (c : Dev nD) (E : Set ℕ) (i : grid8.Coords) (arg1 : Memref sig .tc .vmem S2048x1 .f32) (harg1 : arg1.IsWhole) (arg2 : Memref sig .tc .vmem S2048x1 .f32) (harg2 : arg2.IsWhole) (arg3 : Memref sig .tc .vmem S2x256 .f32) (harg3 : arg3.IsWhole) (arg4 : Memref sig .tc .vmem S2048x256 .f32) (harg4 : arg4.IsWhole)
    (x0 : Vec F S2048x1 .f32) (x1 : Vec F S2048x1 .f32) (x2 : Vec F S2x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__scatter_kernel i arg1 harg1 arg2 harg2 arg3 harg3 arg4 harg4) K := by
  simp only [cc8__scatter_kernel_eq_skeleton]; unfold cc8__scatter_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at
    point `t` each input's buffer at its block and the output's at `out8_3` of the input blocks; the invariant
    the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the proof data's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Run.lean ====
/- The run of @main as segments. Between two items a core's unscoped buffers hold a fold of the launch memory: a host
   stretch applies its operations; a kernel region replaces each of its windows' arrays by what the pipeline's write-backs
   leave (the inputs as entered) and keeps every other buffer. Every weakly fair execution terminates, and at the end every
   unscoped buffer holds the last fold; no item writes an argument, so the arguments end as launched. -/
import proofs.«172208_j80221399155047_2_alg».proof.Proof.Gen.KernelIdeal.Launch
import proofs.«172208_j80221399155047_2_alg».proof.Proof.Gen.KernelIdeal.Points
import proofs.«172208_j80221399155047_2_alg».proof.Proof.Gen.KernelIdeal.Regions
import proofs.«172208_j80221399155047_2_alg».proof.Proof.KI.Reg0
import proofs.«172208_j80221399155047_2_alg».proof.Proof.KI.Reg1
import proofs.«172208_j80221399155047_2_alg».proof.Proof.KI.Reg2
import proofs.«172208_j80221399155047_2_alg».proof.Proof.KI.Reg3
import proofs.«172208_j80221399155047_2_alg».proof.Proof.KI.Reg4
import proofs.«172208_j80221399155047_2_alg».proof.Proof.KI.Reg5
import proofs.«172208_j80221399155047_2_alg».proof.Proof.KI.Reg6
import proofs.«172208_j80221399155047_2_alg».proof.Proof.KI.Reg7
import proofs.«172208_j80221399155047_2_alg».proof.Proof.KI.Reg8
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A core's buffers at launch. -/
abbrev W0 : Dev nD → Valuation τ sig (Elt F) := fun c b => m (c, b)
/-- After the host stretch hostOps0. -/
abbrev W1 : Dev nD → Valuation τ sig (Elt F) := fun c => StableHlo.after hostOps0 (W0 m c)
/-- The same contents read at the TensorCore's references. -/
abbrev B1 : (c : Dev nD) → (b : Ref sig .tc) → Buf (Elt F) ((c : Thread nD τ).loc b) := fun c b => W1 m c b
/-- After region 0: its windows' arrays at what the write-backs leave, every other buffer as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same contents read at the TensorCore's references. -/
abbrev B2 : (c : Dev nD) → (b : Ref sig .tc) → Buf (Elt F) ((c : Thread nD τ).loc b) := fun c b => W2 m c b
theorem hF0 (c : Dev nD) (w : Fin cfg0.W) : (dat0 (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)

/-- After region 1: its windows' arrays at what the write-backs leave, every other buffer as entered. -/
def W3 (c : Dev nD) : Valuation τ sig (Elt F) :=
  Pipeline.withArrays spec1 c (W2 m c) fun w => (dat1 (B2 m) c).arrAt w cfg1.N
theorem W3_arr (c : Dev nD) (w : Fin cfg1.W) :
    W3 m c (Proc.devRef .tc (Pipeline.arrRef spec1 w)) = (dat1 (B2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same contents read at the TensorCore's references. -/
abbrev B3 : (c : Dev nD) → (b : Ref sig .tc) → Buf (Elt F) ((c : Thread nD τ).loc b) := fun c b => W3 m c b
theorem hF1 (c : Dev nD) (w : Fin cfg1.W) : (dat1 (B2 m) c).arrAt w cfg1.N = B3 m c (Pipeline.arrRef spec1 w) :=
  (W3_arr m c w).symm
theorem hrest1 (c : Dev nD) : ∀ b, b ∉ Finset.univ.image (Pipeline.arrRef spec1) → B3 m c b = B2 m c b :=
  fun b hb => W3_of_ne m c b fun w e => hb (Finset.mem_image.mpr ⟨w, Finset.mem_univ _, e⟩)

/-- After region 2: its windows' arrays at what the write-backs leave, every other buffer as entered. -/
def W4 (c : Dev nD) : Valuation τ sig (Elt F) :=
  Pipeline.withArrays spec2 c (W3 m c) fun w => (dat2 (B3 m) c).arrAt w cfg2.N
theorem W4_arr (c : Dev nD) (w : Fin cfg2.W) :
    W4 m c (Proc.devRef .tc (Pipeline.arrRef spec2 w)) = (dat2 (B3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same contents read at the TensorCore's references. -/
abbrev B4 : (c : Dev nD) → (b : Ref sig .tc) → Buf (Elt F) ((c : Thread nD τ).loc b) := fun c b => W4 m c b
theorem hF2 (c : Dev nD) (w : Fin cfg2.W) : (dat2 (B3 m) c).arrAt w cfg2.N = B4 m c (Pipeline.arrRef spec2 w) :=
  (W4_arr m c w).symm
theorem hrest2 (c : Dev nD) : ∀ b, b ∉ Finset.univ.image (Pipeline.arrRef spec2) → B4 m c b = B3 m c b :=
  fun b hb => W4_of_ne m c b fun w e => hb (Finset.mem_image.mpr ⟨w, Finset.mem_univ _, e⟩)

/-- After the host stretch hostOps3. -/
abbrev W5 : Dev nD → Valuation τ sig (Elt F) := fun c => StableHlo.after hostOps3 (W4 m c)
/-- The same contents read at the TensorCore's references. -/
abbrev B5 : (c : Dev nD) → (b : Ref sig .tc) → Buf (Elt F) ((c : Thread nD τ).loc b) := fun c b => W5 m c b
/-- After region 3: its windows' arrays at what the write-backs leave, every other buffer as entered. -/
def W6 (c : Dev nD) : Valuation τ sig (Elt F) :=
  Pipeline.withArrays spec3 c (W5 m c) fun w => (dat3 (B5 m) c).arrAt w cfg3.N
theorem W6_arr (c : Dev nD) (w : Fin cfg3.W) :
    W6 m c (Proc.devRef .tc (Pipeline.arrRef spec3 w)) = (dat3 (B5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same contents read at the TensorCore's references. -/
abbrev B6 : (c : Dev nD) → (b : Ref sig .tc) → Buf (Elt F) ((c : Thread nD τ).loc b) := fun c b => W6 m c b
theorem hF3 (c : Dev nD) (w : Fin cfg3.W) : (dat3 (B5 m) c).arrAt w cfg3.N = B6 m c (Pipeline.arrRef spec3 w) :=
  (W6_arr m c w).symm
theorem hrest3 (c : Dev nD) : ∀ b, b ∉ Finset.univ.image (Pipeline.arrRef spec3) → B6 m c b = B5 m c b :=
  fun b hb => W6_of_ne m c b fun w e => hb (Finset.mem_image.mpr ⟨w, Finset.mem_univ _, e⟩)

/-- After region 4: its windows' arrays at what the write-backs leave, every other buffer as entered. -/
def W7 (c : Dev nD) : Valuation τ sig (Elt F) :=
  Pipeline.withArrays spec4 c (W6 m c) fun w => (dat4 (B6 m) c).arrAt w cfg4.N
theorem W7_arr (c : Dev nD) (w : Fin cfg4.W) :
    W7 m c (Proc.devRef .tc (Pipeline.arrRef spec4 w)) = (dat4 (B6 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) := by
  unfold W7; exact Pipeline.withArrays_of_ne spec4 c _ _ b hb
/-- The same contents read at the TensorCore's references. -/
abbrev B7 : (c : Dev nD) → (b : Ref sig .tc) → Buf (Elt F) ((c : Thread nD τ).loc b) := fun c b => W7 m c b
theorem hF4 (c : Dev nD) (w : Fin cfg4.W) : (dat4 (B6 m) c).arrAt w cfg4.N = B7 m c (Pipeline.arrRef spec4 w) :=
  (W7_arr m c w).symm
theorem hrest4 (c : Dev nD) : ∀ b, b ∉ Finset.univ.image (Pipeline.arrRef spec4) → B7 m c b = B6 m c b :=
  fun b hb => W7_of_ne m c b fun w e => hb (Finset.mem_image.mpr ⟨w, Finset.mem_univ _, e⟩)

/-- After region 5: its windows' arrays at what the write-backs leave, every other buffer as entered. -/
def W8 (c : Dev nD) : Valuation τ sig (Elt F) :=
  Pipeline.withArrays spec5 c (W7 m c) fun w => (dat5 (B7 m) c).arrAt w cfg5.N
theorem W8_arr (c : Dev nD) (w : Fin cfg5.W) :
    W8 m c (Proc.devRef .tc (Pipeline.arrRef spec5 w)) = (dat5 (B7 m) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m c (Proc.devRef .tc b) = W7 m c (Proc.devRef .tc b) := by
  unfold W8; exact Pipeline.withArrays_of_ne spec5 c _ _ b hb
/-- The same contents read at the TensorCore's references. -/
abbrev B8 : (c : Dev nD) → (b : Ref sig .tc) → Buf (Elt F) ((c : Thread nD τ).loc b) := fun c b => W8 m c b
theorem hF5 (c : Dev nD) (w : Fin cfg5.W) : (dat5 (B7 m) c).arrAt w cfg5.N = B8 m c (Pipeline.arrRef spec5 w) :=
  (W8_arr m c w).symm
theorem hrest5 (c : Dev nD) : ∀ b, b ∉ Finset.univ.image (Pipeline.arrRef spec5) → B8 m c b = B7 m c b :=
  fun b hb => W8_of_ne m c b fun w e => hb (Finset.mem_image.mpr ⟨w, Finset.mem_univ _, e⟩)

/-- After the host stretch hostOps6. -/
abbrev W9 : Dev nD → Valuation τ sig (Elt F) := fun c => StableHlo.after hostOps6 (W8 m c)
/-- The same contents read at the TensorCore's references. -/
abbrev B9 : (c : Dev nD) → (b : Ref sig .tc) → Buf (Elt F) ((c : Thread nD τ).loc b) := fun c b => W9 m c b
/-- After region 6: its windows' arrays at what the write-backs leave, every other buffer as entered. -/
def W10 (c : Dev nD) : Valuation τ sig (Elt F) :=
  Pipeline.withArrays spec6 c (W9 m c) fun w => (dat6 (B9 m) c).arrAt w cfg6.N
theorem W10_arr (c : Dev nD) (w : Fin cfg6.W) :
    W10 m c (Proc.devRef .tc (Pipeline.arrRef spec6 w)) = (dat6 (B9 m) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m c (Proc.devRef .tc b) = W9 m c (Proc.devRef .tc b) := by
  unfold W10; exact Pipeline.withArrays_of_ne spec6 c _ _ b hb
/-- The same contents read at the TensorCore's references. -/
abbrev B10 : (c : Dev nD) → (b : Ref sig .tc) → Buf (Elt F) ((c : Thread nD τ).loc b) := fun c b => W10 m c b
theorem hF6 (c : Dev nD) (w : Fin cfg6.W) : (dat6 (B9 m) c).arrAt w cfg6.N = B10 m c (Pipeline.arrRef spec6 w) :=
  (W10_arr m c w).symm
theorem hrest6 (c : Dev nD) : ∀ b, b ∉ Finset.univ.image (Pipeline.arrRef spec6) → B10 m c b = B9 m c b :=
  fun b hb => W10_of_ne m c b fun w e => hb (Finset.mem_image.mpr ⟨w, Finset.mem_univ _, e⟩)

/-- After region 7: its windows' arrays at what the write-backs leave, every other buffer as entered. -/
def W11 (c : Dev nD) : Valuation τ sig (Elt F) :=
  Pipeline.withArrays spec7 c (W10 m c) fun w => (dat7 (B10 m) c).arrAt w cfg7.N
theorem W11_arr (c : Dev nD) (w : Fin cfg7.W) :
    W11 m c (Proc.devRef .tc (Pipeline.arrRef spec7 w)) = (dat7 (B10 m) c).arrAt w cfg7.N := by
  unfold W11; exact Pipeline.withArrays_arr spec7 launch7.win.arr_inj c _ _ w
theorem W11_of_ne (c : Dev nD) (b : Ref sig .tc) (hb : ∀ w, Pipeline.arrRef spec7 w ≠ b) :
    W11 m c (Proc.devRef .tc b) = W10 m c (Proc.devRef .tc b) := by
  unfold W11; exact Pipeline.withArrays_of_ne spec7 c _ _ b hb
/-- The same contents read at the TensorCore's references. -/
abbrev B11 : (c : Dev nD) → (b : Ref sig .tc) → Buf (Elt F) ((c : Thread nD τ).loc b) := fun c b => W11 m c b
theorem hF7 (c : Dev nD) (w : Fin cfg7.W) : (dat7 (B10 m) c).arrAt w cfg7.N = B11 m c (Pipeline.arrRef spec7 w) :=
  (W11_arr m c w).symm
theorem hrest7 (c : Dev nD) : ∀ b, b ∉ Finset.univ.image (Pipeline.arrRef spec7) → B11 m c b = B10 m c b :=
  fun b hb => W11_of_ne m c b fun w e => hb (Finset.mem_image.mpr ⟨w, Finset.mem_univ _, e⟩)

/-- After region 8: its windows' arrays at what the write-backs leave, every other buffer as entered. -/
def W12 (c : Dev nD) : Valuation τ sig (Elt F) :=
  Pipeline.withArrays spec8 c (W11 m c) fun w => (dat8 (B11 m) c).arrAt w cfg8.N
theorem W12_arr (c : Dev nD) (w : Fin cfg8.W) :
    W12 m c (Proc.devRef .tc (Pipeline.arrRef spec8 w)) = (dat8 (B11 m) c).arrAt w cfg8.N := by
  unfold W12; exact Pipeline.withArrays_arr spec8 launch8.win.arr_inj c _ _ w
theorem W12_of_ne (c : Dev nD) (b : Ref sig .tc) (hb : ∀ w, Pipeline.arrRef spec8 w ≠ b) :
    W12 m c (Proc.devRef .tc b) = W11 m c (Proc.devRef .tc b) := by
  unfold W12; exact Pipeline.withArrays_of_ne spec8 c _ _ b hb
/-- The same contents read at the TensorCore's references. -/
abbrev B12 : (c : Dev nD) → (b : Ref sig .tc) → Buf (Elt F) ((c : Thread nD τ).loc b) := fun c b => W12 m c b
theorem hF8 (c : Dev nD) (w : Fin cfg8.W) : (dat8 (B11 m) c).arrAt w cfg8.N = B12 m c (Pipeline.arrRef spec8 w) :=
  (W12_arr m c w).symm
theorem hrest8 (c : Dev nD) : ∀ b, b ∉ Finset.univ.image (Pipeline.arrRef spec8) → B12 m c b = B11 m c b :=
  fun b hb => W12_of_ne m c b fun w e => hb (Finset.mem_image.mpr ⟨w, Finset.mem_univ _, e⟩)

/-! ## The arguments end as launched -/

theorem W12_main_arg0 (c : Dev nD) : W12 m c (Proc.devRef .tc main_arg0) = m ((c : Thread nD τ).loc main_arg0) :=
  calc W12 m c (Proc.devRef .tc main_arg0)
    _ = W11 m c (Proc.devRef .tc main_arg0) := W12_of_ne m c main_arg0 (by decide)
    _ = W10 m c (Proc.devRef .tc main_arg0) := W11_of_ne m c main_arg0 (by decide)
    _ = W9 m c (Proc.devRef .tc main_arg0) := W10_of_ne m c main_arg0 (by decide)
    _ = W8 m c (Proc.devRef .tc main_arg0) := StableHlo.after_of_writes_sub hostOps6 _ hostOps6_writes (by decide : main_arg0 ∉ hostOps6_W)
    _ = W7 m c (Proc.devRef .tc main_arg0) := W8_of_ne m c main_arg0 (by decide)
    _ = W6 m c (Proc.devRef .tc main_arg0) := W7_of_ne m c main_arg0 (by decide)
    _ = W5 m c (Proc.devRef .tc main_arg0) := W6_of_ne m c main_arg0 (by decide)
    _ = W4 m c (Proc.devRef .tc main_arg0) := StableHlo.after_of_writes_sub hostOps3 _ hostOps3_writes (by decide : main_arg0 ∉ hostOps3_W)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (B1 m) c).arrAt_in 0 rfl _).trans (A_eq0 (B1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W12_main_arg1 (c : Dev nD) : W12 m c (Proc.devRef .tc main_arg1) = m ((c : Thread nD τ).loc main_arg1) :=
  calc W12 m c (Proc.devRef .tc main_arg1)
    _ = W11 m c (Proc.devRef .tc main_arg1) := W12_of_ne m c main_arg1 (by decide)
    _ = W10 m c (Proc.devRef .tc main_arg1) := W11_of_ne m c main_arg1 (by decide)
    _ = W9 m c (Proc.devRef .tc main_arg1) := W10_of_ne m c main_arg1 (by decide)
    _ = W8 m c (Proc.devRef .tc main_arg1) := StableHlo.after_of_writes_sub hostOps6 _ hostOps6_writes (by decide : main_arg1 ∉ hostOps6_W)
    _ = W7 m c (Proc.devRef .tc main_arg1) := W8_of_ne m c main_arg1 (by decide)
    _ = W6 m c (Proc.devRef .tc main_arg1) := W7_of_ne m c main_arg1 (by decide)
    _ = W5 m c (Proc.devRef .tc main_arg1) := W6_of_ne m c main_arg1 (by decide)
    _ = W4 m c (Proc.devRef .tc main_arg1) := StableHlo.after_of_writes_sub hostOps3 _ hostOps3_writes (by decide : main_arg1 ∉ hostOps3_W)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W12_main_arg2 (c : Dev nD) : W12 m c (Proc.devRef .tc main_arg2) = m ((c : Thread nD τ).loc main_arg2) :=
  calc W12 m c (Proc.devRef .tc main_arg2)
    _ = W11 m c (Proc.devRef .tc main_arg2) := W12_of_ne m c main_arg2 (by decide)
    _ = W10 m c (Proc.devRef .tc main_arg2) := W11_of_ne m c main_arg2 (by decide)
    _ = W9 m c (Proc.devRef .tc main_arg2) := W10_of_ne m c main_arg2 (by decide)
    _ = W8 m c (Proc.devRef .tc main_arg2) := StableHlo.after_of_writes_sub hostOps6 _ hostOps6_writes (by decide : main_arg2 ∉ hostOps6_W)
    _ = W7 m c (Proc.devRef .tc main_arg2) := W8_of_ne m c main_arg2 (by decide)
    _ = W6 m c (Proc.devRef .tc main_arg2) := W7_of_ne m c main_arg2 (by decide)
    _ = W5 m c (Proc.devRef .tc main_arg2) := W6_of_ne m c main_arg2 (by decide)
    _ = W4 m c (Proc.devRef .tc main_arg2) := StableHlo.after_of_writes_sub hostOps3 _ hostOps3_writes (by decide : main_arg2 ∉ hostOps3_W)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W12_main_arg3 (c : Dev nD) : W12 m c (Proc.devRef .tc main_arg3) = m ((c : Thread nD τ).loc main_arg3) :=
  calc W12 m c (Proc.devRef .tc main_arg3)
    _ = W11 m c (Proc.devRef .tc main_arg3) := W12_of_ne m c main_arg3 (by decide)
    _ = W10 m c (Proc.devRef .tc main_arg3) := W11_of_ne m c main_arg3 (by decide)
    _ = W9 m c (Proc.devRef .tc main_arg3) := W10_of_ne m c main_arg3 (by decide)
    _ = W8 m c (Proc.devRef .tc main_arg3) := StableHlo.after_of_writes_sub hostOps6 _ hostOps6_writes (by decide : main_arg3 ∉ hostOps6_W)
    _ = W7 m c (Proc.devRef .tc main_arg3) := W8_of_ne m c main_arg3 (by decide)
    _ = W6 m c (Proc.devRef .tc main_arg3) := W7_of_ne m c main_arg3 (by decide)
    _ = W5 m c (Proc.devRef .tc main_arg3) := W6_of_ne m c main_arg3 (by decide)
    _ = W4 m c (Proc.devRef .tc main_arg3) := StableHlo.after_of_writes_sub hostOps3 _ hostOps3_writes (by decide : main_arg3 ∉ hostOps3_W)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
/-! ## A buffer no item in between writes keeps its contents -/

theorem keep_main_call0_v17_2 (c : Dev nD) : W2 m c (Proc.devRef .tc main_call0_v17) = W1 m c (Proc.devRef .tc main_call0_v17) :=
  calc W2 m c (Proc.devRef .tc main_call0_v17)
    _ = W1 m c (Proc.devRef .tc main_call0_v17) := W2_of_ne m c main_call0_v17 (by decide)
theorem keep_main_call0_v18_3 (c : Dev nD) : W3 m c (Proc.devRef .tc main_call0_v18) = W1 m c (Proc.devRef .tc main_call0_v18) :=
  calc W3 m c (Proc.devRef .tc main_call0_v18)
    _ = W2 m c (Proc.devRef .tc main_call0_v18) := W3_of_ne m c main_call0_v18 (by decide)
    _ = W1 m c (Proc.devRef .tc main_call0_v18) := W2_of_ne m c main_call0_v18 (by decide)
theorem keep_main_call0_v19_3 (c : Dev nD) : W3 m c (Proc.devRef .tc main_call0_v19) = W1 m c (Proc.devRef .tc main_call0_v19) :=
  calc W3 m c (Proc.devRef .tc main_call0_v19)
    _ = W2 m c (Proc.devRef .tc main_call0_v19) := W3_of_ne m c main_call0_v19 (by decide)
    _ = W1 m c (Proc.devRef .tc main_call0_v19) := W2_of_ne m c main_call0_v19 (by decide)
theorem keep_main_call0_v23_5 (c : Dev nD) : W5 m c (Proc.devRef .tc main_call0_v23) = W4 m c (Proc.devRef .tc main_call0_v23) :=
  calc W5 m c (Proc.devRef .tc main_call0_v23)
    _ = W4 m c (Proc.devRef .tc main_call0_v23) := StableHlo.after_of_writes_sub hostOps3 _ hostOps3_writes (by decide : main_call0_v23 ∉ hostOps3_W)
theorem keep_main_call0_v17_6 (c : Dev nD) : W6 m c (Proc.devRef .tc main_call0_v17) = W1 m c (Proc.devRef .tc main_call0_v17) :=
  calc W6 m c (Proc.devRef .tc main_call0_v17)
    _ = W5 m c (Proc.devRef .tc main_call0_v17) := W6_of_ne m c main_call0_v17 (by decide)
    _ = W4 m c (Proc.devRef .tc main_call0_v17) := StableHlo.after_of_writes_sub hostOps3 _ hostOps3_writes (by decide : main_call0_v17 ∉ hostOps3_W)
    _ = W3 m c (Proc.devRef .tc main_call0_v17) := W4_of_ne m c main_call0_v17 (by decide)
    _ = W2 m c (Proc.devRef .tc main_call0_v17) := (W3_arr m c 0).trans (((dat1 (B2 m) c).arrAt_in 0 rfl _).trans (A_eq1 (B2 m) c 0))
    _ = W1 m c (Proc.devRef .tc main_call0_v17) := W2_of_ne m c main_call0_v17 (by decide)
theorem keep_main_call0_v18_7 (c : Dev nD) : W7 m c (Proc.devRef .tc main_call0_v18) = W1 m c (Proc.devRef .tc main_call0_v18) :=
  calc W7 m c (Proc.devRef .tc main_call0_v18)
    _ = W6 m c (Proc.devRef .tc main_call0_v18) := W7_of_ne m c main_call0_v18 (by decide)
    _ = W5 m c (Proc.devRef .tc main_call0_v18) := W6_of_ne m c main_call0_v18 (by decide)
    _ = W4 m c (Proc.devRef .tc main_call0_v18) := StableHlo.after_of_writes_sub hostOps3 _ hostOps3_writes (by decide : main_call0_v18 ∉ hostOps3_W)
    _ = W3 m c (Proc.devRef .tc main_call0_v18) := (W4_arr m c 0).trans (((dat2 (B3 m) c).arrAt_in 0 rfl _).trans (A_eq2 (B3 m) c 0))
    _ = W2 m c (Proc.devRef .tc main_call0_v18) := W3_of_ne m c main_call0_v18 (by decide)
    _ = W1 m c (Proc.devRef .tc main_call0_v18) := W2_of_ne m c main_call0_v18 (by decide)
theorem keep_main_call0_v19_7 (c : Dev nD) : W7 m c (Proc.devRef .tc main_call0_v19) = W1 m c (Proc.devRef .tc main_call0_v19) :=
  calc W7 m c (Proc.devRef .tc main_call0_v19)
    _ = W6 m c (Proc.devRef .tc main_call0_v19) := W7_of_ne m c main_call0_v19 (by decide)
    _ = W5 m c (Proc.devRef .tc main_call0_v19) := W6_of_ne m c main_call0_v19 (by decide)
    _ = W4 m c (Proc.devRef .tc main_call0_v19) := StableHlo.after_of_writes_sub hostOps3 _ hostOps3_writes (by decide : main_call0_v19 ∉ hostOps3_W)
    _ = W3 m c (Proc.devRef .tc main_call0_v19) := (W4_arr m c 1).trans (((dat2 (B3 m) c).arrAt_in 1 rfl _).trans (A_eq2 (B3 m) c 1))
    _ = W2 m c (Proc.devRef .tc main_call0_v19) := W3_of_ne m c main_call0_v19 (by decide)
    _ = W1 m c (Proc.devRef .tc main_call0_v19) := W2_of_ne m c main_call0_v19 (by decide)
theorem keep_main_call0_v27_9 (c : Dev nD) : W9 m c (Proc.devRef .tc main_call0_v27) = W8 m c (Proc.devRef .tc main_call0_v27) :=
  calc W9 m c (Proc.devRef .tc main_call0_v27)
    _ = W8 m c (Proc.devRef .tc main_call0_v27) := StableHlo.after_of_writes_sub hostOps6 _ hostOps6_writes (by decide : main_call0_v27 ∉ hostOps6_W)
theorem keep_main_call0_v17_10 (c : Dev nD) : W10 m c (Proc.devRef .tc main_call0_v17) = W1 m c (Proc.devRef .tc main_call0_v17) :=
  calc W10 m c (Proc.devRef .tc main_call0_v17)
    _ = W9 m c (Proc.devRef .tc main_call0_v17) := W10_of_ne m c main_call0_v17 (by decide)
    _ = W8 m c (Proc.devRef .tc main_call0_v17) := StableHlo.after_of_writes_sub hostOps6 _ hostOps6_writes (by decide : main_call0_v17 ∉ hostOps6_W)
    _ = W7 m c (Proc.devRef .tc main_call0_v17) := W8_of_ne m c main_call0_v17 (by decide)
    _ = W6 m c (Proc.devRef .tc main_call0_v17) := (W7_arr m c 0).trans (((dat4 (B6 m) c).arrAt_in 0 rfl _).trans (A_eq4 (B6 m) c 0))
    _ = W5 m c (Proc.devRef .tc main_call0_v17) := W6_of_ne m c main_call0_v17 (by decide)
    _ = W4 m c (Proc.devRef .tc main_call0_v17) := StableHlo.after_of_writes_sub hostOps3 _ hostOps3_writes (by decide : main_call0_v17 ∉ hostOps3_W)
    _ = W3 m c (Proc.devRef .tc main_call0_v17) := W4_of_ne m c main_call0_v17 (by decide)
    _ = W2 m c (Proc.devRef .tc main_call0_v17) := (W3_arr m c 0).trans (((dat1 (B2 m) c).arrAt_in 0 rfl _).trans (A_eq1 (B2 m) c 0))
    _ = W1 m c (Proc.devRef .tc main_call0_v17) := W2_of_ne m c main_call0_v17 (by decide)
theorem keep_main_call0_v18_11 (c : Dev nD) : W11 m c (Proc.devRef .tc main_call0_v18) = W1 m c (Proc.devRef .tc main_call0_v18) :=
  calc W11 m c (Proc.devRef .tc main_call0_v18)
    _ = W10 m c (Proc.devRef .tc main_call0_v18) := W11_of_ne m c main_call0_v18 (by decide)
    _ = W9 m c (Proc.devRef .tc main_call0_v18) := W10_of_ne m c main_call0_v18 (by decide)
    _ = W8 m c (Proc.devRef .tc main_call0_v18) := StableHlo.after_of_writes_sub hostOps6 _ hostOps6_writes (by decide : main_call0_v18 ∉ hostOps6_W)
    _ = W7 m c (Proc.devRef .tc main_call0_v18) := (W8_arr m c 0).trans (((dat5 (B7 m) c).arrAt_in 0 rfl _).trans (A_eq5 (B7 m) c 0))
    _ = W6 m c (Proc.devRef .tc main_call0_v18) := W7_of_ne m c main_call0_v18 (by decide)
    _ = W5 m c (Proc.devRef .tc main_call0_v18) := W6_of_ne m c main_call0_v18 (by decide)
    _ = W4 m c (Proc.devRef .tc main_call0_v18) := StableHlo.after_of_writes_sub hostOps3 _ hostOps3_writes (by decide : main_call0_v18 ∉ hostOps3_W)
    _ = W3 m c (Proc.devRef .tc main_call0_v18) := (W4_arr m c 0).trans (((dat2 (B3 m) c).arrAt_in 0 rfl _).trans (A_eq2 (B3 m) c 0))
    _ = W2 m c (Proc.devRef .tc main_call0_v18) := W3_of_ne m c main_call0_v18 (by decide)
    _ = W1 m c (Proc.devRef .tc main_call0_v18) := W2_of_ne m c main_call0_v18 (by decide)
theorem keep_main_call0_v19_11 (c : Dev nD) : W11 m c (Proc.devRef .tc main_call0_v19) = W1 m c (Proc.devRef .tc main_call0_v19) :=
  calc W11 m c (Proc.devRef .tc main_call0_v19)
    _ = W10 m c (Proc.devRef .tc main_call0_v19) := W11_of_ne m c main_call0_v19 (by decide)
    _ = W9 m c (Proc.devRef .tc main_call0_v19) := W10_of_ne m c main_call0_v19 (by decide)
    _ = W8 m c (Proc.devRef .tc main_call0_v19) := StableHlo.after_of_writes_sub hostOps6 _ hostOps6_writes (by decide : main_call0_v19 ∉ hostOps6_W)
    _ = W7 m c (Proc.devRef .tc main_call0_v19) := (W8_arr m c 1).trans (((dat5 (B7 m) c).arrAt_in 1 rfl _).trans (A_eq5 (B7 m) c 1))
    _ = W6 m c (Proc.devRef .tc main_call0_v19) := W7_of_ne m c main_call0_v19 (by decide)
    _ = W5 m c (Proc.devRef .tc main_call0_v19) := W6_of_ne m c main_call0_v19 (by decide)
    _ = W4 m c (Proc.devRef .tc main_call0_v19) := StableHlo.after_of_writes_sub hostOps3 _ hostOps3_writes (by decide : main_call0_v19 ∉ hostOps3_W)
    _ = W3 m c (Proc.devRef .tc main_call0_v19) := (W4_arr m c 1).trans (((dat2 (B3 m) c).arrAt_in 1 rfl _).trans (A_eq2 (B3 m) c 1))
    _ = W2 m c (Proc.devRef .tc main_call0_v19) := W3_of_ne m c main_call0_v19 (by decide)
    _ = W1 m c (Proc.devRef .tc main_call0_v19) := W2_of_ne m c main_call0_v19 (by decide)
theorem keep_main_arg0_1 (c : Dev nD) : W1 m c (Proc.devRef .tc main_arg0) = W0 m c (Proc.devRef .tc main_arg0) :=
  calc W1 m c (Proc.devRef .tc main_arg0)
    _ = W0 m c (Proc.devRef .tc main_arg0) := StableHlo.after_of_writes_sub hostOps0 _ hostOps0_writes (by decide : main_arg0 ∉ hostOps0_W)
theorem keep_main_arg2_4 (c : Dev nD) : W4 m c (Proc.devRef .tc main_arg2) = W0 m c (Proc.devRef .tc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
theorem keep_main_arg3_8 (c : Dev nD) : W8 m c (Proc.devRef .tc main_arg3) = W0 m c (Proc.devRef .tc main_arg3) :=
  calc W8 m c (Proc.devRef .tc main_arg3)
    _ = W7 m c (Proc.devRef .tc main_arg3) := W8_of_ne m c main_arg3 (by decide)
    _ = W6 m c (Proc.devRef .tc main_arg3) := W7_of_ne m c main_arg3 (by decide)
    _ = W5 m c (Proc.devRef .tc main_arg3) := W6_of_ne m c main_arg3 (by decide)
    _ = W4 m c (Proc.devRef .tc main_arg3) := StableHlo.after_of_writes_sub hostOps3 _ hostOps3_writes (by decide : main_arg3 ∉ hostOps3_W)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)

/-! ## The proof data family and the thread state -/

/-- No pipeline has a prefetched table. -/
abbrev admH : (p : Fin 9) → (pcfgs (F := F) p).Adm := fun p => (cfgs p).toPCfg_adm
/-- Every pipeline's proof data at its region's entry contents: a literal match on the pipeline's number. -/
def pdatsH : (p : Fin 9) → (c : Dev nD) → Dat τ (Elt F) Unit ℕ (UR sig nD τ) ℕ (Pipeline.pin (pcfgs (F := F)) admH p) c
  | ⟨0, _⟩ => fun c => dat0 (B1 m) c
  | ⟨1, _⟩ => fun c => dat1 (B2 m) c
  | ⟨2, _⟩ => fun c => dat2 (B3 m) c
  | ⟨3, _⟩ => fun c => dat3 (B5 m) c
  | ⟨4, _⟩ => fun c => dat4 (B6 m) c
  | ⟨5, _⟩ => fun c => dat5 (B7 m) c
  | ⟨6, _⟩ => fun c => dat6 (B9 m) c
  | ⟨7, _⟩ => fun c => dat7 (B10 m) c
  | ⟨8, _⟩ => fun c => dat8 (B11 m) c
abbrev 𝒱H : Variants := Variants.none
abbrev LH : GSem nD τ sig → Finset Unit := fun _ => ∅
abbrev lvH : GSem nD τ sig → Unit → ℕ := fun _ _ => 0
/-- What rides beside the buffers through every segment: the generator register at some state, and the core owing nothing. -/
abbrev Rest (c : Dev nD) : sProp 𝕄 := iprop((∃ r, prngReg c r) ∗ ∃ W, owes (c : Thread nD τ) (0 : CellTallies nD τ sig Unit) W)
/-- A host stretch as a segment over the unscoped references from the contents W. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues. -/
abbrev TlastH (c : Dev nD) : sProp 𝕄 := iprop(StableHlo.held (c : Thread nD τ) (Pipeline.ucRefs τ sig) (W12 m c) ∗ ∃ r, prngReg c r)

/-! ## The regions as segments -/

set_option backward.isDefEq.respectTransparency.types false in
/-- Region 0 over the thread state: entered from every unscoped buffer at W1, left at W2; its arrays split out of the
    unscoped buffers and put back at the exit contents; the generator register into the invariant and out; nothing owed. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ LH lvH 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (B1 m c) (B2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3; its arrays split out of the
    unscoped buffers and put back at the exit contents; the generator register into the invariant and out; nothing owed. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (B2 m) c).loose
  hwaits := Pipeline.hwaits_of_owed_zero _ _ _ _ LH lvH 1 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(∃ r, prngReg c r)
  Y c := iprop(∃ r, prngReg c r)
  Z c := Pipeline.unscopedRest (Ix := Unit) (Name := ℕ) (U := UR sig nD τ) (Lvl := ℕ) spec1 c (B2 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (B2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (B2 m) c
  hout c := hout1 (B2 m) c
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (B2 m c) (B3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W3, left at W4; its arrays split out of the
    unscoped buffers and put back at the exit contents; the generator register into the invariant and out; nothing owed. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (B3 m) c).loose
  hwaits := Pipeline.hwaits_of_owed_zero _ _ _ _ LH lvH 2 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec2 c (B3 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (B3 m c) (B4 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W5, left at W6; its arrays split out of the
    unscoped buffers and put back at the exit contents; the generator register into the invariant and out; nothing owed. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (B5 m) c).loose
  hwaits := Pipeline.hwaits_of_owed_zero _ _ _ _ LH lvH 3 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec3 c (B5 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (B5 m c) (B6 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W6, left at W7; its arrays split out of the
    unscoped buffers and put back at the exit contents; the generator register into the invariant and out; nothing owed. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (B6 m) c).loose
  hwaits := Pipeline.hwaits_of_owed_zero _ _ _ _ LH lvH 4 fun _ _ => rfl
  pre c := iprop(StableHlo.held (c : Thread nD τ) (Pipeline.ucRefs τ sig) (W6 m c) ∗ Rest c)
  post c := iprop(StableHlo.held (c : Thread nD τ) (Pipeline.ucRefs τ sig) (W7 m c) ∗ Rest c)
  X c := iprop(∃ r, prngReg c r)
  Y c := iprop(∃ r, prngReg c r)
  Z c := Pipeline.unscopedRest (Ix := Unit) (Name := ℕ) (U := UR sig nD τ) (Lvl := ℕ) spec4 c (B6 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (B6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (B6 m) c
  hout c := hout4 (B6 m) c
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (B6 m c) (B7 m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W7, left at W8; its arrays split out of the
    unscoped buffers and put back at the exit contents; the generator register into the invariant and out; nothing owed. -/
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (B7 m) c).loose
  hwaits := Pipeline.hwaits_of_owed_zero _ _ _ _ LH lvH 5 fun _ _ => rfl
  pre c := iprop(StableHlo.held (c : Thread nD τ) (Pipeline.ucRefs τ sig) (W7 m c) ∗ Rest c)
  post c := iprop(StableHlo.held (c : Thread nD τ) (Pipeline.ucRefs τ sig) (W8 m c) ∗ Rest c)
  X c := iprop(∃ r, prngReg c r)
  Y c := iprop(∃ r, prngReg c r)
  Z c := Pipeline.unscopedRest (Ix := Unit) (Name := ℕ) (U := UR sig nD τ) (Lvl := ℕ) spec5 c (B7 m c)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (B7 m c) (B8 m c) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at W9, left at W10; its arrays split out of the
    unscoped buffers and put back at the exit contents; the generator register into the invariant and out; nothing owed. -/
def reg6 : Pipeline.RegionSeg (pcfgs (F := F)) admH (pdatsH m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (B9 m) c).loose
  hwaits := Pipeline.hwaits_of_owed_zero _ _ _ _ LH lvH 6 fun _ _ => rfl
  pre c := iprop(StableHlo.held (c : Thread nD τ) (Pipeline.ucRefs τ sig) (W9 m c) ∗ Rest c)
  post c := iprop(StableHlo.held (c : Thread nD τ) (Pipeline.ucRefs τ sig) (W10 m c) ∗ Rest c)
  X c := iprop(∃ r, prngReg c r)
  Y c := iprop(∃ r, prngReg c r)
  Z c := Pipeline.unscopedRest (Ix := Unit) (Name := ℕ) (U := UR sig nD τ) (Lvl := ℕ) spec6 c (B9 m c)
  hentry c := by
    rw [Pipeline.ownSems0_none]
    have hsplit := Pipeline.arrays_of_unscopedBufs (p := 6) (pcfgs (F := F)) admH (pdatsH m) launch6.win launch6.arr_whole c
      ((pdatsH m 6 c).share_full fun _ => rfl) (B9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m) ((pdatsH m 6 c).share_full fun _ => rfl)
      (B9 m c) (B10 m c) ((pdatsH m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at W10, left at W11; its arrays split out of the
    unscoped buffers and put back at the exit contents; the generator register into the invariant and out; nothing owed. -/
def reg7 : Pipeline.RegionSeg (pcfgs (F := F)) admH (pdatsH m) () defs₀ 𝒱H LH lvH 7 where
  win := launch7.win.to₀
  block_pos := launch7.block_pos
  stage_whole := launch7.stage_whole
  K := PEmpty
  osem k := k.elim
  ho := Pipeline.OwnSemFacts.none _
  hbody c := (body_obligation7 (B10 m) c).loose
  hwaits := Pipeline.hwaits_of_owed_zero _ _ _ _ LH lvH 7 fun _ _ => rfl
  pre c := iprop(StableHlo.held (c : Thread nD τ) (Pipeline.ucRefs τ sig) (W10 m c) ∗ Rest c)
  post c := iprop(StableHlo.held (c : Thread nD τ) (Pipeline.ucRefs τ sig) (W11 m c) ∗ Rest c)
  X c := iprop(∃ r, prngReg c r)
  Y c := iprop(∃ r, prngReg c r)
  Z c := Pipeline.unscopedRest (Ix := Unit) (Name := ℕ) (U := UR sig nD τ) (Lvl := ℕ) spec7 c (B10 m c)
  hentry c := by
    rw [Pipeline.ownSems0_none]
    have hsplit := Pipeline.arrays_of_unscopedBufs (p := 7) (pcfgs (F := F)) admH (pdatsH m) launch7.win launch7.arr_whole c
      ((pdatsH m 7 c).share_full fun _ => rfl) (B10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin7 (B10 m) c
  hout c := hout7 (B10 m) c
  hexit c := by
    have hjoin := Pipeline.unscopedBufs_of_arrays (p := 7) (pcfgs (F := F)) admH (Ix := Unit) (Name := ℕ) (U := UR sig nD τ) (Lvl := ℕ)
      launch7.win launch7.arr_whole c (pdatsH m) ((pdatsH m 7 c).share_full fun _ => rfl)
      (B10 m c) (B11 m c) ((pdatsH m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at W11, left at W12; its arrays split out of the
    unscoped buffers and put back at the exit contents; the generator register into the invariant and out; nothing owed. -/
def reg8 : Pipeline.RegionSeg (pcfgs (F := F)) admH (pdatsH m) () defs₀ 𝒱H LH lvH 8 where
  win := launch8.win.to₀
  block_pos := launch8.block_pos
  stage_whole := launch8.stage_whole
  K := PEmpty
  osem k := k.elim
  ho := Pipeline.OwnSemFacts.none _
  hbody c := (body_obligation8 (B11 m) c).loose
  hwaits := Pipeline.hwaits_of_owed_zero _ _ _ _ LH lvH 8 fun _ _ => rfl
  pre c := iprop(StableHlo.held (c : Thread nD τ) (Pipeline.ucRefs τ sig) (W11 m c) ∗ Rest c)
  post c := iprop(TlastH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (B11 m c)
  hentry c := by
    rw [Pipeline.ownSems0_none]
    have hsplit := Pipeline.arrays_of_unscopedBufs (p := 8) (pcfgs (F := F)) admH (pdatsH m) launch8.win launch8.arr_whole c
      ((pdatsH m 8 c).share_full fun _ => rfl) (B11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdatsH m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := UR sig nD τ) (Lvl := ℕ)
      launch8.win launch8.arr_whole c (pdatsH m) ((pdatsH m 8 c).share_full fun _ => rfl)
      (B11 m c) (B12 m c) ((pdatsH m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .host (hsegH hostOps0 hostOps0_sub hostOps0_fresh (W0 m)),
    .region (reg0 m),
    .region (reg1 m),
    .region (reg2 m),
    .host (hsegH hostOps3 hostOps3_sub hostOps3_fresh (W4 m)),
    .region (reg3 m),
    .region (reg4 m),
    .region (reg5 m),
    .host (hsegH hostOps6 hostOps6_sub hostOps6_fresh (W8 m)),
    .region (reg6 m),
    .region (reg7 m),
    .region (reg8 m) ]
theorem main_runH (c : Dev nD) : main (F := F) c = Pipeline.Seg.run (segsH m) := (main_chain c).trans (by chain_rfl)

set_option backward.isDefEq.respectTransparency.types false in
/-- Every weakly fair execution of @main from memory m with zero counters terminates, nothing faulting, and every final
    memory holds, on every core, every unscoped buffer at the last fold. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W12 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := TlastH m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- The frame: the arguments end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c _ (mem_ucH main_arg0 (by decide))).trans (W12_main_arg0 m c),
    (h c _ (mem_ucH main_arg1 (by decide))).trans (W12_main_arg1 m c),
    (h c _ (mem_ucH main_arg2 (by decide))).trans (W12_main_arg2 m c),
    (h c _ (mem_ucH main_arg3 (by decide))).trans (W12_main_arg3 m c)⟩) (run_main m ρ)

/-- The result array at the end is what the last region's write-backs leave. -/
theorem result_eq (r : PUnit × MemSt nD τ sig (Elt F)) (h : ∀ c : Dev nD, ∀ b ∈ Pipeline.ucRefs τ sig, r.2.mem (((c : Thread nD τ)).1, b) = W12 m c b) (c : Dev nD) :
    r.2.mem ((c.tc : Thread nD τ).loc main_v0) = (dat8 (B11 m) c).arrAt 3 cfg8.N :=
  (h c _ (mem_ucH main_v0 (by decide))).trans (W12_arr m c 3)

end Cert.KernelIdeal.Hand

end
-- ==== Proof.RefRun.lean ====
/-
  The reference program's run, read back.

  The reference is a straight line of host operations: the mark vector of the 8192 nodes (a node is marked when its
  number is below 64 and is not one of fifteen listed numbers), the adjacency `1 − [mark i ∧ mark j]`, its row sums,
  `d = √|row sum|`, the normalised adjacency `(A · d i) · d j`, and three rounds `relu (N · (x · Wᵀ))`.  Every weakly fair
  execution ends with the last round's buffer holding that composition of the four arguments' launch contents, the
  arguments unchanged.  The composition is stated through a few named pieces (the normalised adjacency is used by all
  three rounds) and is never evaluated here.
-/
import proofs.«172208_j80221399155047_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed term, by pieces -/

/-- The mark vector: node `j` is marked when `j < 64` and `j` is none of the fifteen listed numbers (the membership
    test: the node numbers and the list spread to an 8192 × 15 table, compared, and folded with `or` along the list). -/
def markVec : IVec S8192 1 :=
  andi (cmpi .slt (iotaInDim S8192 32 0) (broadcastInDim S8192 ![] bcast_S_S8192 (constantI S_ 32 64#32)))
    (noti (Host.reduce IntOp.ori
      (cmpi .eq
        (broadcastInDim S8192x15 ![0, 1] bcast_S8192x1_S8192x15_0_1 (broadcastInDim S8192x1 ![0] bcast_S8192_S8192x1_0 (iotaInDim S8192 32 0)))
        (broadcastInDim S8192x15 ![0, 1] bcast_S1x15_S8192x15_0_1 (broadcastInDim S1x15 ![1] bcast_S15_S1x15_1 (fun i => lit0 (S15.rowMajor i)))))
      (constantI S_ 1 0#1) reducesTo_S8192x15_S8192_d1 h_S_))

/-- The adjacency of a mark vector: `1 − [mk i ∧ mk j]`, the conjunction read as a number. -/
def adjM (mk : IVec S8192 1) : FVec F S8192x8192 .f32 :=
  subf (broadcastInDim S8192x8192 ![] bcast_S_S8192x8192 (constant (F := F) S_ .f32 0x3F800000#32))
    (uitofp .f32
      (andi (broadcastInDim S8192x8192 ![0, 1] bcast_S8192x1_S8192x8192_0_1 (broadcastInDim S8192x1 ![0] bcast_S8192_S8192x1_0 mk))
        (broadcastInDim S8192x8192 ![0, 1] bcast_S1x8192_S8192x8192_0_1 (broadcastInDim S1x8192 ![1] bcast_S8192_S1x8192_1 mk))))

/-- `d = √|row sum of A|`, the row sum started from zero. -/
def dVec (A : FVec F S8192x8192 .f32) : FVec F S8192 .f32 :=
  Host.sqrt (Host.absf (Host.reduceAdd A (constant (F := F) S_ .f32 0x00000000#32) reducesTo_S8192x8192_S8192_d1 h_S_))

/-- The normalised adjacency `(A i j · d i) · d j`. -/
def normM (A : FVec F S8192x8192 .f32) (d : FVec F S8192 .f32) : FVec F S8192x8192 .f32 :=
  mulf (mulf A (broadcastInDim S8192x8192 ![0, 1] bcast_S8192x1_S8192x8192_0_1 (broadcastInDim S8192x1 ![0] bcast_S8192_S8192x1_0 d)))
    (broadcastInDim S8192x8192 ![0, 1] bcast_S1x8192_S8192x8192_0_1 (broadcastInDim S1x8192 ![1] bcast_S8192_S1x8192_1 d))

/-- One round: `relu (N · (x · Wᵀ))`. -/
def layer (N : FVec F S8192x8192 .f32) (x : FVec F S8192x256 .f32) (W : FVec F S256x256 .f32) : FVec F S8192x256 .f32 :=
  maximumf
    (Host.dotGeneral dot_S8192x8192_S8192x256_S8192x256_1_0_0_1_n_n none N
      (Host.dotGeneral dot_S8192x256_S256x256_S8192x256_1_0_0_1_n_n none x (transpose S256x256 [1, 0] W transposes_S256x256_S256x256_1_0)))
    (broadcastInDim S8192x256 ![] bcast_S_S8192x256 (constant (F := F) S_ .f32 0x00000000#32))

/-- The normalised adjacency of the program's own mark vector. -/
def norm : FVec F S8192x8192 .f32 := normM (adjM markVec) (dVec (adjM markVec))

/-- What @main computes from the four arguments' contents: three rounds. -/
def out (x : FVec F S8192x256 .f32) (W0 W1 W2 : FVec F S256x256 .f32) : FVec F S8192x256 .f32 :=
  layer norm (layer norm (layer norm x W0) W1) W2

/-! ## The program as a list of operations -/

/-- @main's 51 operations, in order, each called function's operations in its call's place over that call's
    buffers (the membership test's seven after the node numbers; each `relu`'s three after the product it clamps). -/
abbrev ops : List (HloOp τ sig (Elt F)) :=
  [ StableHlo.nullary main_c (fun i => lit0 (S15.rowMajor i)),
    StableHlo.nullary main_v0 (iotaInDim S8192 32 0),
    StableHlo.TRef.unary (TRef.of (T := ⟨S8192, .i32⟩) main_v0) (TRef.of (T := ⟨S8192x1, .i32⟩) main_call0_v0) (broadcastInDim S8192x1 ![0] bcast_S8192_S8192x1_0),
    StableHlo.TRef.unary (TRef.of (T := ⟨S15, .i32⟩) main_c) (TRef.of (T := ⟨S1x15, .i32⟩) main_call0_v1) (broadcastInDim S1x15 ![1] bcast_S15_S1x15_1),
    StableHlo.TRef.unary (TRef.of (T := ⟨S8192x1, .i32⟩) main_call0_v0) (TRef.of (T := ⟨S8192x15, .i32⟩) main_call0_v2) (broadcastInDim S8192x15 ![0, 1] bcast_S8192x1_S8192x15_0_1),
    StableHlo.TRef.unary (TRef.of (T := ⟨S1x15, .i32⟩) main_call0_v1) (TRef.of (T := ⟨S8192x15, .i32⟩) main_call0_v3) (broadcastInDim S8192x15 ![0, 1] bcast_S1x15_S8192x15_0_1),
    StableHlo.TRef.binary (TRef.of (T := ⟨S8192x15, .i32⟩) main_call0_v2) (TRef.of (T := ⟨S8192x15, .i32⟩) main_call0_v3) (TRef.of (T := ⟨S8192x15, .i1⟩) main_call0_v4) (cmpi .eq),
    StableHlo.TRef.nullary (TRef.of (T := ⟨S_, .i1⟩) main_call0_c) (constantI S_ 1 0#1),
    StableHlo.TRef.binary (TRef.of (T := ⟨S8192x15, .i1⟩) main_call0_v4) (TRef.of (T := ⟨S_, .i1⟩) main_call0_c) (TRef.of (T := ⟨S8192, .i1⟩) main_v1) (fun x v => Host.reduce IntOp.ori x v reducesTo_S8192x15_S8192_d1 h_S_),
    StableHlo.nullary main_c_0 (constantI S_ 32 64#32),
    StableHlo.unary main_c_0 main_v2 (broadcastInDim S8192 ![] bcast_S_S8192 : (⟨S_, .i32⟩ : BufTy).Contents (Elt F) → (⟨S8192, .i32⟩ : BufTy).Contents (Elt F)),
    StableHlo.binary main_v0 main_v2 main_v3 (cmpi .slt : (⟨S8192, .i32⟩ : BufTy).Contents (Elt F) → (⟨S8192, .i32⟩ : BufTy).Contents (Elt F) → (⟨S8192, .i1⟩ : BufTy).Contents (Elt F)),
    StableHlo.unary main_v1 main_v4 (noti : (⟨S8192, .i1⟩ : BufTy).Contents (Elt F) → (⟨S8192, .i1⟩ : BufTy).Contents (Elt F)),
    StableHlo.binary main_v3 main_v4 main_v5 (andi : (⟨S8192, .i1⟩ : BufTy).Contents (Elt F) → (⟨S8192, .i1⟩ : BufTy).Contents (Elt F) → (⟨S8192, .i1⟩ : BufTy).Contents (Elt F)),
    StableHlo.unary main_v5 main_v6 (broadcastInDim S8192x1 ![0] bcast_S8192_S8192x1_0 : (⟨S8192, .i1⟩ : BufTy).Contents (Elt F) → (⟨S8192x1, .i1⟩ : BufTy).Contents (Elt F)),
    StableHlo.unary main_v5 main_v7 (broadcastInDim S1x8192 ![1] bcast_S8192_S1x8192_1 : (⟨S8192, .i1⟩ : BufTy).Contents (Elt F) → (⟨S1x8192, .i1⟩ : BufTy).Contents (Elt F)),
    StableHlo.unary main_v6 main_v8 (broadcastInDim S8192x8192 ![0, 1] bcast_S8192x1_S8192x8192_0_1 : (⟨S8192x1, .i1⟩ : BufTy).Contents (Elt F) → (⟨S8192x8192, .i1⟩ : BufTy).Contents (Elt F)),
    StableHlo.unary main_v7 main_v9 (broadcastInDim S8192x8192 ![0, 1] bcast_S1x8192_S8192x8192_0_1 : (⟨S1x8192, .i1⟩ : BufTy).Contents (Elt F) → (⟨S8192x8192, .i1⟩ : BufTy).Contents (Elt F)),
    StableHlo.binary main_v8 main_v9 main_v10 (andi : (⟨S8192x8192, .i1⟩ : BufTy).Contents (Elt F) → (⟨S8192x8192, .i1⟩ : BufTy).Contents (Elt F) → (⟨S8192x8192, .i1⟩ : BufTy).Contents (Elt F)),
    StableHlo.unary main_v10 main_v11 (uitofp .f32 : (⟨S8192x8192, .i1⟩ : BufTy).Contents (Elt F) → (⟨S8192x8192, .f32⟩ : BufTy).Contents (Elt F)),
    StableHlo.nullary main_cst (constant S_ .f32 0x3F800000#32),
    StableHlo.unary main_cst main_v12 (broadcastInDim S8192x8192 ![] bcast_S_S8192x8192 : (⟨S_, .f32⟩ : BufTy).Contents (Elt F) → (⟨S8192x8192, .f32⟩ : BufTy).Contents (Elt F)),
    StableHlo.binary main_v12 main_v11 main_v13 (subf : (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0x00000000#32),
    StableHlo.binary main_v13 main_cst_1 main_v14 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v14 main_v15 (Host.absf : (⟨S8192, .f32⟩ : BufTy).Contents (Elt F) → (⟨S8192, .f32⟩ : BufTy).Contents (Elt F)),
    StableHlo.unary main_v15 main_v16 (Host.sqrt : (⟨S8192, .f32⟩ : BufTy).Contents (Elt F) → (⟨S8192, .f32⟩ : BufTy).Contents (Elt F)),
    StableHlo.unary main_v16 main_v17 (broadcastInDim S8192x1 ![0] bcast_S8192_S8192x1_0 : (⟨S8192, .f32⟩ : BufTy).Contents (Elt F) → (⟨S8192x1, .f32⟩ : BufTy).Contents (Elt F)),
    StableHlo.unary main_v17 main_v18 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v13 main_v18 main_v19 (mulf : (⟨S8192x8192, .f32⟩ : BufTy).Contents (Elt F) → (⟨S8192x8192, .f32⟩ : BufTy).Contents (Elt F) → (⟨S8192x8192, .f32⟩ : BufTy).Contents (Elt F)),
    StableHlo.unary main_v16 main_v20 (broadcastInDim S1x8192 ![1] bcast_S8192_S1x8192_1 : (⟨S8192, .f32⟩ : BufTy).Contents (Elt F) → (⟨S1x8192, .f32⟩ : BufTy).Contents (Elt F)),
    StableHlo.unary main_v20 main_v21 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v19 main_v21 main_v22 (mulf : (⟨S8192x8192, .f32⟩ : BufTy).Contents (Elt F) → (⟨S8192x8192, .f32⟩ : BufTy).Contents (Elt F) → (⟨S8192x8192, .f32⟩ : BufTy).Contents (Elt F)),
    StableHlo.unary main_arg1 main_v23 ((transpose S256x256 [1, 0] · transposes_S256x256_S256x256_1_0) : (⟨S256x256, .f32⟩ : BufTy).Contents (Elt F) → (⟨S256x256, .f32⟩ : BufTy).Contents (Elt F)),
    StableHlo.binary main_arg0 main_v23 main_v24 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.binary main_v22 main_v24 main_v25 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.TRef.nullary (TRef.of (T := ⟨S_, .f32⟩) main_call1_cst) (constant S_ .f32 0x00000000#32),
    StableHlo.TRef.unary (TRef.of (T := ⟨S_, .f32⟩) main_call1_cst) (TRef.of (T := ⟨S8192x256, .f32⟩) main_call1_v0) (broadcastInDim S8192x256 ![] bcast_S_S8192x256),
    StableHlo.TRef.binary (TRef.of (T := ⟨S8192x256, .f32⟩) main_v25) (TRef.of (T := ⟨S8192x256, .f32⟩) main_call1_v0) (TRef.of (T := ⟨S8192x256, .f32⟩) main_v26) maximumf,
    StableHlo.unary main_arg2 main_v27 ((transpose S256x256 [1, 0] · transposes_S256x256_S256x256_1_0) : (⟨S256x256, .f32⟩ : BufTy).Contents (Elt F) → (⟨S256x256, .f32⟩ : BufTy).Contents (Elt F)),
    StableHlo.binary main_v26 main_v27 main_v28 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.binary main_v22 main_v28 main_v29 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.TRef.nullary (TRef.of (T := ⟨S_, .f32⟩) main_call2_cst) (constant S_ .f32 0x00000000#32),
    StableHlo.TRef.unary (TRef.of (T := ⟨S_, .f32⟩) main_call2_cst) (TRef.of (T := ⟨S8192x256, .f32⟩) main_call2_v0) (broadcastInDim S8192x256 ![] bcast_S_S8192x256),
    StableHlo.TRef.binary (TRef.of (T := ⟨S8192x256, .f32⟩) main_v29) (TRef.of (T := ⟨S8192x256, .f32⟩) main_call2_v0) (TRef.of (T := ⟨S8192x256, .f32⟩) main_v30) maximumf,
    StableHlo.unary main_arg3 main_v31 ((transpose S256x256 [1, 0] · transposes_S256x256_S256x256_1_0) : (⟨S256x256, .f32⟩ : BufTy).Contents (Elt F) → (⟨S256x256, .f32⟩ : BufTy).Contents (Elt F)),
    StableHlo.binary main_v30 main_v31 main_v32 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.binary main_v22 main_v32 main_v33 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.TRef.nullary (TRef.of (T := ⟨S_, .f32⟩) main_call3_cst) (constant S_ .f32 0x00000000#32),
    StableHlo.TRef.unary (TRef.of (T := ⟨S_, .f32⟩) main_call3_cst) (TRef.of (T := ⟨S8192x256, .f32⟩) main_call3_v0) (broadcastInDim S8192x256 ![] bcast_S_S8192x256),
    StableHlo.TRef.binary (TRef.of (T := ⟨S8192x256, .f32⟩) main_v33) (TRef.of (T := ⟨S8192x256, .f32⟩) main_call3_v0) (TRef.of (T := ⟨S8192x256, .f32⟩) main_v34) maximumf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub ..,
    binary_bufs_sub .., nullary_bufs_sub .., binary_bufs_sub .., nullary_bufs_sub .., unary_bufs_sub .., binary_bufs_sub ..,
    unary_bufs_sub .., binary_bufs_sub .., unary_bufs_sub .., unary_bufs_sub .., unary_bufs_sub .., unary_bufs_sub ..,
    binary_bufs_sub .., unary_bufs_sub .., nullary_bufs_sub .., unary_bufs_sub .., binary_bufs_sub .., nullary_bufs_sub ..,
    binary_bufs_sub .., unary_bufs_sub .., unary_bufs_sub .., unary_bufs_sub .., unary_bufs_sub .., binary_bufs_sub ..,
    unary_bufs_sub .., unary_bufs_sub .., binary_bufs_sub .., unary_bufs_sub .., binary_bufs_sub .., binary_bufs_sub ..,
    nullary_bufs_sub .., unary_bufs_sub .., binary_bufs_sub .., unary_bufs_sub .., binary_bufs_sub .., binary_bufs_sub ..,
    nullary_bufs_sub .., unary_bufs_sub .., binary_bufs_sub .., unary_bufs_sub .., binary_bufs_sub .., binary_bufs_sub ..,
    nullary_bufs_sub .., unary_bufs_sub .., binary_bufs_sub ..⟩

/-! ## What the buffers hold after the operations -/

attribute [local irreducible] Host.reduce Host.reduceAdd in
set_option maxRecDepth 8192 in
set_option maxHeartbeats 2000000 in
/-- The last round's buffer after the operations: each operation's own buffer holds its function of what its operand
    buffers held, so the buffer holds the composition, which is `out` of the arguments' contents once the named pieces
    are opened (the operations' functions themselves stay closed). -/
theorem out_eq (V : Valuation τ sig (Elt F)) :
    after ops V (main_v34 : DevRef τ sig)
      = out (V (main_arg0 : DevRef τ sig)) (V (main_arg1 : DevRef τ sig)) (V (main_arg2 : DevRef τ sig)) (V (main_arg3 : DevRef τ sig)) := by
  after_results_simp
  rfl

attribute [local irreducible] Host.reduce Host.reduceAdd in
set_option maxRecDepth 8192 in
set_option maxHeartbeats 2000000 in
/-- The mark buffer after the operations holds the mark vector, whatever the launch contents. -/
theorem mark_eq (V : Valuation τ sig (Elt F)) : after ops V (main_v5 : DevRef τ sig) = markVec := by
  after_results_simp
  rfl

set_option maxRecDepth 8192 in
set_option maxHeartbeats 2000000 in
/-- No operation writes an argument's buffer. -/
theorem arg0_eq (V : Valuation τ sig (Elt F)) : after ops V (main_arg0 : DevRef τ sig) = V (main_arg0 : DevRef τ sig) := by
  after_results_simp
set_option maxRecDepth 8192 in
set_option maxHeartbeats 2000000 in
theorem arg1_eq (V : Valuation τ sig (Elt F)) : after ops V (main_arg1 : DevRef τ sig) = V (main_arg1 : DevRef τ sig) := by
  after_results_simp
set_option maxRecDepth 8192 in
set_option maxHeartbeats 2000000 in
theorem arg2_eq (V : Valuation τ sig (Elt F)) : after ops V (main_arg2 : DevRef τ sig) = V (main_arg2 : DevRef τ sig) := by
  after_results_simp
set_option maxRecDepth 8192 in
set_option maxHeartbeats 2000000 in
theorem arg3_eq (V : Valuation τ sig (Elt F)) : after ops V (main_arg3 : DevRef τ sig) = V (main_arg3 : DevRef τ sig) := by
  after_results_simp

/-! ## The run -/

/-- On every device, for any float values, from any memory with zero counters: every weakly fair execution of @main
    terminates with the last round's buffer at `out` of the four arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v34).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.RefValue

end
-- ==== Proof.Spec.lean ====
/-
  The mathematics of this certificate, with no program in sight: three rounds of graph message passing on
  8192 nodes with 256 features, on the extended reals.

  A node is "marked" (`b j`) or not.  Two nodes are adjacent unless both are marked, so the adjacency matrix is
  `A i j = 1 - [b i ∧ b j]`, a node's degree is the row sum of `A`, and the normalised adjacency is
  `A i j · d i · d j` with `d i = √|deg i|`.  One round maps the features `x` to `relu (normA · (x · Wᵀ))`.

  The same round can be computed without the 8192 × 8192 matrix, because `normA = u uᵀ − v vᵀ` with `u = d` and
  `v = d · [b]`: first the two weighted column sums `Σ_j u j · h j f` and `Σ_j v j · h j f` of `h = x · Wᵀ`
  (here accumulated over four bands of 2048 rows, starting from zero), then `relu (u i · U f − v i · V f)`; and the
  degree as `8192 − [b i] · Σ_j [b j]`.  `kernelOut` is the second way, `refOut` the first; they agree on finite
  inputs (the law is distributivity of `d i ·` over the sum on `j`, which fails at infinities).
-/
import Idealize.ShloMosaic.PureOps.Ideal
import Idealize.ShloMosaic.PureOps.Ideal.Laws

noncomputable section

namespace Cert.Gcn

open Idealize.ShloMosaic
open scoped BigOperators

/-- A matrix of extended reals by row and column. -/
abbrev Mat (a b : ℕ) := Fin a → Fin b → EReal

/-- `x · Wᵀ`: entry `(i, f)` is `Σ_k x i k · W f k`. -/
def lin (x : Mat 8192 256) (W : Mat 256 256) : Mat 8192 256 :=
  fun i f => ∑ k : Fin 256, x i k * W f k

/-- `√|deg|` (the absolute value spelt `max a (−a)`). -/
def rootAbs (deg : EReal) : EReal := Ideal.sqrt (max deg (-deg))

/-- The mark of node `j` as a number: one if marked, zero if not. -/
def mark (b : Fin 8192 → Bool) (j : Fin 8192) : EReal := if b j then 1 else 0

/-! ## The low-rank way -/

/-- A node's degree from the count of marked nodes: `8192 − [b i] · (0 + Σ_j [b j])`. -/
def degLow (n : Fin 8192 → EReal) (i : Fin 8192) : EReal := 8192 - n i * (0 + ∑ j : Fin 8192, n j)

/-- `u i = √|deg i|`. -/
def uLow (n : Fin 8192 → EReal) (i : Fin 8192) : EReal := rootAbs (degLow n i)

/-- `v i = u i · [b i]`. -/
def vLow (n : Fin 8192 → EReal) (i : Fin 8192) : EReal := uLow n i * n i

/-- Row `2048 · t + k` of the 8192 rows: row `k` of band `t`. -/
def bandRow (t : Fin 4) (k : Fin 2048) : Fin 8192 := ⟨2048 * t.val + k.val, by have := t.isLt; have := k.isLt; omega⟩

/-- The weighted column sum of `h` over band `t`: `Σ_k a (row t k) · h (row t k) f`. -/
def bandSum (a : Fin 8192 → EReal) (h : Mat 8192 256) (t : Fin 4) (f : Fin 256) : EReal :=
  ∑ k : Fin 2048, a (bandRow t k) * h (bandRow t k) f

/-- The weighted column sum of `h` accumulated band by band from zero, in that order. -/
def colSum (a : Fin 8192 → EReal) (h : Mat 8192 256) (f : Fin 256) : EReal :=
  (((0 + bandSum a h 0 f) + bandSum a h 1 f) + bandSum a h 2 f) + bandSum a h 3 f

/-- One round the low-rank way: `relu (u i · U f − v i · V f)` over `h = x · Wᵀ`. -/
def layerLow (n : Fin 8192 → EReal) (x : Mat 8192 256) (W : Mat 256 256) : Mat 8192 256 :=
  fun i f => max (uLow n i * colSum (uLow n) (lin x W) f - vLow n i * colSum (vLow n) (lin x W) f) 0

/-- Three rounds the low-rank way. -/
def kernelOut (n : Fin 8192 → EReal) (x : Mat 8192 256) (W0 W1 W2 : Mat 256 256) : Mat 8192 256 :=
  layerLow n (layerLow n (layerLow n x W0) W1) W2

/-! ## The dense way -/

/-- `A i j = 1 − [b i ∧ b j]`. -/
def adj (b : Fin 8192 → Bool) (i j : Fin 8192) : EReal := 1 - (if (b i && b j) then 1 else 0)

/-- A node's degree as a row sum: `0 + Σ_j A i j`. -/
def degDense (b : Fin 8192 → Bool) (i : Fin 8192) : EReal := 0 + ∑ j : Fin 8192, adj b i j

/-- `d i = √|deg i|`. -/
def dDense (b : Fin 8192 → Bool) (i : Fin 8192) : EReal := rootAbs (degDense b i)

/-- The normalised adjacency `(A i j · d i) · d j`, in that order of multiplication. -/
def normA (b : Fin 8192 → Bool) (i j : Fin 8192) : EReal := adj b i j * dDense b i * dDense b j

/-- One round the dense way: `relu (Σ_j normA i j · h j f)` over `h = x · Wᵀ`. -/
def layerDense (b : Fin 8192 → Bool) (x : Mat 8192 256) (W : Mat 256 256) : Mat 8192 256 :=
  fun i f => max (∑ j : Fin 8192, normA b i j * lin x W j f) 0

/-- Three rounds the dense way. -/
def refOut (b : Fin 8192 → Bool) (x : Mat 8192 256) (W0 W1 W2 : Mat 256 256) : Mat 8192 256 :=
  layerDense b (layerDense b (layerDense b x W0) W1) W2

/-- An extended real that is a real number. -/
def Fin' (a : EReal) : Prop := ∃ r : ℝ, a = (r : EReal)

end Cert.Gcn

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.KI.Val0.lean ====
/- The value of region 0 on the extended reals: the array its output window is written back to ends holding, at
   row r and column q, the sum over the shared axis of the products of row r of the first operand with column q of
   the second (no rounding on the extended reals: the narrowing casts are the identity, the accumulator starts at
   zero). Each grid point writes a block of 2048 rows; the four blocks tile the 8192 rows. -/
import proofs.«172208_j80221399155047_2_alg».proof.Proof.KI.Reg0
import proofs.«172208_j80221399155047_2_alg».proof.Proof.LibRowOps
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The product's dimension numbers are the plain ones: rows by shared axis times shared axis by columns. -/
theorem plain0 : Cert.RowOps.IsPlain dot_S2048x256_S256x256_S2048x256_1_0_0_1_n_n := ⟨rfl, rfl, rfl, rfl, rfl, rfl⟩

/-- The body's payload at (p, q): the sum over the shared axis of the products of the two loaded blocks. -/
theorem pay0_apply (x0 : FVec Ideal S2048x256 .f32) (x1 : FVec Ideal S256x256 .f32) (p : Fin 2048) (q : Fin 256) :
    k0_pay1 (F := Ideal) x0 x1 (ix2 p q) = ∑ j : Fin 256, x0 (ix2 p j) * x1 (ix2 j q) := by
  unfold k0_pay1
  refine (Cert.RowOps.matmul_zero_apply plain0 none _ _ p q).trans ?_
  refine Finset.sum_congr rfl fun j _ => ?_
  show x0 (ix2 p j) * shapeCast S256x256 x1 shapeCasts_S256x256_S256x256 (ix2 j q) = _
  rw [shapeCast_self]

/-- The printed index maps, decided over the grid: the row blocks move with the point, everything else stays at 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the output array ends holding, from the two operands as matrices: at (r, q) the sum over the shared axis. -/
def lin0 (X : Fin 8192 → Fin 256 → EReal) (Wt : Fin 256 → Fin 256 → EReal) : S8192x256.Idx → EReal :=
  fun y => ∑ j : Fin 256, X (y 0) j * Wt j (y 1)

theorem lin0_apply (X : Fin 8192 → Fin 256 → EReal) (Wt : Fin 256 → Fin 256 → EReal) (r : Fin 8192) (q : Fin 256) :
    lin0 X Wt (ix2 r q) = ∑ j : Fin 256, X r j * Wt j q := rfl

/-- An index of the array is in point `t`'s block iff each coordinate is in the block's range on its axis. -/
theorem mem_blk0 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_call0_v21).slice (win0_2.rect t)).set ↔ _
  rw [View.set_slice_whole, Rect.mem_set_unit]
  exact Iff.rfl

/-- Every index is in the block of the point its row falls in. -/
theorem cover0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have h4 : cfg0.N = 4 := N_0
  obtain ⟨t, ht⟩ : ∃ t : Fin cfg0.N, t.val = (i 0).val / 2048 := ⟨⟨(i 0).val / 2048, by omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; rw [e4, ht]; omega
  | ⟨1, _⟩ => show win0_2.index t (1 : Fin 2) * 256 ≤ (i 1).val ∧ (i 1).val < win0_2.index t (1 : Fin 2) * 256 + 256; rw [e5]; omega

section
variable (c : Dev nD) (X : Fin 8192 → Fin 256 → EReal) (Wt : Fin 256 → Fin 256 → EReal)
  (hX : ∀ r j, V c main_arg0 (ix2 r j) = X r j) (hW : ∀ j q, V c main_call0_v20 (ix2 j q) = Wt j q)
include hX hW

/-- The first operand's block at point `t` is rows 2048 t … 2048 t + 2047 of its array. -/
theorem iblk0_0_apply (t : Fin cfg0.N) (p : Fin 2048) (j : Fin 256) (r : Fin 8192) (hr : r.val = 2048 * t.val + p.val) :
    (iblk0 V c 0 t : Vec Ideal S2048x256 .f32) (ix2 p j) = X r j := by
  obtain ⟨e0, e1, -⟩ := idx_facts0 t
  rw [← hX r j]
  unfold iblk0
  rw [View.read_apply]
  show V c main_arg0 _ = V c main_arg0 _
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * j.val = j.val; rw [e1]; omega

/-- The second operand's block at any point is its whole array. -/
theorem iblk0_1_apply (t : Fin cfg0.N) (j : Fin 256) (q : Fin 256) :
    (iblk0 V c 1 t : Vec Ideal S256x256 .f32) (ix2 j q) = Wt j q := by
  obtain ⟨-, -, e2, e3, -⟩ := idx_facts0 t
  rw [← hW j q]
  unfold iblk0
  rw [View.read_apply]
  show V c main_call0_v20 _ = V c main_call0_v20 _
  refine congrArg _ (funext fun a => Fin.ext ?_)
  match a with
  | ⟨0, _⟩ => show win0_1.index t (0 : Fin 2) * 256 + 1 * j.val = j.val; rw [e2]; omega
  | ⟨1, _⟩ => show win0_1.index t (1 : Fin 2) * 256 + 1 * q.val = q.val; rw [e3]; omega

/-- What point `t` writes back is block `t` of `lin0 X Wt`. -/
theorem flushed0_eq (t : Fin cfg0.N) :
    (dat0 (F := Ideal) V c).flushed 2 t = ((cfg0.win 2).blk t).view.read (Elt Ideal) (lin0 X Wt) := by
  show (cfg0.win 2).cut (grid0.coords t) ((dat0 (F := Ideal) V c).after 2 t) = _
  rw [after0_2]
  unfold out0_2
  rw [View.canon_unit_zero hz0]
  simp only [View.ld_unit_zero (S := S2048x256) hz0, View.ld_unit_zero (S := S256x256) hz0]
  obtain ⟨-, -, -, -, e4, e5⟩ := idx_facts0 t
  funext y
  obtain ⟨p, q, rfl⟩ : ∃ (p : Fin 2048) (q : Fin 256), y = ix2 p q := ⟨y 0, y 1, eq_ix2 y⟩
  have h4 : cfg0.N = 4 := N_0
  have hr : 2048 * t.val + p.val < 8192 := by have := t.isLt; have := p.isLt; omega
  refine (pay0_apply (iblk0 V c 0 t) (iblk0 V c 1 t) p q).trans ?_
  rw [View.read_apply]
  show _ = lin0 X Wt (((cfg0.win 2).blk t).view.emb (ix2 p q))
  have hy : ((cfg0.win 2).blk t).view.emb (ix2 p q) = ix2 (⟨2048 * t.val + p.val, hr⟩ : Fin 8192) q :=
    funext fun a => Fin.ext (by
      match a with
      | ⟨0, _⟩ => show win0_2.index t (0 : Fin 2) * 2048 + 1 * p.val = 2048 * t.val + p.val; rw [e4]; omega
      | ⟨1, _⟩ => show win0_2.index t (1 : Fin 2) * 256 + 1 * q.val = q.val; rw [e5]; omega)
  rw [hy, lin0_apply]
  refine Finset.sum_congr rfl fun j _ => ?_
  rw [iblk0_0_apply V c X Wt hX hW t p j ⟨2048 * t.val + p.val, hr⟩ rfl, iblk0_1_apply V c X Wt hX hW t j q]

/-- THE ARRAY after the region is `lin0 X Wt`. -/
theorem final0 : (dat0 (F := Ideal) V c).arrAt 2 cfg0.N = lin0 X Wt :=
  (dat0 (F := Ideal) V c).arrAt_eq_of_cover 2 (lin0 X Wt) (fun t _ => flushed0_eq V c X Wt hX hW t) cover0

/-- Read at row r and column q. -/
theorem val0 (r : Fin 8192) (q : Fin 256) :
    (dat0 (F := Ideal) V c).arrAt 2 cfg0.N (ix2 r q) = (∑ j : Fin 256, X r j * Wt j q : EReal) := by
  rw [final0 V c X Wt hX hW]; rfl

end

end Cert.KernelIdeal.Hand

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.KI.Val2.lean ====
/- The value of region 2 on the extended reals: the array its output window is written back to ends holding, at
   row r and column q, the positive part of  u r · H 0 q − v r · H 1 q,  where u and v are the two coefficient columns
   and H the two-row operand (no rounding on the extended reals). Each grid point writes a block of 2048 rows; the four
   blocks tile the 8192 rows. -/
import proofs.«172208_j80221399155047_2_alg».proof.Proof.KI.Reg2
import proofs.«172208_j80221399155047_2_alg».proof.Proof.LibRowOps
import proofs.«172208_j80221399155047_2_alg».proof.Proof.LibRowColOps
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's payload at (p, q): the positive part of the combination of the two rows, the coefficients read off
    the two columns at row p. -/
theorem pay2_apply (x0 x1 : FVec Ideal S2048x1 .f32) (x2 : FVec Ideal S2x256 .f32) (p : Fin 2048) (q : Fin 256) :
    k2_pay1 (F := Ideal) x0 x1 x2 (ix2 p q)
      = max (x0 (ix2 p (0 : Fin 1)) * x2 (ix2 (0 : Fin 2) q) - x1 (ix2 p (0 : Fin 1)) * x2 (ix2 (1 : Fin 2) q)) 0 := by
  have h8 : broadcastTo S2048x256 (shapeCast S2048x1 x0 shapeCasts_S2048x1_S2048x1) broadcasts_S2048x1_S2048x256 (ix2 p q) = x0 (ix2 p (0 : Fin 1)) :=
    (Cert.RowOps.spread_apply _ _ p q).trans (congrFun (shapeCast_self x0 _) _)
  have h11 : broadcastTo S2048x256 (shapeCast S2048x1 x1 shapeCasts_S2048x1_S2048x1) broadcasts_S2048x1_S2048x256 (ix2 p q) = x1 (ix2 p (0 : Fin 1)) :=
    (Cert.RowOps.spread_apply _ _ p q).trans (congrFun (shapeCast_self x1 _) _)
  have h9 : broadcastTo S2048x256 (extractStridedSlice S1x256 ![0, 0] (shapeCast S2x256 x2 shapeCasts_S2x256_S2x256) slices_S2x256_o0_0_S1x256) broadcasts_S1x256_S2048x256 (ix2 p q) = x2 (ix2 (0 : Fin 2) q) :=
    (Cert.RowColOps.rowSpread_apply _ _ p q).trans
      ((Cert.RowColOps.sliceRow_apply _ (0 : Fin 2) _ rfl _ (0 : Fin 1) q).trans (congrFun (shapeCast_self x2 _) _))
  have h12 : broadcastTo S2048x256 (extractStridedSlice S1x256 ![1, 0] (shapeCast S2x256 x2 shapeCasts_S2x256_S2x256) slices_S2x256_o1_0_S1x256) broadcasts_S1x256_S2048x256 (ix2 p q) = x2 (ix2 (1 : Fin 2) q) :=
    (Cert.RowColOps.rowSpread_apply _ _ p q).trans
      ((Cert.RowColOps.sliceRow_apply _ (1 : Fin 2) _ rfl _ (0 : Fin 1) q).trans (congrFun (shapeCast_self x2 _) _))
  unfold k2_pay1
  show max (broadcastTo S2048x256 (shapeCast S2048x1 x0 shapeCasts_S2048x1_S2048x1) broadcasts_S2048x1_S2048x256 (ix2 p q) * broadcastTo S2048x256 (extractStridedSlice S1x256 ![0, 0] (shapeCast S2x256 x2 shapeCasts_S2x256_S2x256) slices_S2x256_o0_0_S1x256) broadcasts_S1x256_S2048x256 (ix2 p q) - broadcastTo S2048x256 (shapeCast S2048x1 x1 shapeCasts_S2048x1_S2048x1) broadcasts_S2048x1_S2048x256 (ix2 p q) * broadcastTo S2048x256 (extractStridedSlice S1x256 ![1, 0] (shapeCast S2x256 x2 shapeCasts_S2x256_S2x256) slices_S2x256_o1_0_S1x256) broadcasts_S1x256_S2048x256 (ix2 p q)) (Ideal.ofBits .f32 0x00000000#32) = _
  rw [h8, h9, h11, h12, Ideal.ofBits_zero_f32]

/-- The printed index maps, decided over the grid: the row blocks move with the point, everything else stays at 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the output array ends holding, from the coefficient columns and the two rows. -/
def scat2 (u v : Fin 8192 → EReal) (H : Fin 2 → Fin 256 → EReal) : S8192x256.Idx → EReal :=
  fun y => max (u (y 0) * H 0 (y 1) - v (y 0) * H 1 (y 1)) 0

theorem scat2_apply (u v : Fin 8192 → EReal) (H : Fin 2 → Fin 256 → EReal) (r : Fin 8192) (q : Fin 256) :
    scat2 u v H (ix2 r q) = max (u r * H 0 q - v r * H 1 q) 0 := rfl

/-- An index of the array is in point `t`'s block iff each coordinate is in the block's range on its axis. -/
theorem mem_blk2 (t : Fin cfg2.N) (i : S8192x256.Idx) :
    i ∈ ((cfg2.win 3).blk t).view.set ↔ ∀ a : Fin 2, win2_3.index t a * S2048x256.size a ≤ (i a).val ∧ (i a).val < win2_3.index t a * S2048x256.size a + S2048x256.size a := by
  show i ∈ ((View.whole main_call0_v23).slice (win2_3.rect t)).set ↔ _
  rw [View.set_slice_whole, Rect.mem_set_unit]
  exact Iff.rfl

/-- Every index is in the block of the point its row falls in. -/
theorem cover2 (i : S8192x256.Idx) : ∃ t : Fin cfg2.N, (cfg2.win 3).flush t = true ∧ i ∈ ((cfg2.win 3).blk t).view.set := by
  have hi0 : (i 0).val < 8192 := (i 0).isLt
  have hi1 : (i 1).val < 256 := (i 1).isLt
  have h4 : cfg2.N = 4 := N_2
  obtain ⟨t, ht⟩ : ∃ t : Fin cfg2.N, t.val = (i 0).val / 2048 := ⟨⟨(i 0).val / 2048, by omega⟩, rfl⟩
  obtain ⟨-, -, -, -, -, -, e6, e7⟩ := idx_facts2 t
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; rw [e6, ht]; omega
  | ⟨1, _⟩ => show win2_3.index t (1 : Fin 2) * 256 ≤ (i 1).val ∧ (i 1).val < win2_3.index t (1 : Fin 2) * 256 + 256; rw [e7]; omega

section
variable (c : Dev nD) (u v : Fin 8192 → EReal) (H : Fin 2 → Fin 256 → EReal)
  (hu : ∀ r, V c main_call0_v18 (ix2 r (0 : Fin 1)) = u r) (hv : ∀ r, V c main_call0_v19 (ix2 r (0 : Fin 1)) = v r)
  (hH : ∀ a q, V c main_call0_v22 (ix2 a q) = H a q)
include hu hv hH

/-- The first column's block at point `t` is rows 2048 t … 2048 t + 2047 of its array. -/
theorem iblk2_0_apply (t : Fin cfg2.N) (p : Fin 2048) (r : Fin 8192) (hr : r.val = 2048 * t.val + p.val) :
    (iblk2 V c 0 t : Vec Ideal S2048x1 .f32) (ix2 p (0 : Fin 1)) = u r := by
  obtain ⟨e0, e1, -⟩ := idx_facts2 t
  rw [← hu r]
  unfold iblk2
  rw [View.read_apply]
  show V c main_call0_v18 _ = V c main_call0_v18 _
  refine congrArg _ (funext fun a => Fin.ext ?_)
  match a with
  | ⟨0, _⟩ => show win2_0.index t (0 : Fin 2) * 2048 + 1 * p.val = r.val; rw [e0, hr]; omega
  | ⟨1, _⟩ => show win2_0.index t (1 : Fin 2) * 1 + 1 * 0 = 0; rw [e1]

/-- The second column's block likewise. -/
theorem iblk2_1_apply (t : Fin cfg2.N) (p : Fin 2048) (r : Fin 8192) (hr : r.val = 2048 * t.val + p.val) :
    (iblk2 V c 1 t : Vec Ideal S2048x1 .f32) (ix2 p (0 : Fin 1)) = v r := by
  obtain ⟨-, -, e2, e3, -⟩ := idx_facts2 t
  rw [← hv r]
  unfold iblk2
  rw [View.read_apply]
  show V c main_call0_v19 _ = V c main_call0_v19 _
  refine congrArg _ (funext fun a => Fin.ext ?_)
  match a with
  | ⟨0, _⟩ => show win2_1.index t (0 : Fin 2) * 2048 + 1 * p.val = r.val; rw [e2, hr]; omega
  | ⟨1, _⟩ => show win2_1.index t (1 : Fin 2) * 1 + 1 * 0 = 0; rw [e3]

/-- The two-row operand's block at any point is its whole array. -/
theorem iblk2_2_apply (t : Fin cfg2.N) (a : Fin 2) (q : Fin 256) :
    (iblk2 V c 2 t : Vec Ideal S2x256 .f32) (ix2 a q) = H a q := by
  obtain ⟨-, -, -, -, e4, e5, -⟩ := idx_facts2 t
  rw [← hH a q]
  unfold iblk2
  rw [View.read_apply]
  show V c main_call0_v22 _ = V c main_call0_v22 _
  refine congrArg _ (funext fun b => Fin.ext ?_)
  match b with
  | ⟨0, _⟩ => show win2_2.index t (0 : Fin 2) * 2 + 1 * a.val = a.val; rw [e4]; omega
  | ⟨1, _⟩ => show win2_2.index t (1 : Fin 2) * 256 + 1 * q.val = q.val; rw [e5]; omega

/-- What point `t` writes back is block `t` of `scat2 u v H`. -/
theorem flushed2_eq (t : Fin cfg2.N) :
    (dat2 (F := Ideal) V c).flushed 3 t = ((cfg2.win 3).blk t).view.read (Elt Ideal) (scat2 u v H) := by
  show (cfg2.win 3).cut (grid2.coords t) ((dat2 (F := Ideal) V c).after 3 t) = _
  rw [after2_3]
  unfold out2_3
  rw [View.canon_unit_zero hz2]
  simp only [View.ld_unit_zero (S := S2048x1) hz2, View.ld_unit_zero (S := S2x256) hz2]
  obtain ⟨-, -, -, -, -, -, e6, e7⟩ := idx_facts2 t
  funext y
  obtain ⟨p, q, rfl⟩ : ∃ (p : Fin 2048) (q : Fin 256), y = ix2 p q := ⟨y 0, y 1, eq_ix2 y⟩
  have h4 : cfg2.N = 4 := N_2
  have hr : 2048 * t.val + p.val < 8192 := by have := t.isLt; have := p.isLt; omega
  refine (pay2_apply (iblk2 V c 0 t) (iblk2 V c 1 t) (iblk2 V c 2 t) p q).trans ?_
  rw [View.read_apply]
  show _ = scat2 u v H (((cfg2.win 3).blk t).view.emb (ix2 p q))
  have hy : ((cfg2.win 3).blk t).view.emb (ix2 p q) = ix2 (⟨2048 * t.val + p.val, hr⟩ : Fin 8192) q :=
    funext fun a => Fin.ext (by
      match a with
      | ⟨0, _⟩ => show win2_3.index t (0 : Fin 2) * 2048 + 1 * p.val = 2048 * t.val + p.val; rw [e6]; omega
      | ⟨1, _⟩ => show win2_3.index t (1 : Fin 2) * 256 + 1 * q.val = q.val; rw [e7]; omega)
  rw [hy, scat2_apply,
    iblk2_0_apply V c u v H hu hv hH t p ⟨2048 * t.val + p.val, hr⟩ rfl,
    iblk2_1_apply V c u v H hu hv hH t p ⟨2048 * t.val + p.val, hr⟩ rfl,
    iblk2_2_apply V c u v H hu hv hH t 0 q, iblk2_2_apply V c u v H hu hv hH t 1 q]

/-- THE ARRAY after the region is `scat2 u v H`. -/
theorem final2 : (dat2 (F := Ideal) V c).arrAt 3 cfg2.N = scat2 u v H :=
  (dat2 (F := Ideal) V c).arrAt_eq_of_cover 3 (scat2 u v H) (fun t _ => flushed2_eq V c u v H hu hv hH t) cover2

/-- Read at row r and column q. -/
theorem val2 (r : Fin 8192) (q : Fin 256) :
    (dat2 (F := Ideal) V c).arrAt 3 cfg2.N (ix2 r q) = (max (u r * H 0 q - v r * H 1 q) 0 : EReal) := by
  rw [final2 V c u v H hu hv hH]; rfl

end

end Cert.KernelIdeal.Hand

end
-- ==== Proof.KI.Val3.lean ====
/- The value of region 3 on the extended reals: the array its output window is written back to ends holding, at
   row r and column q, the sum over the shared axis of the products of row r of the first operand with column q of
   the second (no rounding on the extended reals: the narrowing casts are the identity, the accumulator starts at
   zero). Each grid point writes a block of 2048 rows; the four blocks tile the 8192 rows. -/
import proofs.«172208_j80221399155047_2_alg».proof.Proof.KI.Reg3
import proofs.«172208_j80221399155047_2_alg».proof.Proof.LibRowOps
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The product's dimension numbers are the plain ones: rows by shared axis times shared axis by columns. -/
theorem plain3 : Cert.RowOps.IsPlain dot_S2048x256_S256x256_S2048x256_1_0_0_1_n_n := ⟨rfl, rfl, rfl, rfl, rfl, rfl⟩

/-- The body's payload at (p, q): the sum over the shared axis of the products of the two loaded blocks. -/
theorem pay3_apply (x0 : FVec Ideal S2048x256 .bf16) (x1 : FVec Ideal S256x256 .f32) (p : Fin 2048) (q : Fin 256) :
    k3_pay1 (F := Ideal) x0 x1 (ix2 p q) = ∑ j : Fin 256, x0 (ix2 p j) * x1 (ix2 j q) := by
  unfold k3_pay1
  refine (Cert.RowOps.matmul_zero_apply plain3 none _ _ p q).trans ?_
  refine Finset.sum_congr rfl fun j _ => ?_
  show shapeCast S2048x256 x0 shapeCasts_S2048x256_S2048x256 (ix2 p j) * shapeCast S256x256 x1 shapeCasts_S256x256_S256x256 (ix2 j q) = _
  rw [shapeCast_self, shapeCast_self]

/-- The printed index maps, decided over the grid: the row blocks move with the point, everything else stays at 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What the output array ends holding, from the two operands as matrices: at (r, q) the sum over the shared axis. -/
def lin3 (X : Fin 8192 → Fin 256 → EReal) (Wt : Fin 256 → Fin 256 → EReal) : S8192x256.Idx → EReal :=
  fun y => ∑ j : Fin 256, X (y 0) j * Wt j (y 1)

theorem lin3_apply (X : Fin 8192 → Fin 256 → EReal) (Wt : Fin 256 → Fin 256 → EReal) (r : Fin 8192) (q : Fin 256) :
    lin3 X Wt (ix2 r q) = ∑ j : Fin 256, X r j * Wt j q := rfl

/-- An index of the array is in point `t`'s block iff each coordinate is in the block's range on its axis. -/
theorem mem_blk3 (t : Fin cfg3.N) (i : S8192x256.Idx) :
    i ∈ ((cfg3.win 2).blk t).view.set ↔ ∀ a : Fin 2, win3_2.index t a * S2048x256.size a ≤ (i a).val ∧ (i a).val < win3_2.index t a * S2048x256.size a + S2048x256.size a := by
  show i ∈ ((View.whole main_call0_v25).slice (win3_2.rect t)).set ↔ _
  rw [View.set_slice_whole, Rect.mem_set_unit]
  exact Iff.rfl

/-- Every index is in the block of the point its row falls in. -/
theorem cover3 (i : S8192x256.Idx) : ∃ t : Fin cfg3.N, (cfg3.win 2).flush t = true ∧ i ∈ ((cfg3.win 2).blk t).view.set := by
  have hi0 : (i 0).val < 8192 := (i 0).isLt
  have hi1 : (i 1).val < 256 := (i 1).isLt
  have h4 : cfg3.N = 4 := N_3
  obtain ⟨t, ht⟩ : ∃ t : Fin cfg3.N, t.val = (i 0).val / 2048 := ⟨⟨(i 0).val / 2048, by omega⟩, rfl⟩
  obtain ⟨-, -, -, -, e4, e5⟩ := idx_facts3 t
  refine ⟨t, flush3_2 t, ?_⟩
  rw [mem_blk3]
  intro a
  match a with
  | ⟨0, _⟩ => show win3_2.index t (0 : Fin 2) * 2048 ≤ (i 0).val ∧ (i 0).val < win3_2.index t (0 : Fin 2) * 2048 + 2048; rw [e4, ht]; omega
  | ⟨1, _⟩ => show win3_2.index t (1 : Fin 2) * 256 ≤ (i 1).val ∧ (i 1).val < win3_2.index t (1 : Fin 2) * 256 + 256; rw [e5]; omega

section
variable (c : Dev nD) (X : Fin 8192 → Fin 256 → EReal) (Wt : Fin 256 → Fin 256 → EReal)
  (hX : ∀ r j, V c main_call0_v23 (ix2 r j) = X r j) (hW : ∀ j q, V c main_call0_v24 (ix2 j q) = Wt j q)
include hX hW

/-- The first operand's block at point `t` is rows 2048 t … 2048 t + 2047 of its array. -/
theorem iblk3_0_apply (t : Fin cfg3.N) (p : Fin 2048) (j : Fin 256) (r : Fin 8192) (hr : r.val = 2048 * t.val + p.val) :
    (iblk3 V c 0 t : Vec Ideal S2048x256 .bf16) (ix2 p j) = X r j := by
  obtain ⟨e0, e1, -⟩ := idx_facts3 t
  rw [← hX r j]
  unfold iblk3
  rw [View.read_apply]
  show V c main_call0_v23 _ = V c main_call0_v23 _
  refine congrArg _ (funext fun a => Fin.ext ?_)
  match a with
  | ⟨0, _⟩ => show win3_0.index t (0 : Fin 2) * 2048 + 1 * p.val = r.val; rw [e0, hr]; omega
  | ⟨1, _⟩ => show win3_0.index t (1 : Fin 2) * 256 + 1 * j.val = j.val; rw [e1]; omega

/-- The second operand's block at any point is its whole array. -/
theorem iblk3_1_apply (t : Fin cfg3.N) (j : Fin 256) (q : Fin 256) :
    (iblk3 V c 1 t : Vec Ideal S256x256 .f32) (ix2 j q) = Wt j q := by
  obtain ⟨-, -, e2, e3, -⟩ := idx_facts3 t
  rw [← hW j q]
  unfold iblk3
  rw [View.read_apply]
  show V c main_call0_v24 _ = V c main_call0_v24 _
  refine congrArg _ (funext fun a => Fin.ext ?_)
  match a with
  | ⟨0, _⟩ => show win3_1.index t (0 : Fin 2) * 256 + 1 * j.val = j.val; rw [e2]; omega
  | ⟨1, _⟩ => show win3_1.index t (1 : Fin 2) * 256 + 1 * q.val = q.val; rw [e3]; omega

/-- What point `t` writes back is block `t` of `lin3 X Wt`. -/
theorem flushed3_eq (t : Fin cfg3.N) :
    (dat3 (F := Ideal) V c).flushed 2 t = ((cfg3.win 2).blk t).view.read (Elt Ideal) (lin3 X Wt) := by
  show (cfg3.win 2).cut (grid3.coords t) ((dat3 (F := Ideal) V c).after 2 t) = _
  rw [after3_2]
  unfold out3_2
  rw [View.canon_unit_zero hz3]
  simp only [View.ld_unit_zero (S := S2048x256) hz3, View.ld_unit_zero (S := S256x256) hz3]
  obtain ⟨-, -, -, -, e4, e5⟩ := idx_facts3 t
  funext y
  obtain ⟨p, q, rfl⟩ : ∃ (p : Fin 2048) (q : Fin 256), y = ix2 p q := ⟨y 0, y 1, eq_ix2 y⟩
  have h4 : cfg3.N = 4 := N_3
  have hr : 2048 * t.val + p.val < 8192 := by have := t.isLt; have := p.isLt; omega
  refine (pay3_apply (iblk3 V c 0 t) (iblk3 V c 1 t) p q).trans ?_
  rw [View.read_apply]
  show _ = lin3 X Wt (((cfg3.win 2).blk t).view.emb (ix2 p q))
  have hy : ((cfg3.win 2).blk t).view.emb (ix2 p q) = ix2 (⟨2048 * t.val + p.val, hr⟩ : Fin 8192) q :=
    funext fun a => Fin.ext (by
      match a with
      | ⟨0, _⟩ => show win3_2.index t (0 : Fin 2) * 2048 + 1 * p.val = 2048 * t.val + p.val; rw [e4]; omega
      | ⟨1, _⟩ => show win3_2.index t (1 : Fin 2) * 256 + 1 * q.val = q.val; rw [e5]; omega)
  rw [hy, lin3_apply]
  refine Finset.sum_congr rfl fun j _ => ?_
  rw [iblk3_0_apply V c X Wt hX hW t p j ⟨2048 * t.val + p.val, hr⟩ rfl, iblk3_1_apply V c X Wt hX hW t j q]

/-- THE ARRAY after the region is `lin3 X Wt`. -/
theorem final3 : (dat3 (F := Ideal) V c).arrAt 2 cfg3.N = lin3 X Wt :=
  (dat3 (F := Ideal) V c).arrAt_eq_of_cover 2 (lin3 X Wt) (fun t _ => flushed3_eq V c X Wt hX hW t) cover3

/-- Read at row r and column q. -/
theorem val3 (r : Fin 8192) (q : Fin 256) :
    (dat3 (F := Ideal) V c).arrAt 2 cfg3.N (ix2 r q) = (∑ j : Fin 256, X r j * Wt j q : EReal) := by
  rw [final3 V c X Wt hX hW]; rfl

end

end Cert.KernelIdeal.Hand

end
-- ==== Proof.KI.Val5.lean ====
/- The value of region 5 on the extended reals: the array its output window is written back to ends holding, at
   row r and column q, the positive part of  u r · H 0 q − v r · H 1 q,  where u and v are the two coefficient columns
   and H the two-row operand (no rounding on the extended reals). Each grid point writes a block of 2048 rows; the four
   blocks tile the 8192 rows. -/
import proofs.«172208_j80221399155047_2_alg».proof.Proof.KI.Reg5
import proofs.«172208_j80221399155047_2_alg».proof.Proof.LibRowOps
import proofs.«172208_j80221399155047_2_alg».proof.Proof.LibRowColOps
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The body's payload at (p, q): the positive part of the combination of the two rows, the coefficients read off
    the two columns at row p. -/
theorem pay5_apply (x0 x1 : FVec Ideal S2048x1 .f32) (x2 : FVec Ideal S2x256 .f32) (p : Fin 2048) (q : Fin 256) :
    k5_pay1 (F := Ideal) x0 x1 x2 (ix2 p q)
      = max (x0 (ix2 p (0 : Fin 1)) * x2 (ix2 (0 : Fin 2) q) - x1 (ix2 p (0 : Fin 1)) * x2 (ix2 (1 : Fin 2) q)) 0 := by
  have h8 : broadcastTo S2048x256 (shapeCast S2048x1 x0 shapeCasts_S2048x1_S2048x1) broadcasts_S2048x1_S2048x256 (ix2 p q) = x0 (ix2 p (0 : Fin 1)) :=
    (Cert.RowOps.spread_apply _ _ p q).trans (congrFun (shapeCast_self x0 _) _)
  have h11 : broadcastTo S2048x256 (shapeCast S2048x1 x1 shapeCasts_S2048x1_S2048x1) broadcasts_S2048x1_S2048x256 (ix2 p q) = x1 (ix2 p (0 : Fin 1)) :=
    (Cert.RowOps.spread_apply _ _ p q).trans (congrFun (shapeCast_self x1 _) _)
  have h9 : broadcastTo S2048x256 (extractStridedSlice S1x256 ![0, 0] (shapeCast S2x256 x2 shapeCasts_S2x256_S2x256) slices_S2x256_o0_0_S1x256) broadcasts_S1x256_S2048x256 (ix2 p q) = x2 (ix2 (0 : Fin 2) q) :=
    (Cert.RowColOps.rowSpread_apply _ _ p q).trans
      ((Cert.RowColOps.sliceRow_apply _ (0 : Fin 2) _ rfl _ (0 : Fin 1) q).trans (congrFun (shapeCast_self x2 _) _))
  have h12 : broadcastTo S2048x256 (extractStridedSlice S1x256 ![1, 0] (shapeCast S2x256 x2 shapeCasts_S2x256_S2x256) slices_S2x256_o1_0_S1x256) broadcasts_S1x256_S2048x256 (ix2 p q) = x2 (ix2 (1 : Fin 2) q) :=
    (Cert.RowColOps.rowSpread_apply _ _ p q).trans
      ((Cert.RowColOps.sliceRow_apply _ (1 : Fin 2) _ rfl _ (0 : Fin 1) q).trans (congrFun (shapeCast_self x2 _) _))
  unfold k5_pay1
  show max (broadcastTo S2048x256 (shapeCast S2048x1 x0 shapeCasts_S2048x1_S2048x1) broadcasts_S2048x1_S2048x256 (ix2 p q) * broadcastTo S2048x256 (extractStridedSlice S1x256 ![0, 0] (shapeCast S2x256 x2 shapeCasts_S2x256_S2x256) slices_S2x256_o0_0_S1x256) broadcasts_S1x256_S2048x256 (ix2 p q) - broadcastTo S2048x256 (shapeCast S2048x1 x1 shapeCasts_S2048x1_S2048x1) broadcasts_S2048x1_S2048x256 (ix2 p q) * broadcastTo S2048x256 (extractStridedSlice S1x256 ![1, 0] (shapeCast S2x256 x2 shapeCasts_S2x256_S2x256) slices_S2x256_o1_0_S1x256) broadcasts_S1x256_S2048x256 (ix2 p q)) (Ideal.ofBits .f32 0x00000000#32) = _
  rw [h8, h9, h11, h12, Ideal.ofBits_zero_f32]

/-- The printed index maps, decided over the grid: the row blocks move with the point, everything else stays at 0. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What the output array ends holding, from the coefficient columns and the two rows. -/
def scat5 (u v : Fin 8192 → EReal) (H : Fin 2 → Fin 256 → EReal) : S8192x256.Idx → EReal :=
  fun y => max (u (y 0) * H 0 (y 1) - v (y 0) * H 1 (y 1)) 0

theorem scat5_apply (u v : Fin 8192 → EReal) (H : Fin 2 → Fin 256 → EReal) (r : Fin 8192) (q : Fin 256) :
    scat5 u v H (ix2 r q) = max (u r * H 0 q - v r * H 1 q) 0 := rfl

/-- An index of the array is in point `t`'s block iff each coordinate is in the block's range on its axis. -/
theorem mem_blk5 (t : Fin cfg5.N) (i : S8192x256.Idx) :
    i ∈ ((cfg5.win 3).blk t).view.set ↔ ∀ a : Fin 2, win5_3.index t a * S2048x256.size a ≤ (i a).val ∧ (i a).val < win5_3.index t a * S2048x256.size a + S2048x256.size a := by
  show i ∈ ((View.whole main_call0_v27).slice (win5_3.rect t)).set ↔ _
  rw [View.set_slice_whole, Rect.mem_set_unit]
  exact Iff.rfl

/-- Every index is in the block of the point its row falls in. -/
theorem cover5 (i : S8192x256.Idx) : ∃ t : Fin cfg5.N, (cfg5.win 3).flush t = true ∧ i ∈ ((cfg5.win 3).blk t).view.set := by
  have hi0 : (i 0).val < 8192 := (i 0).isLt
  have hi1 : (i 1).val < 256 := (i 1).isLt
  have h4 : cfg5.N = 4 := N_5
  obtain ⟨t, ht⟩ : ∃ t : Fin cfg5.N, t.val = (i 0).val / 2048 := ⟨⟨(i 0).val / 2048, by omega⟩, rfl⟩
  obtain ⟨-, -, -, -, -, -, e6, e7⟩ := idx_facts5 t
  refine ⟨t, flush5_3 t, ?_⟩
  rw [mem_blk5]
  intro a
  match a with
  | ⟨0, _⟩ => show win5_3.index t (0 : Fin 2) * 2048 ≤ (i 0).val ∧ (i 0).val < win5_3.index t (0 : Fin 2) * 2048 + 2048; rw [e6, ht]; omega
  | ⟨1, _⟩ => show win5_3.index t (1 : Fin 2) * 256 ≤ (i 1).val ∧ (i 1).val < win5_3.index t (1 : Fin 2) * 256 + 256; rw [e7]; omega

section
variable (c : Dev nD) (u v : Fin 8192 → EReal) (H : Fin 2 → Fin 256 → EReal)
  (hu : ∀ r, V c main_call0_v18 (ix2 r (0 : Fin 1)) = u r) (hv : ∀ r, V c main_call0_v19 (ix2 r (0 : Fin 1)) = v r)
  (hH : ∀ a q, V c main_call0_v26 (ix2 a q) = H a q)
include hu hv hH

/-- The first column's block at point `t` is rows 2048 t … 2048 t + 2047 of its array. -/
theorem iblk5_0_apply (t : Fin cfg5.N) (p : Fin 2048) (r : Fin 8192) (hr : r.val = 2048 * t.val + p.val) :
    (iblk5 V c 0 t : Vec Ideal S2048x1 .f32) (ix2 p (0 : Fin 1)) = u r := by
  obtain ⟨e0, e1, -⟩ := idx_facts5 t
  rw [← hu r]
  unfold iblk5
  rw [View.read_apply]
  show V c main_call0_v18 _ = V c main_call0_v18 _
  refine congrArg _ (funext fun a => Fin.ext ?_)
  match a with
  | ⟨0, _⟩ => show win5_0.index t (0 : Fin 2) * 2048 + 1 * p.val = r.val; rw [e0, hr]; omega
  | ⟨1, _⟩ => show win5_0.index t (1 : Fin 2) * 1 + 1 * 0 = 0; rw [e1]

/-- The second column's block likewise. -/
theorem iblk5_1_apply (t : Fin cfg5.N) (p : Fin 2048) (r : Fin 8192) (hr : r.val = 2048 * t.val + p.val) :
    (iblk5 V c 1 t : Vec Ideal S2048x1 .f32) (ix2 p (0 : Fin 1)) = v r := by
  obtain ⟨-, -, e2, e3, -⟩ := idx_facts5 t
  rw [← hv r]
  unfold iblk5
  rw [View.read_apply]
  show V c main_call0_v19 _ = V c main_call0_v19 _
  refine congrArg _ (funext fun a => Fin.ext ?_)
  match a with
  | ⟨0, _⟩ => show win5_1.index t (0 : Fin 2) * 2048 + 1 * p.val = r.val; rw [e2, hr]; omega
  | ⟨1, _⟩ => show win5_1.index t (1 : Fin 2) * 1 + 1 * 0 = 0; rw [e3]

/-- The two-row operand's block at any point is its whole array. -/
theorem iblk5_2_apply (t : Fin cfg5.N) (a : Fin 2) (q : Fin 256) :
    (iblk5 V c 2 t : Vec Ideal S2x256 .f32) (ix2 a q) = H a q := by
  obtain ⟨-, -, -, -, e4, e5, -⟩ := idx_facts5 t
  rw [← hH a q]
  unfold iblk5
  rw [View.read_apply]
  show V c main_call0_v26 _ = V c main_call0_v26 _
  refine congrArg _ (funext fun b => Fin.ext ?_)
  match b with
  | ⟨0, _⟩ => show win5_2.index t (0 : Fin 2) * 2 + 1 * a.val = a.val; rw [e4]; omega
  | ⟨1, _⟩ => show win5_2.index t (1 : Fin 2) * 256 + 1 * q.val = q.val; rw [e5]; omega

/-- What point `t` writes back is block `t` of `scat5 u v H`. -/
theorem flushed5_eq (t : Fin cfg5.N) :
    (dat5 (F := Ideal) V c).flushed 3 t = ((cfg5.win 3).blk t).view.read (Elt Ideal) (scat5 u v H) := by
  show (cfg5.win 3).cut (grid5.coords t) ((dat5 (F := Ideal) V c).after 3 t) = _
  rw [after5_3]
  unfold out5_3
  rw [View.canon_unit_zero hz5]
  simp only [View.ld_unit_zero (S := S2048x1) hz5, View.ld_unit_zero (S := S2x256) hz5]
  obtain ⟨-, -, -, -, -, -, e6, e7⟩ := idx_facts5 t
  funext y
  obtain ⟨p, q, rfl⟩ : ∃ (p : Fin 2048) (q : Fin 256), y = ix2 p q := ⟨y 0, y 1, eq_ix2 y⟩
  have h4 : cfg5.N = 4 := N_5
  have hr : 2048 * t.val + p.val < 8192 := by have := t.isLt; have := p.isLt; omega
  refine (pay5_apply (iblk5 V c 0 t) (iblk5 V c 1 t) (iblk5 V c 2 t) p q).trans ?_
  rw [View.read_apply]
  show _ = scat5 u v H (((cfg5.win 3).blk t).view.emb (ix2 p q))
  have hy : ((cfg5.win 3).blk t).view.emb (ix2 p q) = ix2 (⟨2048 * t.val + p.val, hr⟩ : Fin 8192) q :=
    funext fun a => Fin.ext (by
      match a with
      | ⟨0, _⟩ => show win5_3.index t (0 : Fin 2) * 2048 + 1 * p.val = 2048 * t.val + p.val; rw [e6]; omega
      | ⟨1, _⟩ => show win5_3.index t (1 : Fin 2) * 256 + 1 * q.val = q.val; rw [e7]; omega)
  rw [hy, scat5_apply,
    iblk5_0_apply V c u v H hu hv hH t p ⟨2048 * t.val + p.val, hr⟩ rfl,
    iblk5_1_apply V c u v H hu hv hH t p ⟨2048 * t.val + p.val, hr⟩ rfl,
    iblk5_2_apply V c u v H hu hv hH t 0 q, iblk5_2_apply V c u v H hu hv hH t 1 q]

/-- THE ARRAY after the region is `scat5 u v H`. -/
theorem final5 : (dat5 (F := Ideal) V c).arrAt 3 cfg5.N = scat5 u v H :=
  (dat5 (F := Ideal) V c).arrAt_eq_of_cover 3 (scat5 u v H) (fun t _ => flushed5_eq V c u v H hu hv hH t) cover5

/-- Read at row r and column q. -/
theorem val5 (r : Fin 8192) (q : Fin 256) :
    (dat5 (F := Ideal) V c).arrAt 3 cfg5.N (ix2 r q) = (max (u r * H 0 q - v r * H 1 q) 0 : EReal) := by
  rw [final5 V c u v H hu hv hH]; rfl

end

end Cert.KernelIdeal.Hand

end
-- ==== Proof.KI.Val6.lean ====
/- The value of region 6 on the extended reals: the array its output window is written back to ends holding, at
   row r and column q, the sum over the shared axis of the products of row r of the first operand with column q of
   the second (no rounding on the extended reals: the narrowing casts are the identity, the accumulator starts at
   zero). Each grid point writes a block of 2048 rows; the four blocks tile the 8192 rows. -/
import proofs.«172208_j80221399155047_2_alg».proof.Proof.KI.Reg6
import proofs.«172208_j80221399155047_2_alg».proof.Proof.LibRowOps
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The product's dimension numbers are the plain ones: rows by shared axis times shared axis by columns. -/
theorem plain6 : Cert.RowOps.IsPlain dot_S2048x256_S256x256_S2048x256_1_0_0_1_n_n := ⟨rfl, rfl, rfl, rfl, rfl, rfl⟩

/-- The body's payload at (p, q): the sum over the shared axis of the products of the two loaded blocks. -/
theorem pay6_apply (x0 : FVec Ideal S2048x256 .bf16) (x1 : FVec Ideal S256x256 .f32) (p : Fin 2048) (q : Fin 256) :
    k6_pay1 (F := Ideal) x0 x1 (ix2 p q) = ∑ j : Fin 256, x0 (ix2 p j) * x1 (ix2 j q) := by
  unfold k6_pay1
  refine (Cert.RowOps.matmul_zero_apply plain6 none _ _ p q).trans ?_
  refine Finset.sum_congr rfl fun j _ => ?_
  show shapeCast S2048x256 x0 shapeCasts_S2048x256_S2048x256 (ix2 p j) * shapeCast S256x256 x1 shapeCasts_S256x256_S256x256 (ix2 j q) = _
  rw [shapeCast_self, shapeCast_self]

/-- The printed index maps, decided over the grid: the row blocks move with the point, everything else stays at 0. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What the output array ends holding, from the two operands as matrices: at (r, q) the sum over the shared axis. -/
def lin6 (X : Fin 8192 → Fin 256 → EReal) (Wt : Fin 256 → Fin 256 → EReal) : S8192x256.Idx → EReal :=
  fun y => ∑ j : Fin 256, X (y 0) j * Wt j (y 1)

theorem lin6_apply (X : Fin 8192 → Fin 256 → EReal) (Wt : Fin 256 → Fin 256 → EReal) (r : Fin 8192) (q : Fin 256) :
    lin6 X Wt (ix2 r q) = ∑ j : Fin 256, X r j * Wt j q := rfl

/-- An index of the array is in point `t`'s block iff each coordinate is in the block's range on its axis. -/
theorem mem_blk6 (t : Fin cfg6.N) (i : S8192x256.Idx) :
    i ∈ ((cfg6.win 2).blk t).view.set ↔ ∀ a : Fin 2, win6_2.index t a * S2048x256.size a ≤ (i a).val ∧ (i a).val < win6_2.index t a * S2048x256.size a + S2048x256.size a := by
  show i ∈ ((View.whole main_call0_v29).slice (win6_2.rect t)).set ↔ _
  rw [View.set_slice_whole, Rect.mem_set_unit]
  exact Iff.rfl

/-- Every index is in the block of the point its row falls in. -/
theorem cover6 (i : S8192x256.Idx) : ∃ t : Fin cfg6.N, (cfg6.win 2).flush t = true ∧ i ∈ ((cfg6.win 2).blk t).view.set := by
  have hi0 : (i 0).val < 8192 := (i 0).isLt
  have hi1 : (i 1).val < 256 := (i 1).isLt
  have h4 : cfg6.N = 4 := N_6
  obtain ⟨t, ht⟩ : ∃ t : Fin cfg6.N, t.val = (i 0).val / 2048 := ⟨⟨(i 0).val / 2048, by omega⟩, rfl⟩
  obtain ⟨-, -, -, -, e4, e5⟩ := idx_facts6 t
  refine ⟨t, flush6_2 t, ?_⟩
  rw [mem_blk6]
  intro a
  match a with
  | ⟨0, _⟩ => show win6_2.index t (0 : Fin 2) * 2048 ≤ (i 0).val ∧ (i 0).val < win6_2.index t (0 : Fin 2) * 2048 + 2048; rw [e4, ht]; omega
  | ⟨1, _⟩ => show win6_2.index t (1 : Fin 2) * 256 ≤ (i 1).val ∧ (i 1).val < win6_2.index t (1 : Fin 2) * 256 + 256; rw [e5]; omega

section
variable (c : Dev nD) (X : Fin 8192 → Fin 256 → EReal) (Wt : Fin 256 → Fin 256 → EReal)
  (hX : ∀ r j, V c main_call0_v27 (ix2 r j) = X r j) (hW : ∀ j q, V c main_call0_v28 (ix2 j q) = Wt j q)
include hX hW

/-- The first operand's block at point `t` is rows 2048 t … 2048 t + 2047 of its array. -/
theorem iblk6_0_apply (t : Fin cfg6.N) (p : Fin 2048) (j : Fin 256) (r : Fin 8192) (hr : r.val = 2048 * t.val + p.val) :
    (iblk6 V c 0 t : Vec Ideal S2048x256 .bf16) (ix2 p j) = X r j := by
  obtain ⟨e0, e1, -⟩ := idx_facts6 t
  rw [← hX r j]
  unfold iblk6
  rw [View.read_apply]
  show V c main_call0_v27 _ = V c main_call0_v27 _
  refine congrArg _ (funext fun a => Fin.ext ?_)
  match a with
  | ⟨0, _⟩ => show win6_0.index t (0 : Fin 2) * 2048 + 1 * p.val = r.val; rw [e0, hr]; omega
  | ⟨1, _⟩ => show win6_0.index t (1 : Fin 2) * 256 + 1 * j.val = j.val; rw [e1]; omega

/-- The second operand's block at any point is its whole array. -/
theorem iblk6_1_apply (t : Fin cfg6.N) (j : Fin 256) (q : Fin 256) :
    (iblk6 V c 1 t : Vec Ideal S256x256 .f32) (ix2 j q) = Wt j q := by
  obtain ⟨-, -, e2, e3, -⟩ := idx_facts6 t
  rw [← hW j q]
  unfold iblk6
  rw [View.read_apply]
  show V c main_call0_v28 _ = V c main_call0_v28 _
  refine congrArg _ (funext fun a => Fin.ext ?_)
  match a with
  | ⟨0, _⟩ => show win6_1.index t (0 : Fin 2) * 256 + 1 * j.val = j.val; rw [e2]; omega
  | ⟨1, _⟩ => show win6_1.index t (1 : Fin 2) * 256 + 1 * q.val = q.val; rw [e3]; omega

/-- What point `t` writes back is block `t` of `lin6 X Wt`. -/
theorem flushed6_eq (t : Fin cfg6.N) :
    (dat6 (F := Ideal) V c).flushed 2 t = ((cfg6.win 2).blk t).view.read (Elt Ideal) (lin6 X Wt) := by
  show (cfg6.win 2).cut (grid6.coords t) ((dat6 (F := Ideal) V c).after 2 t) = _
  rw [after6_2]
  unfold out6_2
  rw [View.canon_unit_zero hz6]
  simp only [View.ld_unit_zero (S := S2048x256) hz6, View.ld_unit_zero (S := S256x256) hz6]
  obtain ⟨-, -, -, -, e4, e5⟩ := idx_facts6 t
  funext y
  obtain ⟨p, q, rfl⟩ : ∃ (p : Fin 2048) (q : Fin 256), y = ix2 p q := ⟨y 0, y 1, eq_ix2 y⟩
  have h4 : cfg6.N = 4 := N_6
  have hr : 2048 * t.val + p.val < 8192 := by have := t.isLt; have := p.isLt; omega
  refine (pay6_apply (iblk6 V c 0 t) (iblk6 V c 1 t) p q).trans ?_
  rw [View.read_apply]
  show _ = lin6 X Wt (((cfg6.win 2).blk t).view.emb (ix2 p q))
  have hy : ((cfg6.win 2).blk t).view.emb (ix2 p q) = ix2 (⟨2048 * t.val + p.val, hr⟩ : Fin 8192) q :=
    funext fun a => Fin.ext (by
      match a with
      | ⟨0, _⟩ => show win6_2.index t (0 : Fin 2) * 2048 + 1 * p.val = 2048 * t.val + p.val; rw [e4]; omega
      | ⟨1, _⟩ => show win6_2.index t (1 : Fin 2) * 256 + 1 * q.val = q.val; rw [e5]; omega)
  rw [hy, lin6_apply]
  refine Finset.sum_congr rfl fun j _ => ?_
  rw [iblk6_0_apply V c X Wt hX hW t p j ⟨2048 * t.val + p.val, hr⟩ rfl, iblk6_1_apply V c X Wt hX hW t j q]

/-- THE ARRAY after the region is `lin6 X Wt`. -/
theorem final6 : (dat6 (F := Ideal) V c).arrAt 2 cfg6.N = lin6 X Wt :=
  (dat6 (F := Ideal) V c).arrAt_eq_of_cover 2 (lin6 X Wt) (fun t _ => flushed6_eq V c X Wt hX hW t) cover6

/-- Read at row r and column q. -/
theorem val6 (r : Fin 8192) (q : Fin 256) :
    (dat6 (F := Ideal) V c).arrAt 2 cfg6.N (ix2 r q) = (∑ j : Fin 256, X r j * Wt j q : EReal) := by
  rw [final6 V c X Wt hX hW]; rfl

end

end Cert.KernelIdeal.Hand

end
-- ==== Proof.KI.Val8.lean ====
/- The value of region 8 on the extended reals: the array its output window is written back to ends holding, at
   row r and column q, the positive part of  u r · H 0 q − v r · H 1 q,  where u and v are the two coefficient columns
   and H the two-row operand (no rounding on the extended reals). Each grid point writes a block of 2048 rows; the four
   blocks tile the 8192 rows. -/
import proofs.«172208_j80221399155047_2_alg».proof.Proof.KI.Reg8
import proofs.«172208_j80221399155047_2_alg».proof.Proof.LibRowOps
import proofs.«172208_j80221399155047_2_alg».proof.Proof.LibRowColOps
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz8 : (![0, 0] : Fin 2 → Nat) = fun _ => 0 := funext fun a => by fin_cases a <;> rfl

/-- The body's payload at (p, q): the positive part of the combination of the two rows, the coefficients read off
    the two columns at row p. -/
theorem pay8_apply (x0 x1 : FVec Ideal S2048x1 .f32) (x2 : FVec Ideal S2x256 .f32) (p : Fin 2048) (q : Fin 256) :
    k8_pay1 (F := Ideal) x0 x1 x2 (ix2 p q)
      = max (x0 (ix2 p (0 : Fin 1)) * x2 (ix2 (0 : Fin 2) q) - x1 (ix2 p (0 : Fin 1)) * x2 (ix2 (1 : Fin 2) q)) 0 := by
  have h8 : broadcastTo S2048x256 (shapeCast S2048x1 x0 shapeCasts_S2048x1_S2048x1) broadcasts_S2048x1_S2048x256 (ix2 p q) = x0 (ix2 p (0 : Fin 1)) :=
    (Cert.RowOps.spread_apply _ _ p q).trans (congrFun (shapeCast_self x0 _) _)
  have h11 : broadcastTo S2048x256 (shapeCast S2048x1 x1 shapeCasts_S2048x1_S2048x1) broadcasts_S2048x1_S2048x256 (ix2 p q) = x1 (ix2 p (0 : Fin 1)) :=
    (Cert.RowOps.spread_apply _ _ p q).trans (congrFun (shapeCast_self x1 _) _)
  have h9 : broadcastTo S2048x256 (extractStridedSlice S1x256 ![0, 0] (shapeCast S2x256 x2 shapeCasts_S2x256_S2x256) slices_S2x256_o0_0_S1x256) broadcasts_S1x256_S2048x256 (ix2 p q) = x2 (ix2 (0 : Fin 2) q) :=
    (Cert.RowColOps.rowSpread_apply _ _ p q).trans
      ((Cert.RowColOps.sliceRow_apply _ (0 : Fin 2) _ rfl _ (0 : Fin 1) q).trans (congrFun (shapeCast_self x2 _) _))
  have h12 : broadcastTo S2048x256 (extractStridedSlice S1x256 ![1, 0] (shapeCast S2x256 x2 shapeCasts_S2x256_S2x256) slices_S2x256_o1_0_S1x256) broadcasts_S1x256_S2048x256 (ix2 p q) = x2 (ix2 (1 : Fin 2) q) :=
    (Cert.RowColOps.rowSpread_apply _ _ p q).trans
      ((Cert.RowColOps.sliceRow_apply _ (1 : Fin 2) _ rfl _ (0 : Fin 1) q).trans (congrFun (shapeCast_self x2 _) _))
  unfold k8_pay1
  show max (broadcastTo S2048x256 (shapeCast S2048x1 x0 shapeCasts_S2048x1_S2048x1) broadcasts_S2048x1_S2048x256 (ix2 p q) * broadcastTo S2048x256 (extractStridedSlice S1x256 ![0, 0] (shapeCast S2x256 x2 shapeCasts_S2x256_S2x256) slices_S2x256_o0_0_S1x256) broadcasts_S1x256_S2048x256 (ix2 p q) - broadcastTo S2048x256 (shapeCast S2048x1 x1 shapeCasts_S2048x1_S2048x1) broadcasts_S2048x1_S2048x256 (ix2 p q) * broadcastTo S2048x256 (extractStridedSlice S1x256 ![1, 0] (shapeCast S2x256 x2 shapeCasts_S2x256_S2x256) slices_S2x256_o1_0_S1x256) broadcasts_S1x256_S2048x256 (ix2 p q)) (Ideal.ofBits .f32 0x00000000#32) = _
  rw [h8, h9, h11, h12, Ideal.ofBits_zero_f32]

/-- The printed index maps, decided over the grid: the row blocks move with the point, everything else stays at 0. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What the output array ends holding, from the coefficient columns and the two rows. -/
def scat8 (u v : Fin 8192 → EReal) (H : Fin 2 → Fin 256 → EReal) : S8192x256.Idx → EReal :=
  fun y => max (u (y 0) * H 0 (y 1) - v (y 0) * H 1 (y 1)) 0

theorem scat8_apply (u v : Fin 8192 → EReal) (H : Fin 2 → Fin 256 → EReal) (r : Fin 8192) (q : Fin 256) :
    scat8 u v H (ix2 r q) = max (u r * H 0 q - v r * H 1 q) 0 := rfl

/-- An index of the array is in point `t`'s block iff each coordinate is in the block's range on its axis. -/
theorem mem_blk8 (t : Fin cfg8.N) (i : S8192x256.Idx) :
    i ∈ ((cfg8.win 3).blk t).view.set ↔ ∀ a : Fin 2, win8_3.index t a * S2048x256.size a ≤ (i a).val ∧ (i a).val < win8_3.index t a * S2048x256.size a + S2048x256.size a := by
  show i ∈ ((View.whole main_v0).slice (win8_3.rect t)).set ↔ _
  rw [View.set_slice_whole, Rect.mem_set_unit]
  exact Iff.rfl

/-- Every index is in the block of the point its row falls in. -/
theorem cover8 (i : S8192x256.Idx) : ∃ t : Fin cfg8.N, (cfg8.win 3).flush t = true ∧ i ∈ ((cfg8.win 3).blk t).view.set := by
  have hi0 : (i 0).val < 8192 := (i 0).isLt
  have hi1 : (i 1).val < 256 := (i 1).isLt
  have h4 : cfg8.N = 4 := N_8
  obtain ⟨t, ht⟩ : ∃ t : Fin cfg8.N, t.val = (i 0).val / 2048 := ⟨⟨(i 0).val / 2048, by omega⟩, rfl⟩
  obtain ⟨-, -, -, -, -, -, e6, e7⟩ := idx_facts8 t
  refine ⟨t, flush8_3 t, ?_⟩
  rw [mem_blk8]
  intro a
  match a with
  | ⟨0, _⟩ => show win8_3.index t (0 : Fin 2) * 2048 ≤ (i 0).val ∧ (i 0).val < win8_3.index t (0 : Fin 2) * 2048 + 2048; rw [e6, ht]; omega
  | ⟨1, _⟩ => show win8_3.index t (1 : Fin 2) * 256 ≤ (i 1).val ∧ (i 1).val < win8_3.index t (1 : Fin 2) * 256 + 256; rw [e7]; omega

section
variable (c : Dev nD) (u v : Fin 8192 → EReal) (H : Fin 2 → Fin 256 → EReal)
  (hu : ∀ r, V c main_call0_v18 (ix2 r (0 : Fin 1)) = u r) (hv : ∀ r, V c main_call0_v19 (ix2 r (0 : Fin 1)) = v r)
  (hH : ∀ a q, V c main_call0_v30 (ix2 a q) = H a q)
include hu hv hH

/-- The first column's block at point `t` is rows 2048 t … 2048 t + 2047 of its array. -/
theorem iblk8_0_apply (t : Fin cfg8.N) (p : Fin 2048) (r : Fin 8192) (hr : r.val = 2048 * t.val + p.val) :
    (iblk8 V c 0 t : Vec Ideal S2048x1 .f32) (ix2 p (0 : Fin 1)) = u r := by
  obtain ⟨e0, e1, -⟩ := idx_facts8 t
  rw [← hu r]
  unfold iblk8
  rw [View.read_apply]
  show V c main_call0_v18 _ = V c main_call0_v18 _
  refine congrArg _ (funext fun a => Fin.ext ?_)
  match a with
  | ⟨0, _⟩ => show win8_0.index t (0 : Fin 2) * 2048 + 1 * p.val = r.val; rw [e0, hr]; omega
  | ⟨1, _⟩ => show win8_0.index t (1 : Fin 2) * 1 + 1 * 0 = 0; rw [e1]

/-- The second column's block likewise. -/
theorem iblk8_1_apply (t : Fin cfg8.N) (p : Fin 2048) (r : Fin 8192) (hr : r.val = 2048 * t.val + p.val) :
    (iblk8 V c 1 t : Vec Ideal S2048x1 .f32) (ix2 p (0 : Fin 1)) = v r := by
  obtain ⟨-, -, e2, e3, -⟩ := idx_facts8 t
  rw [← hv r]
  unfold iblk8
  rw [View.read_apply]
  show V c main_call0_v19 _ = V c main_call0_v19 _
  refine congrArg _ (funext fun a => Fin.ext ?_)
  match a with
  | ⟨0, _⟩ => show win8_1.index t (0 : Fin 2) * 2048 + 1 * p.val = r.val; rw [e2, hr]; omega
  | ⟨1, _⟩ => show win8_1.index t (1 : Fin 2) * 1 + 1 * 0 = 0; rw [e3]

/-- The two-row operand's block at any point is its whole array. -/
theorem iblk8_2_apply (t : Fin cfg8.N) (a : Fin 2) (q : Fin 256) :
    (iblk8 V c 2 t : Vec Ideal S2x256 .f32) (ix2 a q) = H a q := by
  obtain ⟨-, -, -, -, e4, e5, -⟩ := idx_facts8 t
  rw [← hH a q]
  unfold iblk8
  rw [View.read_apply]
  show V c main_call0_v30 _ = V c main_call0_v30 _
  refine congrArg _ (funext fun b => Fin.ext ?_)
  match b with
  | ⟨0, _⟩ => show win8_2.index t (0 : Fin 2) * 2 + 1 * a.val = a.val; rw [e4]; omega
  | ⟨1, _⟩ => show win8_2.index t (1 : Fin 2) * 256 + 1 * q.val = q.val; rw [e5]; omega

/-- What point `t` writes back is block `t` of `scat8 u v H`. -/
theorem flushed8_eq (t : Fin cfg8.N) :
    (dat8 (F := Ideal) V c).flushed 3 t = ((cfg8.win 3).blk t).view.read (Elt Ideal) (scat8 u v H) := by
  show (cfg8.win 3).cut (grid8.coords t) ((dat8 (F := Ideal) V c).after 3 t) = _
  rw [after8_3]
  unfold out8_3
  rw [View.canon_unit_zero hz8]
  simp only [View.ld_unit_zero (S := S2048x1) hz8, View.ld_unit_zero (S := S2x256) hz8]
  obtain ⟨-, -, -, -, -, -, e6, e7⟩ := idx_facts8 t
  funext y
  obtain ⟨p, q, rfl⟩ : ∃ (p : Fin 2048) (q : Fin 256), y = ix2 p q := ⟨y 0, y 1, eq_ix2 y⟩
  have h4 : cfg8.N = 4 := N_8
  have hr : 2048 * t.val + p.val < 8192 := by have := t.isLt; have := p.isLt; omega
  refine (pay8_apply (iblk8 V c 0 t) (iblk8 V c 1 t) (iblk8 V c 2 t) p q).trans ?_
  rw [View.read_apply]
  show _ = scat8 u v H (((cfg8.win 3).blk t).view.emb (ix2 p q))
  have hy : ((cfg8.win 3).blk t).view.emb (ix2 p q) = ix2 (⟨2048 * t.val + p.val, hr⟩ : Fin 8192) q :=
    funext fun a => Fin.ext (by
      match a with
      | ⟨0, _⟩ => show win8_3.index t (0 : Fin 2) * 2048 + 1 * p.val = 2048 * t.val + p.val; rw [e6]; omega
      | ⟨1, _⟩ => show win8_3.index t (1 : Fin 2) * 256 + 1 * q.val = q.val; rw [e7]; omega)
  rw [hy, scat8_apply,
    iblk8_0_apply V c u v H hu hv hH t p ⟨2048 * t.val + p.val, hr⟩ rfl,
    iblk8_1_apply V c u v H hu hv hH t p ⟨2048 * t.val + p.val, hr⟩ rfl,
    iblk8_2_apply V c u v H hu hv hH t 0 q, iblk8_2_apply V c u v H hu hv hH t 1 q]

/-- THE ARRAY after the region is `scat8 u v H`. -/
theorem final8 : (dat8 (F := Ideal) V c).arrAt 3 cfg8.N = scat8 u v H :=
  (dat8 (F := Ideal) V c).arrAt_eq_of_cover 3 (scat8 u v H) (fun t _ => flushed8_eq V c u v H hu hv hH t) cover8

/-- Read at row r and column q. -/
theorem val8 (r : Fin 8192) (q : Fin 256) :
    (dat8 (F := Ideal) V c).arrAt 3 cfg8.N (ix2 r q) = (max (u r * H 0 q - v r * H 1 q) 0 : EReal) := by
  rw [final8 V c u v H hu hv hH]; rfl

end

end Cert.KernelIdeal.Hand

end
-- ==== Proof.KI.Val1.lean ====
/- The value of region 1 on the extended reals: the array its output window is written back to ends holding, at
   row r and column q, the sums over the four bands of 2048 rows of the products of row r of the left operand
   with column q of the right one, added band by band from zero in the grid's order. First, generic in the
   numbers, what each case of the body leaves in the accumulator and in the output window's buffer, as the
   payload of its last store; then the payloads read at an index, the accumulator point by point, the one
   write-back and the array. -/
import proofs.«172208_j80221399155047_2_alg».proof.Proof.KI.Reg1
import proofs.«172208_j80221399155047_2_alg».proof.Proof.LibRowOps
import proofs.«172208_j80221399155047_2_alg».proof.Proof.Spec
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.SL.Sem Idealize.ShloMosaic.ValueIdx
open Idealize.ShloMosaic.Tactic
open Idealize.ShloMosaic.Pipeline (Dat)

/-! ## What each case leaves, as the payload of its last store -/

section Pieces
variable {F : FTy → Type} [FloatOps F]

theorem hz1 : (![0, 0] : Fin 2 → Nat) = fun _ => 0 := funext fun a => by fin_cases a <;> rfl

/-- The first point leaves in the accumulator its band's product added onto the zeros it has just stored. -/
theorem sout1_A_eq (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond1_1 i) (hc2 : ¬cond1_2 i) (x0 : Vec F S2x2048 .f32) (x1 : Vec F S2048x256 .bf16) :
    sout1_A c i arg1 harg1 arg2 harg2 arg3 harg3 arg4 harg4 hc1 hc2 x0 x1 = k1_pay2 x0 (k1_pay1 (F := F)) x1 := by
  unfold sout1_A
  rw [View.read_writes_eq_canon _ _ _ (scover1_A c i arg1 harg1 arg2 harg2 arg3 harg3 arg4 harg4 hc1 hc2 x0 x1)]
  unfold kernelRun1_A
  dsimp only
  sl_unfold_words
  rw [View.canon_cons_unit_zero hz1, View.readCov_unit_zero (S := S2x256) _ hz1]
  simp only [View.readAt_eq_ld, harg1.read_unread, harg2.read_unread, harg4.read_unread, View.ld_unit_zero (S := S2x2048) hz1, View.ld_unit_zero (S := S2048x256) hz1, View.ld_unit_zero (S := S2x256) hz1]

/-- A middle point adds its band's product onto what the accumulator held. -/
theorem sout1_B_eq (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : ¬cond1_2 i) (x0 : Vec F S2x2048 .f32) (x1 : Vec F S2048x256 .bf16) (xs0 : Vec F S2x256 .f32) :
    sout1_B c i arg1 harg1 arg2 harg2 arg3 harg3 arg4 harg4 hc1 hc2 x0 x1 xs0 = k1_pay2 x0 xs0 x1 := by
  unfold sout1_B
  rw [View.read_writes_eq_canon _ _ _ (scover1_B c i arg1 harg1 arg2 harg2 arg3 harg3 arg4 harg4 hc1 hc2 x0 x1 xs0)]
  unfold kernelRun1_B
  dsimp only
  sl_unfold_words
  rw [View.canon_unit_zero hz1]
  simp only [View.readAt_eq_ld, harg1.read_unread, harg2.read_unread, harg4.read_unread, View.ld_unit_zero (S := S2x2048) hz1, View.ld_unit_zero (S := S2048x256) hz1, View.ld_unit_zero (S := S2x256) hz1]

/-- So does the last point, -/
theorem sout1_C_eq (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i) (x0 : Vec F S2x2048 .f32) (x1 : Vec F S2048x256 .bf16) (xs0 : Vec F S2x256 .f32) :
    sout1_C c i arg1 harg1 arg2 harg2 arg3 harg3 arg4 harg4 hc1 hc2 x0 x1 xs0 = k1_pay2 x0 xs0 x1 := by
  unfold sout1_C
  rw [View.read_writes_eq_canon _ _ _ (scover1_C c i arg1 harg1 arg2 harg2 arg3 harg3 arg4 harg4 hc1 hc2 x0 x1 xs0)]
  unfold kernelRun1_C
  dsimp only
  sl_unfold_words
  rw [View.canon_unit_zero hz1]
  simp only [View.readAt_eq_ld, harg1.read_unread, harg2.read_unread, harg4.read_unread, View.ld_unit_zero (S := S2x2048) hz1, View.ld_unit_zero (S := S2048x256) hz1, View.ld_unit_zero (S := S2x256) hz1]

/-- and it copies the accumulator to the output window's buffer. -/
theorem out1_C_eq (c : Dev nD) (i : grid1.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond1_1 i) (hc2 : cond1_2 i) (x0 : Vec F S2x2048 .f32) (x1 : Vec F S2048x256 .bf16) (xs0 : Vec F S2x256 .f32) :
    out1_C c i arg1 harg1 arg2 harg2 arg3 harg3 arg4 harg4 hc1 hc2 x0 x1 xs0 = k1_pay2 x0 xs0 x1 := by
  unfold out1_C
  rw [View.read_writes_eq_canon _ _ _ (cover1_C c i arg1 harg1 arg2 harg2 arg3 harg3 arg4 harg4 hc1 hc2 x0 x1 xs0)]
  unfold kernelRun1_C
  dsimp only
  sl_unfold_words
  rw [View.canon_unit_zero hz1, View.readCov_unit_zero (S := S2x256) _ hz1]
  simp only [View.readAt_eq_ld, harg1.read_unread, harg2.read_unread, harg4.read_unread, View.ld_unit_zero (S := S2x2048) hz1, View.ld_unit_zero (S := S2048x256) hz1, View.ld_unit_zero (S := S2x256) hz1]

end Pieces

/-! ## On the extended reals -/

section Value

variable (V : (c : Dev nD) → (b : Ref sig .tc) → Buf (Elt Ideal) ((c : Thread nD τ).loc b))

/-- The product's dimension numbers are the plain ones: rows by shared axis times shared axis by columns. -/
theorem plain1 : Cert.RowOps.IsPlain dot_S2x2048_S2048x256_S2x256_1_0_0_1_n_n := ⟨rfl, rfl, rfl, rfl, rfl, rfl⟩

/-- The zeros the first point stores. -/
theorem pay1_1_apply (r : Fin 2) (q : Fin 256) : k1_pay1 (F := Ideal) (ix2 r q) = 0 := by
  unfold k1_pay1
  rw [shapeCast_self]
  show Ideal.ofBits .f32 0x00000000#32 = 0
  simp [Ideal.ofBits, Ideal.ieee]

/-- The accumulating payload at (r, q): what the accumulator held there plus the sum over the band's rows of the
    products of the two loaded blocks (no rounding on the extended reals: the narrowing cast is the identity, the
    product's own accumulator starts at zero). -/
theorem pay1_2_apply (x0 : FVec Ideal S2x2048 .f32) (xs : FVec Ideal S2x256 .f32) (x1 : FVec Ideal S2048x256 .bf16) (r : Fin 2) (q : Fin 256) :
    k1_pay2 (F := Ideal) x0 xs x1 (ix2 r q) = xs (ix2 r q) + ∑ k : Fin 2048, x0 (ix2 r k) * x1 (ix2 k q) := by
  unfold k1_pay2
  rw [shapeCast_self]
  refine (congrArg (fun z => xs (ix2 r q) + z) (Cert.RowOps.matmul_zero_apply plain1 none _ _ r q)).trans ?_
  refine congrArg (fun z => xs (ix2 r q) + z) (Finset.sum_congr rfl fun k _ => ?_)
  show shapeCast S2x2048 x0 shapeCasts_S2x2048_S2x2048 (ix2 r k) * shapeCast S2048x256 x1 shapeCasts_S2048x256_S2048x256 (ix2 k q) = _
  rw [shapeCast_self, shapeCast_self]

/-- The printed index maps, decided over the grid: the left operand's column blocks and the right operand's row
    blocks move with the point, everything else stays at 0. -/
theorem idx_facts1 : ∀ t : Fin cfg1.N, win1_0.index t (0 : Fin 2) = 0 ∧ win1_0.index t (1 : Fin 2) = t.val
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- What the output array ends holding, from the two operands as matrices: at (r, q) the four band sums added in
    the grid's order, from zero. -/
def colSum1 (a : Fin 2 → Fin 8192 → EReal) (H : Fin 8192 → Fin 256 → EReal) : S2x256.Idx → EReal :=
  fun y => Cert.Gcn.colSum (a (y 0)) H (y 1)

theorem colSum1_apply (a : Fin 2 → Fin 8192 → EReal) (H : Fin 8192 → Fin 256 → EReal) (r : Fin 2) (q : Fin 256) :
    colSum1 a H (ix2 r q) = Cert.Gcn.colSum (a r) H q := rfl

/-- An index of the array is in point `t`'s block iff each coordinate is in the block's range on its axis. -/
theorem mem_blk1 (t : Fin cfg1.N) (i : S2x256.Idx) :
    i ∈ ((cfg1.win 2).blk t).view.set ↔ ∀ a : Fin 2, win1_2.index t a * S2x256.size a ≤ (i a).val ∧ (i a).val < win1_2.index t a * S2x256.size a + S2x256.size a := by
  show i ∈ ((View.whole main_call0_v22).slice (win1_2.rect t)).set ↔ _
  rw [View.set_slice_whole, Rect.mem_set_unit]
  exact Iff.rfl

/-- Every index is in the block of the last point, the one point that writes back. -/
theorem cover1 (i : S2x256.Idx) : ∃ t : Fin cfg1.N, (cfg1.win 2).flush t = true ∧ i ∈ ((cfg1.win 2).blk t).view.set := by
  have hi0 : (i 0).val < 2 := (i 0).isLt
  have hi1 : (i 1).val < 256 := (i 1).isLt
  obtain ⟨-, -, -, -, e4, e5⟩ := idx_facts1 t1_3
  refine ⟨t1_3, (flush1_2 t1_3).mpr rfl, ?_⟩
  rw [mem_blk1]
  intro ax
  match ax with
  | ⟨0, _⟩ => show win1_2.index t1_3 (0 : Fin 2) * 2 ≤ (i 0).val ∧ (i 0).val < win1_2.index t1_3 (0 : Fin 2) * 2 + 2; rw [e4]; omega
  | ⟨1, _⟩ => show win1_2.index t1_3 (1 : Fin 2) * 256 ≤ (i 1).val ∧ (i 1).val < win1_2.index t1_3 (1 : Fin 2) * 256 + 256; rw [e5]; omega

section
variable (c : Dev nD) (a : Fin 2 → Fin 8192 → EReal) (H : Fin 8192 → Fin 256 → EReal)
  (ha : ∀ r j, V c main_call0_v17 (ix2 r j) = a r j) (hH : ∀ j q, V c main_call0_v21 (ix2 j q) = H j q)
include ha hH

/-- The left operand's block at point `t` is columns 2048 t … 2048 t + 2047 of its array. -/
theorem iblk1_0_apply (t : Fin cfg1.N) (r : Fin 2) (k : Fin 2048) (j : Fin 8192) (hj : j.val = 2048 * t.val + k.val) :
    (iblk1 V c 0 t : Vec Ideal S2x2048 .f32) (ix2 r k) = a r j := by
  obtain ⟨e0, e1, -⟩ := idx_facts1 t
  rw [← ha r j]
  unfold iblk1
  rw [View.read_apply]
  show V c main_call0_v17 _ = V c main_call0_v17 _
  refine congrArg _ (funext fun ax => Fin.ext ?_)
  match ax with
  | ⟨0, _⟩ => show win1_0.index t (0 : Fin 2) * 2 + 1 * r.val = r.val; rw [e0]; omega
  | ⟨1, _⟩ => show win1_0.index t (1 : Fin 2) * 2048 + 1 * k.val = j.val; rw [e1, hj]; omega

/-- The right operand's block at point `t` is rows 2048 t … 2048 t + 2047 of its array. -/
theorem iblk1_1_apply (t : Fin cfg1.N) (k : Fin 2048) (q : Fin 256) (j : Fin 8192) (hj : j.val = 2048 * t.val + k.val) :
    (iblk1 V c 1 t : Vec Ideal S2048x256 .bf16) (ix2 k q) = H j q := by
  obtain ⟨-, -, e2, e3, -⟩ := idx_facts1 t
  rw [← hH j q]
  unfold iblk1
  rw [View.read_apply]
  show V c main_call0_v21 _ = V c main_call0_v21 _
  refine congrArg _ (funext fun ax => Fin.ext ?_)
  match ax with
  | ⟨0, _⟩ => show win1_1.index t (0 : Fin 2) * 2048 + 1 * k.val = j.val; rw [e2, hj]; omega
  | ⟨1, _⟩ => show win1_1.index t (1 : Fin 2) * 256 + 1 * q.val = q.val; rw [e3]; omega

/-- The accumulating payload on point `t`'s blocks, at (r, q): band `t`'s sum added onto what the accumulator held. -/
theorem pay1_band (t : Fin cfg1.N) (tt : Fin 4) (htt : tt.val = t.val) (xs : FVec Ideal S2x256 .f32) (r : Fin 2) (q : Fin 256) :
    k1_pay2 (F := Ideal) (iblk1 V c 0 t) xs (iblk1 V c 1 t) (ix2 r q) = xs (ix2 r q) + Cert.Gcn.bandSum (a r) H tt q := by
  refine (pay1_2_apply (iblk1 V c 0 t) xs (iblk1 V c 1 t) r q).trans ?_
  unfold Cert.Gcn.bandSum
  refine congrArg (fun z => xs (ix2 r q) + z) (Finset.sum_congr rfl fun k _ => ?_)
  have hj : (Cert.Gcn.bandRow tt k).val = 2048 * t.val + k.val := by
    show 2048 * tt.val + k.val = _; rw [htt]
  rw [iblk1_0_apply V c a H ha hH t r k (Cert.Gcn.bandRow tt k) hj, iblk1_1_apply V c a H ha hH t k q (Cert.Gcn.bandRow tt k) hj]

/-- The accumulator after the first point: band 0's sum added onto zero. -/
theorem acc1_first (t : Fin cfg1.N) (h1 : t.val = 0) (r : Fin 2) (q : Fin 256) :
    accAt1 V c t.val t.isLt (ix2 r q) = 0 + Cert.Gcn.bandSum (a r) H 0 q := by
  have h2 : ¬t.val = 3 := by omega
  rw [accAt1_A V c t h1 h2]
  refine (congrFun (sout1_A_eq (F := Ideal) c (grid1.coords t) (ms1_0 t) (hs1_0 t) (ms1_1 t) (hs1_1 t) (ms1_2 t) (hs1_2 t) scM1_0 (Memref.isWhole_whole _) ((hcond1_1 t).mpr h1) (fun h => h2 ((hcond1_2 t).mp h)) (iblk1 V c 0 t) (iblk1 V c 1 t)) (ix2 r q)).trans ?_
  refine (pay1_band V c a H ha hH t 0 h1.symm (k1_pay1 (F := Ideal)) r q).trans ?_
  rw [pay1_1_apply]

/-- The accumulator after a later point: that band's sum added onto what the point before left. -/
theorem acc1_step (t : Fin cfg1.N) (h1 : ¬t.val = 0) (tt : Fin 4) (htt : tt.val = t.val) (r : Fin 2) (q : Fin 256) :
    accAt1 V c t.val t.isLt (ix2 r q)
      = accAt1 V c (t.val - 1) (Nat.lt_of_le_of_lt (Nat.sub_le _ _) t.isLt) (ix2 r q) + Cert.Gcn.bandSum (a r) H tt q := by
  by_cases h2 : t.val = 3
  · rw [accAt1_C V c t h1 h2]
    refine (congrFun (sout1_C_eq (F := Ideal) c (grid1.coords t) (ms1_0 t) (hs1_0 t) (ms1_1 t) (hs1_1 t) (ms1_2 t) (hs1_2 t) scM1_0 (Memref.isWhole_whole _) (fun h => h1 ((hcond1_1 t).mp h)) ((hcond1_2 t).mpr h2) (iblk1 V c 0 t) (iblk1 V c 1 t) (accAt1 V c (t.val - 1) (Nat.lt_of_le_of_lt (Nat.sub_le _ _) t.isLt))) (ix2 r q)).trans ?_
    exact pay1_band V c a H ha hH t tt htt _ r q
  · rw [accAt1_B V c t h1 h2]
    refine (congrFun (sout1_B_eq (F := Ideal) c (grid1.coords t) (ms1_0 t) (hs1_0 t) (ms1_1 t) (hs1_1 t) (ms1_2 t) (hs1_2 t) scM1_0 (Memref.isWhole_whole _) (fun h => h1 ((hcond1_1 t).mp h)) (fun h => h2 ((hcond1_2 t).mp h)) (iblk1 V c 0 t) (iblk1 V c 1 t) (accAt1 V c (t.val - 1) (Nat.lt_of_le_of_lt (Nat.sub_le _ _) t.isLt))) (ix2 r q)).trans ?_
    exact pay1_band V c a H ha hH t tt htt _ r q

/-- The accumulator after the last point: the four band sums added in order, from zero. -/
theorem acc1_last (r : Fin 2) (q : Fin 256) :
    accAt1 V c t1_3.val t1_3.isLt (ix2 r q) = Cert.Gcn.colSum (a r) H q := by
  have e0 := acc1_first V c a H ha hH t1_0 rfl r q
  have e1 := acc1_step V c a H ha hH t1_1 (by decide) 1 rfl r q
  have e2 := acc1_step V c a H ha hH t1_2 (by decide) 2 rfl r q
  have e3 := acc1_step V c a H ha hH t1_3 (by decide) 3 rfl r q
  unfold Cert.Gcn.colSum
  exact e3.trans (congrArg (fun z => z + Cert.Gcn.bandSum (a r) H 3 q) (e2.trans (congrArg (fun z => z + Cert.Gcn.bandSum (a r) H 2 q) (e1.trans (congrArg (fun z => z + Cert.Gcn.bandSum (a r) H 1 q) e0)))))

/-- At the last point the output window's buffer is left holding the accumulator. -/
theorem outAt1_last (t : Fin cfg1.N) (h1 : ¬t.val = 0) (h2 : t.val = 3) : outAt1 V c t = accAt1 V c t.val t.isLt := by
  rw [outAt1_C V c t h1 h2, accAt1_C V c t h1 h2]
  exact (out1_C_eq (F := Ideal) c (grid1.coords t) (ms1_0 t) (hs1_0 t) (ms1_1 t) (hs1_1 t) (ms1_2 t) (hs1_2 t) scM1_0 (Memref.isWhole_whole _) (fun h => h1 ((hcond1_1 t).mp h)) ((hcond1_2 t).mpr h2) (iblk1 V c 0 t) (iblk1 V c 1 t) (accAt1 V c (t.val - 1) (Nat.lt_of_le_of_lt (Nat.sub_le _ _) t.isLt))).trans
    (sout1_C_eq (F := Ideal) c (grid1.coords t) (ms1_0 t) (hs1_0 t) (ms1_1 t) (hs1_1 t) (ms1_2 t) (hs1_2 t) scM1_0 (Memref.isWhole_whole _) (fun h => h1 ((hcond1_1 t).mp h)) ((hcond1_2 t).mpr h2) (iblk1 V c 0 t) (iblk1 V c 1 t) (accAt1 V c (t.val - 1) (Nat.lt_of_le_of_lt (Nat.sub_le _ _) t.isLt))).symm

/-- The one write-back, at the last point, writes `colSum1 a H`: block (0, 0) of the [2,256] array is the array. -/
theorem flushed1_eq (t : Fin cfg1.N) (hf : (cfg1.win 2).flush t = true) :
    (dat1 (F := Ideal) V c).flushed 2 t = ((cfg1.win 2).blk t).view.read (Elt Ideal) (colSum1 a H) := by
  have hN : cfg1.N = 4 := N_1
  have h3 : t.val = 3 := by have := (flush1_2 t).mp hf; have := t.isLt; omega
  obtain rfl : t = t1_3 := Fin.ext h3
  show (cfg1.win 2).cut (grid1.coords t1_3) ((dat1 (F := Ideal) V c).after 2 t1_3) = _
  rw [after1_2, outAt1_last V c a H ha hH t1_3 (by decide) rfl]
  obtain ⟨-, -, -, -, e4, e5⟩ := idx_facts1 t1_3
  funext y
  obtain ⟨r, q, rfl⟩ : ∃ (r : Fin 2) (q : Fin 256), y = ix2 r q := ⟨y 0, y 1, eq_ix2 y⟩
  refine (acc1_last V c a H ha hH r q).trans ?_
  rw [View.read_apply]
  show _ = colSum1 a H (((cfg1.win 2).blk t1_3).view.emb (ix2 r q))
  have hy : ((cfg1.win 2).blk t1_3).view.emb (ix2 r q) = ix2 r q :=
    funext fun ax => Fin.ext (by
      match ax with
      | ⟨0, _⟩ => show win1_2.index t1_3 (0 : Fin 2) * 2 + 1 * r.val = r.val; rw [e4]; omega
      | ⟨1, _⟩ => show win1_2.index t1_3 (1 : Fin 2) * 256 + 1 * q.val = q.val; rw [e5]; omega)
  rw [hy, colSum1_apply]

/-- THE ARRAY after the region is `colSum1 a H`. -/
theorem final1 : (dat1 (F := Ideal) V c).arrAt 2 cfg1.N = colSum1 a H :=
  (dat1 (F := Ideal) V c).arrAt_eq_of_cover 2 (colSum1 a H) (fun t hf => flushed1_eq V c a H ha hH t hf) cover1

/-- Read at row r and column q. -/
theorem val1 (r : Fin 2) (q : Fin 256) :
    (dat1 (F := Ideal) V c).arrAt 2 cfg1.N (ix2 r q) = Cert.Gcn.colSum (a r) H q := by
  rw [final1 V c a H ha hH]; rfl

end

end Value

end Cert.KernelIdeal.Hand

end
-- ==== Proof.KI.Val4.lean ====
/- The value of region 4 on the extended reals: the array its output window is written back to ends holding, at
   row r and column q, the sums over the four bands of 2048 rows of the products of row r of the left operand
   with column q of the right one, added band by band from zero in the grid's order. First, generic in the
   numbers, what each case of the body leaves in the accumulator and in the output window's buffer, as the
   payload of its last store; then the payloads read at an index, the accumulator point by point, the one
   write-back and the array. -/
import proofs.«172208_j80221399155047_2_alg».proof.Proof.KI.Reg4
import proofs.«172208_j80221399155047_2_alg».proof.Proof.LibRowOps
import proofs.«172208_j80221399155047_2_alg».proof.Proof.Spec
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.SL.Sem Idealize.ShloMosaic.ValueIdx
open Idealize.ShloMosaic.Tactic
open Idealize.ShloMosaic.Pipeline (Dat)

/-! ## What each case leaves, as the payload of its last store -/

section Pieces
variable {F : FTy → Type} [FloatOps F]

theorem hz4 : (![0, 0] : Fin 2 → Nat) = fun _ => 0 := funext fun a => by fin_cases a <;> rfl

/-- The first point leaves in the accumulator its band's product added onto the zeros it has just stored. -/
theorem sout4_A_eq (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond4_1 i) (hc2 : ¬cond4_2 i) (x0 : Vec F S2x2048 .f32) (x1 : Vec F S2048x256 .bf16) :
    sout4_A c i arg1 harg1 arg2 harg2 arg3 harg3 arg4 harg4 hc1 hc2 x0 x1 = k4_pay2 x0 (k4_pay1 (F := F)) x1 := by
  unfold sout4_A
  rw [View.read_writes_eq_canon _ _ _ (scover4_A c i arg1 harg1 arg2 harg2 arg3 harg3 arg4 harg4 hc1 hc2 x0 x1)]
  unfold kernelRun4_A
  dsimp only
  sl_unfold_words
  rw [View.canon_cons_unit_zero hz4, View.readCov_unit_zero (S := S2x256) _ hz4]
  simp only [View.readAt_eq_ld, harg1.read_unread, harg2.read_unread, harg4.read_unread, View.ld_unit_zero (S := S2x2048) hz4, View.ld_unit_zero (S := S2048x256) hz4, View.ld_unit_zero (S := S2x256) hz4]

/-- A middle point adds its band's product onto what the accumulator held. -/
theorem sout4_B_eq (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : ¬cond4_2 i) (x0 : Vec F S2x2048 .f32) (x1 : Vec F S2048x256 .bf16) (xs0 : Vec F S2x256 .f32) :
    sout4_B c i arg1 harg1 arg2 harg2 arg3 harg3 arg4 harg4 hc1 hc2 x0 x1 xs0 = k4_pay2 x0 xs0 x1 := by
  unfold sout4_B
  rw [View.read_writes_eq_canon _ _ _ (scover4_B c i arg1 harg1 arg2 harg2 arg3 harg3 arg4 harg4 hc1 hc2 x0 x1 xs0)]
  unfold kernelRun4_B
  dsimp only
  sl_unfold_words
  rw [View.canon_unit_zero hz4]
  simp only [View.readAt_eq_ld, harg1.read_unread, harg2.read_unread, harg4.read_unread, View.ld_unit_zero (S := S2x2048) hz4, View.ld_unit_zero (S := S2048x256) hz4, View.ld_unit_zero (S := S2x256) hz4]

/-- So does the last point, -/
theorem sout4_C_eq (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i) (x0 : Vec F S2x2048 .f32) (x1 : Vec F S2048x256 .bf16) (xs0 : Vec F S2x256 .f32) :
    sout4_C c i arg1 harg1 arg2 harg2 arg3 harg3 arg4 harg4 hc1 hc2 x0 x1 xs0 = k4_pay2 x0 xs0 x1 := by
  unfold sout4_C
  rw [View.read_writes_eq_canon _ _ _ (scover4_C c i arg1 harg1 arg2 harg2 arg3 harg3 arg4 harg4 hc1 hc2 x0 x1 xs0)]
  unfold kernelRun4_C
  dsimp only
  sl_unfold_words
  rw [View.canon_unit_zero hz4]
  simp only [View.readAt_eq_ld, harg1.read_unread, harg2.read_unread, harg4.read_unread, View.ld_unit_zero (S := S2x2048) hz4, View.ld_unit_zero (S := S2048x256) hz4, View.ld_unit_zero (S := S2x256) hz4]

/-- and it copies the accumulator to the output window's buffer. -/
theorem out4_C_eq (c : Dev nD) (i : grid4.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond4_1 i) (hc2 : cond4_2 i) (x0 : Vec F S2x2048 .f32) (x1 : Vec F S2048x256 .bf16) (xs0 : Vec F S2x256 .f32) :
    out4_C c i arg1 harg1 arg2 harg2 arg3 harg3 arg4 harg4 hc1 hc2 x0 x1 xs0 = k4_pay2 x0 xs0 x1 := by
  unfold out4_C
  rw [View.read_writes_eq_canon _ _ _ (cover4_C c i arg1 harg1 arg2 harg2 arg3 harg3 arg4 harg4 hc1 hc2 x0 x1 xs0)]
  unfold kernelRun4_C
  dsimp only
  sl_unfold_words
  rw [View.canon_unit_zero hz4, View.readCov_unit_zero (S := S2x256) _ hz4]
  simp only [View.readAt_eq_ld, harg1.read_unread, harg2.read_unread, harg4.read_unread, View.ld_unit_zero (S := S2x2048) hz4, View.ld_unit_zero (S := S2048x256) hz4, View.ld_unit_zero (S := S2x256) hz4]

end Pieces

/-! ## On the extended reals -/

section Value

variable (V : (c : Dev nD) → (b : Ref sig .tc) → Buf (Elt Ideal) ((c : Thread nD τ).loc b))

/-- The product's dimension numbers are the plain ones: rows by shared axis times shared axis by columns. -/
theorem plain4 : Cert.RowOps.IsPlain dot_S2x2048_S2048x256_S2x256_1_0_0_1_n_n := ⟨rfl, rfl, rfl, rfl, rfl, rfl⟩

/-- The zeros the first point stores. -/
theorem pay4_1_apply (r : Fin 2) (q : Fin 256) : k4_pay1 (F := Ideal) (ix2 r q) = 0 := by
  unfold k4_pay1
  rw [shapeCast_self]
  show Ideal.ofBits .f32 0x00000000#32 = 0
  simp [Ideal.ofBits, Ideal.ieee]

/-- The accumulating payload at (r, q): what the accumulator held there plus the sum over the band's rows of the
    products of the two loaded blocks (no rounding on the extended reals: the narrowing cast is the identity, the
    product's own accumulator starts at zero). -/
theorem pay4_2_apply (x0 : FVec Ideal S2x2048 .f32) (xs : FVec Ideal S2x256 .f32) (x1 : FVec Ideal S2048x256 .bf16) (r : Fin 2) (q : Fin 256) :
    k4_pay2 (F := Ideal) x0 xs x1 (ix2 r q) = xs (ix2 r q) + ∑ k : Fin 2048, x0 (ix2 r k) * x1 (ix2 k q) := by
  unfold k4_pay2
  rw [shapeCast_self]
  refine (congrArg (fun z => xs (ix2 r q) + z) (Cert.RowOps.matmul_zero_apply plain4 none _ _ r q)).trans ?_
  refine congrArg (fun z => xs (ix2 r q) + z) (Finset.sum_congr rfl fun k _ => ?_)
  show shapeCast S2x2048 x0 shapeCasts_S2x2048_S2x2048 (ix2 r k) * shapeCast S2048x256 x1 shapeCasts_S2048x256_S2048x256 (ix2 k q) = _
  rw [shapeCast_self, shapeCast_self]

/-- The printed index maps, decided over the grid: the left operand's column blocks and the right operand's row
    blocks move with the point, everything else stays at 0. -/
theorem idx_facts4 : ∀ t : Fin cfg4.N, win4_0.index t (0 : Fin 2) = 0 ∧ win4_0.index t (1 : Fin 2) = t.val
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- What the output array ends holding, from the two operands as matrices: at (r, q) the four band sums added in
    the grid's order, from zero. -/
def colSum4 (a : Fin 2 → Fin 8192 → EReal) (H : Fin 8192 → Fin 256 → EReal) : S2x256.Idx → EReal :=
  fun y => Cert.Gcn.colSum (a (y 0)) H (y 1)

theorem colSum4_apply (a : Fin 2 → Fin 8192 → EReal) (H : Fin 8192 → Fin 256 → EReal) (r : Fin 2) (q : Fin 256) :
    colSum4 a H (ix2 r q) = Cert.Gcn.colSum (a r) H q := rfl

/-- An index of the array is in point `t`'s block iff each coordinate is in the block's range on its axis. -/
theorem mem_blk4 (t : Fin cfg4.N) (i : S2x256.Idx) :
    i ∈ ((cfg4.win 2).blk t).view.set ↔ ∀ a : Fin 2, win4_2.index t a * S2x256.size a ≤ (i a).val ∧ (i a).val < win4_2.index t a * S2x256.size a + S2x256.size a := by
  show i ∈ ((View.whole main_call0_v26).slice (win4_2.rect t)).set ↔ _
  rw [View.set_slice_whole, Rect.mem_set_unit]
  exact Iff.rfl

/-- Every index is in the block of the last point, the one point that writes back. -/
theorem cover4 (i : S2x256.Idx) : ∃ t : Fin cfg4.N, (cfg4.win 2).flush t = true ∧ i ∈ ((cfg4.win 2).blk t).view.set := by
  have hi0 : (i 0).val < 2 := (i 0).isLt
  have hi1 : (i 1).val < 256 := (i 1).isLt
  obtain ⟨-, -, -, -, e4, e5⟩ := idx_facts4 t4_3
  refine ⟨t4_3, (flush4_2 t4_3).mpr rfl, ?_⟩
  rw [mem_blk4]
  intro ax
  match ax with
  | ⟨0, _⟩ => show win4_2.index t4_3 (0 : Fin 2) * 2 ≤ (i 0).val ∧ (i 0).val < win4_2.index t4_3 (0 : Fin 2) * 2 + 2; rw [e4]; omega
  | ⟨1, _⟩ => show win4_2.index t4_3 (1 : Fin 2) * 256 ≤ (i 1).val ∧ (i 1).val < win4_2.index t4_3 (1 : Fin 2) * 256 + 256; rw [e5]; omega

section
variable (c : Dev nD) (a : Fin 2 → Fin 8192 → EReal) (H : Fin 8192 → Fin 256 → EReal)
  (ha : ∀ r j, V c main_call0_v17 (ix2 r j) = a r j) (hH : ∀ j q, V c main_call0_v25 (ix2 j q) = H j q)
include ha hH

/-- The left operand's block at point `t` is columns 2048 t … 2048 t + 2047 of its array. -/
theorem iblk4_0_apply (t : Fin cfg4.N) (r : Fin 2) (k : Fin 2048) (j : Fin 8192) (hj : j.val = 2048 * t.val + k.val) :
    (iblk4 V c 0 t : Vec Ideal S2x2048 .f32) (ix2 r k) = a r j := by
  obtain ⟨e0, e1, -⟩ := idx_facts4 t
  rw [← ha r j]
  unfold iblk4
  rw [View.read_apply]
  show V c main_call0_v17 _ = V c main_call0_v17 _
  refine congrArg _ (funext fun ax => Fin.ext ?_)
  match ax with
  | ⟨0, _⟩ => show win4_0.index t (0 : Fin 2) * 2 + 1 * r.val = r.val; rw [e0]; omega
  | ⟨1, _⟩ => show win4_0.index t (1 : Fin 2) * 2048 + 1 * k.val = j.val; rw [e1, hj]; omega

/-- The right operand's block at point `t` is rows 2048 t … 2048 t + 2047 of its array. -/
theorem iblk4_1_apply (t : Fin cfg4.N) (k : Fin 2048) (q : Fin 256) (j : Fin 8192) (hj : j.val = 2048 * t.val + k.val) :
    (iblk4 V c 1 t : Vec Ideal S2048x256 .bf16) (ix2 k q) = H j q := by
  obtain ⟨-, -, e2, e3, -⟩ := idx_facts4 t
  rw [← hH j q]
  unfold iblk4
  rw [View.read_apply]
  show V c main_call0_v25 _ = V c main_call0_v25 _
  refine congrArg _ (funext fun ax => Fin.ext ?_)
  match ax with
  | ⟨0, _⟩ => show win4_1.index t (0 : Fin 2) * 2048 + 1 * k.val = j.val; rw [e2, hj]; omega
  | ⟨1, _⟩ => show win4_1.index t (1 : Fin 2) * 256 + 1 * q.val = q.val; rw [e3]; omega

/-- The accumulating payload on point `t`'s blocks, at (r, q): band `t`'s sum added onto what the accumulator held. -/
theorem pay4_band (t : Fin cfg4.N) (tt : Fin 4) (htt : tt.val = t.val) (xs : FVec Ideal S2x256 .f32) (r : Fin 2) (q : Fin 256) :
    k4_pay2 (F := Ideal) (iblk4 V c 0 t) xs (iblk4 V c 1 t) (ix2 r q) = xs (ix2 r q) + Cert.Gcn.bandSum (a r) H tt q := by
  refine (pay4_2_apply (iblk4 V c 0 t) xs (iblk4 V c 1 t) r q).trans ?_
  unfold Cert.Gcn.bandSum
  refine congrArg (fun z => xs (ix2 r q) + z) (Finset.sum_congr rfl fun k _ => ?_)
  have hj : (Cert.Gcn.bandRow tt k).val = 2048 * t.val + k.val := by
    show 2048 * tt.val + k.val = _; rw [htt]
  rw [iblk4_0_apply V c a H ha hH t r k (Cert.Gcn.bandRow tt k) hj, iblk4_1_apply V c a H ha hH t k q (Cert.Gcn.bandRow tt k) hj]

/-- The accumulator after the first point: band 0's sum added onto zero. -/
theorem acc4_first (t : Fin cfg4.N) (h1 : t.val = 0) (r : Fin 2) (q : Fin 256) :
    accAt4 V c t.val t.isLt (ix2 r q) = 0 + Cert.Gcn.bandSum (a r) H 0 q := by
  have h2 : ¬t.val = 3 := by omega
  rw [accAt4_A V c t h1 h2]
  refine (congrFun (sout4_A_eq (F := Ideal) c (grid4.coords t) (ms4_0 t) (hs4_0 t) (ms4_1 t) (hs4_1 t) (ms4_2 t) (hs4_2 t) scM4_0 (Memref.isWhole_whole _) ((hcond4_1 t).mpr h1) (fun h => h2 ((hcond4_2 t).mp h)) (iblk4 V c 0 t) (iblk4 V c 1 t)) (ix2 r q)).trans ?_
  refine (pay4_band V c a H ha hH t 0 h1.symm (k4_pay1 (F := Ideal)) r q).trans ?_
  rw [pay4_1_apply]

/-- The accumulator after a later point: that band's sum added onto what the point before left. -/
theorem acc4_step (t : Fin cfg4.N) (h1 : ¬t.val = 0) (tt : Fin 4) (htt : tt.val = t.val) (r : Fin 2) (q : Fin 256) :
    accAt4 V c t.val t.isLt (ix2 r q)
      = accAt4 V c (t.val - 1) (Nat.lt_of_le_of_lt (Nat.sub_le _ _) t.isLt) (ix2 r q) + Cert.Gcn.bandSum (a r) H tt q := by
  by_cases h2 : t.val = 3
  · rw [accAt4_C V c t h1 h2]
    refine (congrFun (sout4_C_eq (F := Ideal) c (grid4.coords t) (ms4_0 t) (hs4_0 t) (ms4_1 t) (hs4_1 t) (ms4_2 t) (hs4_2 t) scM4_0 (Memref.isWhole_whole _) (fun h => h1 ((hcond4_1 t).mp h)) ((hcond4_2 t).mpr h2) (iblk4 V c 0 t) (iblk4 V c 1 t) (accAt4 V c (t.val - 1) (Nat.lt_of_le_of_lt (Nat.sub_le _ _) t.isLt))) (ix2 r q)).trans ?_
    exact pay4_band V c a H ha hH t tt htt _ r q
  · rw [accAt4_B V c t h1 h2]
    refine (congrFun (sout4_B_eq (F := Ideal) c (grid4.coords t) (ms4_0 t) (hs4_0 t) (ms4_1 t) (hs4_1 t) (ms4_2 t) (hs4_2 t) scM4_0 (Memref.isWhole_whole _) (fun h => h1 ((hcond4_1 t).mp h)) (fun h => h2 ((hcond4_2 t).mp h)) (iblk4 V c 0 t) (iblk4 V c 1 t) (accAt4 V c (t.val - 1) (Nat.lt_of_le_of_lt (Nat.sub_le _ _) t.isLt))) (ix2 r q)).trans ?_
    exact pay4_band V c a H ha hH t tt htt _ r q

/-- The accumulator after the last point: the four band sums added in order, from zero. -/
theorem acc4_last (r : Fin 2) (q : Fin 256) :
    accAt4 V c t4_3.val t4_3.isLt (ix2 r q) = Cert.Gcn.colSum (a r) H q := by
  have e0 := acc4_first V c a H ha hH t4_0 rfl r q
  have e1 := acc4_step V c a H ha hH t4_1 (by decide) 1 rfl r q
  have e2 := acc4_step V c a H ha hH t4_2 (by decide) 2 rfl r q
  have e3 := acc4_step V c a H ha hH t4_3 (by decide) 3 rfl r q
  unfold Cert.Gcn.colSum
  exact e3.trans (congrArg (fun z => z + Cert.Gcn.bandSum (a r) H 3 q) (e2.trans (congrArg (fun z => z + Cert.Gcn.bandSum (a r) H 2 q) (e1.trans (congrArg (fun z => z + Cert.Gcn.bandSum (a r) H 1 q) e0)))))

/-- At the last point the output window's buffer is left holding the accumulator. -/
theorem outAt4_last (t : Fin cfg4.N) (h1 : ¬t.val = 0) (h2 : t.val = 3) : outAt4 V c t = accAt4 V c t.val t.isLt := by
  rw [outAt4_C V c t h1 h2, accAt4_C V c t h1 h2]
  exact (out4_C_eq (F := Ideal) c (grid4.coords t) (ms4_0 t) (hs4_0 t) (ms4_1 t) (hs4_1 t) (ms4_2 t) (hs4_2 t) scM4_0 (Memref.isWhole_whole _) (fun h => h1 ((hcond4_1 t).mp h)) ((hcond4_2 t).mpr h2) (iblk4 V c 0 t) (iblk4 V c 1 t) (accAt4 V c (t.val - 1) (Nat.lt_of_le_of_lt (Nat.sub_le _ _) t.isLt))).trans
    (sout4_C_eq (F := Ideal) c (grid4.coords t) (ms4_0 t) (hs4_0 t) (ms4_1 t) (hs4_1 t) (ms4_2 t) (hs4_2 t) scM4_0 (Memref.isWhole_whole _) (fun h => h1 ((hcond4_1 t).mp h)) ((hcond4_2 t).mpr h2) (iblk4 V c 0 t) (iblk4 V c 1 t) (accAt4 V c (t.val - 1) (Nat.lt_of_le_of_lt (Nat.sub_le _ _) t.isLt))).symm

/-- The one write-back, at the last point, writes `colSum4 a H`: block (0, 0) of the [2,256] array is the array. -/
theorem flushed4_eq (t : Fin cfg4.N) (hf : (cfg4.win 2).flush t = true) :
    (dat4 (F := Ideal) V c).flushed 2 t = ((cfg4.win 2).blk t).view.read (Elt Ideal) (colSum4 a H) := by
  have hN : cfg4.N = 4 := N_4
  have h3 : t.val = 3 := by have := (flush4_2 t).mp hf; have := t.isLt; omega
  obtain rfl : t = t4_3 := Fin.ext h3
  show (cfg4.win 2).cut (grid4.coords t4_3) ((dat4 (F := Ideal) V c).after 2 t4_3) = _
  rw [after4_2, outAt4_last V c a H ha hH t4_3 (by decide) rfl]
  obtain ⟨-, -, -, -, e4, e5⟩ := idx_facts4 t4_3
  funext y
  obtain ⟨r, q, rfl⟩ : ∃ (r : Fin 2) (q : Fin 256), y = ix2 r q := ⟨y 0, y 1, eq_ix2 y⟩
  refine (acc4_last V c a H ha hH r q).trans ?_
  rw [View.read_apply]
  show _ = colSum4 a H (((cfg4.win 2).blk t4_3).view.emb (ix2 r q))
  have hy : ((cfg4.win 2).blk t4_3).view.emb (ix2 r q) = ix2 r q :=
    funext fun ax => Fin.ext (by
      match ax with
      | ⟨0, _⟩ => show win4_2.index t4_3 (0 : Fin 2) * 2 + 1 * r.val = r.val; rw [e4]; omega
      | ⟨1, _⟩ => show win4_2.index t4_3 (1 : Fin 2) * 256 + 1 * q.val = q.val; rw [e5]; omega)
  rw [hy, colSum4_apply]

/-- THE ARRAY after the region is `colSum4 a H`. -/
theorem final4 : (dat4 (F := Ideal) V c).arrAt 2 cfg4.N = colSum4 a H :=
  (dat4 (F := Ideal) V c).arrAt_eq_of_cover 2 (colSum4 a H) (fun t hf => flushed4_eq V c a H ha hH t hf) cover4

/-- Read at row r and column q. -/
theorem val4 (r : Fin 2) (q : Fin 256) :
    (dat4 (F := Ideal) V c).arrAt 2 cfg4.N (ix2 r q) = Cert.Gcn.colSum (a r) H q := by
  rw [final4 V c a H ha hH]; rfl

end

end Value

end Cert.KernelIdeal.Hand

end
-- ==== Proof.KI.Val7.lean ====
/- The value of region 7 on the extended reals: the array its output window is written back to ends holding, at
   row r and column q, the sums over the four bands of 2048 rows of the products of row r of the left operand
   with column q of the right one, added band by band from zero in the grid's order. First, generic in the
   numbers, what each case of the body leaves in the accumulator and in the output window's buffer, as the
   payload of its last store; then the payloads read at an index, the accumulator point by point, the one
   write-back and the array. -/
import proofs.«172208_j80221399155047_2_alg».proof.Proof.KI.Reg7
import proofs.«172208_j80221399155047_2_alg».proof.Proof.LibRowOps
import proofs.«172208_j80221399155047_2_alg».proof.Proof.Spec
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.SL.Sem Idealize.ShloMosaic.ValueIdx
open Idealize.ShloMosaic.Tactic
open Idealize.ShloMosaic.Pipeline (Dat)

/-! ## What each case leaves, as the payload of its last store -/

section Pieces
variable {F : FTy → Type} [FloatOps F]

theorem hz7 : (![0, 0] : Fin 2 → Nat) = fun _ => 0 := funext fun a => by fin_cases a <;> rfl

/-- The first point leaves in the accumulator its band's product added onto the zeros it has just stored. -/
theorem sout7_A_eq (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : cond7_1 i) (hc2 : ¬cond7_2 i) (x0 : Vec F S2x2048 .f32) (x1 : Vec F S2048x256 .bf16) :
    sout7_A c i arg1 harg1 arg2 harg2 arg3 harg3 arg4 harg4 hc1 hc2 x0 x1 = k7_pay2 x0 (k7_pay1 (F := F)) x1 := by
  unfold sout7_A
  rw [View.read_writes_eq_canon _ _ _ (scover7_A c i arg1 harg1 arg2 harg2 arg3 harg3 arg4 harg4 hc1 hc2 x0 x1)]
  unfold kernelRun7_A
  dsimp only
  sl_unfold_words
  rw [View.canon_cons_unit_zero hz7, View.readCov_unit_zero (S := S2x256) _ hz7]
  simp only [View.readAt_eq_ld, harg1.read_unread, harg2.read_unread, harg4.read_unread, View.ld_unit_zero (S := S2x2048) hz7, View.ld_unit_zero (S := S2048x256) hz7, View.ld_unit_zero (S := S2x256) hz7]

/-- A middle point adds its band's product onto what the accumulator held. -/
theorem sout7_B_eq (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : ¬cond7_2 i) (x0 : Vec F S2x2048 .f32) (x1 : Vec F S2048x256 .bf16) (xs0 : Vec F S2x256 .f32) :
    sout7_B c i arg1 harg1 arg2 harg2 arg3 harg3 arg4 harg4 hc1 hc2 x0 x1 xs0 = k7_pay2 x0 xs0 x1 := by
  unfold sout7_B
  rw [View.read_writes_eq_canon _ _ _ (scover7_B c i arg1 harg1 arg2 harg2 arg3 harg3 arg4 harg4 hc1 hc2 x0 x1 xs0)]
  unfold kernelRun7_B
  dsimp only
  sl_unfold_words
  rw [View.canon_unit_zero hz7]
  simp only [View.readAt_eq_ld, harg1.read_unread, harg2.read_unread, harg4.read_unread, View.ld_unit_zero (S := S2x2048) hz7, View.ld_unit_zero (S := S2048x256) hz7, View.ld_unit_zero (S := S2x256) hz7]

/-- So does the last point, -/
theorem sout7_C_eq (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i) (x0 : Vec F S2x2048 .f32) (x1 : Vec F S2048x256 .bf16) (xs0 : Vec F S2x256 .f32) :
    sout7_C c i arg1 harg1 arg2 harg2 arg3 harg3 arg4 harg4 hc1 hc2 x0 x1 xs0 = k7_pay2 x0 xs0 x1 := by
  unfold sout7_C
  rw [View.read_writes_eq_canon _ _ _ (scover7_C c i arg1 harg1 arg2 harg2 arg3 harg3 arg4 harg4 hc1 hc2 x0 x1 xs0)]
  unfold kernelRun7_C
  dsimp only
  sl_unfold_words
  rw [View.canon_unit_zero hz7]
  simp only [View.readAt_eq_ld, harg1.read_unread, harg2.read_unread, harg4.read_unread, View.ld_unit_zero (S := S2x2048) hz7, View.ld_unit_zero (S := S2048x256) hz7, View.ld_unit_zero (S := S2x256) hz7]

/-- and it copies the accumulator to the output window's buffer. -/
theorem out7_C_eq (c : Dev nD) (i : grid7.Coords) (arg1 : Memref sig .tc .vmem S2x2048 .f32) (harg1 : arg1.IsWhole) (arg2 : Memref sig .tc .vmem S2048x256 .bf16) (harg2 : arg2.IsWhole) (arg3 : Memref sig .tc .vmem S2x256 .f32) (harg3 : arg3.IsWhole) (arg4 : Memref sig .tc .vmem S2x256 .f32) (harg4 : arg4.IsWhole) (hc1 : ¬cond7_1 i) (hc2 : cond7_2 i) (x0 : Vec F S2x2048 .f32) (x1 : Vec F S2048x256 .bf16) (xs0 : Vec F S2x256 .f32) :
    out7_C c i arg1 harg1 arg2 harg2 arg3 harg3 arg4 harg4 hc1 hc2 x0 x1 xs0 = k7_pay2 x0 xs0 x1 := by
  unfold out7_C
  rw [View.read_writes_eq_canon _ _ _ (cover7_C c i arg1 harg1 arg2 harg2 arg3 harg3 arg4 harg4 hc1 hc2 x0 x1 xs0)]
  unfold kernelRun7_C
  dsimp only
  sl_unfold_words
  rw [View.canon_unit_zero hz7, View.readCov_unit_zero (S := S2x256) _ hz7]
  simp only [View.readAt_eq_ld, harg1.read_unread, harg2.read_unread, harg4.read_unread, View.ld_unit_zero (S := S2x2048) hz7, View.ld_unit_zero (S := S2048x256) hz7, View.ld_unit_zero (S := S2x256) hz7]

end Pieces

/-! ## On the extended reals -/

section Value

variable (V : (c : Dev nD) → (b : Ref sig .tc) → Buf (Elt Ideal) ((c : Thread nD τ).loc b))

/-- The product's dimension numbers are the plain ones: rows by shared axis times shared axis by columns. -/
theorem plain7 : Cert.RowOps.IsPlain dot_S2x2048_S2048x256_S2x256_1_0_0_1_n_n := ⟨rfl, rfl, rfl, rfl, rfl, rfl⟩

/-- The zeros the first point stores. -/
theorem pay7_1_apply (r : Fin 2) (q : Fin 256) : k7_pay1 (F := Ideal) (ix2 r q) = 0 := by
  unfold k7_pay1
  rw [shapeCast_self]
  show Ideal.ofBits .f32 0x00000000#32 = 0
  simp [Ideal.ofBits, Ideal.ieee]

/-- The accumulating payload at (r, q): what the accumulator held there plus the sum over the band's rows of the
    products of the two loaded blocks (no rounding on the extended reals: the narrowing cast is the identity, the
    product's own accumulator starts at zero). -/
theorem pay7_2_apply (x0 : FVec Ideal S2x2048 .f32) (xs : FVec Ideal S2x256 .f32) (x1 : FVec Ideal S2048x256 .bf16) (r : Fin 2) (q : Fin 256) :
    k7_pay2 (F := Ideal) x0 xs x1 (ix2 r q) = xs (ix2 r q) + ∑ k : Fin 2048, x0 (ix2 r k) * x1 (ix2 k q) := by
  unfold k7_pay2
  rw [shapeCast_self]
  refine (congrArg (fun z => xs (ix2 r q) + z) (Cert.RowOps.matmul_zero_apply plain7 none _ _ r q)).trans ?_
  refine congrArg (fun z => xs (ix2 r q) + z) (Finset.sum_congr rfl fun k _ => ?_)
  show shapeCast S2x2048 x0 shapeCasts_S2x2048_S2x2048 (ix2 r k) * shapeCast S2048x256 x1 shapeCasts_S2048x256_S2048x256 (ix2 k q) = _
  rw [shapeCast_self, shapeCast_self]

/-- The printed index maps, decided over the grid: the left operand's column blocks and the right operand's row
    blocks move with the point, everything else stays at 0. -/
theorem idx_facts7 : ∀ t : Fin cfg7.N, win7_0.index t (0 : Fin 2) = 0 ∧ win7_0.index t (1 : Fin 2) = t.val
    ∧ win7_1.index t (0 : Fin 2) = t.val ∧ win7_1.index t (1 : Fin 2) = 0
    ∧ win7_2.index t (0 : Fin 2) = 0 ∧ win7_2.index t (1 : Fin 2) = 0 :=
  (by decide +kernel : ∀ t : Fin grid7.N, _)

/-- What the output array ends holding, from the two operands as matrices: at (r, q) the four band sums added in
    the grid's order, from zero. -/
def colSum7 (a : Fin 2 → Fin 8192 → EReal) (H : Fin 8192 → Fin 256 → EReal) : S2x256.Idx → EReal :=
  fun y => Cert.Gcn.colSum (a (y 0)) H (y 1)

theorem colSum7_apply (a : Fin 2 → Fin 8192 → EReal) (H : Fin 8192 → Fin 256 → EReal) (r : Fin 2) (q : Fin 256) :
    colSum7 a H (ix2 r q) = Cert.Gcn.colSum (a r) H q := rfl

/-- An index of the array is in point `t`'s block iff each coordinate is in the block's range on its axis. -/
theorem mem_blk7 (t : Fin cfg7.N) (i : S2x256.Idx) :
    i ∈ ((cfg7.win 2).blk t).view.set ↔ ∀ a : Fin 2, win7_2.index t a * S2x256.size a ≤ (i a).val ∧ (i a).val < win7_2.index t a * S2x256.size a + S2x256.size a := by
  show i ∈ ((View.whole main_call0_v30).slice (win7_2.rect t)).set ↔ _
  rw [View.set_slice_whole, Rect.mem_set_unit]
  exact Iff.rfl

/-- Every index is in the block of the last point, the one point that writes back. -/
theorem cover7 (i : S2x256.Idx) : ∃ t : Fin cfg7.N, (cfg7.win 2).flush t = true ∧ i ∈ ((cfg7.win 2).blk t).view.set := by
  have hi0 : (i 0).val < 2 := (i 0).isLt
  have hi1 : (i 1).val < 256 := (i 1).isLt
  obtain ⟨-, -, -, -, e4, e5⟩ := idx_facts7 t7_3
  refine ⟨t7_3, (flush7_2 t7_3).mpr rfl, ?_⟩
  rw [mem_blk7]
  intro ax
  match ax with
  | ⟨0, _⟩ => show win7_2.index t7_3 (0 : Fin 2) * 2 ≤ (i 0).val ∧ (i 0).val < win7_2.index t7_3 (0 : Fin 2) * 2 + 2; rw [e4]; omega
  | ⟨1, _⟩ => show win7_2.index t7_3 (1 : Fin 2) * 256 ≤ (i 1).val ∧ (i 1).val < win7_2.index t7_3 (1 : Fin 2) * 256 + 256; rw [e5]; omega

section
variable (c : Dev nD) (a : Fin 2 → Fin 8192 → EReal) (H : Fin 8192 → Fin 256 → EReal)
  (ha : ∀ r j, V c main_call0_v17 (ix2 r j) = a r j) (hH : ∀ j q, V c main_call0_v29 (ix2 j q) = H j q)
include ha hH

/-- The left operand's block at point `t` is columns 2048 t … 2048 t + 2047 of its array. -/
theorem iblk7_0_apply (t : Fin cfg7.N) (r : Fin 2) (k : Fin 2048) (j : Fin 8192) (hj : j.val = 2048 * t.val + k.val) :
    (iblk7 V c 0 t : Vec Ideal S2x2048 .f32) (ix2 r k) = a r j := by
  obtain ⟨e0, e1, -⟩ := idx_facts7 t
  rw [← ha r j]
  unfold iblk7
  rw [View.read_apply]
  show V c main_call0_v17 _ = V c main_call0_v17 _
  refine congrArg _ (funext fun ax => Fin.ext ?_)
  match ax with
  | ⟨0, _⟩ => show win7_0.index t (0 : Fin 2) * 2 + 1 * r.val = r.val; rw [e0]; omega
  | ⟨1, _⟩ => show win7_0.index t (1 : Fin 2) * 2048 + 1 * k.val = j.val; rw [e1, hj]; omega

/-- The right operand's block at point `t` is rows 2048 t … 2048 t + 2047 of its array. -/
theorem iblk7_1_apply (t : Fin cfg7.N) (k : Fin 2048) (q : Fin 256) (j : Fin 8192) (hj : j.val = 2048 * t.val + k.val) :
    (iblk7 V c 1 t : Vec Ideal S2048x256 .bf16) (ix2 k q) = H j q := by
  obtain ⟨-, -, e2, e3, -⟩ := idx_facts7 t
  rw [← hH j q]
  unfold iblk7
  rw [View.read_apply]
  show V c main_call0_v29 _ = V c main_call0_v29 _
  refine congrArg _ (funext fun ax => Fin.ext ?_)
  match ax with
  | ⟨0, _⟩ => show win7_1.index t (0 : Fin 2) * 2048 + 1 * k.val = j.val; rw [e2, hj]; omega
  | ⟨1, _⟩ => show win7_1.index t (1 : Fin 2) * 256 + 1 * q.val = q.val; rw [e3]; omega

/-- The accumulating payload on point `t`'s blocks, at (r, q): band `t`'s sum added onto what the accumulator held. -/
theorem pay7_band (t : Fin cfg7.N) (tt : Fin 4) (htt : tt.val = t.val) (xs : FVec Ideal S2x256 .f32) (r : Fin 2) (q : Fin 256) :
    k7_pay2 (F := Ideal) (iblk7 V c 0 t) xs (iblk7 V c 1 t) (ix2 r q) = xs (ix2 r q) + Cert.Gcn.bandSum (a r) H tt q := by
  refine (pay7_2_apply (iblk7 V c 0 t) xs (iblk7 V c 1 t) r q).trans ?_
  unfold Cert.Gcn.bandSum
  refine congrArg (fun z => xs (ix2 r q) + z) (Finset.sum_congr rfl fun k _ => ?_)
  have hj : (Cert.Gcn.bandRow tt k).val = 2048 * t.val + k.val := by
    show 2048 * tt.val + k.val = _; rw [htt]
  rw [iblk7_0_apply V c a H ha hH t r k (Cert.Gcn.bandRow tt k) hj, iblk7_1_apply V c a H ha hH t k q (Cert.Gcn.bandRow tt k) hj]

/-- The accumulator after the first point: band 0's sum added onto zero. -/
theorem acc7_first (t : Fin cfg7.N) (h1 : t.val = 0) (r : Fin 2) (q : Fin 256) :
    accAt7 V c t.val t.isLt (ix2 r q) = 0 + Cert.Gcn.bandSum (a r) H 0 q := by
  have h2 : ¬t.val = 3 := by omega
  rw [accAt7_A V c t h1 h2]
  refine (congrFun (sout7_A_eq (F := Ideal) c (grid7.coords t) (ms7_0 t) (hs7_0 t) (ms7_1 t) (hs7_1 t) (ms7_2 t) (hs7_2 t) scM7_0 (Memref.isWhole_whole _) ((hcond7_1 t).mpr h1) (fun h => h2 ((hcond7_2 t).mp h)) (iblk7 V c 0 t) (iblk7 V c 1 t)) (ix2 r q)).trans ?_
  refine (pay7_band V c a H ha hH t 0 h1.symm (k7_pay1 (F := Ideal)) r q).trans ?_
  rw [pay7_1_apply]

/-- The accumulator after a later point: that band's sum added onto what the point before left. -/
theorem acc7_step (t : Fin cfg7.N) (h1 : ¬t.val = 0) (tt : Fin 4) (htt : tt.val = t.val) (r : Fin 2) (q : Fin 256) :
    accAt7 V c t.val t.isLt (ix2 r q)
      = accAt7 V c (t.val - 1) (Nat.lt_of_le_of_lt (Nat.sub_le _ _) t.isLt) (ix2 r q) + Cert.Gcn.bandSum (a r) H tt q := by
  by_cases h2 : t.val = 3
  · rw [accAt7_C V c t h1 h2]
    refine (congrFun (sout7_C_eq (F := Ideal) c (grid7.coords t) (ms7_0 t) (hs7_0 t) (ms7_1 t) (hs7_1 t) (ms7_2 t) (hs7_2 t) scM7_0 (Memref.isWhole_whole _) (fun h => h1 ((hcond7_1 t).mp h)) ((hcond7_2 t).mpr h2) (iblk7 V c 0 t) (iblk7 V c 1 t) (accAt7 V c (t.val - 1) (Nat.lt_of_le_of_lt (Nat.sub_le _ _) t.isLt))) (ix2 r q)).trans ?_
    exact pay7_band V c a H ha hH t tt htt _ r q
  · rw [accAt7_B V c t h1 h2]
    refine (congrFun (sout7_B_eq (F := Ideal) c (grid7.coords t) (ms7_0 t) (hs7_0 t) (ms7_1 t) (hs7_1 t) (ms7_2 t) (hs7_2 t) scM7_0 (Memref.isWhole_whole _) (fun h => h1 ((hcond7_1 t).mp h)) (fun h => h2 ((hcond7_2 t).mp h)) (iblk7 V c 0 t) (iblk7 V c 1 t) (accAt7 V c (t.val - 1) (Nat.lt_of_le_of_lt (Nat.sub_le _ _) t.isLt))) (ix2 r q)).trans ?_
    exact pay7_band V c a H ha hH t tt htt _ r q

/-- The accumulator after the last point: the four band sums added in order, from zero. -/
theorem acc7_last (r : Fin 2) (q : Fin 256) :
    accAt7 V c t7_3.val t7_3.isLt (ix2 r q) = Cert.Gcn.colSum (a r) H q := by
  have e0 := acc7_first V c a H ha hH t7_0 rfl r q
  have e1 := acc7_step V c a H ha hH t7_1 (by decide) 1 rfl r q
  have e2 := acc7_step V c a H ha hH t7_2 (by decide) 2 rfl r q
  have e3 := acc7_step V c a H ha hH t7_3 (by decide) 3 rfl r q
  unfold Cert.Gcn.colSum
  exact e3.trans (congrArg (fun z => z + Cert.Gcn.bandSum (a r) H 3 q) (e2.trans (congrArg (fun z => z + Cert.Gcn.bandSum (a r) H 2 q) (e1.trans (congrArg (fun z => z + Cert.Gcn.bandSum (a r) H 1 q) e0)))))

/-- At the last point the output window's buffer is left holding the accumulator. -/
theorem outAt7_last (t : Fin cfg7.N) (h1 : ¬t.val = 0) (h2 : t.val = 3) : outAt7 V c t = accAt7 V c t.val t.isLt := by
  rw [outAt7_C V c t h1 h2, accAt7_C V c t h1 h2]
  exact (out7_C_eq (F := Ideal) c (grid7.coords t) (ms7_0 t) (hs7_0 t) (ms7_1 t) (hs7_1 t) (ms7_2 t) (hs7_2 t) scM7_0 (Memref.isWhole_whole _) (fun h => h1 ((hcond7_1 t).mp h)) ((hcond7_2 t).mpr h2) (iblk7 V c 0 t) (iblk7 V c 1 t) (accAt7 V c (t.val - 1) (Nat.lt_of_le_of_lt (Nat.sub_le _ _) t.isLt))).trans
    (sout7_C_eq (F := Ideal) c (grid7.coords t) (ms7_0 t) (hs7_0 t) (ms7_1 t) (hs7_1 t) (ms7_2 t) (hs7_2 t) scM7_0 (Memref.isWhole_whole _) (fun h => h1 ((hcond7_1 t).mp h)) ((hcond7_2 t).mpr h2) (iblk7 V c 0 t) (iblk7 V c 1 t) (accAt7 V c (t.val - 1) (Nat.lt_of_le_of_lt (Nat.sub_le _ _) t.isLt))).symm

/-- The one write-back, at the last point, writes `colSum7 a H`: block (0, 0) of the [2,256] array is the array. -/
theorem flushed7_eq (t : Fin cfg7.N) (hf : (cfg7.win 2).flush t = true) :
    (dat7 (F := Ideal) V c).flushed 2 t = ((cfg7.win 2).blk t).view.read (Elt Ideal) (colSum7 a H) := by
  have hN : cfg7.N = 4 := N_7
  have h3 : t.val = 3 := by have := (flush7_2 t).mp hf; have := t.isLt; omega
  obtain rfl : t = t7_3 := Fin.ext h3
  show (cfg7.win 2).cut (grid7.coords t7_3) ((dat7 (F := Ideal) V c).after 2 t7_3) = _
  rw [after7_2, outAt7_last V c a H ha hH t7_3 (by decide) rfl]
  obtain ⟨-, -, -, -, e4, e5⟩ := idx_facts7 t7_3
  funext y
  obtain ⟨r, q, rfl⟩ : ∃ (r : Fin 2) (q : Fin 256), y = ix2 r q := ⟨y 0, y 1, eq_ix2 y⟩
  refine (acc7_last V c a H ha hH r q).trans ?_
  rw [View.read_apply]
  show _ = colSum7 a H (((cfg7.win 2).blk t7_3).view.emb (ix2 r q))
  have hy : ((cfg7.win 2).blk t7_3).view.emb (ix2 r q) = ix2 r q :=
    funext fun ax => Fin.ext (by
      match ax with
      | ⟨0, _⟩ => show win7_2.index t7_3 (0 : Fin 2) * 2 + 1 * r.val = r.val; rw [e4]; omega
      | ⟨1, _⟩ => show win7_2.index t7_3 (1 : Fin 2) * 256 + 1 * q.val = q.val; rw [e5]; omega)
  rw [hy, colSum7_apply]

/-- THE ARRAY after the region is `colSum7 a H`. -/
theorem final7 : (dat7 (F := Ideal) V c).arrAt 2 cfg7.N = colSum7 a H :=
  (dat7 (F := Ideal) V c).arrAt_eq_of_cover 2 (colSum7 a H) (fun t hf => flushed7_eq V c a H ha hH t hf) cover7

/-- Read at row r and column q. -/
theorem val7 (r : Fin 2) (q : Fin 256) :
    (dat7 (F := Ideal) V c).arrAt 2 cfg7.N (ix2 r q) = Cert.Gcn.colSum (a r) H q := by
  rw [final7 V c a H ha hH]; rfl

end

end Value

end Cert.KernelIdeal.Hand

end
-- ==== Proof.KI.KVal.lean ====
/- The kernel program's result on the extended reals: through its nine regions, each region's output array at the
   boundary after it is the term of the specification — a product `x · Wᵀ`, then the two banded weighted column sums
   of it, then the positive part of their combination — three rounds over; the last region's output is three rounds
   of the low-rank message passing of the launch arrays. What the host stretches leave (the two coefficient rows and
   columns, the transposed weights) enters as hypotheses; the arrays are never opened. -/
import proofs.«172208_j80221399155047_2_alg».proof.Proof.Spec
import proofs.«172208_j80221399155047_2_alg».proof.Proof.KI.Run
import proofs.«172208_j80221399155047_2_alg».proof.Proof.KI.Val0
import proofs.«172208_j80221399155047_2_alg».proof.Proof.KI.Val2
import proofs.«172208_j80221399155047_2_alg».proof.Proof.KI.Val3
import proofs.«172208_j80221399155047_2_alg».proof.Proof.KI.Val5
import proofs.«172208_j80221399155047_2_alg».proof.Proof.KI.Val6
import proofs.«172208_j80221399155047_2_alg».proof.Proof.KI.Val8
import proofs.«172208_j80221399155047_2_alg».proof.Proof.KI.Val1
import proofs.«172208_j80221399155047_2_alg».proof.Proof.KI.Val4
import proofs.«172208_j80221399155047_2_alg».proof.Proof.KI.Val7

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The value of reduce region 1, as a statement: its output array at (r, q) is the banded column sum of the
    second operand weighted by row r of the first. -/
abbrev RedVal1 : Prop := ∀ (V : (c : Dev nD) → (b : Ref sig .tc) → Buf (Elt Ideal) ((c : Thread nD τ).loc b)) (c : Dev nD)
    (a : Fin 2 → Fin 8192 → EReal) (H : Fin 8192 → Fin 256 → EReal),
    (∀ r j, V c main_call0_v17 (ix2 r j) = a r j) → (∀ j q, V c main_call0_v21 (ix2 j q) = H j q) →
    ∀ (r : Fin 2) (q : Fin 256), (dat1 (F := Ideal) V c).arrAt 2 cfg1.N (ix2 r q) = Cert.Gcn.colSum (a r) H q

/-- The value of reduce region 4, as a statement: its output array at (r, q) is the banded column sum of the
    second operand weighted by row r of the first. -/
abbrev RedVal4 : Prop := ∀ (V : (c : Dev nD) → (b : Ref sig .tc) → Buf (Elt Ideal) ((c : Thread nD τ).loc b)) (c : Dev nD)
    (a : Fin 2 → Fin 8192 → EReal) (H : Fin 8192 → Fin 256 → EReal),
    (∀ r j, V c main_call0_v17 (ix2 r j) = a r j) → (∀ j q, V c main_call0_v25 (ix2 j q) = H j q) →
    ∀ (r : Fin 2) (q : Fin 256), (dat4 (F := Ideal) V c).arrAt 2 cfg4.N (ix2 r q) = Cert.Gcn.colSum (a r) H q

/-- The value of reduce region 7, as a statement: its output array at (r, q) is the banded column sum of the
    second operand weighted by row r of the first. -/
abbrev RedVal7 : Prop := ∀ (V : (c : Dev nD) → (b : Ref sig .tc) → Buf (Elt Ideal) ((c : Thread nD τ).loc b)) (c : Dev nD)
    (a : Fin 2 → Fin 8192 → EReal) (H : Fin 8192 → Fin 256 → EReal),
    (∀ r j, V c main_call0_v17 (ix2 r j) = a r j) → (∀ j q, V c main_call0_v29 (ix2 j q) = H j q) →
    ∀ (r : Fin 2) (q : Fin 256), (dat7 (F := Ideal) V c).arrAt 2 cfg7.N (ix2 r q) = Cert.Gcn.colSum (a r) H q

variable (m : (ℓ : Loc nD τ sig) → Buf (Elt Ideal) ℓ) (c : Dev nD) (n : Fin 8192 → EReal)

/-! ## The launch arrays as matrices, and what the host stretches leave -/

/-- The features as launched. -/
abbrev xIn : Cert.Gcn.Mat 8192 256 := fun i k => m ((c : Thread nD τ).loc main_arg0) (ix2 i k)
/-- The three weight matrices as launched. -/
abbrev wIn1 : Cert.Gcn.Mat 256 256 := fun f k => m ((c : Thread nD τ).loc main_arg1) (ix2 f k)
abbrev wIn2 : Cert.Gcn.Mat 256 256 := fun f k => m ((c : Thread nD τ).loc main_arg2) (ix2 f k)
abbrev wIn3 : Cert.Gcn.Mat 256 256 := fun f k => m ((c : Thread nD τ).loc main_arg3) (ix2 f k)

/-- The two coefficient vectors as the two rows of one operand. -/
def uv (r : Fin 2) : Fin 8192 → EReal := match r with
  | ⟨0, _⟩ => Cert.Gcn.uLow n
  | ⟨1, _⟩ => Cert.Gcn.vLow n

/-- After the first host stretch: the two-row operand holds u and v, -/
abbrev HU17 : Prop := ∀ j, W1 m c (Proc.devRef .tc main_call0_v17) (ix2 (0 : Fin 2) j) = Cert.Gcn.uLow n j
abbrev HV17 : Prop := ∀ j, W1 m c (Proc.devRef .tc main_call0_v17) (ix2 (1 : Fin 2) j) = Cert.Gcn.vLow n j
/-- the two columns hold u and v, -/
abbrev HU18 : Prop := ∀ i, W1 m c (Proc.devRef .tc main_call0_v18) (ix2 i (0 : Fin 1)) = Cert.Gcn.uLow n i
abbrev HV19 : Prop := ∀ i, W1 m c (Proc.devRef .tc main_call0_v19) (ix2 i (0 : Fin 1)) = Cert.Gcn.vLow n i
/-- and each round's second operand is that round's weight matrix transposed. -/
abbrev HW20 : Prop := ∀ k f, W1 m c (Proc.devRef .tc main_call0_v20) (ix2 k f) = m ((c : Thread nD τ).loc main_arg1) (ix2 f k)
abbrev HW24 : Prop := ∀ k f, W5 m c (Proc.devRef .tc main_call0_v24) (ix2 k f) = W4 m c (Proc.devRef .tc main_arg2) (ix2 f k)
abbrev HW28 : Prop := ∀ k f, W9 m c (Proc.devRef .tc main_call0_v28) (ix2 k f) = W8 m c (Proc.devRef .tc main_arg3) (ix2 f k)

/-- The two-row operand read at (r, j), whichever row. -/
theorem uv_read (hu17 : HU17 m c n) (hv17 : HV17 m c n) (r : Fin 2) (j : Fin 8192) :
    W1 m c (Proc.devRef .tc main_call0_v17) (ix2 r j) = uv n r j := by
  match r with
  | ⟨0, _⟩ => exact hu17 j
  | ⟨1, _⟩ => exact hv17 j

/-! ## Round 1 -/

/-- After the round's product region its output array holds `x · Wᵀ` of the round's input. -/
theorem afterLin0 (hu17 : HU17 m c n) (hv17 : HV17 m c n) (hu18 : HU18 m c n) (hv19 : HV19 m c n) (hw20 : HW20 m c) (r : Fin 8192) (q : Fin 256) :
    W2 m c (Proc.devRef .tc main_call0_v21) (ix2 r q) = Cert.Gcn.lin (xIn m c) (wIn1 m c) r q :=
  (congrFun (W2_arr m c 2) (ix2 r q)).trans
    (val0 (B1 m) c (xIn m c) (fun j q => wIn1 m c q j)
      (fun r j => congrFun (keep_main_arg0_1 m c) (ix2 r j)) (fun j q => hw20 j q) r q)

/-- After the round's reduce region its two-row output holds the two banded weighted column sums of that product. -/
theorem afterRed0 (hu17 : HU17 m c n) (hv17 : HV17 m c n) (hu18 : HU18 m c n) (hv19 : HV19 m c n) (hw20 : HW20 m c) (h1 : RedVal1) (r : Fin 2) (q : Fin 256) :
    W3 m c (Proc.devRef .tc main_call0_v22) (ix2 r q) = Cert.Gcn.colSum (uv n r) (Cert.Gcn.lin (xIn m c) (wIn1 m c)) q :=
  (congrFun (W3_arr m c 2) (ix2 r q)).trans
    (h1 (B2 m) c (uv n) (Cert.Gcn.lin (xIn m c) (wIn1 m c))
      (fun r j => (congrFun (keep_main_call0_v17_2 m c) (ix2 r j)).trans (uv_read m c n hu17 hv17 r j))
      (fun j q => afterLin0 m c n hu17 hv17 hu18 hv19 hw20 j q) r q)

/-- After the round's scatter region its output array holds the round's result. -/
theorem afterSc0 (hu17 : HU17 m c n) (hv17 : HV17 m c n) (hu18 : HU18 m c n) (hv19 : HV19 m c n) (hw20 : HW20 m c) (h1 : RedVal1) (i : Fin 8192) (q : Fin 256) :
    W4 m c (Proc.devRef .tc main_call0_v23) (ix2 i q) = Cert.Gcn.layerLow n (xIn m c) (wIn1 m c) i q :=
  (congrFun (W4_arr m c 3) (ix2 i q)).trans
    (val2 (B3 m) c (Cert.Gcn.uLow n) (Cert.Gcn.vLow n)
      (fun a q => Cert.Gcn.colSum (uv n a) (Cert.Gcn.lin (xIn m c) (wIn1 m c)) q)
      (fun r => (congrFun (keep_main_call0_v18_3 m c) (ix2 r (0 : Fin 1))).trans (hu18 r))
      (fun r => (congrFun (keep_main_call0_v19_3 m c) (ix2 r (0 : Fin 1))).trans (hv19 r))
      (fun a q => afterRed0 m c n hu17 hv17 hu18 hv19 hw20 h1 a q) i q)

/-! ## Round 2 -/

/-- After the round's product region its output array holds `x · Wᵀ` of the round's input. -/
theorem afterLin1 (hu17 : HU17 m c n) (hv17 : HV17 m c n) (hu18 : HU18 m c n) (hv19 : HV19 m c n) (hw20 : HW20 m c) (hw24 : HW24 m c) (h1 : RedVal1) (r : Fin 8192) (q : Fin 256) :
    W6 m c (Proc.devRef .tc main_call0_v25) (ix2 r q) = Cert.Gcn.lin (Cert.Gcn.layerLow n (xIn m c) (wIn1 m c)) (wIn2 m c) r q :=
  (congrFun (W6_arr m c 2) (ix2 r q)).trans
    (val3 (B5 m) c (Cert.Gcn.layerLow n (xIn m c) (wIn1 m c)) (fun j q => wIn2 m c q j)
      (fun r j => (congrFun (keep_main_call0_v23_5 m c) (ix2 r j)).trans (afterSc0 m c n hu17 hv17 hu18 hv19 hw20 h1 r j)) (fun j q => (hw24 j q).trans (congrFun (keep_main_arg2_4 m c) (ix2 q j))) r q)

/-- After the round's reduce region its two-row output holds the two banded weighted column sums of that product. -/
theorem afterRed1 (hu17 : HU17 m c n) (hv17 : HV17 m c n) (hu18 : HU18 m c n) (hv19 : HV19 m c n) (hw20 : HW20 m c) (hw24 : HW24 m c) (h1 : RedVal1) (h4 : RedVal4) (r : Fin 2) (q : Fin 256) :
    W7 m c (Proc.devRef .tc main_call0_v26) (ix2 r q) = Cert.Gcn.colSum (uv n r) (Cert.Gcn.lin (Cert.Gcn.layerLow n (xIn m c) (wIn1 m c)) (wIn2 m c)) q :=
  (congrFun (W7_arr m c 2) (ix2 r q)).trans
    (h4 (B6 m) c (uv n) (Cert.Gcn.lin (Cert.Gcn.layerLow n (xIn m c) (wIn1 m c)) (wIn2 m c))
      (fun r j => (congrFun (keep_main_call0_v17_6 m c) (ix2 r j)).trans (uv_read m c n hu17 hv17 r j))
      (fun j q => afterLin1 m c n hu17 hv17 hu18 hv19 hw20 hw24 h1 j q) r q)

/-- After the round's scatter region its output array holds the round's result. -/
theorem afterSc1 (hu17 : HU17 m c n) (hv17 : HV17 m c n) (hu18 : HU18 m c n) (hv19 : HV19 m c n) (hw20 : HW20 m c) (hw24 : HW24 m c) (h1 : RedVal1) (h4 : RedVal4) (i : Fin 8192) (q : Fin 256) :
    W8 m c (Proc.devRef .tc main_call0_v27) (ix2 i q) = Cert.Gcn.layerLow n (Cert.Gcn.layerLow n (xIn m c) (wIn1 m c)) (wIn2 m c) i q :=
  (congrFun (W8_arr m c 3) (ix2 i q)).trans
    (val5 (B7 m) c (Cert.Gcn.uLow n) (Cert.Gcn.vLow n)
      (fun a q => Cert.Gcn.colSum (uv n a) (Cert.Gcn.lin (Cert.Gcn.layerLow n (xIn m c) (wIn1 m c)) (wIn2 m c)) q)
      (fun r => (congrFun (keep_main_call0_v18_7 m c) (ix2 r (0 : Fin 1))).trans (hu18 r))
      (fun r => (congrFun (keep_main_call0_v19_7 m c) (ix2 r (0 : Fin 1))).trans (hv19 r))
      (fun a q => afterRed1 m c n hu17 hv17 hu18 hv19 hw20 hw24 h1 h4 a q) i q)

/-! ## Round 3 -/

/-- After the round's product region its output array holds `x · Wᵀ` of the round's input. -/
theorem afterLin2 (hu17 : HU17 m c n) (hv17 : HV17 m c n) (hu18 : HU18 m c n) (hv19 : HV19 m c n) (hw20 : HW20 m c) (hw24 : HW24 m c) (hw28 : HW28 m c) (h1 : RedVal1) (h4 : RedVal4) (r : Fin 8192) (q : Fin 256) :
    W10 m c (Proc.devRef .tc main_call0_v29) (ix2 r q) = Cert.Gcn.lin (Cert.Gcn.layerLow n (Cert.Gcn.layerLow n (xIn m c) (wIn1 m c)) (wIn2 m c)) (wIn3 m c) r q :=
  (congrFun (W10_arr m c 2) (ix2 r q)).trans
    (val6 (B9 m) c (Cert.Gcn.layerLow n (Cert.Gcn.layerLow n (xIn m c) (wIn1 m c)) (wIn2 m c)) (fun j q => wIn3 m c q j)
      (fun r j => (congrFun (keep_main_call0_v27_9 m c) (ix2 r j)).trans (afterSc1 m c n hu17 hv17 hu18 hv19 hw20 hw24 h1 h4 r j)) (fun j q => (hw28 j q).trans (congrFun (keep_main_arg3_8 m c) (ix2 q j))) r q)

/-- After the round's reduce region its two-row output holds the two banded weighted column sums of that product. -/
theorem afterRed2 (hu17 : HU17 m c n) (hv17 : HV17 m c n) (hu18 : HU18 m c n) (hv19 : HV19 m c n) (hw20 : HW20 m c) (hw24 : HW24 m c) (hw28 : HW28 m c) (h1 : RedVal1) (h4 : RedVal4) (h7 : RedVal7) (r : Fin 2) (q : Fin 256) :
    W11 m c (Proc.devRef .tc main_call0_v30) (ix2 r q) = Cert.Gcn.colSum (uv n r) (Cert.Gcn.lin (Cert.Gcn.layerLow n (Cert.Gcn.layerLow n (xIn m c) (wIn1 m c)) (wIn2 m c)) (wIn3 m c)) q :=
  (congrFun (W11_arr m c 2) (ix2 r q)).trans
    (h7 (B10 m) c (uv n) (Cert.Gcn.lin (Cert.Gcn.layerLow n (Cert.Gcn.layerLow n (xIn m c) (wIn1 m c)) (wIn2 m c)) (wIn3 m c))
      (fun r j => (congrFun (keep_main_call0_v17_10 m c) (ix2 r j)).trans (uv_read m c n hu17 hv17 r j))
      (fun j q => afterLin2 m c n hu17 hv17 hu18 hv19 hw20 hw24 hw28 h1 h4 j q) r q)

/-- After the round's scatter region its output array holds the round's result. -/
theorem afterSc2 (hu17 : HU17 m c n) (hv17 : HV17 m c n) (hu18 : HU18 m c n) (hv19 : HV19 m c n) (hw20 : HW20 m c) (hw24 : HW24 m c) (hw28 : HW28 m c) (h1 : RedVal1) (h4 : RedVal4) (h7 : RedVal7) (i : Fin 8192) (q : Fin 256) :
    (dat8 (F := Ideal) (B11 m) c).arrAt 3 cfg8.N (ix2 i q) = Cert.Gcn.layerLow n (Cert.Gcn.layerLow n (Cert.Gcn.layerLow n (xIn m c) (wIn1 m c)) (wIn2 m c)) (wIn3 m c) i q :=
  (val8 (B11 m) c (Cert.Gcn.uLow n) (Cert.Gcn.vLow n)
      (fun a q => Cert.Gcn.colSum (uv n a) (Cert.Gcn.lin (Cert.Gcn.layerLow n (Cert.Gcn.layerLow n (xIn m c) (wIn1 m c)) (wIn2 m c)) (wIn3 m c)) q)
      (fun r => (congrFun (keep_main_call0_v18_11 m c) (ix2 r (0 : Fin 1))).trans (hu18 r))
      (fun r => (congrFun (keep_main_call0_v19_11 m c) (ix2 r (0 : Fin 1))).trans (hv19 r))
      (fun a q => afterRed2 m c n hu17 hv17 hu18 hv19 hw20 hw24 hw28 h1 h4 h7 a q) i q)

/-! ## The result -/

/-- The last region's output array is three rounds of the low-rank message passing of the launch arrays, given the
    three reduce regions' values. -/
theorem kval_of (hu17 : HU17 m c n) (hv17 : HV17 m c n) (hu18 : HU18 m c n) (hv19 : HV19 m c n) (hw20 : HW20 m c)
    (hw24 : HW24 m c) (hw28 : HW28 m c) (h1 : RedVal1) (h4 : RedVal4) (h7 : RedVal7) (i : Fin 8192) (f : Fin 256) :
    (dat8 (F := Ideal) (B11 m) c).arrAt 3 cfg8.N (ix2 i f)
      = Cert.Gcn.kernelOut n (fun i k => m ((c : Thread nD τ).loc main_arg0) (ix2 i k))
          (fun f k => m ((c : Thread nD τ).loc main_arg1) (ix2 f k)) (fun f k => m ((c : Thread nD τ).loc main_arg2) (ix2 f k))
          (fun f k => m ((c : Thread nD τ).loc main_arg3) (ix2 f k)) i f :=
  afterSc2 m c n hu17 hv17 hu18 hv19 hw20 hw24 hw28 h1 h4 h7 i f

/-- The same with the three reduce regions' values supplied. -/
theorem kval (hu17 : HU17 m c n) (hv17 : HV17 m c n) (hu18 : HU18 m c n) (hv19 : HV19 m c n) (hw20 : HW20 m c)
    (hw24 : HW24 m c) (hw28 : HW28 m c) (i : Fin 8192) (f : Fin 256) :
    (dat8 (F := Ideal) (B11 m) c).arrAt 3 cfg8.N (ix2 i f)
      = Cert.Gcn.kernelOut n (fun i k => m ((c : Thread nD τ).loc main_arg0) (ix2 i k))
          (fun f k => m ((c : Thread nD τ).loc main_arg1) (ix2 f k)) (fun f k => m ((c : Thread nD τ).loc main_arg2) (ix2 f k))
          (fun f k => m ((c : Thread nD τ).loc main_arg3) (ix2 f k)) i f :=
  kval_of m c n hu17 hv17 hu18 hv19 hw20 hw24 hw28 (fun V c a H ha hH r q => val1 V c a H ha hH r q)
    (fun V c a H ha hH r q => val4 V c a H ha hH r q) (fun V c a H ha hH r q => val7 V c a H ha hH r q) i f

end Cert.KernelIdeal.Hand

end
-- ==== Proof.KI.HostOps.lean ====
/-
  The kernel program's host stretches read at an index, at the ideal values: what the operations before the
  first region leave in the buffers the regions read, for any contents `W` of the buffers they start from.

  The first stretch computes, from a vector of mark bits (a closed term of integer operations that is kept as
  one opaque vector here), the marks as numbers `m j ∈ {0, 1}`, their count `0 + Σ_j m j`, the degrees
  `8192 − m i · count`, the roots `u i = √|deg i|` and `v i = u i · m i`; it then lays `u` and `v` out as the two
  rows of a `[2, 8192]` array and as two `[8192, 1]` columns, and transposes the first weight matrix.  Read
  at an index these are the specification's `uLow` and `vLow` at the marks.  The two later stretches
  transpose the second and the third weight matrix.

  The stretch is cut in two: the operations up to the mark bits, and the rest.  The rest is read over
  arbitrary contents, so the mark bits' own term is never opened.
-/
import proofs.«172208_j80221399155047_2_alg».proof.Proof.Gen.KernelIdeal.Regions
import proofs.«172208_j80221399155047_2_alg».proof.Proof.Spec
import Idealize.ShloMosaic.Lib.StableHlo.Run
import Idealize.ShloMosaic.Lib.IdealHost
import Idealize.ShloMosaic.Lib.ValueLayout
import Idealize.ShloMosaic.Lib.Pipeline.Value

set_option maxRecDepth 16384

noncomputable section

namespace Cert.KernelIdeal.HandVal

open Cert.KernelIdeal Cert.KernelIdeal.Gen
open Idealize.ShloMosaic Idealize.ShloMosaic.TcCoe Idealize.ShloMosaic.ValueIdx
open scoped BigOperators

/-! ## The first stretch in two parts -/

section Parts

variable {F : FTy → Type} [FloatOps F]

/-- The first stretch up to the mark bits. -/
abbrev opsA : List (HloOp τ sig (Elt F)) :=
  [ StableHlo.TRef.nullary (.of main_call0_c : StableHlo.TRef sig ⟨S15, .i32⟩) (fun i => lit0 (S15.rowMajor i)),
    StableHlo.TRef.nullary (.of main_call0_v0 : StableHlo.TRef sig ⟨S8192, .i32⟩) (iotaInDim S8192 32 0),
    StableHlo.TRef.unary (.of main_call0_v0 : StableHlo.TRef sig ⟨S8192, .i32⟩) (.of main_call0_call0_v0 : StableHlo.TRef sig ⟨S8192x1, .i32⟩) (broadcastInDim S8192x1 ![0] bcast_S8192_S8192x1_0),
    StableHlo.TRef.unary (.of main_call0_c : StableHlo.TRef sig ⟨S15, .i32⟩) (.of main_call0_call0_v1 : StableHlo.TRef sig ⟨S1x15, .i32⟩) (broadcastInDim S1x15 ![1] bcast_S15_S1x15_1),
    StableHlo.TRef.unary (.of main_call0_call0_v0 : StableHlo.TRef sig ⟨S8192x1, .i32⟩) (.of main_call0_call0_v2 : StableHlo.TRef sig ⟨S8192x15, .i32⟩) (broadcastInDim S8192x15 ![0, 1] bcast_S8192x1_S8192x15_0_1),
    StableHlo.TRef.unary (.of main_call0_call0_v1 : StableHlo.TRef sig ⟨S1x15, .i32⟩) (.of main_call0_call0_v3 : StableHlo.TRef sig ⟨S8192x15, .i32⟩) (broadcastInDim S8192x15 ![0, 1] bcast_S1x15_S8192x15_0_1),
    StableHlo.TRef.binary (.of main_call0_call0_v2 : StableHlo.TRef sig ⟨S8192x15, .i32⟩) (.of main_call0_call0_v3 : StableHlo.TRef sig ⟨S8192x15, .i32⟩) (.of main_call0_call0_v4 : StableHlo.TRef sig ⟨S8192x15, .i1⟩) (cmpi .eq),
    StableHlo.TRef.nullary (.of main_call0_call0_c : StableHlo.TRef sig ⟨S_, .i1⟩) (constantI S_ 1 0#1),
    StableHlo.TRef.binary (.of main_call0_call0_v4 : StableHlo.TRef sig ⟨S8192x15, .i1⟩) (.of main_call0_call0_c : StableHlo.TRef sig ⟨S_, .i1⟩) (.of main_call0_v1 : StableHlo.TRef sig ⟨S8192, .i1⟩) (fun x v => Host.reduce IntOp.ori x v reducesTo_S8192x15_S8192_d1 h_S_),
    StableHlo.TRef.nullary (.of main_call0_c_0 : StableHlo.TRef sig ⟨S_, .i32⟩) (constantI S_ 32 64#32),
    StableHlo.TRef.unary (.of main_call0_c_0 : StableHlo.TRef sig ⟨S_, .i32⟩) (.of main_call0_v2 : StableHlo.TRef sig ⟨S8192, .i32⟩) (broadcastInDim S8192 ![] bcast_S_S8192),
    StableHlo.TRef.binary (.of main_call0_v0 : StableHlo.TRef sig ⟨S8192, .i32⟩) (.of main_call0_v2 : StableHlo.TRef sig ⟨S8192, .i32⟩) (.of main_call0_v3 : StableHlo.TRef sig ⟨S8192, .i1⟩) (cmpi .slt),
    StableHlo.TRef.unary main_call0_call0.v5 (.of main_call0_v4 : StableHlo.TRef sig ⟨S8192, .i1⟩) noti,
    StableHlo.TRef.binary (.of main_call0_v3 : StableHlo.TRef sig ⟨S8192, .i1⟩) (.of main_call0_v4 : StableHlo.TRef sig ⟨S8192, .i1⟩) (.of main_call0_v5 : StableHlo.TRef sig ⟨S8192, .i1⟩) andi ]

/-- The first stretch after the mark bits. -/
abbrev opsB : List (HloOp τ sig (Elt F)) :=
  [ StableHlo.TRef.unary (.of main_call0_v5 : StableHlo.TRef sig ⟨S8192, .i1⟩) (.of main_call0_v6 : StableHlo.TRef sig ⟨S8192, .f32⟩) (uitofp .f32),
    StableHlo.TRef.nullary (.of main_call0_cst : StableHlo.TRef sig ⟨S_, .f32⟩) (constant S_ .f32 0x00000000#32),
    StableHlo.TRef.binary (.of main_call0_v6 : StableHlo.TRef sig ⟨S8192, .f32⟩) (.of main_call0_cst : StableHlo.TRef sig ⟨S_, .f32⟩) (.of main_call0_v7 : StableHlo.TRef sig ⟨S_, .f32⟩) (fun x v => Host.reduceAdd x v reducesTo_S8192_S_d0 h_S_),
    StableHlo.TRef.unary (.of main_call0_v7 : StableHlo.TRef sig ⟨S_, .f32⟩) (.of main_call0_v8 : StableHlo.TRef sig ⟨S8192, .f32⟩) (broadcastInDim S8192 ![] bcast_S_S8192),
    StableHlo.TRef.binary (.of main_call0_v6 : StableHlo.TRef sig ⟨S8192, .f32⟩) (.of main_call0_v8 : StableHlo.TRef sig ⟨S8192, .f32⟩) (.of main_call0_v9 : StableHlo.TRef sig ⟨S8192, .f32⟩) mulf,
    StableHlo.TRef.nullary (.of main_call0_cst_1 : StableHlo.TRef sig ⟨S_, .f32⟩) (constant S_ .f32 0x46000000#32),
    StableHlo.TRef.unary (.of main_call0_cst_1 : StableHlo.TRef sig ⟨S_, .f32⟩) (.of main_call0_v10 : StableHlo.TRef sig ⟨S8192, .f32⟩) (broadcastInDim S8192 ![] bcast_S_S8192),
    StableHlo.TRef.binary (.of main_call0_v10 : StableHlo.TRef sig ⟨S8192, .f32⟩) (.of main_call0_v9 : StableHlo.TRef sig ⟨S8192, .f32⟩) (.of main_call0_v11 : StableHlo.TRef sig ⟨S8192, .f32⟩) subf,
    StableHlo.TRef.unary (.of main_call0_v11 : StableHlo.TRef sig ⟨S8192, .f32⟩) (.of main_call0_v12 : StableHlo.TRef sig ⟨S8192, .f32⟩) Host.absf,
    StableHlo.TRef.unary (.of main_call0_v12 : StableHlo.TRef sig ⟨S8192, .f32⟩) (.of main_call0_v13 : StableHlo.TRef sig ⟨S8192, .f32⟩) Host.sqrt,
    StableHlo.TRef.binary (.of main_call0_v13 : StableHlo.TRef sig ⟨S8192, .f32⟩) (.of main_call0_v6 : StableHlo.TRef sig ⟨S8192, .f32⟩) (.of main_call0_v14 : StableHlo.TRef sig ⟨S8192, .f32⟩) mulf,
    StableHlo.TRef.unary (.of main_call0_v13 : StableHlo.TRef sig ⟨S8192, .f32⟩) (.of main_call0_v15 : StableHlo.TRef sig ⟨S1x8192, .f32⟩) (broadcastInDim S1x8192 ![1] bcast_S8192_S1x8192_1),
    StableHlo.TRef.unary (.of main_call0_v14 : StableHlo.TRef sig ⟨S8192, .f32⟩) (.of main_call0_v16 : StableHlo.TRef sig ⟨S1x8192, .f32⟩) (broadcastInDim S1x8192 ![1] bcast_S8192_S1x8192_1),
    StableHlo.TRef.binary (.of main_call0_v15 : StableHlo.TRef sig ⟨S1x8192, .f32⟩) (.of main_call0_v16 : StableHlo.TRef sig ⟨S1x8192, .f32⟩) (.of main_call0_v17 : StableHlo.TRef sig ⟨S2x8192, .f32⟩) (fun a b => concatenate S2x8192 0 [⟨S1x8192, a⟩, ⟨S1x8192, b⟩] concatenates_S1x8192_S1x8192_S2x8192_d0),
    StableHlo.TRef.reshape (.of main_call0_v13 : StableHlo.TRef sig ⟨S8192, .f32⟩) (.of main_call0_v18 : StableHlo.TRef sig ⟨S8192x1, .f32⟩) rfl shapeCasts_S8192_S8192x1,
    StableHlo.TRef.reshape (.of main_call0_v14 : StableHlo.TRef sig ⟨S8192, .f32⟩) (.of main_call0_v19 : StableHlo.TRef sig ⟨S8192x1, .f32⟩) rfl shapeCasts_S8192_S8192x1,
    StableHlo.TRef.unary (.of main_arg1 : StableHlo.TRef sig ⟨S256x256, .f32⟩) (.of main_call0_v20 : StableHlo.TRef sig ⟨S256x256, .f32⟩) (transpose S256x256 [1, 0] · transposes_S256x256_S256x256_1_0) ]

theorem hostOps0_eq : (hostOps0 : List (HloOp τ sig (Elt F))) = opsA ++ opsB := rfl

end Parts

/-! ## The operations after the mark bits, as functions of the bits -/

/-- The marks as numbers. -/
def f6 (mv : IVec S8192 1) : FVec Ideal S8192 .f32 := uitofp .f32 mv

/-- Their count, summed from zero. -/
def s7 (mv : IVec S8192 1) : FVec Ideal S_ .f32 :=
  Host.reduceAdd (f6 mv) (constant (F := Ideal) S_ .f32 0x00000000#32) reducesTo_S8192_S_d0 h_S_

/-- The degrees `8192 − m i · count`. -/
def d11 (mv : IVec S8192 1) : FVec Ideal S8192 .f32 :=
  subf (broadcastInDim S8192 ![] bcast_S_S8192 (constant (F := Ideal) S_ .f32 0x46000000#32))
    (mulf (f6 mv) (broadcastInDim S8192 ![] bcast_S_S8192 (s7 mv)))

/-- `u = √|deg|`. -/
def u13 (mv : IVec S8192 1) : FVec Ideal S8192 .f32 := Host.sqrt (Host.absf (d11 mv))

/-- `v = u · m`. -/
def v14 (mv : IVec S8192 1) : FVec Ideal S8192 .f32 := mulf (u13 mv) (f6 mv)

/-- `u` and `v` as the two rows of one array. -/
def uv17 (mv : IVec S8192 1) : FVec Ideal S2x8192 .f32 :=
  concatenate S2x8192 0 [⟨S1x8192, broadcastInDim S1x8192 ![1] bcast_S8192_S1x8192_1 (u13 mv)⟩,
    ⟨S1x8192, broadcastInDim S1x8192 ![1] bcast_S8192_S1x8192_1 (v14 mv)⟩] concatenates_S1x8192_S1x8192_S2x8192_d0

/-- `u` as a column. -/
def ucol18 (mv : IVec S8192 1) : FVec Ideal S8192x1 .f32 := shapeCast S8192x1 (u13 mv) shapeCasts_S8192_S8192x1

/-- `v` as a column. -/
def vcol19 (mv : IVec S8192 1) : FVec Ideal S8192x1 .f32 := shapeCast S8192x1 (v14 mv) shapeCasts_S8192_S8192x1

section AfterB

variable (W1 : Valuation τ sig (Elt Ideal))

theorem B_v5 : StableHlo.after (opsB (F := Ideal)) W1 (Proc.devRef .tc main_call0_v5) = W1 (Proc.devRef .tc main_call0_v5) := by
  after_results

theorem B_v17 : (StableHlo.after (opsB (F := Ideal)) W1 (Proc.devRef .tc main_call0_v17) : S2x8192.Idx → EReal)
    = uv17 (W1 (Proc.devRef .tc main_call0_v5)) := by
  after_results
  rfl

theorem B_v18 : (StableHlo.after (opsB (F := Ideal)) W1 (Proc.devRef .tc main_call0_v18) : S8192x1.Idx → EReal)
    = ucol18 (W1 (Proc.devRef .tc main_call0_v5)) := by
  after_results
  rfl

theorem B_v19 : (StableHlo.after (opsB (F := Ideal)) W1 (Proc.devRef .tc main_call0_v19) : S8192x1.Idx → EReal)
    = vcol19 (W1 (Proc.devRef .tc main_call0_v5)) := by
  after_results
  rfl

theorem B_v20 : (StableHlo.after (opsB (F := Ideal)) W1 (Proc.devRef .tc main_call0_v20) : S256x256.Idx → EReal)
    = transpose S256x256 [1, 0] (W1 (Proc.devRef .tc main_arg1) : S256x256.Idx → EReal) transposes_S256x256_S256x256_1_0 := by
  after_results
  rfl

end AfterB

section AfterA

variable (W : Valuation τ sig (Elt Ideal))

theorem A_arg1 : StableHlo.after (opsA (F := Ideal)) W (Proc.devRef .tc main_arg1) = W (Proc.devRef .tc main_arg1) := by
  after_results

end AfterA

end Cert.KernelIdeal.HandVal

end
-- ==== Proof.KI.HostVals.lean ====
/-
  The kernel program's host stretches read at an index (continued): each operation after the mark bits read at
  an index, the chain identified with the specification's `uLow` and `vLow` at the marks, and the statements
  over the whole first stretch and the two transposes after it.

  A bit is `0` or `1`, so the mark as a number is the specification's `mark` at the Boolean "the bit is one";
  the count is the total sum from zero, re-indexed from the one-axis index type to `Fin 8192`; the literal
  `8192.0` denotes `8192`; the host's `|·|` and `√` are `max x (−x)` and the ideal square root, which is the
  specification's `rootAbs`.  The layout operations only move an element: row `0` / `1` of the concatenation
  is `u` / `v`, a column's entry `(i, 0)` is the vector's entry `i`, a transpose swaps the coordinates.
-/
import proofs.«172208_j80221399155047_2_alg».proof.Proof.KI.HostOps

set_option maxRecDepth 16384

noncomputable section

namespace Cert.KernelIdeal.HandVal

open Cert.KernelIdeal Cert.KernelIdeal.Gen
open Idealize.ShloMosaic Idealize.ShloMosaic.TcCoe Idealize.ShloMosaic.ValueIdx
open scoped BigOperators

/-! ## The literal and the index type -/

/-- The pattern `0x46000000` denotes `8192`. -/
theorem ofBits_8192 : Ideal.ofBits .f32 0x46000000#32 = (8192 : EReal) := by
  have h : Ideal.ofBits .f32 0x46000000#32 = ((8192 : ℝ) : EReal) := by
    simp [Ideal.ofBits, Ideal.ieee, -EReal.coe_mul]; norm_num
  rw [h]; rfl

/-- A one-axis index is its coordinate. -/
theorem ix1_bijective : Function.Bijective (ix1 : Fin 8192 → S8192.Idx) :=
  ⟨fun a b h => congrFun h 0, fun i => ⟨i 0, (eq_ix1 i).symm⟩⟩

/-! ## The chain at an index -/

/-- The marks a vector of bits spells: node `j` is marked when bit `j` is one. -/
def marksOf (mv : IVec S8192 1) : Fin 8192 → Bool := fun j => decide (mv (ix1 j) = 1#1)

theorem f6_apply (mv : IVec S8192 1) (j : Fin 8192) : f6 mv (ix1 j) = Cert.Gcn.mark (marksOf mv) j := by
  show (((mv (ix1 j)).toNat : ℝ) : EReal) = if marksOf mv j then 1 else 0
  unfold marksOf
  by_cases h : mv (ix1 j) = 1#1
  · simp [h]
  · have h0 := eq_zero_of_ne_one h
    simp [h0]

theorem s7_apply (mv : IVec S8192 1) : s7 mv ix0 = 0 + ∑ j : Fin 8192, Cert.Gcn.mark (marksOf mv) j := by
  unfold s7
  rw [hostReduceAdd_apply, Ideal.hostReduceAdd_total reducesTo_S8192_S_d0 (fun b => b.elim0), constant_apply,
    Ideal.ofBits_zero_f32]
  refine congrArg (HAdd.hAdd (0 : EReal)) ?_
  exact (ix1_bijective.sum_comp (f6 mv)).symm.trans (Finset.sum_congr rfl fun j _ => f6_apply mv j)

theorem d11_apply (mv : IVec S8192 1) (i : Fin 8192) :
    d11 mv (ix1 i) = Cert.Gcn.degLow (Cert.Gcn.mark (marksOf mv)) i := by
  unfold d11 Cert.Gcn.degLow
  rw [subf_apply, mulf_apply, broadcastInDim_scalar_apply, broadcastInDim_scalar_apply, constant_apply, ofBits_8192,
    f6_apply, s7_apply]

theorem u13_apply (mv : IVec S8192 1) (i : Fin 8192) :
    u13 mv (ix1 i) = Cert.Gcn.uLow (Cert.Gcn.mark (marksOf mv)) i := by
  unfold Cert.Gcn.uLow Cert.Gcn.rootAbs
  rw [← d11_apply]
  unfold u13 Host.sqrt Host.absf
  simp only [Ideal.hostUnary_sqrt_def, Ideal.hostAbsf_def, Ideal.absf_def]

theorem v14_apply (mv : IVec S8192 1) (i : Fin 8192) :
    v14 mv (ix1 i) = Cert.Gcn.vLow (Cert.Gcn.mark (marksOf mv)) i := by
  unfold v14 Cert.Gcn.vLow
  rw [mulf_apply, u13_apply, f6_apply]

/-- A vector laid out as a `[1, 8192]` row reads the vector's entry. -/
theorem row_apply (x : FVec Ideal S8192 .f32) (j : Fin 8192) :
    broadcastInDim S1x8192 ![1] bcast_S8192_S1x8192_1 x (ix2 (0 : Fin 1) j) = x (ix1 j) :=
  broadcastInDim_apply _ bcast_S8192_S1x8192_1 x _ (ix1 j) (fun a => match a with | ⟨0, _⟩ => rfl)

theorem uv17_row0 (mv : IVec S8192 1) (j : Fin 8192) :
    uv17 mv (ix2 (0 : Fin 2) j) = Cert.Gcn.uLow (Cert.Gcn.mark (marksOf mv)) j := by
  unfold uv17
  rw [concatenate_pair_apply_left (0 : Fin S2x8192.rank) _ _ concatenates_S1x8192_S1x8192_S2x8192_d0
      (ix2 (0 : Fin 2) j) rfl (ix2 (0 : Fin 1) j) (fun b => match b with | ⟨0, _⟩ => rfl | ⟨1, _⟩ => rfl),
    row_apply, u13_apply]

theorem uv17_row1 (mv : IVec S8192 1) (j : Fin 8192) :
    uv17 mv (ix2 (1 : Fin 2) j) = Cert.Gcn.vLow (Cert.Gcn.mark (marksOf mv)) j := by
  unfold uv17
  rw [concatenate_pair_apply_right (0 : Fin S2x8192.rank) _ _ concatenates_S1x8192_S1x8192_S2x8192_d0
      (ix2 (1 : Fin 2) j) rfl rfl (ix2 (0 : Fin 1) j)
      (fun b hb => match b, hb with | ⟨0, _⟩, hb => absurd rfl hb | ⟨1, _⟩, _ => rfl) rfl,
    row_apply, v14_apply]

/-- A vector reshaped to a column reads, at `(i, 0)`, the vector's entry `i`. -/
theorem col_apply (x : FVec Ideal S8192 .f32) (i : Fin 8192) :
    shapeCast S8192x1 x shapeCasts_S8192_S8192x1 (ix2 i (0 : Fin 1)) = x (ix1 i) :=
  shapeCast_apply x shapeCasts_S8192_S8192x1 _ (ix1 i) (by
    rw [Shape.rowMajor_val_one, Shape.rowMajor_val_two]
    show i.val = i.val * 1 + 0
    omega)

theorem ucol18_apply (mv : IVec S8192 1) (i : Fin 8192) :
    ucol18 mv (ix2 i (0 : Fin 1)) = Cert.Gcn.uLow (Cert.Gcn.mark (marksOf mv)) i := by
  unfold ucol18
  rw [col_apply, u13_apply]

theorem vcol19_apply (mv : IVec S8192 1) (i : Fin 8192) :
    vcol19 mv (ix2 i (0 : Fin 1)) = Cert.Gcn.vLow (Cert.Gcn.mark (marksOf mv)) i := by
  unfold vcol19
  rw [col_apply, v14_apply]

/-! ## The first stretch -/

section Stretch0

variable (W : Valuation τ sig (Elt Ideal))

/-- The mark bits the first stretch leaves (a closed term of integer operations, never opened here). -/
abbrev markBits : IVec S8192 1 := StableHlo.after (hostOps0 (F := Ideal)) W (Proc.devRef .tc main_call0_v5)

/-- The marks: node `j` is marked when its bit is one. -/
abbrev marks : Fin 8192 → Bool :=
  fun j => decide ((StableHlo.after (hostOps0 (F := Ideal)) W (Proc.devRef .tc main_call0_v5) : IVec S8192 1) (ix1 j) = 1#1)

theorem after0_v5 : StableHlo.after (hostOps0 (F := Ideal)) W (Proc.devRef .tc main_call0_v5)
    = StableHlo.after (opsA (F := Ideal)) W (Proc.devRef .tc main_call0_v5) := by
  rw [hostOps0_eq, StableHlo.after_append, B_v5]

theorem after0_v17 : (StableHlo.after (hostOps0 (F := Ideal)) W (Proc.devRef .tc main_call0_v17) : S2x8192.Idx → EReal)
    = uv17 (markBits W) := by
  unfold markBits
  rw [after0_v5, hostOps0_eq, StableHlo.after_append, B_v17]

theorem after0_v18 : (StableHlo.after (hostOps0 (F := Ideal)) W (Proc.devRef .tc main_call0_v18) : S8192x1.Idx → EReal)
    = ucol18 (markBits W) := by
  unfold markBits
  rw [after0_v5, hostOps0_eq, StableHlo.after_append, B_v18]

theorem after0_v19 : (StableHlo.after (hostOps0 (F := Ideal)) W (Proc.devRef .tc main_call0_v19) : S8192x1.Idx → EReal)
    = vcol19 (markBits W) := by
  unfold markBits
  rw [after0_v5, hostOps0_eq, StableHlo.after_append, B_v19]

/-- Row `0` of the `[2, 8192]` array is `u`. -/
theorem hostOps0_uv_row0 (j : Fin 8192) :
    (StableHlo.after (hostOps0 (F := Ideal)) W (Proc.devRef .tc main_call0_v17) : S2x8192.Idx → EReal) (ix2 (0 : Fin 2) j)
      = Cert.Gcn.uLow (Cert.Gcn.mark (marks W)) j := by
  rw [after0_v17]; exact uv17_row0 (markBits W) j

/-- Row `1` of the `[2, 8192]` array is `v`. -/
theorem hostOps0_uv_row1 (j : Fin 8192) :
    (StableHlo.after (hostOps0 (F := Ideal)) W (Proc.devRef .tc main_call0_v17) : S2x8192.Idx → EReal) (ix2 (1 : Fin 2) j)
      = Cert.Gcn.vLow (Cert.Gcn.mark (marks W)) j := by
  rw [after0_v17]; exact uv17_row1 (markBits W) j

/-- The column of `u`. -/
theorem hostOps0_ucol (i : Fin 8192) :
    (StableHlo.after (hostOps0 (F := Ideal)) W (Proc.devRef .tc main_call0_v18) : S8192x1.Idx → EReal) (ix2 i (0 : Fin 1))
      = Cert.Gcn.uLow (Cert.Gcn.mark (marks W)) i := by
  rw [after0_v18]; exact ucol18_apply (markBits W) i

/-- The column of `v`. -/
theorem hostOps0_vcol (i : Fin 8192) :
    (StableHlo.after (hostOps0 (F := Ideal)) W (Proc.devRef .tc main_call0_v19) : S8192x1.Idx → EReal) (ix2 i (0 : Fin 1))
      = Cert.Gcn.vLow (Cert.Gcn.mark (marks W)) i := by
  rw [after0_v19]; exact vcol19_apply (markBits W) i

/-- The first weight matrix transposed. -/
theorem hostOps0_wt (k f : Fin 256) :
    (StableHlo.after (hostOps0 (F := Ideal)) W (Proc.devRef .tc main_call0_v20) : S256x256.Idx → EReal) (ix2 k f)
      = (W (Proc.devRef .tc main_arg1) : S256x256.Idx → EReal) (ix2 f k) := by
  rw [hostOps0_eq, StableHlo.after_append, B_v20, A_arg1]
  exact transpose_ix2_apply _ transposes_S256x256_S256x256_1_0 k f

/-- A buffer the first stretch does not write keeps its contents. -/
theorem hostOps0_of (r : Ref sig .tc) (h : r ∉ hostOps0_W) :
    StableHlo.after (hostOps0 (F := Ideal)) W (Proc.devRef .tc r) = W (Proc.devRef .tc r) :=
  StableHlo.after_of_writes_sub hostOps0 _ hostOps0_writes h

end Stretch0

/-! ## The two later stretches -/

section Stretch36

variable (W : Valuation τ sig (Elt Ideal))

/-- The second weight matrix transposed. -/
theorem hostOps3_wt (k f : Fin 256) :
    (StableHlo.after (hostOps3 (F := Ideal)) W (Proc.devRef .tc main_call0_v24) : S256x256.Idx → EReal) (ix2 k f)
      = (W (Proc.devRef .tc main_arg2) : S256x256.Idx → EReal) (ix2 f k) := by
  have e : (StableHlo.after (hostOps3 (F := Ideal)) W (Proc.devRef .tc main_call0_v24) : S256x256.Idx → EReal)
      = transpose S256x256 [1, 0] (W (Proc.devRef .tc main_arg2) : S256x256.Idx → EReal) transposes_S256x256_S256x256_1_0 := by
    after_results
    rfl
  rw [e]
  exact transpose_ix2_apply _ transposes_S256x256_S256x256_1_0 k f

theorem hostOps3_of (r : Ref sig .tc) (h : r ∉ hostOps3_W) :
    StableHlo.after (hostOps3 (F := Ideal)) W (Proc.devRef .tc r) = W (Proc.devRef .tc r) :=
  StableHlo.after_of_writes_sub hostOps3 _ hostOps3_writes h

/-- The third weight matrix transposed. -/
theorem hostOps6_wt (k f : Fin 256) :
    (StableHlo.after (hostOps6 (F := Ideal)) W (Proc.devRef .tc main_call0_v28) : S256x256.Idx → EReal) (ix2 k f)
      = (W (Proc.devRef .tc main_arg3) : S256x256.Idx → EReal) (ix2 f k) := by
  have e : (StableHlo.after (hostOps6 (F := Ideal)) W (Proc.devRef .tc main_call0_v28) : S256x256.Idx → EReal)
      = transpose S256x256 [1, 0] (W (Proc.devRef .tc main_arg3) : S256x256.Idx → EReal) transposes_S256x256_S256x256_1_0 := by
    after_results
    rfl
  rw [e]
  exact transpose_ix2_apply _ transposes_S256x256_S256x256_1_0 k f

theorem hostOps6_of (r : Ref sig .tc) (h : r ∉ hostOps6_W) :
    StableHlo.after (hostOps6 (F := Ideal)) W (Proc.devRef .tc r) = W (Proc.devRef .tc r) :=
  StableHlo.after_of_writes_sub hostOps6 _ hostOps6_writes h

end Stretch36

end Cert.KernelIdeal.HandVal

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«172208_j80221399155047_2_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.RefRead.lean ====
/-
  The reference's result read at one entry.

  At the extended reals every operation of the reference is its textbook one, so the composed term of the run reads, at
  row `i` and feature `f`, as the dense three-round formula: the adjacency entry is `1 − [mark i ∧ mark j]` (the two
  mark bits' conjunction read as a number), a node's degree is zero plus the row sum of the adjacency, `d = √|degree|`,
  the normalised adjacency is `(A i j · d i) · d j`, and one round is `max (Σ_j N i j · Σ_k x j k · W f k) 0`.  The mark
  vector itself is never opened: a node is "marked" when its bit is one, whatever the bits are.
-/
import proofs.«172208_j80221399155047_2_alg».proof.Proof.RefRun
import proofs.«172208_j80221399155047_2_alg».proof.Proof.Spec
import proofs.«172208_j80221399155047_2_alg».proof.Proof.LibHostRowOps
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-- Node `j` is marked: the mark vector's bit at `j` is one. -/
def bMark (j : Fin 8192) : Bool := decide (markVec (ix1 j) = 1#1)

/-- Both products of a round are plain matrix products: the left operand's second axis against the right operand's first. -/
theorem dotBig_plain : Cert.RowOps.IsPlain dot_S8192x8192_S8192x256_S8192x256_1_0_0_1_n_n := ⟨rfl, rfl, rfl, rfl, rfl, rfl⟩
theorem dotSmall_plain : Cert.RowOps.IsPlain dot_S8192x256_S256x256_S8192x256_1_0_0_1_n_n := ⟨rfl, rfl, rfl, rfl, rfl, rfl⟩

/-- The conjunction of two bits, read as a number, is one when both are one and zero otherwise. -/
theorem and_toNat (a c : BitVec 1) :
    (((a &&& c).toNat : ℝ) : EReal) = if (decide (a = 1#1) && decide (c = 1#1)) then 1 else 0 := by
  rcases BitVec.eq_zero_or_eq_one a with rfl | rfl <;> rcases BitVec.eq_zero_or_eq_one c with rfl | rfl <;> simp

/-- The adjacency of a mark vector at (i, j): `1 − [mk i ∧ mk j]`. -/
theorem adjM_apply (mk : IVec S8192 1) (i j : Fin 8192) :
    adjM (F := Ideal) mk (ix2 i j)
      = 1 - (if (decide (mk (ix1 i) = 1#1) && decide (mk (ix1 j) = 1#1)) then 1 else 0) := by
  unfold adjM
  rw [subf_apply, broadcastInDim_scalar_apply, constant_apply, Ideal.ofBits_one_f32]
  show 1 - ((((broadcastInDim S8192x8192 ![0, 1] bcast_S8192x1_S8192x8192_0_1 (broadcastInDim S8192x1 ![0] bcast_S8192_S8192x1_0 mk) (ix2 i j))
      &&& (broadcastInDim S8192x8192 ![0, 1] bcast_S1x8192_S8192x8192_0_1 (broadcastInDim S1x8192 ![1] bcast_S8192_S1x8192_1 mk) (ix2 i j))).toNat : ℝ) : EReal) = _
  rw [Cert.HostRowOps.colToMat_apply, Cert.HostRowOps.vecToCol_apply, Cert.HostRowOps.rowToMat_apply, Cert.HostRowOps.vecToRow_apply]
  exact congrArg (1 - ·) (and_toNat _ _)

/-- `d` at node `i`: the root of the absolute value of zero plus the row sum. -/
theorem dVec_apply (A : FVec Ideal S8192x8192 .f32) (i : Fin 8192) :
    dVec A (ix1 i) = Cert.Gcn.rootAbs (0 + ∑ j : Fin 8192, A (ix2 i j)) := by
  have hs : Host.reduceAdd A (constant (F := Ideal) S_ .f32 0x00000000#32) reducesTo_S8192x8192_S8192_d1 h_S_ (ix1 i)
      = 0 + ∑ j : Fin 8192, A (ix2 i j) := by
    rw [Cert.HostRowOps.rowSum_apply A _ reducesTo_S8192x8192_S8192_d1 (by decide) h_S_ i, constant_apply, Ideal.ofBits_zero_f32]
  unfold dVec Cert.Gcn.rootAbs
  show Ideal.sqrt (max (Host.reduceAdd A (constant (F := Ideal) S_ .f32 0x00000000#32) reducesTo_S8192x8192_S8192_d1 h_S_ (ix1 i))
      (-(Host.reduceAdd A (constant (F := Ideal) S_ .f32 0x00000000#32) reducesTo_S8192x8192_S8192_d1 h_S_ (ix1 i)))) = _
  rw [hs]

/-- The normalised adjacency at (i, j): `(A i j · d i) · d j`. -/
theorem normM_apply (A : FVec Ideal S8192x8192 .f32) (d : FVec Ideal S8192 .f32) (i j : Fin 8192) :
    normM A d (ix2 i j) = A (ix2 i j) * d (ix1 i) * d (ix1 j) := by
  unfold normM
  rw [mulf_apply, mulf_apply, Cert.HostRowOps.colToMat_apply, Cert.HostRowOps.vecToCol_apply, Cert.HostRowOps.rowToMat_apply,
    Cert.HostRowOps.vecToRow_apply]

/-- One round at (i, f): `max (Σ_j N i j · Σ_k x j k · W f k) 0`. -/
theorem layer_apply (N : FVec Ideal S8192x8192 .f32) (x : FVec Ideal S8192x256 .f32) (W : FVec Ideal S256x256 .f32)
    (i : Fin 8192) (f : Fin 256) :
    layer N x W (ix2 i f) = max (∑ j : Fin 8192, N (ix2 i j) * ∑ k : Fin 256, x (ix2 j k) * W (ix2 f k)) 0 := by
  unfold layer
  rw [maximumf_apply, broadcastInDim_scalar_apply, constant_apply, Ideal.ofBits_zero_f32, Cert.HostRowOps.dot_apply dotBig_plain]
  refine congrArg (max · 0) (Finset.sum_congr rfl fun j _ => ?_)
  rw [Cert.HostRowOps.dot_apply dotSmall_plain]
  refine congrArg (N (ix2 i j) * ·) (Finset.sum_congr rfl fun k _ => ?_)
  rw [Cert.RowOps.swap_apply]

/-- The program's normalised adjacency at (i, j) is the dense one of the marked nodes. -/
theorem norm_apply (i j : Fin 8192) : norm (F := Ideal) (ix2 i j) = Cert.Gcn.normA bMark i j := by
  unfold norm Cert.Gcn.normA Cert.Gcn.dDense Cert.Gcn.degDense
  rw [normM_apply, dVec_apply, dVec_apply]
  simp only [adjM_apply]
  rfl

/-- One round over the program's normalised adjacency is the dense round, entry by entry. -/
theorem layer_eq (x : FVec Ideal S8192x256 .f32) (W : FVec Ideal S256x256 .f32) (X : Cert.Gcn.Mat 8192 256) (Wm : Cert.Gcn.Mat 256 256)
    (hx : ∀ i k, x (ix2 i k) = X i k) (hW : ∀ f k, W (ix2 f k) = Wm f k) (i : Fin 8192) (f : Fin 256) :
    layer norm x W (ix2 i f) = Cert.Gcn.layerDense bMark X Wm i f := by
  rw [layer_apply]
  unfold Cert.Gcn.layerDense Cert.Gcn.lin
  simp only [norm_apply, hx, hW]

/-- The reference's result at (i, f) is the dense three-round formula of the marked nodes and the arguments' entries. -/
theorem out_read (x : FVec Ideal S8192x256 .f32) (W0 W1 W2 : FVec Ideal S256x256 .f32) (i : Fin 8192) (f : Fin 256) :
    out x W0 W1 W2 (ix2 i f)
      = Cert.Gcn.refOut bMark (fun i k => x (ix2 i k)) (fun f k => W0 (ix2 f k)) (fun f k => W1 (ix2 f k))
          (fun f k => W2 (ix2 f k)) i f := by
  unfold out Cert.Gcn.refOut
  exact layer_eq _ _ _ _
    (fun i k => layer_eq _ _ _ _ (fun i k => layer_eq _ _ _ _ (fun _ _ => rfl) (fun _ _ => rfl) i k) (fun _ _ => rfl) i k)
    (fun _ _ => rfl) i f

end Cert.ReferenceIdeal.RefValue

end
-- ==== Proof.KI.MarkSame.lean ====
/-
  The kernel program's mark vector is the reference's.

  Both programs compute the marks of the 8192 nodes by the same operations on the same constants — the node numbers,
  the comparison with 64, the membership test against the same fifteen listed numbers, the negation and the
  conjunction — so the mark buffer of the kernel program, after its first host stretch, holds the very term the
  reference's mark buffer holds.  Nothing is evaluated: the two terms are compared operation by operation.
-/
import proofs.«172208_j80221399155047_2_alg».proof.Proof.Gen.KernelIdeal.Launch
import proofs.«172208_j80221399155047_2_alg».proof.Proof.RefRead

noncomputable section

namespace Cert.KernelIdeal.HandVal

open Cert.KernelIdeal Cert.KernelIdeal.Gen Idealize.ShloMosaic Idealize.ShloMosaic.TcCoe Idealize.ShloMosaic.StableHlo
open Idealize.ShloMosaic.ValueIdx

attribute [local irreducible] Host.reduce Host.reduceAdd in
set_option maxRecDepth 8192 in
set_option maxHeartbeats 2000000 in
/-- After the kernel program's first host stretch, from any contents, the mark buffer holds the reference's mark vector. -/
theorem mark_same (W : Valuation τ sig (Elt Ideal)) :
    after (hostOps0 (F := Ideal)) W (Proc.devRef .tc main_call0_v5) = Cert.ReferenceIdeal.RefValue.markVec := by
  after_results_simp
  rfl

/-- So a node is marked in the kernel program exactly when it is marked in the reference. -/
theorem bMark_kernel (W : Valuation τ sig (Elt Ideal)) (j : Fin 8192) :
    decide ((after (hostOps0 (F := Ideal)) W (Proc.devRef .tc main_call0_v5)) (ix1 j) = 1#1)
      = Cert.ReferenceIdeal.RefValue.bMark j := by
  rw [mark_same W]
  rfl

end Cert.KernelIdeal.HandVal

end
-- ==== Proof.SpecLaw.lean ====
/-
  The law between the two ways of computing three rounds of graph message passing (see the specification
  module): on real-valued inputs the low-rank way `kernelOut` and the dense way `refOut` agree.

  Road.  Every quantity of either way is the coercion of a real number when the inputs are real: the marks are
  `0` or `1`, both degrees are the real `8192 − [b i] · Σ_j [b j]` (the dense one because `Σ_j 1 = 8192`), so both
  square roots are the same nonnegative real `d i`.  The four band sums add up to the sum over all rows, since
  `(t, k) ↦ 2048 · t + k` is a bijection from `Fin 4 × Fin 2048` onto `Fin 8192`.  With all coercions pushed
  outwards, one round is, on both sides, the coercion of a real matrix, and the two real matrices agree by
  distributivity:
  `Σ_j ((1 − m i · m j) · d i · d j) · h j = d i · Σ_j d j · h j − (d i · m i) · Σ_j (d j · m j) · h j`.
  Since a round maps real matrices to real matrices, three rounds go by the same lemma three times.
-/
import proofs.«172208_j80221399155047_2_alg».proof.Proof.Spec

noncomputable section

namespace Cert.Gcn

open Idealize.ShloMosaic
open scoped BigOperators

/-! ## Coercions out of sums and maxima -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with `max`. -/
theorem coe_max (a c : ℝ) : ((max a c : ℝ) : EReal) = max (a : EReal) (c : EReal) :=
  EReal.coe_strictMono.monotone.map_max

/-- `√|r|` of a real is the real `√(max r (−r))`: the argument of the root is nonnegative. -/
theorem rootAbs_coe (r : ℝ) : rootAbs (r : EReal) = ((Real.sqrt (max r (-r)) : ℝ) : EReal) := by
  unfold rootAbs
  rw [← EReal.coe_neg, ← coe_max, Ideal.sqrt_coe, if_neg]
  refine not_lt.mpr (le_max_iff.mpr ?_)
  rcases le_total 0 r with h | h
  · exact Or.inl h
  · exact Or.inr (neg_nonneg.mpr h)

/-! ## The real mirrors of marks, degrees and roots -/

/-- The mark as a real number. -/
def markR (b : Fin 8192 → Bool) (j : Fin 8192) : ℝ := if b j then 1 else 0

/-- The degree as a real number: `8192 − [b i] · Σ_j [b j]`. -/
def degR (b : Fin 8192 → Bool) (i : Fin 8192) : ℝ := 8192 - markR b i * ∑ j : Fin 8192, markR b j

/-- `d i = √|deg i|` as a real number. -/
def dR (b : Fin 8192 → Bool) (i : Fin 8192) : ℝ := Real.sqrt (max (degR b i) (-(degR b i)))

theorem mark_coe (b : Fin 8192 → Bool) (j : Fin 8192) : mark b j = ((markR b j : ℝ) : EReal) := by
  unfold mark markR
  split_ifs <;> rfl

/-- `[b i ∧ b j] = [b i] · [b j]`. -/
theorem and_coe (b : Fin 8192 → Bool) (i j : Fin 8192) :
    (if (b i && b j) then (1 : EReal) else 0) = ((markR b i * markR b j : ℝ) : EReal) := by
  unfold markR
  cases b i <;> cases b j <;> simp

theorem adj_coe (b : Fin 8192 → Bool) (i j : Fin 8192) :
    adj b i j = ((1 - markR b i * markR b j : ℝ) : EReal) := by
  unfold adj
  rw [and_coe, EReal.coe_sub, EReal.coe_one]

theorem degLow_coe (b : Fin 8192 → Bool) (i : Fin 8192) :
    degLow (mark b) i = ((degR b i : ℝ) : EReal) := by
  unfold degLow degR
  rw [zero_add]
  simp only [mark_coe]
  rw [← coe_sum, ← EReal.coe_mul, EReal.coe_sub]
  rfl

/-- The row sum of the adjacency is the same real: `Σ_j (1 − m i · m j) = 8192 − m i · Σ_j m j`. -/
theorem degDense_coe (b : Fin 8192 → Bool) (i : Fin 8192) :
    degDense b i = ((degR b i : ℝ) : EReal) := by
  unfold degDense degR
  rw [zero_add]
  simp only [adj_coe]
  rw [← coe_sum]
  congr 1
  rw [Finset.sum_sub_distrib, Finset.sum_const, Finset.card_univ, Fintype.card_fin, ← Finset.mul_sum]
  norm_num

theorem uLow_coe (b : Fin 8192 → Bool) (i : Fin 8192) : uLow (mark b) i = ((dR b i : ℝ) : EReal) := by
  unfold uLow dR
  rw [degLow_coe, rootAbs_coe]

theorem dDense_coe (b : Fin 8192 → Bool) (i : Fin 8192) : dDense b i = ((dR b i : ℝ) : EReal) := by
  unfold dDense dR
  rw [degDense_coe, rootAbs_coe]

theorem vLow_coe (b : Fin 8192 → Bool) (i : Fin 8192) :
    vLow (mark b) i = ((dR b i * markR b i : ℝ) : EReal) := by
  unfold vLow
  rw [uLow_coe, mark_coe, EReal.coe_mul]

/-! ## The four bands make up all rows -/

/-- `(t, k) ↦ 2048 · t + k` is a bijection from `Fin 4 × Fin 2048` onto `Fin 8192`. -/
theorem bandRow_bijective : Function.Bijective (fun p : Fin 4 × Fin 2048 => bandRow p.1 p.2) := by
  constructor
  · rintro ⟨t, k⟩ ⟨t', k'⟩ h
    have h' : 2048 * t.val + k.val = 2048 * t'.val + k'.val := congrArg Fin.val h
    have := t.isLt; have := k.isLt; have := t'.isLt; have := k'.isLt
    have ht : t.val = t'.val := by omega
    have hk : k.val = k'.val := by omega
    exact Prod.ext (Fin.ext ht) (Fin.ext hk)
  · intro j
    have hj := j.isLt
    refine ⟨(⟨j.val / 2048, by omega⟩, ⟨j.val % 2048, by omega⟩), Fin.ext ?_⟩
    show 2048 * (j.val / 2048) + j.val % 2048 = j.val
    omega

/-- A sum over all 8192 rows is the four band sums accumulated from zero, in order. -/
theorem sum_bands {M : Type*} [AddCommMonoid M] (g : Fin 8192 → M) :
    (((0 + ∑ k : Fin 2048, g (bandRow 0 k)) + ∑ k : Fin 2048, g (bandRow 1 k))
        + ∑ k : Fin 2048, g (bandRow 2 k)) + ∑ k : Fin 2048, g (bandRow 3 k)
      = ∑ j : Fin 8192, g j := by
  rw [← Function.Bijective.sum_comp bandRow_bijective g, Fintype.sum_prod_type, Fin.sum_univ_four,
    zero_add]

theorem colSum_eq (a : Fin 8192 → EReal) (h : Mat 8192 256) (f : Fin 256) :
    colSum a h f = ∑ j : Fin 8192, a j * h j f := by
  unfold colSum bandSum
  exact sum_bands (fun j => a j * h j f)

/-! ## One round on real matrices -/

/-- A real matrix as a matrix of extended reals. -/
def coeM {p q : ℕ} (r : Fin p → Fin q → ℝ) : Mat p q := fun i k => (r i k : EReal)

theorem coeM_apply {p q : ℕ} (r : Fin p → Fin q → ℝ) (i : Fin p) (k : Fin q) :
    coeM r i k = (r i k : EReal) := rfl

/-- `x · Wᵀ` on real matrices. -/
def linR (x : Fin 8192 → Fin 256 → ℝ) (W : Fin 256 → Fin 256 → ℝ) : Fin 8192 → Fin 256 → ℝ :=
  fun i f => ∑ k : Fin 256, x i k * W f k

theorem lin_coe (x : Fin 8192 → Fin 256 → ℝ) (W : Fin 256 → Fin 256 → ℝ) :
    lin (coeM x) (coeM W) = coeM (linR x W) := by
  funext i f
  unfold lin linR
  simp only [coeM_apply]
  rw [coe_sum]
  simp only [EReal.coe_mul]

/-- One round on real matrices, the dense way. -/
def layerR (b : Fin 8192 → Bool) (x : Fin 8192 → Fin 256 → ℝ) (W : Fin 256 → Fin 256 → ℝ) :
    Fin 8192 → Fin 256 → ℝ :=
  fun i f => max (∑ j : Fin 8192, ((1 - markR b i * markR b j) * dR b i * dR b j) * linR x W j f) 0

theorem max_coe_zero (a : ℝ) : max (a : EReal) 0 = ((max a 0 : ℝ) : EReal) := by
  rw [coe_max, EReal.coe_zero]

/-- The dense round of real matrices is the coercion of the real round. -/
theorem layerDense_coe (b : Fin 8192 → Bool) (x : Fin 8192 → Fin 256 → ℝ) (W : Fin 256 → Fin 256 → ℝ) :
    layerDense b (coeM x) (coeM W) = coeM (layerR b x W) := by
  funext i f
  unfold layerDense normA
  rw [lin_coe]
  simp only [adj_coe, dDense_coe, coeM_apply, ← EReal.coe_mul]
  rw [← coe_sum, max_coe_zero]
  rfl

/-- The low-rank round of real matrices is the coercion of the same real round: distributivity of
    `d i ·` over the sum on `j`. -/
theorem layerLow_coe (b : Fin 8192 → Bool) (x : Fin 8192 → Fin 256 → ℝ) (W : Fin 256 → Fin 256 → ℝ) :
    layerLow (mark b) (coeM x) (coeM W) = coeM (layerR b x W) := by
  funext i f
  unfold layerLow
  rw [lin_coe, colSum_eq, colSum_eq]
  simp only [uLow_coe, vLow_coe, coeM_apply, ← EReal.coe_mul]
  rw [← coe_sum, ← coe_sum, ← EReal.coe_mul, ← EReal.coe_mul, ← EReal.coe_sub, max_coe_zero]
  congr 1
  unfold layerR
  congr 1
  rw [Finset.mul_sum, Finset.mul_sum, ← Finset.sum_sub_distrib]
  refine Finset.sum_congr rfl (fun j _ => ?_)
  ring

/-! ## The law -/

/-- On real-valued inputs the low-rank way and the dense way of three rounds agree. -/
theorem kernel_eq_ref (b : Fin 8192 → Bool) (x : Mat 8192 256) (W0 W1 W2 : Mat 256 256)
    (hx : ∀ i k, ∃ r : ℝ, x i k = r) (h0 : ∀ i k, ∃ r : ℝ, W0 i k = r)
    (h1 : ∀ i k, ∃ r : ℝ, W1 i k = r) (h2 : ∀ i k, ∃ r : ℝ, W2 i k = r) :
    kernelOut (mark b) x W0 W1 W2 = refOut b x W0 W1 W2 := by
  choose xr hxr using hx
  choose w0 hw0 using h0
  choose w1 hw1 using h1
  choose w2 hw2 using h2
  have ex : x = coeM xr := funext fun i => funext fun k => hxr i k
  have e0 : W0 = coeM w0 := funext fun i => funext fun k => hw0 i k
  have e1 : W1 = coeM w1 := funext fun i => funext fun k => hw1 i k
  have e2 : W2 = coeM w2 := funext fun i => funext fun k => hw2 i k
  unfold kernelOut refOut
  rw [ex, e0, e1, e2]
  rw [layerLow_coe b xr w0, layerLow_coe b _ w1, layerLow_coe b _ w2]
  rw [layerDense_coe b xr w0, layerDense_coe b _ w1, layerDense_coe b _ w2]

end Cert.Gcn

end
-- ==== Proof.Finite.lean ====
/-
  The precondition read as finiteness. The predicate compares, element by element, the absolute value
  of each of the four float arguments with the pattern of +∞, reduces each comparison array by conjunction over
  all its axes, and takes the conjunction of the four results. When that result is one, every element of every
  argument, read as an extended real, is a real number.
-/
import proofs.«172208_j80221399155047_2_alg».proof.Defs
import Idealize.ShloMosaic.Lib.ReduceAll
import Idealize.ShloMosaic.Lib.ValueIdx
import Idealize.ShloMosaic.PureOps.Ideal.Laws

noncomputable section

namespace Cert.FiniteInputs

open Idealize.ShloMosaic Idealize.SL.Sem

/-- The shape of rank zero has exactly one index. -/
instance subsingleton_scalar_idx : Subsingleton Cert.Pre_finite_inputs.S_.Idx :=
  ⟨fun a b => funext fun d => d.elim0⟩

/-- The single-precision pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` lies strictly below `+∞` is a real number:
    at `⊥` the negation is `⊤`, at `⊤` the value itself is. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is one only when the Boolean is true. -/
theorem ofBool_eq_one {b : Bool} (h : BitVec.ofBool b = 1#1) : b = true := by
  cases b
  · exact absurd h (by decide)
  · rfl

/-- One element of a comparison array: where `|a| < +∞` holds at an index, the element there is real. -/
theorem real_of_cmp {s : Shape} (a : FVec Ideal s .f32)
    (hb : Cert.Pre_finite_inputs.S_.BroadcastsInDim s (![] : Fin 0 → Fin s.rank)) (i : s.Idx)
    (h : cmpf .olt (Host.absf a)
      (broadcastInDim s ![] hb (constant (F := Ideal) Cert.Pre_finite_inputs.S_ .f32 0x7F800000#32)) i = 1#1) :
    ∃ r : ℝ, a i = (r : EReal) := by
  have h' : BitVec.ofBool (decide (max (a i) (-(a i)) < Ideal.ofBits .f32 0x7F800000#32)) = 1#1 := h
  rw [ofBits_inf] at h'
  exact real_of_abs_lt_top (a i) (of_decide_eq_true (ofBool_eq_one h'))

/-- The precondition, read back: when the predicate evaluates to one, every element of each of the four
    arguments is a real number. The outer conjunctions split the result into the four reductions; a reduction by
    conjunction over all axes that is one was one at every index; and at an index the comparison says `|x| < +∞`. -/
theorem real_of_pre [Cert.Pre_finite_inputs.Facts]
    (a0 : FVec Ideal Cert.Pre_finite_inputs.S8192x256 .f32)
    (a1 a2 a3 : FVec Ideal Cert.Pre_finite_inputs.S256x256 .f32)
    (h : Cert.Pre_finite_inputs.fn (F := Ideal) a0 a1 a2 a3 = (fun _ => 1#1)) :
    (∀ y, ∃ r : ℝ, a0 y = (r : EReal)) ∧ (∀ y, ∃ r : ℝ, a1 y = (r : EReal)) ∧
      (∀ y, ∃ r : ℝ, a2 y = (r : EReal)) ∧ (∀ y, ∃ r : ℝ, a3 y = (r : EReal)) := by
  have h0 := congrFun h ValueIdx.ix0
  dsimp only [Cert.Pre_finite_inputs.fn, Cert.Pre_finite_inputs.fn_part1] at h0
  obtain ⟨h012, h3⟩ := IntOp.andi_eq_one.1 (show IntOp.andi _ _ = 1#1 from h0)
  obtain ⟨h01, h2⟩ := IntOp.andi_eq_one.1 (show IntOp.andi _ _ = 1#1 from h012)
  obtain ⟨h0', h1⟩ := IntOp.andi_eq_one.1 (show IntOp.andi _ _ = 1#1 from h01)
  exact ⟨fun y => real_of_cmp a0 _ y (Host.reduce_andi_all _ _ _ _ _ h0' y),
    fun y => real_of_cmp a1 _ y (Host.reduce_andi_all _ _ _ _ _ h1 y),
    fun y => real_of_cmp a2 _ y (Host.reduce_andi_all _ _ _ _ _ h2 y),
    fun y => real_of_cmp a3 _ y (Host.reduce_andi_all _ _ _ _ _ h3 y)⟩

/-- The same over a memory of the kernel's program: under the claim's precondition, on every device, every element of
    each of the four argument arrays is a real number. The argument shapes of the program and of the predicate are
    the same literals, so the predicate's arrays are the memory's buffers as they stand. -/
theorem real_of_pre_mem [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ y, ∃ r : ℝ, m ((c.tc : Thread Cert.KernelIdeal.nD Cert.KernelIdeal.τ).loc Cert.KernelIdeal.main_arg0) y = (r : EReal)) ∧
    (∀ y, ∃ r : ℝ, m ((c.tc : Thread Cert.KernelIdeal.nD Cert.KernelIdeal.τ).loc Cert.KernelIdeal.main_arg1) y = (r : EReal)) ∧
    (∀ y, ∃ r : ℝ, m ((c.tc : Thread Cert.KernelIdeal.nD Cert.KernelIdeal.τ).loc Cert.KernelIdeal.main_arg2) y = (r : EReal)) ∧
    (∀ y, ∃ r : ℝ, m ((c.tc : Thread Cert.KernelIdeal.nD Cert.KernelIdeal.τ).loc Cert.KernelIdeal.main_arg3) y = (r : EReal)) :=
  real_of_pre _ _ _ _ (hpre c)

end Cert.FiniteInputs

end
-- ==== Proof.KI.Algebraic.lean ====
/- The two programs' results agree on the extended reals when the arguments are finite.

   The kernel program's last output array is, entry by entry, three rounds of the low-rank computation of the arguments
   (`Cert.Gcn.kernelOut`: Proof/KI/KVal.lean over the host stretches' values, Proof/KI/HostVals.lean); the reference's
   result is three rounds of the dense computation (`Cert.Gcn.refOut`: Proof/RefRead.lean).  Both are stated over the same
   marks of the nodes: the two programs compute them by the same operations on the same constants (Proof/KI/MarkSame.lean).
   The precondition makes every argument entry a real number (Proof/Finite.lean), and on real entries the two
   computations agree (`Cert.Gcn.kernel_eq_ref`, Proof/SpecLaw.lean: distributivity of u_i · over the sum on j). -/
import proofs.«172208_j80221399155047_2_alg».proof.Defs
import proofs.«172208_j80221399155047_2_alg».proof.Proof.Gen.Pre_finite_inputs
import proofs.«172208_j80221399155047_2_alg».proof.Proof.KI.Run
import proofs.«172208_j80221399155047_2_alg».proof.Proof.KI.KVal
import proofs.«172208_j80221399155047_2_alg».proof.Proof.KI.HostVals
import proofs.«172208_j80221399155047_2_alg».proof.Proof.KI.MarkSame
import proofs.«172208_j80221399155047_2_alg».proof.Proof.RefRun
import proofs.«172208_j80221399155047_2_alg».proof.Proof.RefRead
import proofs.«172208_j80221399155047_2_alg».proof.Proof.SpecLaw
import proofs.«172208_j80221399155047_2_alg».proof.Proof.Finite

set_option maxRecDepth 16384

noncomputable section

namespace Cert.Proof

open Idealize.ShloMosaic Idealize.ShloMosaic.TcCoe Idealize.SL.Sem
open Idealize.ShloMosaic.ValueIdx
open Cert.KernelIdeal Cert.KernelIdeal.Gen Cert.KernelIdeal.Hand Cert.KernelIdeal.HandVal

/-- On finite arguments the reference's composed result, taken at the kernel program's arguments, is the array the
    kernel program's last region leaves: entry (i, f) of either is three rounds of message passing over the same marks. -/
theorem result_same (m : (ℓ : Loc nD τ sig) → Buf (Elt Ideal) ℓ) (hpre : Cert.Pre_KernelIdeal m) (c : Dev nD) :
    Cert.ReferenceIdeal.RefValue.out (F := Ideal) (m ((c.tc : Thread nD τ).loc main_arg0)) (m ((c.tc : Thread nD τ).loc main_arg1))
        (m ((c.tc : Thread nD τ).loc main_arg2)) (m ((c.tc : Thread nD τ).loc main_arg3))
      = (dat8 (F := Ideal) (B11 m) c).arrAt 3 cfg8.N := by
  funext y
  obtain ⟨i, f, rfl⟩ : ∃ (i : Fin 8192) (f : Fin 256), y = ix2 i f := ⟨y 0, y 1, eq_ix2 y⟩
  have hmarks : marks (W0 m c) = Cert.ReferenceIdeal.RefValue.bMark := funext fun j => bMark_kernel (W0 m c) j
  obtain ⟨h0, h1, h2, h3⟩ := Cert.FiniteInputs.real_of_pre_mem m hpre c
  refine (Cert.ReferenceIdeal.RefValue.out_read _ _ _ _ i f).trans ?_
  refine Eq.trans ?_ (kval m c (Cert.Gcn.mark (marks (W0 m c)))
    (fun j => hostOps0_uv_row0 (W0 m c) j) (fun j => hostOps0_uv_row1 (W0 m c) j)
    (fun i => hostOps0_ucol (W0 m c) i) (fun i => hostOps0_vcol (W0 m c) i)
    (fun k f => hostOps0_wt (W0 m c) k f) (fun k f => hostOps3_wt (W4 m c) k f) (fun k f => hostOps6_wt (W8 m c) k f) i f).symm
  rw [hmarks]
  exact (congrFun (congrFun (Cert.Gcn.kernel_eq_ref Cert.ReferenceIdeal.RefValue.bMark _ _ _ _
    (fun i k => h0 (ix2 i k)) (fun i k => h1 (ix2 i k)) (fun i k => h2 (ix2 i k)) (fun i k => h3 (ix2 i k))) i) f).symm

/-- Both programs run from memories agreeing on the arguments, and end with equal results: the kernel program's result
    array is what its last region leaves, the reference's its composed term at the same arguments. -/
theorem algebraic : Cert.algebraic_KernelIdeal_ReferenceIdeal := by
  intro m ρ m' ρ' hpre hagree
  refine ⟨fun c => (dat8 (F := Ideal) (B11 m) c).arrAt 3 cfg8.N, ?_, ?_⟩
  · exact (θ_run Cert.KernelIdeal.defs _ _).mono (fun r h c =>
      ⟨result_eq m r h c,
       (h c _ (mem_ucH main_arg0 (by decide))).trans (W12_main_arg0 m c),
       (h c _ (mem_ucH main_arg1 (by decide))).trans (W12_main_arg1 m c),
       (h c _ (mem_ucH main_arg2 (by decide))).trans (W12_main_arg2 m c),
       (h c _ (mem_ucH main_arg3 (by decide))).trans (W12_main_arg3 m c)⟩) (run_main m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2]
    exact result_same m hpre c

end Cert.Proof

end
-- ==== Proof.lean ====
/- Three rounds of graph message passing on 8192 nodes with 256 features, computed two ways.

   The reference forms the normalised adjacency matrix D A D (A i j = 1 unless both nodes are marked, D = diag √|degree|)
   and applies relu (D A D · (x · Wᵀ)) three times.  The kernel uses D A D = u uᵀ − v vᵀ (u = √|degree|, v = u · [marked]):
   per round one row-blocked product h = x · Wᵀ, then the two weighted column sums uᵀh and vᵀh accumulated over four
   bands of 2048 rows in a buffer kept between the bands, then relu (u_i · (uᵀh)_f − v_i · (vᵀh)_f) row block by row block.

   Frames: each kernel program is run as its twelve items (three stretches of host operations, nine kernel regions); a
   region replaces its output array by what its write-backs leave and touches no other unscoped buffer, a host operation
   writes only its own result, so the four arguments end as launched (Proof/K/Run.lean at words, Proof/KI/Run.lean on the
   extended reals).  The reference is a line of host operations (Proof/RefRun.lean).
   Nothing was rewritten between the kernel as printed and its reading on the extended reals, so `preserves` is trivial.
   Values: on the extended reals the kernel's last output array is `Cert.Gcn.kernelOut` of the arguments, the reference's
   result `Cert.Gcn.refOut` (Proof/KI/KVal.lean, Proof/RefRead.lean), and the two agree when every argument entry is a
   real number — the law is distributivity of u_i · over the sum on j, false at infinities — which is what the
   precondition says (Proof/SpecLaw.lean, Proof/Finite.lean, assembled in Proof/KI/Algebraic.lean). -/
import proofs.«172208_j80221399155047_2_alg».proof.Defs
import proofs.«172208_j80221399155047_2_alg».proof.Proof.Gen.Kernel
import proofs.«172208_j80221399155047_2_alg».proof.Proof.Gen.KernelIdeal
import proofs.«172208_j80221399155047_2_alg».proof.Proof.Gen.ReferenceIdeal
import proofs.«172208_j80221399155047_2_alg».proof.Proof.Gen.Pre_finite_inputs
import proofs.«172208_j80221399155047_2_alg».proof.Proof.K.Run
import proofs.«172208_j80221399155047_2_alg».proof.Proof.KI.Run
import proofs.«172208_j80221399155047_2_alg».proof.Proof.RefRun
import proofs.«172208_j80221399155047_2_alg».proof.Proof.KI.Algebraic
import Idealize.ShloMosaic.Adequacy
import Idealize.ShloMosaic.Init

noncomputable section

namespace Cert.Proof

open Idealize.ShloMosaic Idealize.SL.Sem

/-- The kernel as printed runs to the end and leaves its arguments as launched. -/
theorem frame_k : Cert.frame_Kernel := fun m ρ _ => Cert.Kernel.Hand.frameH m ρ

/-- The same of the kernel read on the extended reals. -/
theorem frame_ki : Cert.frame_KernelIdeal := fun m ρ _ => Cert.KernelIdeal.Hand.frameH m ρ

/-- The reference runs to the end and leaves its arguments as launched: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- No operation was rewritten between the two readings of the kernel. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
